-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v205)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v205) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v216) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S50000x3 : Shape := ⟨2, ![50000, 3]⟩
abbrev S50000x64 : Shape := ⟨2, ![50000, 64]⟩
abbrev S2x800000 : Shape := ⟨2, ![2, 800000]⟩
abbrev S800000x32 : Shape := ⟨2, ![800000, 32]⟩
abbrev S64 : Shape := ⟨1, ![64]⟩
abbrev S32 : Shape := ⟨1, ![32]⟩
abbrev S161x32 : Shape := ⟨2, ![161, 32]⟩
abbrev S32x32 : Shape := ⟨2, ![32, 32]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S800000x32 : S_.BroadcastsInDim S800000x32 (![] : Fin 0 → Fin S800000x32.rank)
  reducesTo_S800000x32_S_d0_1 : S800000x32.ReducesTo [0, 1] S_
  bcast_S_S64 : S_.BroadcastsInDim S64 (![] : Fin 0 → Fin S64.rank)
  reducesTo_S64_S_d0 : S64.ReducesTo [0] S_
  bcast_S_S32 : S_.BroadcastsInDim S32 (![] : Fin 0 → Fin S32.rank)
  reducesTo_S32_S_d0 : S32.ReducesTo [0] S_
  bcast_S_S161x32 : S_.BroadcastsInDim S161x32 (![] : Fin 0 → Fin S161x32.rank)
  reducesTo_S161x32_S_d0_1 : S161x32.ReducesTo [0, 1] S_
  bcast_S_S32x32 : S_.BroadcastsInDim S32x32 (![] : Fin 0 → Fin S32x32.rank)
  reducesTo_S32x32_S_d0_1 : S32x32.ReducesTo [0, 1] S_

variable [Facts]

def fn_part3 {F : FTy → Type} [FloatOps F] (main_arg13 : FVec F S32x32 .f32) (main_arg14 : FVec F S32 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x32 .f32 := Host.absf main_arg13
  let main_cst_20 : FVec F S_ .f32 := constant S_ .f32 0x7F800000#32
  let main_v55 : FVec F S32x32 .f32 := broadcastInDim S32x32 ![] bcast_S_S32x32 main_cst_20
  let main_v56 : IVec S32x32 1 := cmpf .olt main_v54 main_v55
  let main_c_21 : IVec S_ 1 := constantI S_ 1 1#1
  let main_v57 : IVec S_ 1 := (fun x v => Host.reduce IntOp.andi x v reducesTo_S32x32_S_d0_1 h_S_) main_v56 main_c_21
  let main_v58 : IVec S_ 1 := andi main_v53 main_v57
  let main_v59 : FVec F S32 .f32 := Host.absf main_arg14
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  main_v63

def fn_part2 {F : FTy → Type} [FloatOps F] (main_arg9 : FVec F S32 .f32) (main_arg10 : FVec F S32 .f32) (main_arg11 : FVec F S161x32 .f32) (main_arg12 : FVec F S32 .f32) (main_arg13 : FVec F S32x32 .f32) (main_arg14 : FVec F S32 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S161x32 .f32 := Host.absf main_arg11
  let main_cst_16 : FVec F S_ .f32 := constant S_ .f32 0x7F800000#32
  let main_v45 : FVec F S161x32 .f32 := broadcastInDim S161x32 ![] bcast_S_S161x32 main_cst_16
  let main_v46 : IVec S161x32 1 := cmpf .olt main_v44 main_v45
  let main_c_17 : IVec S_ 1 := constantI S_ 1 1#1
  let main_v47 : IVec S_ 1 := (fun x v => Host.reduce IntOp.andi x v reducesTo_S161x32_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg13 main_arg14 main_v48 main_v49 main_v50

def fn_part1 {F : FTy → Type} [FloatOps F] (main_arg6 : FVec F S64 .f32) (main_arg7 : FVec F S32 .f32) (main_arg8 : FVec F S32 .f32) (main_arg9 : FVec F S32 .f32) (main_arg10 : FVec F S32 .f32) (main_arg11 : FVec F S161x32 .f32) (main_arg12 : FVec F S32 .f32) (main_arg13 : FVec F S32x32 .f32) (main_arg14 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : IVec S50000 32) (main_arg1 : FVec F S50000x3 .f32) (main_arg2 : FVec F S50000x64 .f32) (main_arg3 : IVec S2x800000 32) (main_arg4 : FVec F S800000x32 .f32) (main_arg5 : FVec F S64 .f32) (main_arg6 : FVec F S64 .f32) (main_arg7 : FVec F S32 .f32) (main_arg8 : FVec F S32 .f32) (main_arg9 : FVec F S32 .f32) (main_arg10 : FVec F S32 .f32) (main_arg11 : FVec F S161x32 .f32) (main_arg12 : FVec F S32 .f32) (main_arg13 : FVec F S32x32 .f32) (main_arg14 : FVec F S32 .f32) : IVec S_ 1 :=
  let main_v0 : FVec F S50000x3 .f32 := Host.absf main_arg1
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S50000x64 .f32 := Host.absf main_arg2
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S800000x32 .f32 := Host.absf main_arg4
  let main_cst_2 : FVec F S_ .f32 := constant S_ .f32 0x7F800000#32
  let main_v10 : FVec F S800000x32 .f32 := broadcastInDim S800000x32 ![] bcast_S_S800000x32 main_cst_2
  let main_v11 : IVec S800000x32 1 := cmpf .olt main_v9 main_v10
  let main_c_3 : IVec S_ 1 := constantI S_ 1 1#1
  let main_v12 : IVec S_ 1 := (fun x v => Host.reduce IntOp.andi x v reducesTo_S800000x32_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_v13 main_v16
-- ==== Kernel.lean ====
abbrev S50000 : Shape := ⟨1, ![50000]⟩
abbrev S50000x3 : Shape := ⟨2, ![50000, 3]⟩
abbrev S50000x64 : Shape := ⟨2, ![50000, 64]⟩
abbrev S2x800000 : Shape := ⟨2, ![2, 800000]⟩
abbrev S800000x32 : Shape := ⟨2, ![800000, 32]⟩
abbrev S64 : Shape := ⟨1, ![64]⟩
abbrev S32 : Shape := ⟨1, ![32]⟩
abbrev S161x32 : Shape := ⟨2, ![161, 32]⟩
abbrev S32x32 : Shape := ⟨2, ![32, 32]⟩
abbrev S1x800000 : Shape := ⟨2, ![1, 800000]⟩
abbrev S800000 : Shape := ⟨1, ![800000]⟩
abbrev S_ : Shape := ⟨0, ![]⟩
abbrev S256x3 : Shape := ⟨2, ![256, 3]⟩
abbrev S50000x1 : Shape := ⟨2, ![50000, 1]⟩
abbrev S256 : Shape := ⟨1, ![256]⟩
abbrev S256x1 : Shape := ⟨2, ![256, 1]⟩
abbrev S1x64 : Shape := ⟨2, ![1, 64]⟩
abbrev S800000x1 : Shape := ⟨2, ![800000, 1]⟩
abbrev S800000x64 : Shape := ⟨2, ![800000, 64]⟩
abbrev S800000x128 : Shape := ⟨2, ![800000, 128]⟩
abbrev S800000x3 : Shape := ⟨2, ![800000, 3]⟩
abbrev S4000x128 : Shape := ⟨2, ![4000, 128]⟩
abbrev S4000x3 : Shape := ⟨2, ![4000, 3]⟩
abbrev S4000x32 : Shape := ⟨2, ![4000, 32]⟩
abbrev S4000x1 : Shape := ⟨2, ![4000, 1]⟩
abbrev S1x32 : Shape := ⟨2, ![1, 32]⟩
abbrev S4000x161 : Shape := ⟨2, ![4000, 161]⟩
abbrev S800000x2 : Shape := ⟨2, ![800000, 2]⟩
abbrev S8000x32 : Shape := ⟨2, ![8000, 32]⟩
abbrev S8000x2 : Shape := ⟨2, ![8000, 2]⟩
abbrev S8000x1 : Shape := ⟨2, ![8000, 1]⟩

abbrev nBuf : Space → Nat
  | .hbm => 280
  | .vmem => 22
  | .smem => 0
  | _ => 0

abbrev hbmTy0_0 (i : Nat) : BufTy := match i % 128 with
  | 0 => ⟨S50000, .i32⟩
  | 1 => ⟨S50000x3, .f32⟩
  | 2 => ⟨S50000x64, .f32⟩
  | 3 => ⟨S2x800000, .i32⟩
  | 4 => ⟨S800000x32, .f32⟩
  | 5 => ⟨S64, .f32⟩
  | 6 => ⟨S64, .f32⟩
  | 7 => ⟨S32, .f32⟩
  | 8 => ⟨S32, .f32⟩
  | 9 => ⟨S32, .f32⟩
  | 10 => ⟨S32, .f32⟩
  | 11 => ⟨S161x32, .f32⟩
  | 12 => ⟨S32, .f32⟩
  | 13 => ⟨S32x32, .f32⟩
  | 14 => ⟨S32, .f32⟩
  | 15 => ⟨S1x800000, .i32⟩
  | 16 => ⟨S800000, .i32⟩
  | 17 => ⟨S1x800000, .i32⟩
  | 18 => ⟨S800000, .i32⟩
  | 19 => ⟨S_, .f32⟩
  | 20 => ⟨S256x3, .f32⟩
  | 21 => ⟨S50000x1, .i32⟩
  | 22 => ⟨S256x3, .f32⟩
  | 23 => ⟨S_, .f32⟩
  | 24 => ⟨S50000, .f32⟩
  | 25 => ⟨S_, .f32⟩
  | 26 => ⟨S256, .f32⟩
  | 27 => ⟨S50000x1, .i32⟩
  | 28 => ⟨S256, .f32⟩
  | 29 => ⟨S_, .f32⟩
  | 30 => ⟨S256, .f32⟩
  | 31 => ⟨S256, .f32⟩
  | 32 => ⟨S256x1, .f32⟩
  | 33 => ⟨S256x3, .f32⟩
  | 34 => ⟨S256x3, .f32⟩
  | 35 => ⟨S_, .i32⟩
  | 36 => ⟨S50000, .i32⟩
  | 37 => ⟨S50000, .i1⟩
  | 38 => ⟨S_, .i32⟩
  | 39 => ⟨S50000, .i32⟩
  | 40 => ⟨S50000, .i32⟩
  | 41 => ⟨S50000, .i32⟩
  | 42 => ⟨S50000x1, .i32⟩
  | 43 => ⟨S50000x3, .f32⟩
  | 44 => ⟨S50000x3, .f32⟩
  | 45 => ⟨S_, .f32⟩
  | 46 => ⟨S50000, .f32⟩
  | 47 => ⟨S_, .f32⟩
  | 48 => ⟨S256, .f32⟩
  | 49 => ⟨S50000x1, .i32⟩
  | 50 => ⟨S256, .f32⟩
  | 51 => ⟨S_, .f32⟩
  | 52 => ⟨S256, .f32⟩
  | 53 => ⟨S256, .f32⟩
  | 54 => ⟨S_, .f32⟩
  | 55 => ⟨S256, .f32⟩
  | 56 => ⟨S256, .f32⟩
  | 57 => ⟨S_, .f32⟩
  | 58 => ⟨S50000, .f32⟩
  | 59 => ⟨S_, .f32⟩
  | 60 => ⟨S256, .f32⟩
  | 61 => ⟨S50000x1, .i32⟩
  | 62 => ⟨S256, .f32⟩
  | 63 => ⟨S50000x64, .f32⟩
  | 64 => ⟨S_, .f32⟩
  | 65 => ⟨S50000, .f32⟩
  | 66 => ⟨S_, .f32⟩
  | 67 => ⟨S256, .f32⟩
  | 68 => ⟨S50000x1, .i32⟩
  | 69 => ⟨S256, .f32⟩
  | 70 => ⟨S256, .f32⟩
  | 71 => ⟨S256, .f32⟩
  | 72 => ⟨S256, .f32⟩
  | 73 => ⟨S256, .f32⟩
  | 74 => ⟨S_, .f32⟩
  | 75 => ⟨S256, .f32⟩
  | 76 => ⟨S256, .f32⟩
  | 77 => ⟨S_, .f32⟩
  | 78 => ⟨S256, .f32⟩
  | 79 => ⟨S256, .f32⟩
  | 80 => ⟨S256, .f32⟩
  | 81 => ⟨S_, .i32⟩
  | 82 => ⟨S50000, .i32⟩
  | 83 => ⟨S50000, .i1⟩
  | 84 => ⟨S_, .i32⟩
  | 85 => ⟨S50000, .i32⟩
  | 86 => ⟨S50000, .i32⟩
  | 87 => ⟨S50000, .i32⟩
  | 88 => ⟨S50000x1, .i32⟩
  | 89 => ⟨S50000, .f32⟩
  | 90 => ⟨S50000x1, .f32⟩
  | 91 => ⟨S50000x64, .f32⟩
  | 92 => ⟨S50000x64, .f32⟩
  | 93 => ⟨S_, .i32⟩
  | 94 => ⟨S50000, .i32⟩
  | 95 => ⟨S50000, .i1⟩
  | 96 => ⟨S_, .i32⟩
  | 97 => ⟨S50000, .i32⟩
  | 98 => ⟨S50000, .i32⟩
  | 99 => ⟨S50000, .i32⟩
  | 100 => ⟨S50000x1, .i32⟩
  | 101 => ⟨S50000, .f32⟩
  | 102 => ⟨S50000x1, .f32⟩
  | 103 => ⟨S50000x64, .f32⟩
  | 104 => ⟨S50000x64, .f32⟩
  | 105 => ⟨S1x64, .f32⟩
  | 106 => ⟨S50000x64, .f32⟩
  | 107 => ⟨S50000x64, .f32⟩
  | 108 => ⟨S1x64, .f32⟩
  | 109 => ⟨S50000x64, .f32⟩
  | 110 => ⟨S50000x64, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x64, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000, .i32⟩

abbrev hbmTy0_1 (i : Nat) : BufTy := match i % 128 with
  | 0 => ⟨S800000x64, .f32⟩
  | 1 => ⟨S800000x128, .f32⟩
  | 2 => ⟨S_, .i32⟩
  | 3 => ⟨S800000, .i32⟩
  | 4 => ⟨S800000, .i1⟩
  | 5 => ⟨S_, .i32⟩
  | 6 => ⟨S800000, .i32⟩
  | 7 => ⟨S800000, .i32⟩
  | 8 => ⟨S800000, .i32⟩
  | 9 => ⟨S800000x1, .i32⟩
  | 10 => ⟨S800000x3, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x3, .f32⟩
  | 20 => ⟨S800000x3, .f32⟩
  | 21 => ⟨S800000x3, .f32⟩
  | 22 => ⟨S_, .f32⟩
  | 23 => ⟨S800000, .f32⟩
  | 24 => ⟨S800000x1, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000, .i32⟩
  | 34 => ⟨S_, .f32⟩
  | 35 => ⟨S800000, .f32⟩
  | 36 => ⟨S_, .f32⟩
  | 37 => ⟨S256, .f32⟩
  | 38 => ⟨S800000x1, .i32⟩
  | 39 => ⟨S256, .f32⟩
  | 40 => ⟨S_, .f32⟩
  | 41 => ⟨S256, .f32⟩
  | 42 => ⟨S256, .f32⟩
  | 43 => ⟨S_, .f32⟩
  | 44 => ⟨S256, .f32⟩
  | 45 => ⟨S256, .f32⟩
  | 46 => ⟨S_, .f32⟩
  | 47 => ⟨S800000, .f32⟩
  | 48 => ⟨S_, .f32⟩
  | 49 => ⟨S256, .f32⟩
  | 50 => ⟨S800000x1, .i32⟩
  | 51 => ⟨S256, .f32⟩
  | 52 => ⟨S800000x32, .f32⟩
  | 53 => ⟨S_, .f32⟩
  | 54 => ⟨S800000, .f32⟩
  | 55 => ⟨S_, .f32⟩
  | 56 => ⟨S256, .f32⟩
  | 57 => ⟨S800000x1, .i32⟩
  | 58 => ⟨S256, .f32⟩
  | 59 => ⟨S256, .f32⟩
  | 60 => ⟨S256, .f32⟩
  | 61 => ⟨S256, .f32⟩
  | 62 => ⟨S256, .f32⟩
  | 63 => ⟨S_, .f32⟩
  | 64 => ⟨S256, .f32⟩
  | 65 => ⟨S256, .f32⟩
  | 66 => ⟨S_, .f32⟩
  | 67 => ⟨S256, .f32⟩
  | 68 => ⟨S256, .f32⟩
  | 69 => ⟨S256, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000, .f32⟩
  | 79 => ⟨S800000x1, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000, .f32⟩
  | 89 => ⟨S800000x1, .f32⟩
  | 90 => ⟨S800000x3, .f32⟩
  | 91 => ⟨S161x32, .bf16⟩
  | 92 => ⟨S32x32, .bf16⟩
  | 93 => ⟨S800000x32, .f32⟩
  | 94 => ⟨S_, .f32⟩
  | 95 => ⟨S800000, .f32⟩
  | 96 => ⟨S_, .f32⟩
  | 97 => ⟨S256, .f32⟩
  | 98 => ⟨S800000x1, .i32⟩
  | 99 => ⟨S256, .f32⟩
  | 100 => ⟨S_, .f32⟩
  | 101 => ⟨S256, .f32⟩
  | 102 => ⟨S256, .f32⟩
  | 103 => ⟨S_, .f32⟩
  | 104 => ⟨S256, .f32⟩
  | 105 => ⟨S256, .f32⟩
  | 106 => ⟨S_, .f32⟩
  | 107 => ⟨S800000, .f32⟩
  | 108 => ⟨S_, .f32⟩
  | 109 => ⟨S256, .f32⟩
  | 110 => ⟨S800000x1, .i32⟩
  | 111 => ⟨S256, .f32⟩
  | 112 => ⟨S800000x32, .f32⟩
  | 113 => ⟨S_, .f32⟩
  | 114 => ⟨S800000, .f32⟩
  | 115 => ⟨S_, .f32⟩
  | 116 => ⟨S256, .f32⟩
  | 117 => ⟨S800000x1, .i32⟩
  | 118 => ⟨S256, .f32⟩
  | 119 => ⟨S256, .f32⟩
  | 120 => ⟨S256, .f32⟩
  | 121 => ⟨S256, .f32⟩
  | 122 => ⟨S256, .f32⟩
  | 123 => ⟨S_, .f32⟩
  | 124 => ⟨S256, .f32⟩
  | 125 => ⟨S256, .f32⟩
  | 126 => ⟨S_, .f32⟩
  | 127 => ⟨S256, .f32⟩
  | _ => ⟨S50000, .i32⟩

abbrev hbmTy0_2 (i : Nat) : BufTy := match i % 128 with
  | 0 => ⟨S256, .f32⟩
  | 1 => ⟨S256, .f32⟩
  | 2 => ⟨S_, .i32⟩
  | 3 => ⟨S800000, .i32⟩
  | 4 => ⟨S800000, .i1⟩
  | 5 => ⟨S_, .i32⟩
  | 6 => ⟨S800000, .i32⟩
  | 7 => ⟨S800000, .i32⟩
  | 8 => ⟨S800000, .i32⟩
  | 9 => ⟨S800000x1, .i32⟩
  | 10 => ⟨S800000, .f32⟩
  | 11 => ⟨S800000x1, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000, .f32⟩
  | 21 => ⟨S800000x1, .f32⟩
  | 22 => ⟨S800000x2, .f32⟩
  | 23 => ⟨S800000x32, .f32⟩
  | _ => ⟨S50000, .i32⟩

abbrev hbmTy (i : Nat) : BufTy := match i / 128 with
  | 0 => hbmTy0_0 i
  | 1 => hbmTy0_1 i
  | 2 => hbmTy0_2 i
  | _ => ⟨S50000, .i32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S4000x3, .f32⟩
  | .local _ .vmem, ⟨3, _⟩ => ⟨S4000x3, .f32⟩
  | .local _ .vmem, ⟨4, _⟩ => ⟨S4000x32, .f32⟩
  | .local _ .vmem, ⟨5, _⟩ => ⟨S4000x32, .f32⟩
  | .local _ .vmem, ⟨6, _⟩ => ⟨S32, .f32⟩
  | .local _ .vmem, ⟨7, _⟩ => ⟨S32, .f32⟩
  | .local _ .vmem, ⟨8, _⟩ => ⟨S161x32, .bf16⟩
  | .local _ .vmem, ⟨9, _⟩ => ⟨S32, .f32⟩
  | .local _ .vmem, ⟨10, _⟩ => ⟨S32x32, .bf16⟩
  | .local _ .vmem, ⟨11, _⟩ => ⟨S32, .f32⟩
  | .local _ .vmem, ⟨12, _⟩ => ⟨S4000x32, .f32⟩
  | .local _ .vmem, ⟨13, _⟩ => ⟨S4000x32, .f32⟩
  | .local _ .vmem, ⟨14, _⟩ => ⟨S8000x32, .f32⟩
  | .local _ .vmem, ⟨15, _⟩ => ⟨S8000x32, .f32⟩
  | .local _ .vmem, ⟨16, _⟩ => ⟨S8000x2, .f32⟩
  | .local _ .vmem, ⟨17, _⟩ => ⟨S8000x2, .f32⟩
  | .local _ .vmem, ⟨18, _⟩ => ⟨S32, .f32⟩
  | .local _ .vmem, ⟨19, _⟩ => ⟨S32, .f32⟩
  | .local _ .vmem, ⟨20, _⟩ => ⟨S8000x32, .f32⟩
  | .local _ .vmem, ⟨21, _⟩ => ⟨S8000x32, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_4 : Ref sig .tc := ⟨.hbm, 45, rfl⟩
abbrev main_v24 : Ref sig .tc := ⟨.hbm, 46, rfl⟩
abbrev main_cst_5 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_6 : Ref sig .tc := ⟨.hbm, 51, rfl⟩
abbrev main_v28 : Ref sig .tc := ⟨.hbm, 52, rfl⟩
abbrev main_v29 : Ref sig .tc := ⟨.hbm, 53, rfl⟩
abbrev main_cst_7 : Ref sig .tc := ⟨.hbm, 54, rfl⟩
abbrev main_v30 : Ref sig .tc := ⟨.hbm, 55, rfl⟩
abbrev main_v31 : Ref sig .tc := ⟨.hbm, 56, rfl⟩
abbrev main_cst_8 : Ref sig .tc := ⟨.hbm, 57, rfl⟩
abbrev main_v32 : Ref sig .tc := ⟨.hbm, 58, rfl⟩
abbrev main_cst_9 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_10 : Ref sig .tc := ⟨.hbm, 64, rfl⟩
abbrev main_v37 : Ref sig .tc := ⟨.hbm, 65, rfl⟩
abbrev main_cst_11 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_12 : Ref sig .tc := ⟨.hbm, 74, rfl⟩
abbrev main_v45 : Ref sig .tc := ⟨.hbm, 75, rfl⟩
abbrev main_v46 : Ref sig .tc := ⟨.hbm, 76, rfl⟩
abbrev main_cst_13 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_c_14 : Ref sig .tc := ⟨.hbm, 81, rfl⟩
abbrev main_v50 : Ref sig .tc := ⟨.hbm, 82, rfl⟩
abbrev main_v51 : Ref sig .tc := ⟨.hbm, 83, rfl⟩
abbrev main_c_15 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_c_16 : Ref sig .tc := ⟨.hbm, 93, rfl⟩
abbrev main_v60 : Ref sig .tc := ⟨.hbm, 94, rfl⟩
abbrev main_v61 : Ref sig .tc := ⟨.hbm, 95, rfl⟩
abbrev main_c_17 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_c_18 : Ref sig .tc := ⟨.hbm, 111, rfl⟩
abbrev main_v76 : Ref sig .tc := ⟨.hbm, 112, rfl⟩
abbrev main_v77 : Ref sig .tc := ⟨.hbm, 113, rfl⟩
abbrev main_c_19 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_c_20 : Ref sig .tc := ⟨.hbm, 120, rfl⟩
abbrev main_v83 : Ref sig .tc := ⟨.hbm, 121, rfl⟩
abbrev main_v84 : Ref sig .tc := ⟨.hbm, 122, rfl⟩
abbrev main_c_21 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_c_22 : Ref sig .tc := ⟨.hbm, 130, rfl⟩
abbrev main_v91 : Ref sig .tc := ⟨.hbm, 131, rfl⟩
abbrev main_v92 : Ref sig .tc := ⟨.hbm, 132, rfl⟩
abbrev main_c_23 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_c_24 : Ref sig .tc := ⟨.hbm, 139, rfl⟩
abbrev main_v98 : Ref sig .tc := ⟨.hbm, 140, rfl⟩
abbrev main_v99 : Ref sig .tc := ⟨.hbm, 141, rfl⟩
abbrev main_c_25 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_cst_26 : Ref sig .tc := ⟨.hbm, 150, rfl⟩
abbrev main_v107 : Ref sig .tc := ⟨.hbm, 151, rfl⟩
abbrev main_v108 : Ref sig .tc := ⟨.hbm, 152, rfl⟩
abbrev main_c_27 : Ref sig .tc := ⟨.hbm, 153, rfl⟩
abbrev main_v109 : Ref sig .tc := ⟨.hbm, 154, rfl⟩
abbrev main_v110 : Ref sig .tc := ⟨.hbm, 155, rfl⟩
abbrev main_c_28 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_cst_29 : Ref sig .tc := ⟨.hbm, 162, rfl⟩
abbrev main_v116 : Ref sig .tc := ⟨.hbm, 163, rfl⟩
abbrev main_cst_30 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_cst_31 : Ref sig .tc := ⟨.hbm, 168, rfl⟩
abbrev main_v120 : Ref sig .tc := ⟨.hbm, 169, rfl⟩
abbrev main_v121 : Ref sig .tc := ⟨.hbm, 170, rfl⟩
abbrev main_cst_32 : Ref sig .tc := ⟨.hbm, 171, rfl⟩
abbrev main_v122 : Ref sig .tc := ⟨.hbm, 172, rfl⟩
abbrev main_v123 : Ref sig .tc := ⟨.hbm, 173, rfl⟩
abbrev main_cst_33 : Ref sig .tc := ⟨.hbm, 174, rfl⟩
abbrev main_v124 : Ref sig .tc := ⟨.hbm, 175, rfl⟩
abbrev main_cst_34 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_cst_35 : Ref sig .tc := ⟨.hbm, 181, rfl⟩
abbrev main_v129 : Ref sig .tc := ⟨.hbm, 182, rfl⟩
abbrev main_cst_36 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_cst_37 : Ref sig .tc := ⟨.hbm, 191, rfl⟩
abbrev main_v137 : Ref sig .tc := ⟨.hbm, 192, rfl⟩
abbrev main_v138 : Ref sig .tc := ⟨.hbm, 193, rfl⟩
abbrev main_cst_38 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_c_39 : Ref sig .tc := ⟨.hbm, 198, rfl⟩
abbrev main_v142 : Ref sig .tc := ⟨.hbm, 199, rfl⟩
abbrev main_v143 : Ref sig .tc := ⟨.hbm, 200, rfl⟩
abbrev main_c_40 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_c_41 : Ref sig .tc := ⟨.hbm, 208, rfl⟩
abbrev main_v150 : Ref sig .tc := ⟨.hbm, 209, rfl⟩
abbrev main_v151 : Ref sig .tc := ⟨.hbm, 210, rfl⟩
abbrev main_c_42 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_cst_43 : Ref sig .tc := ⟨.hbm, 222, rfl⟩
abbrev main_v162 : Ref sig .tc := ⟨.hbm, 223, rfl⟩
abbrev main_cst_44 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_cst_45 : Ref sig .tc := ⟨.hbm, 228, rfl⟩
abbrev main_v166 : Ref sig .tc := ⟨.hbm, 229, rfl⟩
abbrev main_v167 : Ref sig .tc := ⟨.hbm, 230, rfl⟩
abbrev main_cst_46 : Ref sig .tc := ⟨.hbm, 231, rfl⟩
abbrev main_v168 : Ref sig .tc := ⟨.hbm, 232, rfl⟩
abbrev main_v169 : Ref sig .tc := ⟨.hbm, 233, rfl⟩
abbrev main_cst_47 : Ref sig .tc := ⟨.hbm, 234, rfl⟩
abbrev main_v170 : Ref sig .tc := ⟨.hbm, 235, rfl⟩
abbrev main_cst_48 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_cst_49 : Ref sig .tc := ⟨.hbm, 241, rfl⟩
abbrev main_v175 : Ref sig .tc := ⟨.hbm, 242, rfl⟩
abbrev main_cst_50 : Ref sig .tc := ⟨.hbm, 243, rfl⟩
abbrev main_v176 : Ref sig .tc := ⟨.hbm, 244, rfl⟩
abbrev main_v177 : Ref sig .tc := ⟨.hbm, 245, rfl⟩
abbrev main_v178 : Ref sig .tc := ⟨.hbm, 246, rfl⟩
abbrev main_v179 : Ref sig .tc := ⟨.hbm, 247, rfl⟩
abbrev main_v180 : Ref sig .tc := ⟨.hbm, 248, rfl⟩
abbrev main_v181 : Ref sig .tc := ⟨.hbm, 249, rfl⟩
abbrev main_v182 : Ref sig .tc := ⟨.hbm, 250, rfl⟩
abbrev main_cst_51 : Ref sig .tc := ⟨.hbm, 251, rfl⟩
abbrev main_v183 : Ref sig .tc := ⟨.hbm, 252, rfl⟩
abbrev main_v184 : Ref sig .tc := ⟨.hbm, 253, rfl⟩
abbrev main_cst_52 : Ref sig .tc := ⟨.hbm, 254, rfl⟩
abbrev main_v185 : Ref sig .tc := ⟨.hbm, 255, rfl⟩
abbrev main_v186 : Ref sig .tc := ⟨.hbm, 256, rfl⟩
abbrev main_v187 : Ref sig .tc := ⟨.hbm, 257, rfl⟩
abbrev main_c_53 : Ref sig .tc := ⟨.hbm, 258, rfl⟩
abbrev main_v188 : Ref sig .tc := ⟨.hbm, 259, rfl⟩
abbrev main_v189 : Ref sig .tc := ⟨.hbm, 260, rfl⟩
abbrev main_c_54 : Ref sig .tc := ⟨.hbm, 261, rfl⟩
abbrev main_v190 : Ref sig .tc := ⟨.hbm, 262, rfl⟩
abbrev main_v191 : Ref sig .tc := ⟨.hbm, 263, rfl⟩
abbrev main_v192 : Ref sig .tc := ⟨.hbm, 264, rfl⟩
abbrev main_v193 : Ref sig .tc := ⟨.hbm, 265, rfl⟩
abbrev main_v194 : Ref sig .tc := ⟨.hbm, 266, rfl⟩
abbrev main_v195 : Ref sig .tc := ⟨.hbm, 267, rfl⟩
abbrev main_c_55 : Ref sig .tc := ⟨.hbm, 268, rfl⟩
abbrev main_v196 : Ref sig .tc := ⟨.hbm, 269, rfl⟩
abbrev main_v197 : Ref sig .tc := ⟨.hbm, 270, rfl⟩
abbrev main_c_56 : Ref sig .tc := ⟨.hbm, 271, rfl⟩
abbrev main_v198 : Ref sig .tc := ⟨.hbm, 272, rfl⟩
abbrev main_v199 : Ref sig .tc := ⟨.hbm, 273, rfl⟩
abbrev main_v200 : Ref sig .tc := ⟨.hbm, 274, rfl⟩
abbrev main_v201 : Ref sig .tc := ⟨.hbm, 275, rfl⟩
abbrev main_v202 : Ref sig .tc := ⟨.hbm, 276, rfl⟩
abbrev main_v203 : Ref sig .tc := ⟨.hbm, 277, rfl⟩
abbrev main_v204 : Ref sig .tc := ⟨.hbm, 278, rfl⟩
abbrev main_v205 : Ref sig .tc := ⟨.hbm, 279, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg4_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem4_1 : DmaSem sig := 21

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S161x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x32 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S256x3 : S_.BroadcastsInDim S256x3 (![] : Fin 0 → Fin S256x3.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S256 : S_.BroadcastsInDim S256 (![] : Fin 0 → Fin S256.rank)
  bcast_S256_S256x1_0 : S256.BroadcastsInDim S256x1 (![0] : Fin 1 → Fin S256x1.rank)
  bcast_S256x1_S256x3_0_1 : S256x1.BroadcastsInDim S256x3 (![0, 1] : Fin 2 → Fin S256x3.rank)
  reducesTo_S50000x64_S50000_d1 : S50000x64.ReducesTo [1] S50000
  h_S_ : 0 < S_.numel
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  reducesTo_S800000x3_S800000_d1 : S800000x3.ReducesTo [1] S800000
  reducesTo_S800000x32_S800000_d1 : S800000x32.ReducesTo [1] S800000
  concatenates_S800000x1_S800000x1_S800000x1_S800000x3_d1 : Shape.Concatenates [S800000x1, S800000x1, S800000x1] S800000x3 1
  bitsLt_bf16_f32 : FTy.bits .bf16 < FTy.bits .f32
  inb_S4000x3_S4000x1_0_0 : ∀ a, (![0, 0] : Fin 2 → Nat) a + S4000x1.size a ≤ S4000x3.size a
  h_S4000x1 : 0 < S4000x1.numel
  shapeCasts_S4000x1_S4000x1 : S4000x1.ShapeCasts S4000x1
  inb_S4000x3_S4000x1_0_1 : ∀ a, (![0, 1] : Fin 2 → Nat) a + S4000x1.size a ≤ S4000x3.size a
  inb_S4000x3_S4000x1_0_2 : ∀ a, (![0, 2] : Fin 2 → Nat) a + S4000x1.size a ≤ S4000x3.size a
  inb_S4000x32_S4000x32_0_0 : ∀ a, (![0, 0] : Fin 2 → Nat) a + S4000x32.size a ≤ S4000x32.size a
  h_S4000x32 : 0 < S4000x32.numel
  broadcasts_S4000x1_S4000x32 : S4000x1.Broadcasts S4000x32
  inb_S32_S32_0 : ∀ a, (![0] : Fin 1 → Nat) a + S32.size a ≤ S32.size a
  h_S32 : 0 < S32.numel
  shapeCasts_S32_S1x32 : S32.ShapeCasts S1x32
  broadcasts_S1x32_S4000x32 : S1x32.Broadcasts S4000x32
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  concatenates_S4000x128_S4000x1_S4000x32_S4000x161_d1 : Shape.Concatenates [S4000x128, S4000x1, S4000x32] S4000x161 1
  inb_S161x32_S161x32_0_0 : ∀ a, (![0, 0] : Fin 2 → Nat) a + S161x32.size a ≤ S161x32.size a
  h_S161x32 : 0 < S161x32.numel
  shapeCasts_S161x32_S161x32 : S161x32.ShapeCasts S161x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  concatenates_S800000x1_S800000x1_S800000x2_d1 : Shape.Concatenates [S800000x1, S800000x1] S800000x2 1
  inb_S8000x2_S8000x1_0_0 : ∀ a, (![0, 0] : Fin 2 → Nat) a + S8000x1.size a ≤ S8000x2.size a
  h_S8000x1 : 0 < S8000x1.numel
  shapeCasts_S8000x1_S8000x1 : S8000x1.ShapeCasts S8000x1
  inb_S8000x2_S8000x1_0_1 : ∀ a, (![0, 1] : Fin 2 → Nat) a + S8000x1.size a ≤ S8000x2.size a
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  broadcasts_S8000x1_S8000x32 : S8000x1.Broadcasts S8000x32
  broadcasts_S1x32_S8000x32 : S1x32.Broadcasts S8000x32
  scatter_S256x3_S50000x1_S50000x3_1_0_0_1_wf : ScatterDims.WF S256x3 S50000x1 S50000x3 [1] [0] [0] 1
  scatter_S256_S50000x1_S50000_n_0_0_1_wf : ScatterDims.WF S256 S50000x1 S50000 [] [0] [0] 1
  gather_S256x3_S50000x1_S50000x3_1_0_n_n_0_1_13_wf : GatherDims.WF S256x3 S50000x1 S50000x3 [1] [0] [] [0] [] 1 ![1, 3]
  gather_S256_S50000x1_S50000_n_0_n_n_0_1_1_wf : GatherDims.WF S256 S50000x1 S50000 [] [0] [] [0] [] 1 ![1]
  gather_S50000x64_S800000x1_S800000x64_1_0_n_n_0_1_164_wf : GatherDims.WF S50000x64 S800000x1 S800000x64 [1] [0] [] [0] [] 1 ![1, 64]
  gather_S50000x3_S800000x1_S800000x3_1_0_n_n_0_1_13_wf : GatherDims.WF S50000x3 S800000x1 S800000x3 [1] [0] [] [0] [] 1 ![1, 3]
  gather_S50000_S800000x1_S800000_n_0_n_n_0_1_1_wf : GatherDims.WF S50000 S800000x1 S800000 [] [0] [] [0] [] 1 ![1]
  scatter_S256_S800000x1_S800000_n_0_0_1_wf : ScatterDims.WF S256 S800000x1 S800000 [] [0] [0] 1
  gather_S256_S800000x1_S800000_n_0_n_n_0_1_1_wf : GatherDims.WF S256 S800000x1 S800000 [] [0] [] [0] [] 1 ![1]
  dot_S4000x161_S161x32_S4000x32_1_0_0_1_n_n_wf : DotDims.WF S4000x161 S161x32 S4000x32 [1] [0] [0] [1] [] []
  dot_S4000x32_S32x32_S4000x32_1_0_0_1_n_n_wf : DotDims.WF S4000x32 S32x32 S4000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S800000x128.size a
  hwx0_0 : ∀ i : grid0.Coords, EltTy.bits .f32 = 32 ∨ (Rect.block (s := S800000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x3.size a ≤ S800000x3.size a
  hwx0_1 : ∀ i : grid0.Coords, EltTy.bits .f32 = 32 ∨ (Rect.block (s := S800000x3) S4000x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x32.size a ≤ S800000x32.size a
  hwx0_2 : ∀ i : grid0.Coords, EltTy.bits .f32 = 32 ∨ (Rect.block (s := S800000x32) S4000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32.size a ≤ S32.size a
  hwx0_3 : ∀ i : grid0.Coords, EltTy.bits .f32 = 32 ∨ (Rect.block (s := S32) S32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S161x32.size a ≤ S161x32.size a
  hwx0_5 : ∀ i : grid0.Coords, EltTy.bits .bf16 = 32 ∨ (Rect.block (s := S161x32) S161x32.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32.size a ≤ S32.size a
  hwx0_6 : ∀ i : grid0.Coords, EltTy.bits .f32 = 32 ∨ (Rect.block (s := S32) S32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x32.size a ≤ S32x32.size a
  hwx0_7 : ∀ i : grid0.Coords, EltTy.bits .bf16 = 32 ∨ (Rect.block (s := S32x32) S32x32.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32.size a ≤ S32.size a
  hwx0_8 : ∀ i : grid0.Coords, EltTy.bits .f32 = 32 ∨ (Rect.block (s := S32) S32.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x32.size a ≤ S800000x32.size a
  hwx0_9 : ∀ i : grid0.Coords, EltTy.bits .f32 = 32 ∨ (Rect.block (s := S800000x32) S4000x32.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x32.size a ≤ S800000x32.size a
  hwx1_0 : ∀ i : grid1.Coords, EltTy.bits .f32 = 32 ∨ (Rect.block (s := S800000x32) S8000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x2.size a ≤ S800000x2.size a
  hwx1_1 : ∀ i : grid1.Coords, EltTy.bits .f32 = 32 ∨ (Rect.block (s := S800000x2) S8000x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32.size a ≤ S32.size a
  hwx1_2 : ∀ i : grid1.Coords, EltTy.bits .f32 = 32 ∨ (Rect.block (s := S32) S32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32.size a ≤ S32.size a
  hwx1_3 : ∀ i : grid1.Coords, EltTy.bits .f32 = 32 ∨ (Rect.block (s := S32) S32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8000x32.size a ≤ S800000x32.size a
  hwx1_4 : ∀ i : grid1.Coords, EltTy.bits .f32 = 32 ∨ (Rect.block (s := S800000x32) S8000x32.size (cc1_transform_4 i) (hinb1_4 i)).WholeWords (EltTy.packing .f32)

variable [Facts₀]

def scatter_S256x3_S50000x1_S50000x3_1_0_0_1 : ScatterDims S256x3 S50000x1 S50000x3 where
  updateWindowDims := [1]
  insertedWindowDims := [0]
  scatterDimsToOperandDims := [0]
  indexVectorDim := 1
  wf := scatter_S256x3_S50000x1_S50000x3_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def gather_S256x3_S50000x1_S50000x3_1_0_n_n_0_1_13 : GatherDims S256x3 S50000x1 S50000x3 where
  offsetDims := [1]
  collapsedSliceDims := [0]
  operandBatchingDims := []
  startIndicesBatchingDims := []
  startIndexMap := [0]
  indexVectorDim := 1
  sliceSizes := ![1, 3]
  wf := gather_S256x3_S50000x1_S50000x3_1_0_n_n_0_1_13_wf
def gather_S256_S50000x1_S50000_n_0_n_n_0_1_1 : GatherDims S256 S50000x1 S50000 where
  offsetDims := []
  collapsedSliceDims := [0]
  operandBatchingDims := []
  startIndicesBatchingDims := []
  startIndexMap := [0]
  indexVectorDim := 1
  sliceSizes := ![1]
  wf := gather_S256_S50000x1_S50000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S256_S800000x1_S800000_n_0_0_1 : ScatterDims S256 S800000x1 S800000 where
  updateWindowDims := []
  insertedWindowDims := [0]
  scatterDimsToOperandDims := [0]
  indexVectorDim := 1
  wf := scatter_S256_S800000x1_S800000_n_0_0_1_wf
def gather_S256_S800000x1_S800000_n_0_n_n_0_1_1 : GatherDims S256 S800000x1 S800000 where
  offsetDims := []
  collapsedSliceDims := [0]
  operandBatchingDims := []
  startIndicesBatchingDims := []
  startIndexMap := [0]
  indexVectorDim := 1
  sliceSizes := ![1]
  wf := gather_S256_S800000x1_S800000_n_0_n_n_0_1_1_wf
def dot_S4000x161_S161x32_S4000x32_1_0_0_1_n_n : DotDims S4000x161 S161x32 S4000x32 where
  lhsContracting := [1]
  rhsContracting := [0]
  lhsNonContracting := [0]
  rhsNonContracting := [1]
  lhsBatch := []
  rhsBatch := []
  wf := dot_S4000x161_S161x32_S4000x32_1_0_0_1_n_n_wf
def dot_S4000x32_S32x32_S4000x32_1_0_0_1_n_n : DotDims S4000x32 S32x32 S4000x32 where
  lhsContracting := [1]
  rhsContracting := [0]
  lhsNonContracting := [0]
  rhsNonContracting := [1]
  lhsBatch := []
  rhsBatch := []
  wf := dot_S4000x32_S32x32_S4000x32_1_0_0_1_n_n_wf

abbrev win0_0 : Pipeline.Window sig grid0 :=
  Pipeline.Window.ofSpec (Memref.whole main_v90) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v158) S4000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S4000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v159) S161x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg12) S32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v160) S32x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg14) S32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v161) S4000x32.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v161) S8000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v204) S8000x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v205) S8000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000 : Shape := ⟨1, ![50000]⟩
abbrev S50000x3 : Shape := ⟨2, ![50000, 3]⟩
abbrev S50000x64 : Shape := ⟨2, ![50000, 64]⟩
abbrev S2x800000 : Shape := ⟨2, ![2, 800000]⟩
abbrev S800000x32 : Shape := ⟨2, ![800000, 32]⟩
abbrev S64 : Shape := ⟨1, ![64]⟩
abbrev S32 : Shape := ⟨1, ![32]⟩
abbrev S161x32 : Shape := ⟨2, ![161, 32]⟩
abbrev S32x32 : Shape := ⟨2, ![32, 32]⟩
abbrev S_ : Shape := ⟨0, ![]⟩
abbrev S256x3 : Shape := ⟨2, ![256, 3]⟩
abbrev S50000x1 : Shape := ⟨2, ![50000, 1]⟩
abbrev S256 : Shape := ⟨1, ![256]⟩
abbrev S256x1 : Shape := ⟨2, ![256, 1]⟩
abbrev S1x64 : Shape := ⟨2, ![1, 64]⟩
abbrev S1x800000 : Shape := ⟨2, ![1, 800000]⟩
abbrev S800000 : Shape := ⟨1, ![800000]⟩
abbrev S800000x1 : Shape := ⟨2, ![800000, 1]⟩
abbrev S800000x3 : Shape := ⟨2, ![800000, 3]⟩
abbrev S1x32 : Shape := ⟨2, ![1, 32]⟩
abbrev S800000x64 : Shape := ⟨2, ![800000, 64]⟩
abbrev S800000x161 : Shape := ⟨2, ![800000, 161]⟩

abbrev nBuf : Space → Nat
  | .hbm => 296
  | .vmem => 0
  | .smem => 0
  | _ => 0

abbrev hbmTy0_0 (i : Nat) : BufTy := match i % 128 with
  | 0 => ⟨S50000, .i32⟩
  | 1 => ⟨S50000x3, .f32⟩
  | 2 => ⟨S50000x64, .f32⟩
  | 3 => ⟨S2x800000, .i32⟩
  | 4 => ⟨S800000x32, .f32⟩
  | 5 => ⟨S64, .f32⟩
  | 6 => ⟨S64, .f32⟩
  | 7 => ⟨S32, .f32⟩
  | 8 => ⟨S32, .f32⟩
  | 9 => ⟨S32, .f32⟩
  | 10 => ⟨S32, .f32⟩
  | 11 => ⟨S161x32, .f32⟩
  | 12 => ⟨S32, .f32⟩
  | 13 => ⟨S32x32, .f32⟩
  | 14 => ⟨S32, .f32⟩
  | 15 => ⟨S_, .f32⟩
  | 16 => ⟨S256x3, .f32⟩
  | 17 => ⟨S50000x1, .i32⟩
  | 18 => ⟨S256x3, .f32⟩
  | 19 => ⟨S_, .f32⟩
  | 20 => ⟨S50000, .f32⟩
  | 21 => ⟨S_, .f32⟩
  | 22 => ⟨S256, .f32⟩
  | 23 => ⟨S50000x1, .i32⟩
  | 24 => ⟨S256, .f32⟩
  | 25 => ⟨S_, .f32⟩
  | 26 => ⟨S256, .f32⟩
  | 27 => ⟨S256, .f32⟩
  | 28 => ⟨S256x1, .f32⟩
  | 29 => ⟨S256x3, .f32⟩
  | 30 => ⟨S256x3, .f32⟩
  | 31 => ⟨S_, .i32⟩
  | 32 => ⟨S50000, .i32⟩
  | 33 => ⟨S50000, .i1⟩
  | 34 => ⟨S_, .i32⟩
  | 35 => ⟨S50000, .i32⟩
  | 36 => ⟨S50000, .i32⟩
  | 37 => ⟨S50000, .i32⟩
  | 38 => ⟨S50000x1, .i32⟩
  | 39 => ⟨S50000x3, .f32⟩
  | 40 => ⟨S50000x3, .f32⟩
  | 41 => ⟨S_, .f32⟩
  | 42 => ⟨S50000, .f32⟩
  | 43 => ⟨S_, .f32⟩
  | 44 => ⟨S256, .f32⟩
  | 45 => ⟨S50000x1, .i32⟩
  | 46 => ⟨S256, .f32⟩
  | 47 => ⟨S_, .f32⟩
  | 48 => ⟨S256, .f32⟩
  | 49 => ⟨S256, .f32⟩
  | 50 => ⟨S_, .f32⟩
  | 51 => ⟨S256, .f32⟩
  | 52 => ⟨S256, .f32⟩
  | 53 => ⟨S_, .f32⟩
  | 54 => ⟨S50000, .f32⟩
  | 55 => ⟨S_, .f32⟩
  | 56 => ⟨S256, .f32⟩
  | 57 => ⟨S50000x1, .i32⟩
  | 58 => ⟨S256, .f32⟩
  | 59 => ⟨S256, .f32⟩
  | 60 => ⟨S_, .i32⟩
  | 61 => ⟨S50000, .i32⟩
  | 62 => ⟨S50000, .i1⟩
  | 63 => ⟨S_, .i32⟩
  | 64 => ⟨S50000, .i32⟩
  | 65 => ⟨S50000, .i32⟩
  | 66 => ⟨S50000, .i32⟩
  | 67 => ⟨S50000x1, .i32⟩
  | 68 => ⟨S50000, .f32⟩
  | 69 => ⟨S50000x1, .f32⟩
  | 70 => ⟨S50000x64, .f32⟩
  | 71 => ⟨S50000x64, .f32⟩
  | 72 => ⟨S50000x64, .f32⟩
  | 73 => ⟨S_, .f32⟩
  | 74 => ⟨S50000, .f32⟩
  | 75 => ⟨S_, .f32⟩
  | 76 => ⟨S256, .f32⟩
  | 77 => ⟨S50000x1, .i32⟩
  | 78 => ⟨S256, .f32⟩
  | 79 => ⟨S256, .f32⟩
  | 80 => ⟨S_, .f32⟩
  | 81 => ⟨S256, .f32⟩
  | 82 => ⟨S256, .f32⟩
  | 83 => ⟨S256, .f32⟩
  | 84 => ⟨S_, .i32⟩
  | 85 => ⟨S50000, .i32⟩
  | 86 => ⟨S50000, .i1⟩
  | 87 => ⟨S_, .i32⟩
  | 88 => ⟨S50000, .i32⟩
  | 89 => ⟨S50000, .i32⟩
  | 90 => ⟨S50000, .i32⟩
  | 91 => ⟨S50000x1, .i32⟩
  | 92 => ⟨S50000, .f32⟩
  | 93 => ⟨S50000x1, .f32⟩
  | 94 => ⟨S50000x64, .f32⟩
  | 95 => ⟨S50000x64, .f32⟩
  | 96 => ⟨S1x64, .f32⟩
  | 97 => ⟨S50000x64, .f32⟩
  | 98 => ⟨S50000x64, .f32⟩
  | 99 => ⟨S1x64, .f32⟩
  | 100 => ⟨S50000x64, .f32⟩
  | 101 => ⟨S50000x64, .f32⟩
  | 102 => ⟨S1x800000, .i32⟩
  | 103 => ⟨S800000, .i32⟩
  | 104 => ⟨S1x800000, .i32⟩
  | 105 => ⟨S800000, .i32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x3, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000x3, .f32⟩
  | 124 => ⟨S800000x3, .f32⟩
  | 125 => ⟨S800000x3, .f32⟩
  | 126 => ⟨S_, .f32⟩
  | 127 => ⟨S800000, .f32⟩
  | _ => ⟨S50000, .i32⟩

abbrev hbmTy0_1 (i : Nat) : BufTy := match i % 128 with
  | 0 => ⟨S800000x1, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000, .i32⟩
  | 10 => ⟨S_, .f32⟩
  | 11 => ⟨S800000, .f32⟩
  | 12 => ⟨S_, .f32⟩
  | 13 => ⟨S256, .f32⟩
  | 14 => ⟨S800000x1, .i32⟩
  | 15 => ⟨S256, .f32⟩
  | 16 => ⟨S_, .f32⟩
  | 17 => ⟨S256, .f32⟩
  | 18 => ⟨S256, .f32⟩
  | 19 => ⟨S_, .f32⟩
  | 20 => ⟨S256, .f32⟩
  | 21 => ⟨S256, .f32⟩
  | 22 => ⟨S_, .f32⟩
  | 23 => ⟨S800000, .f32⟩
  | 24 => ⟨S_, .f32⟩
  | 25 => ⟨S256, .f32⟩
  | 26 => ⟨S800000x1, .i32⟩
  | 27 => ⟨S256, .f32⟩
  | 28 => ⟨S256, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000, .f32⟩
  | 38 => ⟨S800000x1, .f32⟩
  | 39 => ⟨S800000x32, .f32⟩
  | 40 => ⟨S800000x32, .f32⟩
  | 41 => ⟨S800000x32, .f32⟩
  | 42 => ⟨S_, .f32⟩
  | 43 => ⟨S800000, .f32⟩
  | 44 => ⟨S_, .f32⟩
  | 45 => ⟨S256, .f32⟩
  | 46 => ⟨S800000x1, .i32⟩
  | 47 => ⟨S256, .f32⟩
  | 48 => ⟨S256, .f32⟩
  | 49 => ⟨S_, .f32⟩
  | 50 => ⟨S256, .f32⟩
  | 51 => ⟨S256, .f32⟩
  | 52 => ⟨S256, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000, .f32⟩
  | 62 => ⟨S800000x1, .f32⟩
  | 63 => ⟨S800000x32, .f32⟩
  | 64 => ⟨S800000x32, .f32⟩
  | 65 => ⟨S1x32, .f32⟩
  | 66 => ⟨S800000x32, .f32⟩
  | 67 => ⟨S800000x32, .f32⟩
  | 68 => ⟨S1x32, .f32⟩
  | 69 => ⟨S800000x32, .f32⟩
  | 70 => ⟨S800000x32, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x64, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000x64, .f32⟩
  | 89 => ⟨S800000x161, .f32⟩
  | 90 => ⟨S800000x32, .f32⟩
  | 91 => ⟨S1x32, .f32⟩
  | 92 => ⟨S800000x32, .f32⟩
  | 93 => ⟨S800000x32, .f32⟩
  | 94 => ⟨S800000x32, .f32⟩
  | 95 => ⟨S800000x32, .f32⟩
  | 96 => ⟨S_, .f32⟩
  | 97 => ⟨S800000x32, .f32⟩
  | 98 => ⟨S800000x32, .f32⟩
  | 99 => ⟨S_, .f32⟩
  | 100 => ⟨S800000x32, .f32⟩
  | 101 => ⟨S800000x32, .f32⟩
  | 102 => ⟨S800000x32, .f32⟩
  | 103 => ⟨S800000x32, .f32⟩
  | 104 => ⟨S1x32, .f32⟩
  | 105 => ⟨S800000x32, .f32⟩
  | 106 => ⟨S800000x32, .f32⟩
  | 107 => ⟨S_, .f32⟩
  | 108 => ⟨S800000, .f32⟩
  | 109 => ⟨S_, .f32⟩
  | 110 => ⟨S256, .f32⟩
  | 111 => ⟨S800000x1, .i32⟩
  | 112 => ⟨S256, .f32⟩
  | 113 => ⟨S_, .f32⟩
  | 114 => ⟨S256, .f32⟩
  | 115 => ⟨S256, .f32⟩
  | 116 => ⟨S_, .f32⟩
  | 117 => ⟨S256, .f32⟩
  | 118 => ⟨S256, .f32⟩
  | 119 => ⟨S_, .f32⟩
  | 120 => ⟨S800000, .f32⟩
  | 121 => ⟨S_, .f32⟩
  | 122 => ⟨S256, .f32⟩
  | 123 => ⟨S800000x1, .i32⟩
  | 124 => ⟨S256, .f32⟩
  | 125 => ⟨S256, .f32⟩
  | 126 => ⟨S_, .i32⟩
  | 127 => ⟨S800000, .i32⟩
  | _ => ⟨S50000, .i32⟩

abbrev hbmTy0_2 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000, .f32⟩
  | 7 => ⟨S800000x1, .f32⟩
  | 8 => ⟨S800000x32, .f32⟩
  | 9 => ⟨S800000x32, .f32⟩
  | 10 => ⟨S800000x32, .f32⟩
  | 11 => ⟨S_, .f32⟩
  | 12 => ⟨S800000, .f32⟩
  | 13 => ⟨S_, .f32⟩
  | 14 => ⟨S256, .f32⟩
  | 15 => ⟨S800000x1, .i32⟩
  | 16 => ⟨S256, .f32⟩
  | 17 => ⟨S256, .f32⟩
  | 18 => ⟨S_, .f32⟩
  | 19 => ⟨S256, .f32⟩
  | 20 => ⟨S256, .f32⟩
  | 21 => ⟨S256, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000, .f32⟩
  | 31 => ⟨S800000x1, .f32⟩
  | 32 => ⟨S800000x32, .f32⟩
  | 33 => ⟨S800000x32, .f32⟩
  | 34 => ⟨S1x32, .f32⟩
  | 35 => ⟨S800000x32, .f32⟩
  | 36 => ⟨S800000x32, .f32⟩
  | 37 => ⟨S1x32, .f32⟩
  | 38 => ⟨S800000x32, .f32⟩
  | 39 => ⟨S800000x32, .f32⟩
  | _ => ⟨S50000, .i32⟩

abbrev hbmTy (i : Nat) : BufTy := match i / 128 with
  | 0 => hbmTy0_0 i
  | 1 => hbmTy0_1 i
  | 2 => hbmTy0_2 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_c_3 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_4 : Ref sig .tc := ⟨.hbm, 41, rfl⟩
abbrev main_v20 : Ref sig .tc := ⟨.hbm, 42, rfl⟩
abbrev main_cst_5 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_6 : Ref sig .tc := ⟨.hbm, 47, rfl⟩
abbrev main_v24 : Ref sig .tc := ⟨.hbm, 48, rfl⟩
abbrev main_v25 : Ref sig .tc := ⟨.hbm, 49, rfl⟩
abbrev main_cst_7 : Ref sig .tc := ⟨.hbm, 50, rfl⟩
abbrev main_v26 : Ref sig .tc := ⟨.hbm, 51, rfl⟩
abbrev main_v27 : Ref sig .tc := ⟨.hbm, 52, rfl⟩
abbrev main_cst_8 : Ref sig .tc := ⟨.hbm, 53, rfl⟩
abbrev main_v28 : Ref sig .tc := ⟨.hbm, 54, rfl⟩
abbrev main_cst_9 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_10 : Ref sig .tc := ⟨.hbm, 60, rfl⟩
abbrev main_v33 : Ref sig .tc := ⟨.hbm, 61, rfl⟩
abbrev main_v34 : Ref sig .tc := ⟨.hbm, 62, rfl⟩
abbrev main_c_11 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_12 : Ref sig .tc := ⟨.hbm, 73, rfl⟩
abbrev main_v44 : Ref sig .tc := ⟨.hbm, 74, rfl⟩
abbrev main_cst_13 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_14 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_c_15 : Ref sig .tc := ⟨.hbm, 84, rfl⟩
abbrev main_v52 : Ref sig .tc := ⟨.hbm, 85, rfl⟩
abbrev main_v53 : Ref sig .tc := ⟨.hbm, 86, rfl⟩
abbrev main_c_16 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_c_17 : Ref sig .tc := ⟨.hbm, 106, rfl⟩
abbrev main_v72 : Ref sig .tc := ⟨.hbm, 107, rfl⟩
abbrev main_v73 : Ref sig .tc := ⟨.hbm, 108, rfl⟩
abbrev main_c_18 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_c_19 : Ref sig .tc := ⟨.hbm, 115, rfl⟩
abbrev main_v79 : Ref sig .tc := ⟨.hbm, 116, rfl⟩
abbrev main_v80 : Ref sig .tc := ⟨.hbm, 117, rfl⟩
abbrev main_c_20 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_21 : Ref sig .tc := ⟨.hbm, 126, rfl⟩
abbrev main_v88 : Ref sig .tc := ⟨.hbm, 127, rfl⟩
abbrev main_v89 : Ref sig .tc := ⟨.hbm, 128, rfl⟩
abbrev main_c_22 : Ref sig .tc := ⟨.hbm, 129, rfl⟩
abbrev main_v90 : Ref sig .tc := ⟨.hbm, 130, rfl⟩
abbrev main_v91 : Ref sig .tc := ⟨.hbm, 131, rfl⟩
abbrev main_c_23 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_cst_24 : Ref sig .tc := ⟨.hbm, 138, rfl⟩
abbrev main_v97 : Ref sig .tc := ⟨.hbm, 139, rfl⟩
abbrev main_cst_25 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_cst_26 : Ref sig .tc := ⟨.hbm, 144, rfl⟩
abbrev main_v101 : Ref sig .tc := ⟨.hbm, 145, rfl⟩
abbrev main_v102 : Ref sig .tc := ⟨.hbm, 146, rfl⟩
abbrev main_cst_27 : Ref sig .tc := ⟨.hbm, 147, rfl⟩
abbrev main_v103 : Ref sig .tc := ⟨.hbm, 148, rfl⟩
abbrev main_v104 : Ref sig .tc := ⟨.hbm, 149, rfl⟩
abbrev main_cst_28 : Ref sig .tc := ⟨.hbm, 150, rfl⟩
abbrev main_v105 : Ref sig .tc := ⟨.hbm, 151, rfl⟩
abbrev main_cst_29 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_c_30 : Ref sig .tc := ⟨.hbm, 157, rfl⟩
abbrev main_v110 : Ref sig .tc := ⟨.hbm, 158, rfl⟩
abbrev main_v111 : Ref sig .tc := ⟨.hbm, 159, rfl⟩
abbrev main_c_31 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_cst_32 : Ref sig .tc := ⟨.hbm, 170, rfl⟩
abbrev main_v121 : Ref sig .tc := ⟨.hbm, 171, rfl⟩
abbrev main_cst_33 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_cst_34 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_c_35 : Ref sig .tc := ⟨.hbm, 181, rfl⟩
abbrev main_v129 : Ref sig .tc := ⟨.hbm, 182, rfl⟩
abbrev main_v130 : Ref sig .tc := ⟨.hbm, 183, rfl⟩
abbrev main_c_36 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_c_37 : Ref sig .tc := ⟨.hbm, 199, rfl⟩
abbrev main_v145 : Ref sig .tc := ⟨.hbm, 200, rfl⟩
abbrev main_v146 : Ref sig .tc := ⟨.hbm, 201, rfl⟩
abbrev main_c_38 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_c_39 : Ref sig .tc := ⟨.hbm, 208, rfl⟩
abbrev main_v152 : Ref sig .tc := ⟨.hbm, 209, rfl⟩
abbrev main_v153 : Ref sig .tc := ⟨.hbm, 210, rfl⟩
abbrev main_c_40 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_call0_v0 : Ref sig .tc := ⟨.hbm, 222, rfl⟩
abbrev main_call0_v1 : Ref sig .tc := ⟨.hbm, 223, rfl⟩
abbrev main_call0_cst : Ref sig .tc := ⟨.hbm, 224, rfl⟩
abbrev main_call0_v2 : Ref sig .tc := ⟨.hbm, 225, rfl⟩
abbrev main_call0_v3 : Ref sig .tc := ⟨.hbm, 226, rfl⟩
abbrev main_call0_cst_0 : Ref sig .tc := ⟨.hbm, 227, rfl⟩
abbrev main_call0_v4 : Ref sig .tc := ⟨.hbm, 228, rfl⟩
abbrev main_call0_v5 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_cst_41 : Ref sig .tc := ⟨.hbm, 235, rfl⟩
abbrev main_v169 : Ref sig .tc := ⟨.hbm, 236, rfl⟩
abbrev main_cst_42 : Ref sig .tc := ⟨.hbm, 237, rfl⟩
abbrev main_v170 : Ref sig .tc := ⟨.hbm, 238, rfl⟩
abbrev main_v171 : Ref sig .tc := ⟨.hbm, 239, rfl⟩
abbrev main_v172 : Ref sig .tc := ⟨.hbm, 240, rfl⟩
abbrev main_cst_43 : Ref sig .tc := ⟨.hbm, 241, rfl⟩
abbrev main_v173 : Ref sig .tc := ⟨.hbm, 242, rfl⟩
abbrev main_v174 : Ref sig .tc := ⟨.hbm, 243, rfl⟩
abbrev main_cst_44 : Ref sig .tc := ⟨.hbm, 244, rfl⟩
abbrev main_v175 : Ref sig .tc := ⟨.hbm, 245, rfl⟩
abbrev main_v176 : Ref sig .tc := ⟨.hbm, 246, rfl⟩
abbrev main_cst_45 : Ref sig .tc := ⟨.hbm, 247, rfl⟩
abbrev main_v177 : Ref sig .tc := ⟨.hbm, 248, rfl⟩
abbrev main_cst_46 : Ref sig .tc := ⟨.hbm, 249, rfl⟩
abbrev main_v178 : Ref sig .tc := ⟨.hbm, 250, rfl⟩
abbrev main_v179 : Ref sig .tc := ⟨.hbm, 251, rfl⟩
abbrev main_v180 : Ref sig .tc := ⟨.hbm, 252, rfl⟩
abbrev main_v181 : Ref sig .tc := ⟨.hbm, 253, rfl⟩
abbrev main_c_47 : Ref sig .tc := ⟨.hbm, 254, rfl⟩
abbrev main_v182 : Ref sig .tc := ⟨.hbm, 255, rfl⟩
abbrev main_v183 : Ref sig .tc := ⟨.hbm, 256, rfl⟩
abbrev main_c_48 : Ref sig .tc := ⟨.hbm, 257, rfl⟩
abbrev main_v184 : Ref sig .tc := ⟨.hbm, 258, rfl⟩
abbrev main_v185 : Ref sig .tc := ⟨.hbm, 259, rfl⟩
abbrev main_v186 : Ref sig .tc := ⟨.hbm, 260, rfl⟩
abbrev main_v187 : Ref sig .tc := ⟨.hbm, 261, rfl⟩
abbrev main_v188 : Ref sig .tc := ⟨.hbm, 262, rfl⟩
abbrev main_v189 : Ref sig .tc := ⟨.hbm, 263, rfl⟩
abbrev main_v190 : Ref sig .tc := ⟨.hbm, 264, rfl⟩
abbrev main_v191 : Ref sig .tc := ⟨.hbm, 265, rfl⟩
abbrev main_v192 : Ref sig .tc := ⟨.hbm, 266, rfl⟩
abbrev main_cst_49 : Ref sig .tc := ⟨.hbm, 267, rfl⟩
abbrev main_v193 : Ref sig .tc := ⟨.hbm, 268, rfl⟩
abbrev main_cst_50 : Ref sig .tc := ⟨.hbm, 269, rfl⟩
abbrev main_v194 : Ref sig .tc := ⟨.hbm, 270, rfl⟩
abbrev main_v195 : Ref sig .tc := ⟨.hbm, 271, rfl⟩
abbrev main_v196 : Ref sig .tc := ⟨.hbm, 272, rfl⟩
abbrev main_v197 : Ref sig .tc := ⟨.hbm, 273, rfl⟩
abbrev main_cst_51 : Ref sig .tc := ⟨.hbm, 274, rfl⟩
abbrev main_v198 : Ref sig .tc := ⟨.hbm, 275, rfl⟩
abbrev main_v199 : Ref sig .tc := ⟨.hbm, 276, rfl⟩
abbrev main_v200 : Ref sig .tc := ⟨.hbm, 277, rfl⟩
abbrev main_c_52 : Ref sig .tc := ⟨.hbm, 278, rfl⟩
abbrev main_v201 : Ref sig .tc := ⟨.hbm, 279, rfl⟩
abbrev main_v202 : Ref sig .tc := ⟨.hbm, 280, rfl⟩
abbrev main_c_53 : Ref sig .tc := ⟨.hbm, 281, rfl⟩
abbrev main_v203 : Ref sig .tc := ⟨.hbm, 282, rfl⟩
abbrev main_v204 : Ref sig .tc := ⟨.hbm, 283, rfl⟩
abbrev main_v205 : Ref sig .tc := ⟨.hbm, 284, rfl⟩
abbrev main_v206 : Ref sig .tc := ⟨.hbm, 285, rfl⟩
abbrev main_v207 : Ref sig .tc := ⟨.hbm, 286, rfl⟩
abbrev main_v208 : Ref sig .tc := ⟨.hbm, 287, rfl⟩
abbrev main_v209 : Ref sig .tc := ⟨.hbm, 288, rfl⟩
abbrev main_v210 : Ref sig .tc := ⟨.hbm, 289, rfl⟩
abbrev main_v211 : Ref sig .tc := ⟨.hbm, 290, rfl⟩
abbrev main_v212 : Ref sig .tc := ⟨.hbm, 291, rfl⟩
abbrev main_v213 : Ref sig .tc := ⟨.hbm, 292, rfl⟩
abbrev main_v214 : Ref sig .tc := ⟨.hbm, 293, rfl⟩
abbrev main_v215 : Ref sig .tc := ⟨.hbm, 294, rfl⟩
abbrev main_v216 : Ref sig .tc := ⟨.hbm, 295, rfl⟩

abbrev nD : Nat := 1
abbrev τ : Topo := Topo.v7x

variable {F : FTy → Type} [FloatOps F]

class Facts₀ : Prop where
  bcast_S_S256x3 : S_.BroadcastsInDim S256x3 (![] : Fin 0 → Fin S256x3.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S256 : S_.BroadcastsInDim S256 (![] : Fin 0 → Fin S256.rank)
  bcast_S256_S256x1_0 : S256.BroadcastsInDim S256x1 (![0] : Fin 1 → Fin S256x1.rank)
  bcast_S256x1_S256x3_0_1 : S256x1.BroadcastsInDim S256x3 (![0, 1] : Fin 2 → Fin S256x3.rank)
  reducesTo_S50000x64_S50000_d1 : S50000x64.ReducesTo [1] S50000
  h_S_ : 0 < S_.numel
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  reducesTo_S800000x32_S800000_d1 : S800000x32.ReducesTo [1] S800000
  bcast_S800000x1_S800000x32_0_1 : S800000x1.BroadcastsInDim S800000x32 (![0, 1] : Fin 2 → Fin S800000x32.rank)
  bcast_S32_S1x32_1 : S32.BroadcastsInDim S1x32 (![1] : Fin 1 → Fin S1x32.rank)
  bcast_S1x32_S800000x32_0_1 : S1x32.BroadcastsInDim S800000x32 (![0, 1] : Fin 2 → Fin S800000x32.rank)
  concatenates_S800000x64_S800000x64_S800000x1_S800000x32_S800000x161_d1 : Shape.Concatenates [S800000x64, S800000x64, S800000x1, S800000x32] S800000x161 1
  bcast_S_S800000x32 : S_.BroadcastsInDim S800000x32 (![] : Fin 0 → Fin S800000x32.rank)
  scatter_S256x3_S50000x1_S50000x3_1_0_0_1_wf : ScatterDims.WF S256x3 S50000x1 S50000x3 [1] [0] [0] 1
  scatter_S256_S50000x1_S50000_n_0_0_1_wf : ScatterDims.WF S256 S50000x1 S50000 [] [0] [0] 1
  gather_S256x3_S50000x1_S50000x3_1_0_n_n_0_1_13_wf : GatherDims.WF S256x3 S50000x1 S50000x3 [1] [0] [] [0] [] 1 ![1, 3]
  gather_S256_S50000x1_S50000_n_0_n_n_0_1_1_wf : GatherDims.WF S256 S50000x1 S50000 [] [0] [] [0] [] 1 ![1]
  gather_S50000x3_S800000x1_S800000x3_1_0_n_n_0_1_13_wf : GatherDims.WF S50000x3 S800000x1 S800000x3 [1] [0] [] [0] [] 1 ![1, 3]
  gather_S50000_S800000x1_S800000_n_0_n_n_0_1_1_wf : GatherDims.WF S50000 S800000x1 S800000 [] [0] [] [0] [] 1 ![1]
  scatter_S256_S800000x1_S800000_n_0_0_1_wf : ScatterDims.WF S256 S800000x1 S800000 [] [0] [0] 1
  gather_S256_S800000x1_S800000_n_0_n_n_0_1_1_wf : GatherDims.WF S256 S800000x1 S800000 [] [0] [] [0] [] 1 ![1]
  gather_S50000x64_S800000x1_S800000x64_1_0_n_n_0_1_164_wf : GatherDims.WF S50000x64 S800000x1 S800000x64 [1] [0] [] [0] [] 1 ![1, 64]
  dot_S800000x161_S161x32_S800000x32_1_0_0_1_n_n_wf : DotDims.WF S800000x161 S161x32 S800000x32 [1] [0] [0] [1] [] []
  dot_S800000x32_S32x32_S800000x32_1_0_0_1_n_n_wf : DotDims.WF S800000x32 S32x32 S800000x32 [1] [0] [0] [1] [] []

variable [Facts₀]

def scatter_S256x3_S50000x1_S50000x3_1_0_0_1 : ScatterDims S256x3 S50000x1 S50000x3 where
  updateWindowDims := [1]
  insertedWindowDims := [0]
  scatterDimsToOperandDims := [0]
  indexVectorDim := 1
  wf := scatter_S256x3_S50000x1_S50000x3_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def gather_S256x3_S50000x1_S50000x3_1_0_n_n_0_1_13 : GatherDims S256x3 S50000x1 S50000x3 where
  offsetDims := [1]
  collapsedSliceDims := [0]
  operandBatchingDims := []
  startIndicesBatchingDims := []
  startIndexMap := [0]
  indexVectorDim := 1
  sliceSizes := ![1, 3]
  wf := gather_S256x3_S50000x1_S50000x3_1_0_n_n_0_1_13_wf
def gather_S256_S50000x1_S50000_n_0_n_n_0_1_1 : GatherDims S256 S50000x1 S50000 where
  offsetDims := []
  collapsedSliceDims := [0]
  operandBatchingDims := []
  startIndicesBatchingDims := []
  startIndexMap := [0]
  indexVectorDim := 1
  sliceSizes := ![1]
  wf := gather_S256_S50000x1_S50000_n_0_n_n_0_1_1_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S256_S800000x1_S800000_n_0_0_1 : ScatterDims S256 S800000x1 S800000 where
  updateWindowDims := []
  insertedWindowDims := [0]
  scatterDimsToOperandDims := [0]
  indexVectorDim := 1
  wf := scatter_S256_S800000x1_S800000_n_0_0_1_wf
def gather_S256_S800000x1_S800000_n_0_n_n_0_1_1 : GatherDims S256 S800000x1 S800000 where
  offsetDims := []
  collapsedSliceDims := [0]
  operandBatchingDims := []
  startIndicesBatchingDims := []
  startIndexMap := [0]
  indexVectorDim := 1
  sliceSizes := ![1]
  wf := gather_S256_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x161_S161x32_S800000x32_1_0_0_1_n_n : DotDims S800000x161 S161x32 S800000x32 where
  lhsContracting := [1]
  rhsContracting := [0]
  lhsNonContracting := [0]
  rhsNonContracting := [1]
  lhsBatch := []
  rhsBatch := []
  wf := dot_S800000x161_S161x32_S800000x32_1_0_0_1_n_n_wf
def dot_S800000x32_S32x32_S800000x32_1_0_0_1_n_n : DotDims S800000x32 S32x32 S800000x32 where
  lhsContracting := [1]
  rhsContracting := [0]
  lhsNonContracting := [0]
  rhsNonContracting := [1]
  lhsBatch := []
  rhsBatch := []
  wf := dot_S800000x32_S32x32_S800000x32_1_0_0_1_n_n_wf

class Facts : Prop extends Facts₀ where

variable [Facts]
-- ==== Proof.BitsBody0.lean ====
import proofs.«114257_j19911468384606_2_alg».proof.Proof.Gen.Kernel.Launch
import proofs.«114257_j19911468384606_2_alg».proof.Proof.Gen.Kernel.Skeleton
import proofs.«114257_j19911468384606_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
Pallas call 0 of the program, at any contents `V` of the core's buffers when the call is entered.
Each input window's staging buffer holds, at every grid point, the block of its array the point's index map selects;
the body reads those blocks through fixed rectangles, computes one value from them, and overwrites the whole
output block with it. So the output block after the body is one pure function (`out0_9`) of the input blocks,
which is what the pipeline's proof data record; the body's triple is obtained by symbolic execution.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the point fetched it or an
    earlier one did (the index map had not moved since). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, whether the point fetched it or an
    earlier one did (the index map had not moved since). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, whether the point fetched it or an
    earlier one did (the index map had not moved since). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, whether the point fetched it or an
    earlier one did (the index map had not moved since). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, whether the point fetched it or an
    earlier one did (the index map had not moved since). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, whether the point fetched it or an
    earlier one did (the index map had not moved since). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, whether the point fetched it or an
    earlier one did (the index map had not moved since). -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, whether the point fetched it or an
    earlier one did (the index map had not moved since). -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current staging buffer holds its block at every point, whether the point fetched it or an
    earlier one did (the index map had not moved since). -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! The rectangles the body reads and writes through. -/

abbrev ra0 : Rect S4000x3 := Rect.unit (s := S4000x3) ![0, 0] S4000x1.size inb_S4000x3_S4000x1_0_0
abbrev ra1 : Rect S4000x3 := Rect.unit (s := S4000x3) ![0, 1] S4000x1.size inb_S4000x3_S4000x1_0_1
abbrev ra2 : Rect S4000x3 := Rect.unit (s := S4000x3) ![0, 2] S4000x1.size inb_S4000x3_S4000x1_0_2
abbrev rb : Rect S4000x32 := Rect.unit (s := S4000x32) ![0, 0] S4000x32.size inb_S4000x32_S4000x32_0_0
abbrev rc : Rect S32 := Rect.unit (s := S32) ![0] S32.size inb_S32_S32_0
abbrev rd : Rect S4000x128 := Rect.unit (s := S4000x128) ![0, 0] S4000x128.size inb_S4000x128_S4000x128_0_0
abbrev re : Rect S161x32 := Rect.unit (s := S161x32) ![0, 0] S161x32.size inb_S161x32_S161x32_0_0
abbrev rf : Rect S32x32 := Rect.unit (s := S32x32) ![0, 0] S32x32.size inb_S32x32_S32x32_0_0

/-- The output block after the body, as a function of the input blocks: the one store's value over its rectangle. -/
def out0_9 (x0 : Vec F S4000x128 .f32) (x1 : Vec F S4000x3 .f32) (x2 : Vec F S4000x32 .f32) (x3 : Vec F S32 .f32) (x4 : Vec F S32 .f32) (x5 : Vec F S161x32 .bf16) (x6 : Vec F S32 .f32) (x7 : Vec F S32x32 .bf16) (x8 : Vec F S32 .f32) : Vec F S4000x32 .f32 :=
  View.canon [⟨rb, k0_pay1 (k0_pay2 (View.ld x1 ra0) (View.ld x1 ra1) (View.ld x1 ra2) (View.ld x2 rb) (View.ld x3 rc) (View.ld x4 rc) (View.ld x0 rd) (View.ld x5 re) (View.ld x6 rc) (View.ld x7 rf)) (k0_pay3 (View.ld x8 rc))⟩]

/-- The one store covers the whole output block. -/
theorem cover0_9 (p0 : Vec F S4000x32 .f32) (y : S4000x32.Idx) :
    ∃ pc ∈ ([⟨rb, p0⟩] : List (View.Piece (Elt F) S4000x32 .f32)), y ∈ pc.1.set :=
  View.cover_of_tiled [⟨rb, p0⟩] S4000x32.size (by rfl) y

set_option maxHeartbeats 4000000 in
/-- The body on whole staging memrefs, the inputs' at contents `xW` and the output's at anything, runs to a state
    holding the inputs' unchanged and the output's at `out0_9` of the inputs'. -/
theorem sound_kernel0 (c : Dev nD) (E : Set ℕ) (i : grid0.Coords) (a0 : Memref sig .tc .vmem S4000x128 .f32) (ha0 : a0.IsWhole) (a1 : Memref sig .tc .vmem S4000x3 .f32) (ha1 : a1.IsWhole) (a2 : Memref sig .tc .vmem S4000x32 .f32) (ha2 : a2.IsWhole) (a3 : Memref sig .tc .vmem S32 .f32) (ha3 : a3.IsWhole) (a4 : Memref sig .tc .vmem S32 .f32) (ha4 : a4.IsWhole) (a5 : Memref sig .tc .vmem S161x32 .bf16) (ha5 : a5.IsWhole) (a6 : Memref sig .tc .vmem S32 .f32) (ha6 : a6.IsWhole) (a7 : Memref sig .tc .vmem S32x32 .bf16) (ha7 : a7.IsWhole) (a8 : Memref sig .tc .vmem S32 .f32) (ha8 : a8.IsWhole) (a9 : Memref sig .tc .vmem S4000x32 .f32) (ha9 : a9.IsWhole)
    (x0 : Vec F S4000x128 .f32) (x1 : Vec F S4000x3 .f32) (x2 : Vec F S4000x32 .f32) (x3 : Vec F S32 .f32) (x4 : Vec F S32 .f32) (x5 : Vec F S161x32 .bf16) (x6 : Vec F S32 .f32) (x7 : Vec F S32x32 .bf16) (x8 : Vec F S32 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare (out0_9 x0 x1 x2 x3 x4 x5 x6 x7 x8)) -∗ K ⟨⟩))
      ⊢ wp frame (wpE (defs₀ (F := F)) Variants.none c none) E (cc0__mlp_kernel i a0 ha0 a1 ha1 a2 ha2 a3 ha3 a4 ha4 a5 ha5 a6 ha6 a7 ha7 a8 ha8 a9 ha9) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover0_9 _)

/-- The pipeline's proof data on core `c`: the arrays as the call finds them; after the body at point `t` each input's
    buffer still at its block and the output's at `out0_9` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 4000000 in
/-- The body at any point: the inputs' memrefs hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsBody1.lean ====
import proofs.«114257_j19911468384606_2_alg».proof.Proof.Gen.Kernel.Launch
import proofs.«114257_j19911468384606_2_alg».proof.Proof.Gen.Kernel.Skeleton
import proofs.«114257_j19911468384606_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
Pallas call 1 of the program, at any contents `V` of the core's buffers when the call is entered.
Each input window's staging buffer holds, at every grid point, the block of its array the point's index map selects;
the body reads those blocks through fixed rectangles, computes one value from them, and overwrites the whole
output block with it. So the output block after the body is one pure function (`out1_4`) of the input blocks,
which is what the pipeline's proof data record; the body's triple is obtained by symbolic execution.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the point fetched it or an
    earlier one did (the index map had not moved since). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, whether the point fetched it or an
    earlier one did (the index map had not moved since). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, whether the point fetched it or an
    earlier one did (the index map had not moved since). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, whether the point fetched it or an
    earlier one did (the index map had not moved since). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! The rectangles the body reads and writes through. -/

abbrev rg0 : Rect S8000x2 := Rect.unit (s := S8000x2) ![0, 0] S8000x1.size inb_S8000x2_S8000x1_0_0
abbrev rg1 : Rect S8000x2 := Rect.unit (s := S8000x2) ![0, 1] S8000x1.size inb_S8000x2_S8000x1_0_1
abbrev rh : Rect S8000x32 := Rect.unit (s := S8000x32) ![0, 0] S8000x32.size inb_S8000x32_S8000x32_0_0
abbrev rc1 : Rect S32 := Rect.unit (s := S32) ![0] S32.size inb_S32_S32_0

/-- The output block after the body, as a function of the input blocks: the one store's value over its rectangle. -/
def out1_4 (x0 : Vec F S8000x32 .f32) (x1 : Vec F S8000x2 .f32) (x2 : Vec F S32 .f32) (x3 : Vec F S32 .f32) : Vec F S8000x32 .f32 :=
  View.canon [⟨rh, k1_pay1 (View.ld x1 rg0) (View.ld x1 rg1) (View.ld x0 rh) (View.ld x2 rc1) (View.ld x3 rc1)⟩]

/-- The one store covers the whole output block. -/
theorem cover1_4 (p0 : Vec F S8000x32 .f32) (y : S8000x32.Idx) :
    ∃ pc ∈ ([⟨rh, p0⟩] : List (View.Piece (Elt F) S8000x32 .f32)), y ∈ pc.1.set :=
  View.cover_of_tiled [⟨rh, p0⟩] S8000x32.size (by rfl) y

set_option maxHeartbeats 4000000 in
/-- The body on whole staging memrefs, the inputs' at contents `xW` and the output's at anything, runs to a state
    holding the inputs' unchanged and the output's at `out1_4` of the inputs'. -/
theorem sound_kernel1 (c : Dev nD) (E : Set ℕ) (i : grid1.Coords) (a0 : Memref sig .tc .vmem S8000x32 .f32) (ha0 : a0.IsWhole) (a1 : Memref sig .tc .vmem S8000x2 .f32) (ha1 : a1.IsWhole) (a2 : Memref sig .tc .vmem S32 .f32) (ha2 : a2.IsWhole) (a3 : Memref sig .tc .vmem S32 .f32) (ha3 : a3.IsWhole) (a4 : Memref sig .tc .vmem S8000x32 .f32) (ha4 : a4.IsWhole)
    (x0 : Vec F S8000x32 .f32) (x1 : Vec F S8000x2 .f32) (x2 : Vec F S32 .f32) (x3 : Vec F S32 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ (∃ d, owns (c : Thread nD τ) a4 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare (out1_4 x0 x1 x2 x3)) -∗ K ⟨⟩))
      ⊢ wp frame (wpE (defs₀ (F := F)) Variants.none c none) E (cc1__norm_kernel i a0 ha0 a1 ha1 a2 ha2 a3 ha3 a4 ha4) K := by
  simp only [cc1__norm_kernel_eq_skeleton]; unfold cc1__norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover1_4 _)

/-- The pipeline's proof data on core `c`: the arrays as the call finds them; after the body at point `t` each input's
    buffer still at its block and the output's at `out1_4` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 4000000 in
/-- The body at any point: the inputs' memrefs hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsRun.lean ====
import proofs.«114257_j19911468384606_2_alg».proof.Proof.BitsBody0
import proofs.«114257_j19911468384606_2_alg».proof.Proof.BitsBody1

/-!
The whole run of the program: host operations, the first Pallas call, host operations, the second Pallas call.
The contents of the core's buffers at each boundary are a fold from the launch memory (`W0` … `W4`): a stretch of host
operations applies them in order; a Pallas call leaves its output array at what its grid points wrote back and every
other buffer as it was. The run's theorem says that every execution ends with every unscoped buffer at `W4`; the
argument arrays are written by nothing, so they read back to the launch memory.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first stretch of host operations (the first call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first call's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations (the second call's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second call's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! No host operation and no call writes an argument array, so the fold at an argument walks back to the launch memory. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg4) := (W2_arr m ρ c 2).trans (((dat0 (V1 m ρ) c).arrAt_in 2 rfl _).trans (A_eq0 (V1 m ρ) c 2))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg7) := (W2_arr m ρ c 3).trans (((dat0 (V1 m ρ) c).arrAt_in 3 rfl _).trans (A_eq0 (V1 m ρ) c 3))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg8) := (W2_arr m ρ c 4).trans (((dat0 (V1 m ρ) c).arrAt_in 4 rfl _).trans (A_eq0 (V1 m ρ) c 4))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := (W4_arr m ρ c 2).trans (((dat1 (V3 m ρ) c).arrAt_in 2 rfl _).trans (A_eq1 (V3 m ρ) c 2))
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg9) := rfl

theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := (W4_arr m ρ c 3).trans (((dat1 (V3 m ρ) c).arrAt_in 3 rfl _).trans (A_eq1 (V3 m ρ) c 3))
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg10) := rfl

theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg11) := rfl

theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg12) := (W2_arr m ρ c 6).trans (((dat0 (V1 m ρ) c).arrAt_in 6 rfl _).trans (A_eq0 (V1 m ρ) c 6))
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg12) := rfl

theorem W4_main_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg13) := rfl

theorem W4_main_arg14 (c : Dev nD) : W4 m ρ c (Proc.devRef .tc main_arg14) = m ((c : Thread nD τ).loc main_arg14) :=
  calc W4 m ρ c (Proc.devRef .tc main_arg14)
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg14) := (W2_arr m ρ c 8).trans (((dat0 (V1 m ρ) c).arrAt_in 8 rfl _).trans (A_eq0 (V1 m ρ) c 8))
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg14) := rfl

/-! The proof data family and the thread state. -/

abbrev adm : (p : Fin 2) → (pcfgs (F := F) p).Adm := fun p => (cfgs p).toPCfg_adm
/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation of the first stretch allocates a buffer. -/
theorem hostOps0_fresh : (hostOps0 : List (HloOp τ sig (Elt F))).Forall fun op => op.fresh = ∅ := by
  simp only [List.Forall]; repeat' constructor
/-- Nor of the second. -/
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

set_option backward.isDefEq.respectTransparency.types false in
/-- Pallas call 0 over the thread state: entered from every unscoped buffer at `W1`, left at `W2`. Its arrays are split
    out of the unscoped buffers and put back at the exit contents; the generator register goes into the call's invariant
    and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 over the thread state: entered from every unscoped buffer at `W3`, left at `W4`. Its arrays are split
    out of the unscoped buffers and put back at the exit contents; the generator register goes into the call's invariant
    and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's four segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of the program terminates without a fault, and ends with every unscoped buffer of
    every core at the fold's last contents `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The program's frame: it runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c),
    (h c _ (mem_uc main_arg11 (by decide))).trans (W4_main_arg11 m ρ c),
    (h c _ (mem_uc main_arg12 (by decide))).trans (W4_main_arg12 m ρ c),
    (h c _ (mem_uc main_arg13 (by decide))).trans (W4_main_arg13 m ρ c),
    (h c _ (mem_uc main_arg14 (by decide))).trans (W4_main_arg14 m ρ c)⟩) (run_main m ρ)

/-- The result array ends at what the second call's grid points wrote back. -/
theorem result_eq (c : Dev nD) : W4 m ρ c (Proc.devRef .tc main_v205) = (dat1 (V3 m ρ) c).arrAt 4 cfg1.N :=
  W4_arr m ρ c 4

end Cert.Kernel.Hand

end
-- ==== Proof.IdealBody0.lean ====
import proofs.«114257_j19911468384606_2_alg».proof.Proof.Gen.KernelIdeal.Launch
import proofs.«114257_j19911468384606_2_alg».proof.Proof.Gen.KernelIdeal.Skeleton
import proofs.«114257_j19911468384606_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
Pallas call 0 of the program, at any contents `V` of the core's buffers when the call is entered.
Each input window's staging buffer holds, at every grid point, the block of its array the point's index map selects;
the body reads those blocks through fixed rectangles, computes one value from them, and overwrites the whole
output block with it. So the output block after the body is one pure function (`out0_9`) of the input blocks,
which is what the pipeline's proof data record; the body's triple is obtained by symbolic execution.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the point fetched it or an
    earlier one did (the index map had not moved since). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, whether the point fetched it or an
    earlier one did (the index map had not moved since). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, whether the point fetched it or an
    earlier one did (the index map had not moved since). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, whether the point fetched it or an
    earlier one did (the index map had not moved since). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, whether the point fetched it or an
    earlier one did (the index map had not moved since). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, whether the point fetched it or an
    earlier one did (the index map had not moved since). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, whether the point fetched it or an
    earlier one did (the index map had not moved since). -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, whether the point fetched it or an
    earlier one did (the index map had not moved since). -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current staging buffer holds its block at every point, whether the point fetched it or an
    earlier one did (the index map had not moved since). -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! The rectangles the body reads and writes through. -/

abbrev ra0 : Rect S4000x3 := Rect.unit (s := S4000x3) ![0, 0] S4000x1.size inb_S4000x3_S4000x1_0_0
abbrev ra1 : Rect S4000x3 := Rect.unit (s := S4000x3) ![0, 1] S4000x1.size inb_S4000x3_S4000x1_0_1
abbrev ra2 : Rect S4000x3 := Rect.unit (s := S4000x3) ![0, 2] S4000x1.size inb_S4000x3_S4000x1_0_2
abbrev rb : Rect S4000x32 := Rect.unit (s := S4000x32) ![0, 0] S4000x32.size inb_S4000x32_S4000x32_0_0
abbrev rc : Rect S32 := Rect.unit (s := S32) ![0] S32.size inb_S32_S32_0
abbrev rd : Rect S4000x128 := Rect.unit (s := S4000x128) ![0, 0] S4000x128.size inb_S4000x128_S4000x128_0_0
abbrev re : Rect S161x32 := Rect.unit (s := S161x32) ![0, 0] S161x32.size inb_S161x32_S161x32_0_0
abbrev rf : Rect S32x32 := Rect.unit (s := S32x32) ![0, 0] S32x32.size inb_S32x32_S32x32_0_0

/-- The output block after the body, as a function of the input blocks: the one store's value over its rectangle. -/
def out0_9 (x0 : Vec F S4000x128 .f32) (x1 : Vec F S4000x3 .f32) (x2 : Vec F S4000x32 .f32) (x3 : Vec F S32 .f32) (x4 : Vec F S32 .f32) (x5 : Vec F S161x32 .bf16) (x6 : Vec F S32 .f32) (x7 : Vec F S32x32 .bf16) (x8 : Vec F S32 .f32) : Vec F S4000x32 .f32 :=
  View.canon [⟨rb, k0_pay1 (k0_pay2 (View.ld x1 ra0) (View.ld x1 ra1) (View.ld x1 ra2) (View.ld x2 rb) (View.ld x3 rc) (View.ld x4 rc) (View.ld x0 rd) (View.ld x5 re) (View.ld x6 rc) (View.ld x7 rf)) (k0_pay3 (View.ld x8 rc))⟩]

/-- The one store covers the whole output block. -/
theorem cover0_9 (p0 : Vec F S4000x32 .f32) (y : S4000x32.Idx) :
    ∃ pc ∈ ([⟨rb, p0⟩] : List (View.Piece (Elt F) S4000x32 .f32)), y ∈ pc.1.set :=
  View.cover_of_tiled [⟨rb, p0⟩] S4000x32.size (by rfl) y

set_option maxHeartbeats 4000000 in
/-- The body on whole staging memrefs, the inputs' at contents `xW` and the output's at anything, runs to a state
    holding the inputs' unchanged and the output's at `out0_9` of the inputs'. -/
theorem sound_kernel0 (c : Dev nD) (E : Set ℕ) (i : grid0.Coords) (a0 : Memref sig .tc .vmem S4000x128 .f32) (ha0 : a0.IsWhole) (a1 : Memref sig .tc .vmem S4000x3 .f32) (ha1 : a1.IsWhole) (a2 : Memref sig .tc .vmem S4000x32 .f32) (ha2 : a2.IsWhole) (a3 : Memref sig .tc .vmem S32 .f32) (ha3 : a3.IsWhole) (a4 : Memref sig .tc .vmem S32 .f32) (ha4 : a4.IsWhole) (a5 : Memref sig .tc .vmem S161x32 .bf16) (ha5 : a5.IsWhole) (a6 : Memref sig .tc .vmem S32 .f32) (ha6 : a6.IsWhole) (a7 : Memref sig .tc .vmem S32x32 .bf16) (ha7 : a7.IsWhole) (a8 : Memref sig .tc .vmem S32 .f32) (ha8 : a8.IsWhole) (a9 : Memref sig .tc .vmem S4000x32 .f32) (ha9 : a9.IsWhole)
    (x0 : Vec F S4000x128 .f32) (x1 : Vec F S4000x3 .f32) (x2 : Vec F S4000x32 .f32) (x3 : Vec F S32 .f32) (x4 : Vec F S32 .f32) (x5 : Vec F S161x32 .bf16) (x6 : Vec F S32 .f32) (x7 : Vec F S32x32 .bf16) (x8 : Vec F S32 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare (out0_9 x0 x1 x2 x3 x4 x5 x6 x7 x8)) -∗ K ⟨⟩))
      ⊢ wp frame (wpE (defs₀ (F := F)) Variants.none c none) E (cc0__mlp_kernel i a0 ha0 a1 ha1 a2 ha2 a3 ha3 a4 ha4 a5 ha5 a6 ha6 a7 ha7 a8 ha8 a9 ha9) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover0_9 _)

/-- The pipeline's proof data on core `c`: the arrays as the call finds them; after the body at point `t` each input's
    buffer still at its block and the output's at `out0_9` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 4000000 in
/-- The body at any point: the inputs' memrefs hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdealBody1.lean ====
import proofs.«114257_j19911468384606_2_alg».proof.Proof.Gen.KernelIdeal.Launch
import proofs.«114257_j19911468384606_2_alg».proof.Proof.Gen.KernelIdeal.Skeleton
import proofs.«114257_j19911468384606_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
Pallas call 1 of the program, at any contents `V` of the core's buffers when the call is entered.
Each input window's staging buffer holds, at every grid point, the block of its array the point's index map selects;
the body reads those blocks through fixed rectangles, computes one value from them, and overwrites the whole
output block with it. So the output block after the body is one pure function (`out1_4`) of the input blocks,
which is what the pipeline's proof data record; the body's triple is obtained by symbolic execution.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the point fetched it or an
    earlier one did (the index map had not moved since). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, whether the point fetched it or an
    earlier one did (the index map had not moved since). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, whether the point fetched it or an
    earlier one did (the index map had not moved since). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, whether the point fetched it or an
    earlier one did (the index map had not moved since). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! The rectangles the body reads and writes through. -/

abbrev rg0 : Rect S8000x2 := Rect.unit (s := S8000x2) ![0, 0] S8000x1.size inb_S8000x2_S8000x1_0_0
abbrev rg1 : Rect S8000x2 := Rect.unit (s := S8000x2) ![0, 1] S8000x1.size inb_S8000x2_S8000x1_0_1
abbrev rh : Rect S8000x32 := Rect.unit (s := S8000x32) ![0, 0] S8000x32.size inb_S8000x32_S8000x32_0_0
abbrev rc1 : Rect S32 := Rect.unit (s := S32) ![0] S32.size inb_S32_S32_0

/-- The output block after the body, as a function of the input blocks: the one store's value over its rectangle. -/
def out1_4 (x0 : Vec F S8000x32 .f32) (x1 : Vec F S8000x2 .f32) (x2 : Vec F S32 .f32) (x3 : Vec F S32 .f32) : Vec F S8000x32 .f32 :=
  View.canon [⟨rh, k1_pay1 (View.ld x1 rg0) (View.ld x1 rg1) (View.ld x0 rh) (View.ld x2 rc1) (View.ld x3 rc1)⟩]

/-- The one store covers the whole output block. -/
theorem cover1_4 (p0 : Vec F S8000x32 .f32) (y : S8000x32.Idx) :
    ∃ pc ∈ ([⟨rh, p0⟩] : List (View.Piece (Elt F) S8000x32 .f32)), y ∈ pc.1.set :=
  View.cover_of_tiled [⟨rh, p0⟩] S8000x32.size (by rfl) y

set_option maxHeartbeats 4000000 in
/-- The body on whole staging memrefs, the inputs' at contents `xW` and the output's at anything, runs to a state
    holding the inputs' unchanged and the output's at `out1_4` of the inputs'. -/
theorem sound_kernel1 (c : Dev nD) (E : Set ℕ) (i : grid1.Coords) (a0 : Memref sig .tc .vmem S8000x32 .f32) (ha0 : a0.IsWhole) (a1 : Memref sig .tc .vmem S8000x2 .f32) (ha1 : a1.IsWhole) (a2 : Memref sig .tc .vmem S32 .f32) (ha2 : a2.IsWhole) (a3 : Memref sig .tc .vmem S32 .f32) (ha3 : a3.IsWhole) (a4 : Memref sig .tc .vmem S8000x32 .f32) (ha4 : a4.IsWhole)
    (x0 : Vec F S8000x32 .f32) (x1 : Vec F S8000x2 .f32) (x2 : Vec F S32 .f32) (x3 : Vec F S32 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ (∃ d, owns (c : Thread nD τ) a4 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare (out1_4 x0 x1 x2 x3)) -∗ K ⟨⟩))
      ⊢ wp frame (wpE (defs₀ (F := F)) Variants.none c none) E (cc1__norm_kernel i a0 ha0 a1 ha1 a2 ha2 a3 ha3 a4 ha4) K := by
  simp only [cc1__norm_kernel_eq_skeleton]; unfold cc1__norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover1_4 _)

/-- The pipeline's proof data on core `c`: the arrays as the call finds them; after the body at point `t` each input's
    buffer still at its block and the output's at `out1_4` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 4000000 in
/-- The body at any point: the inputs' memrefs hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealRun.lean ====
import proofs.«114257_j19911468384606_2_alg».proof.Proof.IdealBody0
import proofs.«114257_j19911468384606_2_alg».proof.Proof.IdealBody1

/-!
The whole run of the program: host operations, the first Pallas call, host operations, the second Pallas call.
The contents of the core's buffers at each boundary are a fold from the launch memory (`W0` … `W4`): a stretch of host
operations applies them in order; a Pallas call leaves its output array at what its grid points wrote back and every
other buffer as it was. The run's theorem says that every execution ends with every unscoped buffer at `W4`; the
argument arrays are written by nothing, so they read back to the launch memory.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first stretch of host operations (the first call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first call's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations (the second call's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second call's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! No host operation and no call writes an argument array, so the fold at an argument walks back to the launch memory. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg4) := (W2_arr m ρ c 2).trans (((dat0 (V1 m ρ) c).arrAt_in 2 rfl _).trans (A_eq0 (V1 m ρ) c 2))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg7) := (W2_arr m ρ c 3).trans (((dat0 (V1 m ρ) c).arrAt_in 3 rfl _).trans (A_eq0 (V1 m ρ) c 3))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg8) := (W2_arr m ρ c 4).trans (((dat0 (V1 m ρ) c).arrAt_in 4 rfl _).trans (A_eq0 (V1 m ρ) c 4))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := (W4_arr m ρ c 2).trans (((dat1 (V3 m ρ) c).arrAt_in 2 rfl _).trans (A_eq1 (V3 m ρ) c 2))
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg9) := rfl

theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := (W4_arr m ρ c 3).trans (((dat1 (V3 m ρ) c).arrAt_in 3 rfl _).trans (A_eq1 (V3 m ρ) c 3))
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg10) := rfl

theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg11) := rfl

theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg12) := (W2_arr m ρ c 6).trans (((dat0 (V1 m ρ) c).arrAt_in 6 rfl _).trans (A_eq0 (V1 m ρ) c 6))
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg12) := rfl

theorem W4_main_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg13) := rfl

theorem W4_main_arg14 (c : Dev nD) : W4 m ρ c (Proc.devRef .tc main_arg14) = m ((c : Thread nD τ).loc main_arg14) :=
  calc W4 m ρ c (Proc.devRef .tc main_arg14)
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg14) := (W2_arr m ρ c 8).trans (((dat0 (V1 m ρ) c).arrAt_in 8 rfl _).trans (A_eq0 (V1 m ρ) c 8))
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg14) := rfl

/-! The proof data family and the thread state. -/

abbrev adm : (p : Fin 2) → (pcfgs (F := F) p).Adm := fun p => (cfgs p).toPCfg_adm
/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation of the first stretch allocates a buffer. -/
theorem hostOps0_fresh : (hostOps0 : List (HloOp τ sig (Elt F))).Forall fun op => op.fresh = ∅ := by
  simp only [List.Forall]; repeat' constructor
/-- Nor of the second. -/
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

set_option backward.isDefEq.respectTransparency.types false in
/-- Pallas call 0 over the thread state: entered from every unscoped buffer at `W1`, left at `W2`. Its arrays are split
    out of the unscoped buffers and put back at the exit contents; the generator register goes into the call's invariant
    and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 over the thread state: entered from every unscoped buffer at `W3`, left at `W4`. Its arrays are split
    out of the unscoped buffers and put back at the exit contents; the generator register goes into the call's invariant
    and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's four segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of the program terminates without a fault, and ends with every unscoped buffer of
    every core at the fold's last contents `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The program's frame: it runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c),
    (h c _ (mem_uc main_arg11 (by decide))).trans (W4_main_arg11 m ρ c),
    (h c _ (mem_uc main_arg12 (by decide))).trans (W4_main_arg12 m ρ c),
    (h c _ (mem_uc main_arg13 (by decide))).trans (W4_main_arg13 m ρ c),
    (h c _ (mem_uc main_arg14 (by decide))).trans (W4_main_arg14 m ρ c)⟩) (run_main m ρ)

/-- The result array ends at what the second call's grid points wrote back. -/
theorem result_eq (c : Dev nD) : W4 m ρ c (Proc.devRef .tc main_v205) = (dat1 (V3 m ρ) c).arrAt 4 cfg1.N :=
  W4_arr m ρ c 4

end Cert.KernelIdeal.Hand

end
-- ==== Proof.KernelTerms.lean ====
import proofs.«114257_j19911468384606_2_alg».proof.KernelIdeal
import proofs.«114257_j19911468384606_2_alg».proof.Proof.Gen.KernelIdeal
import proofs.«114257_j19911468384606_2_alg».proof.Proof.RefReadP

/-!
The kernel program's host-side arrays as terms of the argument arrays. Where the kernel program applies the same
operations as the reference, the reference's stages are named; where it differs — the per-segment variance computed in
one pass as mean of squares minus squared mean, floored at zero — the operations are spelt. The normalised node features
are a function `hnOf` of the inverse deviation array, the packed pair `hnPairOf` of the node features, the statistics
arrays `stats3Of` and `stats2Of` of the per-segment mean and inverse deviation gathered back to the rows.
-/

noncomputable section

namespace Cert.KernelIdeal.KT

open Cert.KernelIdeal Cert.KernelIdeal.Gen
open Idealize.ShloMosaic Idealize.ShloMosaic.TcCoe

abbrev zero256 : FVec Ideal S256 .f32 := broadcastInDim S256 ![] bcast_S_S256 (constant (F := Ideal) S_ .f32 0x00000000#32)
abbrev eps256 : FVec Ideal S256 .f32 := broadcastInDim S256 ![] bcast_S_S256 (constant (F := Ideal) S_ .f32 0x3727C5AC#32)

section Nodes
variable (x0 : IVec S50000 32) (x2 : FVec Ideal S50000x64 .f32) (x5 x6 : FVec Ideal S64 .f32) (x3 : IVec S2x800000 32)

/-- The node features' per-segment variance in one pass: mean of squares minus squared mean, floored at zero. -/
def kvarH : FVec Ideal S256 .f32 :=
  maximumf (subf (Host.divf (Host.scatterAdd scatter_S256_S50000x1_S50000_n_0_0_1 zero256
      (broadcastInDim S50000x1 ![0] bcast_S50000_S50000x1_0 x0)
      (Host.reduceAdd (mulf x2 x2) (constant (F := Ideal) S_ .f32 0x00000000#32) reducesTo_S50000x64_S50000_d1 h_S_))
      (Cert.ReferenceIdeal.ReadP.val_main_v27 (F := Ideal) x0))
    (mulf (Cert.ReferenceIdeal.ReadP.val_main_v32 (F := Ideal) x0 x2) (Cert.ReferenceIdeal.ReadP.val_main_v32 (F := Ideal) x0 x2))) zero256

/-- Its inverse deviation. -/
def kinvH : FVec Ideal S256 .f32 := Host.rsqrt (addf (kvarH x0 x2) eps256)

/-- The normalised node features from an inverse deviation array. -/
def hnOf (inv : FVec Ideal S256 .f32) : FVec Ideal S50000x64 .f32 :=
  addf (mulf (mulf (Cert.ReferenceIdeal.ReadP.val_main_v42 (F := Ideal) x0 x2)
      (broadcastInDim S50000x64 ![0, 1] bcast_S50000x1_S50000x64_0_1 (broadcastInDim S50000x1 ![0] bcast_S50000_S50000x1_0
        (Host.gather gather_S256_S50000x1_S50000_n_0_n_n_0_1_1 inv (Cert.ReferenceIdeal.ReadP.val_main_v57 (F := Ideal) x0)))))
      (Cert.ReferenceIdeal.ReadP.val_main_v63 (F := Ideal) x5)) (Cert.ReferenceIdeal.ReadP.val_main_v66 (F := Ideal) x6)

/-- The target's and the source's node features of every edge, side by side. -/
def hnPairOf (hn : FVec Ideal S50000x64 .f32) : FVec Ideal S800000x128 .f32 :=
  concatenate S800000x128 1
    [⟨S800000x64, Host.gather gather_S50000x64_S800000x1_S800000x64_1_0_n_n_0_1_164 hn (Cert.ReferenceIdeal.ReadP.val_main_v150 (F := Ideal) x3)⟩,
     ⟨S800000x64, Host.gather gather_S50000x64_S800000x1_S800000x64_1_0_n_n_0_1_164 hn (Cert.ReferenceIdeal.ReadP.val_main_v157 (F := Ideal) x3)⟩]
    concatenates_S800000x64_S800000x64_S800000x128_d1
end Nodes

section Edges
variable (eb : IVec S800000 32) (x : FVec Ideal S800000x32 .f32)

abbrev ebIdx : IVec S800000x1 32 := broadcastInDim S800000x1 ![0] bcast_S800000_S800000x1_0 eb

/-- Rows per segment times 32, at least one. -/
def kdenE : FVec Ideal S256 .f32 :=
  maximumf (mulf (Host.scatterAdd scatter_S256_S800000x1_S800000_n_0_0_1 zero256 (ebIdx eb)
      (broadcastInDim S800000 ![] bcast_S_S800000 (constant (F := Ideal) S_ .f32 0x3F800000#32)))
    (broadcastInDim S256 ![] bcast_S_S256 (constant (F := Ideal) S_ .f32 0x42000000#32)))
    (broadcastInDim S256 ![] bcast_S_S256 (constant (F := Ideal) S_ .f32 0x3F800000#32))

/-- The per-segment mean of an edge array. -/
def kmeanE : FVec Ideal S256 .f32 :=
  Host.divf (Host.scatterAdd scatter_S256_S800000x1_S800000_n_0_0_1 zero256 (ebIdx eb)
    (Host.reduceAdd x (constant (F := Ideal) S_ .f32 0x00000000#32) reducesTo_S800000x32_S800000_d1 h_S_)) (kdenE eb)

/-- Its per-segment variance in one pass. -/
def kvarE : FVec Ideal S256 .f32 :=
  maximumf (subf (Host.divf (Host.scatterAdd scatter_S256_S800000x1_S800000_n_0_0_1 zero256 (ebIdx eb)
      (Host.reduceAdd (mulf x x) (constant (F := Ideal) S_ .f32 0x00000000#32) reducesTo_S800000x32_S800000_d1 h_S_)) (kdenE eb))
    (mulf (kmeanE eb x) (kmeanE eb x))) zero256

def kinvE : FVec Ideal S256 .f32 := Host.rsqrt (addf (kvarE eb x) eps256)

/-- The segment index as the gathers take it: negative indices wrapped by 256. -/
def knormIdx : IVec S800000x1 32 :=
  broadcastInDim S800000x1 ![0] bcast_S800000_S800000x1_0
    (select (cmpi .slt eb (broadcastInDim S800000 ![] bcast_S_S800000 (constantI S_ 32 0#32)))
      (addi eb (broadcastInDim S800000 ![] bcast_S_S800000 (constantI S_ 32 256#32))) eb)

/-- A per-segment array gathered back to the rows, as a column. -/
def kgath (y : FVec Ideal S256 .f32) : FVec Ideal S800000x1 .f32 :=
  broadcastInDim S800000x1 ![0] bcast_S800000_S800000x1_0 (Host.gather gather_S256_S800000x1_S800000_n_0_n_n_0_1_1 y (knormIdx eb))

/-- The second call's statistics array: mean and inverse deviation of each row's segment. -/
def stats2Of : FVec Ideal S800000x2 .f32 :=
  concatenate S800000x2 1 [⟨S800000x1, kgath eb (kmeanE eb x)⟩, ⟨S800000x1, kgath eb (kinvE eb x)⟩]
    concatenates_S800000x1_S800000x1_S800000x2_d1

/-- The first call's statistics array: squared distance, mean and inverse deviation of each row's segment. -/
def stats3Of (d : FVec Ideal S800000x1 .f32) : FVec Ideal S800000x3 .f32 :=
  concatenate S800000x3 1 [⟨S800000x1, d⟩, ⟨S800000x1, kgath eb (kmeanE eb x)⟩, ⟨S800000x1, kgath eb (kinvE eb x)⟩]
    concatenates_S800000x1_S800000x1_S800000x1_S800000x3_d1
end Edges

end Cert.KernelIdeal.KT

end
-- ==== Proof.KernelChunks.lean ====
/- GENERATED by scratch/gen_chunks.js from proof/KernelIdeal.lean's @main (bun scratch/gen_chunks.js): a table of definitional
   unfoldings, one per buffer that crosses a boundary of the four windows the first stretch of host operations is printed in
   (and of the second stretch, whole). Each equation says what the window's operations leave in one buffer, as the
   operations' composed term of the buffers the window finds; it holds by evaluating the fold of the window's operations. -/
import proofs.«114257_j19911468384606_2_alg».proof.Proof.Gen.KernelIdeal.Launch
import Idealize.ShloMosaic.Lib.StableHlo.Run
import Idealize.ShloMosaic.Lib.Tactic

set_option maxRecDepth 16384

noncomputable section

namespace Cert.KernelIdeal.Chunks

open Cert.KernelIdeal Cert.KernelIdeal.Gen
open Idealize.ShloMosaic Idealize.ShloMosaic.TcCoe Idealize.ShloMosaic.Tactic Idealize.SL.Sem

variable {F : FTy → Type} [FloatOps F]

/-- Running two lists of host operations one after the other is running their concatenation. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op ops ih => exact ih _

/-- The first stretch of host operations is its four windows in order. -/
theorem hostOps0_split : (hostOps0 : List (HloOp τ sig (Elt F))) = main_part0_ops0 ++ main_part1_ops0 ++ main_part2_ops0 ++ main_part3_ops0 := by
  sl_kernel_rfl

variable (W : Valuation τ sig (Elt F))

/-! Window 0 of the first stretch. -/

theorem c0_v1 : StableHlo.after main_part0_ops0 W (Proc.devRef .tc main_v1) = (shapeCast S800000 (((extractStridedSlice S1x800000 ![0, 0] · slices_S2x800000_S1x800000_0_0) : (⟨S2x800000, .i32⟩ : BufTy).Contents (Elt F) → (⟨S1x800000, .i32⟩ : BufTy).Contents (Elt F)) (W (Proc.devRef .tc main_arg3))) shapeCasts_S1x800000_S800000) := by
  sl_kernel_rfl
theorem c0_v23 : StableHlo.after main_part0_ops0 W (Proc.devRef .tc main_v23) = ((subf : (⟨S50000x3, .f32⟩ : BufTy).Contents (Elt F) → (⟨S50000x3, .f32⟩ : BufTy).Contents (Elt F) → (⟨S50000x3, .f32⟩ : BufTy).Contents (Elt F)) (W (Proc.devRef .tc main_arg1)) (((fun x i => Host.gather gather_S256x3_S50000x1_S50000x3_1_0_n_n_0_1_13 x i) : (⟨S256x3, .f32⟩ : BufTy).Contents (Elt F) → (⟨S50000x1, .i32⟩ : BufTy).Contents (Elt F) → (⟨S50000x3, .f32⟩ : BufTy).Contents (Elt F)) ((Host.divf : (⟨S256x3, .f32⟩ : BufTy).Contents (Elt F) → (⟨S256x3, .f32⟩ : BufTy).Contents (Elt F) → (⟨S256x3, .f32⟩ : BufTy).Contents (Elt F)) (((fun x i u => Host.scatterAdd scatter_S256x3_S50000x1_S50000x3_1_0_0_1 x i u) : (⟨S256x3, .f32⟩ : BufTy).Contents (Elt F) → (⟨S50000x1, .i32⟩ : BufTy).Contents (Elt F) → (⟨S50000x3, .f32⟩ : BufTy).Contents (Elt F) → (⟨S256x3, .f32⟩ : BufTy).Contents (Elt F)) ((broadcastInDim S256x3 ![] bcast_S_S256x3 : (⟨S_, .f32⟩ : BufTy).Contents (Elt F) → (⟨S256x3, .f32⟩ : BufTy).Contents (Elt F)) ((constant S_ .f32 0x00000000#32) : FVec F S_ .f32)) ((broadcastInDim S50000x1 ![0] bcast_S50000_S50000x1_0 : (⟨S50000, .i32⟩ : BufTy).Contents (Elt F) → (⟨S50000x1, .i32⟩ : BufTy).Contents (Elt F)) (W (Proc.devRef .tc main_arg0))) (W (Proc.devRef .tc main_arg1))) ((broadcastInDim S256x3 ![0, 1] bcast_S256x1_S256x3_0_1 : (⟨S256x1, .f32⟩ : BufTy).Contents (Elt F) → (⟨S256x3, .f32⟩ : BufTy).Contents (Elt F)) ((broadcastInDim S256x1 ![0] bcast_S256_S256x1_0 : (⟨S256, .f32⟩ : BufTy).Contents (Elt F) → (⟨S256x1, .f32⟩ : BufTy).Contents (Elt F)) ((maximumf : (⟨S256, .f32⟩ : BufTy).Contents (Elt F) → (⟨S256, .f32⟩ : BufTy).Contents (Elt F) → (⟨S256, .f32⟩ : BufTy).Contents (Elt F)) (((fun x i u => Host.scatterAdd scatter_S256_S50000x1_S50000_n_0_0_1 x i u) : (⟨S256, .f32⟩ : BufTy).Contents (Elt F) → (⟨S50000x1, .i32⟩ : BufTy).Contents (Elt F) → (⟨S50000, .f32⟩ : BufTy).Contents (Elt F) → (⟨S256, .f32⟩ : BufTy).Contents (Elt F)) ((broadcastInDim S256 ![] bcast_S_S256 : (⟨S_, .f32⟩ : BufTy).Contents (Elt F) → (⟨S256, .f32⟩ : BufTy).Contents (Elt F)) ((constant S_ .f32 0x00000000#32) : FVec F S_ .f32)) ((broadcastInDim S50000x1 ![0] bcast_S50000_S50000x1_0 : (⟨S50000, .i32⟩ : BufTy).Contents (Elt F) → (⟨S50000x1, .i32⟩ : BufTy).Contents (Elt F)) (W (Proc.devRef .tc main_arg0))) ((broadcastInDim S50000 ![] bcast_S_S50000 : (⟨S_, .f32⟩ : BufTy).Contents (Elt F) → (⟨S50000, .f32⟩ : BufTy).Contents (Elt F)) ((constant S_ .f32 0x3F800000#32) : FVec F S_ .f32))) ((broadcastInDim S256 ![] bcast_S_S256 : (⟨S_, .f32⟩ : BufTy).Contents (Elt F) → (⟨S256, .f32⟩ : BufTy).Contents (Elt F)) ((constant S_ .f32 0x3F800000#32) : FVec F S_ .f32)))))) ((broadcastInDim S50000x1 ![0] bcast_S50000_S50000x1_0 : (⟨S50000, .i32⟩ : BufTy).Contents (Elt F) → (⟨S50000x1, .i32⟩ : BufTy).Contents (Elt F)) ((select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)) ((cmpi .slt : (⟨S50000, .i32⟩ : BufTy).Contents (Elt F) → (⟨S50000, .i32⟩ : BufTy).Contents (Elt F) → (⟨S50000, .i1⟩ : BufTy).Contents (Elt F)) (W (Proc.devRef .tc main_arg0)) ((broadcastInDim S50000 ![] bcast_S_S50000 : (⟨S_, .i32⟩ : BufTy).Contents (Elt F) → (⟨S50000, .i32⟩ : BufTy).Contents (Elt F)) (constantI S_ 32 0#32))) ((addi : (⟨S50000, .i32⟩ : BufTy).Contents (Elt F) → (⟨S50000, .i32⟩ : BufTy).Contents (Elt F) → (⟨S50000, .i32⟩ : BufTy).Contents (Elt F)) (W (Proc.devRef .tc main_arg0)) ((broadcastInDim S50000 ![] bcast_S_S50000 : (⟨S_, .i32⟩ : BufTy).Contents (Elt F) → (⟨S50000, .i32⟩ : BufTy).Contents (Elt F)) (constantI S_ 32 256#32))) (W (Proc.devRef .tc main_arg0)))))) := by
  sl_kernel_rfl
theorem c0_v3 : StableHlo.after main_part0_ops0 W (Proc.devRef .tc main_v3) = (shapeCast S800000 (((extractStridedSlice S1x800000 ![1, 0] · slices_S2x800000_S1x800000_1_0) : (⟨S2x800000, .i32⟩ : BufTy).Contents (Elt F) → (⟨S1x800000, .i32⟩ : BufTy).Contents (Elt F)) (W (Proc.devRef .tc main_arg3))) shapeCasts_S1x800000_S800000) := by
  sl_kernel_rfl
theorem c0_v41 : StableHlo.after main_part0_ops0 W (Proc.devRef .tc main_v41) = ((Host.divf : (⟨S256, .f32⟩ : BufTy).Contents (Elt F) → (⟨S256, .f32⟩ : BufTy).Contents (Elt F) → (⟨S256, .f32⟩ : BufTy).Contents (Elt F)) (((fun x i u => Host.scatterAdd scatter_S256_S50000x1_S50000_n_0_0_1 x i u) : (⟨S256, .f32⟩ : BufTy).Contents (Elt F) → (⟨S50000x1, .i32⟩ : BufTy).Contents (Elt F) → (⟨S50000, .f32⟩ : BufTy).Contents (Elt F) → (⟨S256, .f32⟩ : BufTy).Contents (Elt F)) ((broadcastInDim S256 ![] bcast_S_S256 : (⟨S_, .f32⟩ : BufTy).Contents (Elt F) → (⟨S256, .f32⟩ : BufTy).Contents (Elt F)) ((constant S_ .f32 0x00000000#32) : FVec F S_ .f32)) ((broadcastInDim S50000x1 ![0] bcast_S50000_S50000x1_0 : (⟨S50000, .i32⟩ : BufTy).Contents (Elt F) → (⟨S50000x1, .i32⟩ : BufTy).Contents (Elt F)) (W (Proc.devRef .tc main_arg0))) (((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)) (W (Proc.devRef .tc main_arg2)) ((constant S_ .f32 0x00000000#32) : FVec F S_ .f32))) ((maximumf : (⟨S256, .f32⟩ : BufTy).Contents (Elt F) → (⟨S256, .f32⟩ : BufTy).Contents (Elt F) → (⟨S256, .f32⟩ : BufTy).Contents (Elt F)) ((mulf : (⟨S256, .f32⟩ : BufTy).Contents (Elt F) → (⟨S256, .f32⟩ : BufTy).Contents (Elt F) → (⟨S256, .f32⟩ : BufTy).Contents (Elt F)) (((fun x i u => Host.scatterAdd scatter_S256_S50000x1_S50000_n_0_0_1 x i u) : (⟨S256, .f32⟩ : BufTy).Contents (Elt F) → (⟨S50000x1, .i32⟩ : BufTy).Contents (Elt F) → (⟨S50000, .f32⟩ : BufTy).Contents (Elt F) → (⟨S256, .f32⟩ : BufTy).Contents (Elt F)) ((broadcastInDim S256 ![] bcast_S_S256 : (⟨S_, .f32⟩ : BufTy).Contents (Elt F) → (⟨S256, .f32⟩ : BufTy).Contents (Elt F)) ((constant S_ .f32 0x00000000#32) : FVec F S_ .f32)) ((broadcastInDim S50000x1 ![0] bcast_S50000_S50000x1_0 : (⟨S50000, .i32⟩ : BufTy).Contents (Elt F) → (⟨S50000x1, .i32⟩ : BufTy).Contents (Elt F)) (W (Proc.devRef .tc main_arg0))) ((broadcastInDim S50000 ![] bcast_S_S50000 : (⟨S_, .f32⟩ : BufTy).Contents (Elt F) → (⟨S50000, .f32⟩ : BufTy).Contents (Elt F)) ((constant S_ .f32 0x3F800000#32) : FVec F S_ .f32))) ((broadcastInDim S256 ![] bcast_S_S256 : (⟨S_, .f32⟩ : BufTy).Contents (Elt F) → (⟨S256, .f32⟩ : BufTy).Contents (Elt F)) ((constant S_ .f32 0x42800000#32) : FVec F S_ .f32))) ((broadcastInDim S256 ![] bcast_S_S256 : (⟨S_, .f32⟩ : BufTy).Contents (Elt F) → (⟨S256, .f32⟩ : BufTy).Contents (Elt F)) ((constant S_ .f32 0x3F800000#32) : FVec F S_ .f32)))) := by
  sl_kernel_rfl
theorem c0_v44 : StableHlo.after main_part0_ops0 W (Proc.devRef .tc main_v44) = ((subf : (⟨S256, .f32⟩ : BufTy).Contents (Elt F) → (⟨S256, .f32⟩ : BufTy).Contents (Elt F) → (⟨S256, .f32⟩ : BufTy).Contents (Elt F)) ((Host.divf : (⟨S256, .f32⟩ : BufTy).Contents (Elt F) → (⟨S256, .f32⟩ : BufTy).Contents (Elt F) → (⟨S256, .f32⟩ : BufTy).Contents (Elt F)) (((fun x i u => Host.scatterAdd scatter_S256_S50000x1_S50000_n_0_0_1 x i u) : (⟨S256, .f32⟩ : BufTy).Contents (Elt F) → (⟨S50000x1, .i32⟩ : BufTy).Contents (Elt F) → (⟨S50000, .f32⟩ : BufTy).Contents (Elt F) → (⟨S256, .f32⟩ : BufTy).Contents (Elt F)) ((broadcastInDim S256 ![] bcast_S_S256 : (⟨S_, .f32⟩ : BufTy).Contents (Elt F) → (⟨S256, .f32⟩ : BufTy).Contents (Elt F)) ((constant S_ .f32 0x00000000#32) : FVec F S_ .f32)) ((broadcastInDim S50000x1 ![0] bcast_S50000_S50000x1_0 : (⟨S50000, .i32⟩ : BufTy).Contents (Elt F) → (⟨S50000x1, .i32⟩ : BufTy).Contents (Elt F)) (W (Proc.devRef .tc main_arg0))) (((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)) ((mulf : (⟨S50000x64, .f32⟩ : BufTy).Contents (Elt F) → (⟨S50000x64, .f32⟩ : BufTy).Contents (Elt F) → (⟨S50000x64, .f32⟩ : BufTy).Contents (Elt F)) (W (Proc.devRef .tc main_arg2)) (W (Proc.devRef .tc main_arg2))) ((constant S_ .f32 0x00000000#32) : FVec F S_ .f32))) ((maximumf : (⟨S256, .f32⟩ : BufTy).Contents (Elt F) → (⟨S256, .f32⟩ : BufTy).Contents (Elt F) → (⟨S256, .f32⟩ : BufTy).Contents (Elt F)) ((mulf : (⟨S256, .f32⟩ : BufTy).Contents (Elt F) → (⟨S256, .f32⟩ : BufTy).Contents (Elt F) → (⟨S256, .f32⟩ : BufTy).Contents (Elt F)) (((fun x i u => Host.scatterAdd scatter_S256_S50000x1_S50000_n_0_0_1 x i u) : (⟨S256, .f32⟩ : BufTy).Contents (Elt F) → (⟨S50000x1, .i32⟩ : BufTy).Contents (Elt F) → (⟨S50000, .f32⟩ : BufTy).Contents (Elt F) → (⟨S256, .f32⟩ : BufTy).Contents (Elt F)) ((broadcastInDim S256 ![] bcast_S_S256 : (⟨S_, .f32⟩ : BufTy).Contents (Elt F) → (⟨S256, .f32⟩ : BufTy).Contents (Elt F)) ((constant S_ .f32 0x00000000#32) : FVec F S_ .f32)) ((broadcastInDim S50000x1 ![0] bcast_S50000_S50000x1_0 : (⟨S50000, .i32⟩ : BufTy).Contents (Elt F) → (⟨S50000x1, .i32⟩ : BufTy).Contents (Elt F)) (W (Proc.devRef .tc main_arg0))) ((broadcastInDim S50000 ![] bcast_S_S50000 : (⟨S_, .f32⟩ : BufTy).Contents (Elt F) → (⟨S50000, .f32⟩ : BufTy).Contents (Elt F)) ((constant S_ .f32 0x3F800000#32) : FVec F S_ .f32))) ((broadcastInDim S256 ![] bcast_S_S256 : (⟨S_, .f32⟩ : BufTy).Contents (Elt F) → (⟨S256, .f32⟩ : BufTy).Contents (Elt F)) ((constant S_ .f32 0x42800000#32) : FVec F S_ .f32))) ((broadcastInDim S256 ![] bcast_S_S256 : (⟨S_, .f32⟩ : BufTy).Contents (Elt F) → (⟨S256, .f32⟩ : BufTy).Contents (Elt F)) ((constant S_ .f32 0x3F800000#32) : FVec F S_ .f32)))) ((mulf : (⟨S256, .f32⟩ : BufTy).Contents (Elt F) → (⟨S256, .f32⟩ : BufTy).Contents (Elt F) → (⟨S256, .f32⟩ : BufTy).Contents (Elt F)) ((Host.divf : (⟨S256, .f32⟩ : BufTy).Contents (Elt F) → (⟨S256, .f32⟩ : BufTy).Contents (Elt F) → (⟨S256, .f32⟩ : BufTy).Contents (Elt F)) (((fun x i u => Host.scatterAdd scatter_S256_S50000x1_S50000_n_0_0_1 x i u) : (⟨S256, .f32⟩ : BufTy).Contents (Elt F) → (⟨S50000x1, .i32⟩ : BufTy).Contents (Elt F) → (⟨S50000, .f32⟩ : BufTy).Contents (Elt F) → (⟨S256, .f32⟩ : BufTy).Contents (Elt F)) ((broadcastInDim S256 ![] bcast_S_S256 : (⟨S_, .f32⟩ : BufTy).Contents (Elt F) → (⟨S256, .f32⟩ : BufTy).Contents (Elt F)) ((constant S_ .f32 0x00000000#32) : FVec F S_ .f32)) ((broadcastInDim S50000x1 ![0] bcast_S50000_S50000x1_0 : (⟨S50000, .i32⟩ : BufTy).Contents (Elt F) → (⟨S50000x1, .i32⟩ : BufTy).Contents (Elt F)) (W (Proc.devRef .tc main_arg0))) (((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)) (W (Proc.devRef .tc main_arg2)) ((constant S_ .f32 0x00000000#32) : FVec F S_ .f32))) ((maximumf : (⟨S256, .f32⟩ : BufTy).Contents (Elt F) → (⟨S256, .f32⟩ : BufTy).Contents (Elt F) → (⟨S256, .f32⟩ : BufTy).Contents (Elt F)) ((mulf : (⟨S256, .f32⟩ : BufTy).Contents (Elt F) → (⟨S256, .f32⟩ : BufTy).Contents (Elt F) → (⟨S256, .f32⟩ : BufTy).Contents (Elt F)) (((fun x i u => Host.scatterAdd scatter_S256_S50000x1_S50000_n_0_0_1 x i u) : (⟨S256, .f32⟩ : BufTy).Contents (Elt F) → (⟨S50000x1, .i32⟩ : BufTy).Contents (Elt F) → (⟨S50000, .f32⟩ : BufTy).Contents (Elt F) → (⟨S256, .f32⟩ : BufTy).Contents (Elt F)) ((broadcastInDim S256 ![] bcast_S_S256 : (⟨S_, .f32⟩ : BufTy).Contents (Elt F) → (⟨S256, .f32⟩ : BufTy).Contents (Elt F)) ((constant S_ .f32 0x00000000#32) : FVec F S_ .f32)) ((broadcastInDim S50000x1 ![0] bcast_S50000_S50000x1_0 : (⟨S50000, .i32⟩ : BufTy).Contents (Elt F) → (⟨S50000x1, .i32⟩ : BufTy).Contents (Elt F)) (W (Proc.devRef .tc main_arg0))) ((broadcastInDim S50000 ![] bcast_S_S50000 : (⟨S_, .f32⟩ : BufTy).Contents (Elt F) → (⟨S50000, .f32⟩ : BufTy).Contents (Elt F)) ((constant S_ .f32 0x3F800000#32) : FVec F S_ .f32))) ((broadcastInDim S256 ![] bcast_S_S256 : (⟨S_, .f32⟩ : BufTy).Contents (Elt F) → (⟨S256, .f32⟩ : BufTy).Contents (Elt F)) ((constant S_ .f32 0x42800000#32) : FVec F S_ .f32))) ((broadcastInDim S256 ![] bcast_S_S256 : (⟨S_, .f32⟩ : BufTy).Contents (Elt F) → (⟨S256, .f32⟩ : BufTy).Contents (Elt F)) ((constant S_ .f32 0x3F800000#32) : FVec F S_ .f32)))) ((Host.divf : (⟨S256, .f32⟩ : BufTy).Contents (Elt F) → (⟨S256, .f32⟩ : BufTy).Contents (Elt F) → (⟨S256, .f32⟩ : BufTy).Contents (Elt F)) (((fun x i u => Host.scatterAdd scatter_S256_S50000x1_S50000_n_0_0_1 x i u) : (⟨S256, .f32⟩ : BufTy).Contents (Elt F) → (⟨S50000x1, .i32⟩ : BufTy).Contents (Elt F) → (⟨S50000, .f32⟩ : BufTy).Contents (Elt F) → (⟨S256, .f32⟩ : BufTy).Contents (Elt F)) ((broadcastInDim S256 ![] bcast_S_S256 : (⟨S_, .f32⟩ : BufTy).Contents (Elt F) → (⟨S256, .f32⟩ : BufTy).Contents (Elt F)) ((constant S_ .f32 0x00000000#32) : FVec F S_ .f32)) ((broadcastInDim S50000x1 ![0] bcast_S50000_S50000x1_0 : (⟨S50000, .i32⟩ : BufTy).Contents (Elt F) → (⟨S50000x1, .i32⟩ : BufTy).Contents (Elt F)) (W (Proc.devRef .tc main_arg0))) (((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)) (W (Proc.devRef .tc main_arg2)) ((constant S_ .f32 0x00000000#32) : FVec F S_ .f32))) ((maximumf : (⟨S256, .f32⟩ : BufTy).Contents (Elt F) → (⟨S256, .f32⟩ : BufTy).Contents (Elt F) → (⟨S256, .f32⟩ : BufTy).Contents (Elt F)) ((mulf : (⟨S256, .f32⟩ : BufTy).Contents (Elt F) → (⟨S256, .f32⟩ : BufTy).Contents (Elt F) → (⟨S256, .f32⟩ : BufTy).Contents (Elt F)) (((fun x i u => Host.scatterAdd scatter_S256_S50000x1_S50000_n_0_0_1 x i u) : (⟨S256, .f32⟩ : BufTy).Contents (Elt F) → (⟨S50000x1, .i32⟩ : BufTy).Contents (Elt F) → (⟨S50000, .f32⟩ : BufTy).Contents (Elt F) → (⟨S256, .f32⟩ : BufTy).Contents (Elt F)) ((broadcastInDim S256 ![] bcast_S_S256 : (⟨S_, .f32⟩ : BufTy).Contents (Elt F) → (⟨S256, .f32⟩ : BufTy).Contents (Elt F)) ((constant S_ .f32 0x00000000#32) : FVec F S_ .f32)) ((broadcastInDim S50000x1 ![0] bcast_S50000_S50000x1_0 : (⟨S50000, .i32⟩ : BufTy).Contents (Elt F) → (⟨S50000x1, .i32⟩ : BufTy).Contents (Elt F)) (W (Proc.devRef .tc main_arg0))) ((broadcastInDim S50000 ![] bcast_S_S50000 : (⟨S_, .f32⟩ : BufTy).Contents (Elt F) → (⟨S50000, .f32⟩ : BufTy).Contents (Elt F)) ((constant S_ .f32 0x3F800000#32) : FVec F S_ .f32))) ((broadcastInDim S256 ![] bcast_S_S256 : (⟨S_, .f32⟩ : BufTy).Contents (Elt F) → (⟨S256, .f32⟩ : BufTy).Contents (Elt F)) ((constant S_ .f32 0x42800000#32) : FVec F S_ .f32))) ((broadcastInDim S256 ![] bcast_S_S256 : (⟨S_, .f32⟩ : BufTy).Contents (Elt F) → (⟨S256, .f32⟩ : BufTy).Contents (Elt F)) ((constant S_ .f32 0x3F800000#32) : FVec F S_ .f32)))))) := by
  sl_kernel_rfl
theorem c0_cst_12 : StableHlo.after main_part0_ops0 W (Proc.devRef .tc main_cst_12) = ((constant S_ .f32 0x00000000#32) : FVec F S_ .f32) := by
  sl_kernel_rfl
theorem k0_arg4 : StableHlo.after main_part0_ops0 W (Proc.devRef .tc main_arg4) = W (Proc.devRef .tc main_arg4) := by
  sl_kernel_rfl
theorem k0_arg7 : StableHlo.after main_part0_ops0 W (Proc.devRef .tc main_arg7) = W (Proc.devRef .tc main_arg7) := by
  sl_kernel_rfl
theorem k0_arg8 : StableHlo.after main_part0_ops0 W (Proc.devRef .tc main_arg8) = W (Proc.devRef .tc main_arg8) := by
  sl_kernel_rfl
theorem k0_arg12 : StableHlo.after main_part0_ops0 W (Proc.devRef .tc main_arg12) = W (Proc.devRef .tc main_arg12) := by
  sl_kernel_rfl
theorem k0_arg14 : StableHlo.after main_part0_ops0 W (Proc.devRef .tc main_arg14) = W (Proc.devRef .tc main_arg14) := by
  sl_kernel_rfl
theorem k0_arg9 : StableHlo.after main_part0_ops0 W (Proc.devRef .tc main_arg9) = W (Proc.devRef .tc main_arg9) := by
  sl_kernel_rfl
theorem k0_arg10 : StableHlo.after main_part0_ops0 W (Proc.devRef .tc main_arg10) = W (Proc.devRef .tc main_arg10) := by
  sl_kernel_rfl
theorem k0_arg13 : StableHlo.after main_part0_ops0 W (Proc.devRef .tc main_arg13) = W (Proc.devRef .tc main_arg13) := by
  sl_kernel_rfl
theorem k0_arg11 : StableHlo.after main_part0_ops0 W (Proc.devRef .tc main_arg11) = W (Proc.devRef .tc main_arg11) := by
  sl_kernel_rfl
theorem k0_arg0 : StableHlo.after main_part0_ops0 W (Proc.devRef .tc main_arg0) = W (Proc.devRef .tc main_arg0) := by
  sl_kernel_rfl
theorem k0_arg6 : StableHlo.after main_part0_ops0 W (Proc.devRef .tc main_arg6) = W (Proc.devRef .tc main_arg6) := by
  sl_kernel_rfl
theorem k0_arg5 : StableHlo.after main_part0_ops0 W (Proc.devRef .tc main_arg5) = W (Proc.devRef .tc main_arg5) := by
  sl_kernel_rfl
theorem k0_arg2 : StableHlo.after main_part0_ops0 W (Proc.devRef .tc main_arg2) = W (Proc.devRef .tc main_arg2) := by
  sl_kernel_rfl

/-! Window 1 of the first stretch. -/

theorem c1_v90 : StableHlo.after main_part1_ops0 W (Proc.devRef .tc main_v90) = (((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)) (((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ((addf : (⟨S50000x64, .f32⟩ : BufTy).Contents (Elt F) → (⟨S50000x64, .f32⟩ : BufTy).Contents (Elt F) → (⟨S50000x64, .f32⟩ : BufTy).Contents (Elt F)) ((mulf : (⟨S50000x64, .f32⟩ : BufTy).Contents (Elt F) → (⟨S50000x64, .f32⟩ : BufTy).Contents (Elt F) → (⟨S50000x64, .f32⟩ : BufTy).Contents (Elt F)) ((mulf : (⟨S50000x64, .f32⟩ : BufTy).Contents (Elt F) → (⟨S50000x64, .f32⟩ : BufTy).Contents (Elt F) → (⟨S50000x64, .f32⟩ : BufTy).Contents (Elt F)) ((subf : (⟨S50000x64, .f32⟩ : BufTy).Contents (Elt F) → (⟨S50000x64, .f32⟩ : BufTy).Contents (Elt F) → (⟨S50000x64, .f32⟩ : BufTy).Contents (Elt F)) (W (Proc.devRef .tc main_arg2)) ((broadcastInDim S50000x64 ![0, 1] bcast_S50000x1_S50000x64_0_1 : (⟨S50000x1, .f32⟩ : BufTy).Contents (Elt F) → (⟨S50000x64, .f32⟩ : BufTy).Contents (Elt F)) ((broadcastInDim S50000x1 ![0] bcast_S50000_S50000x1_0 : (⟨S50000, .f32⟩ : BufTy).Contents (Elt F) → (⟨S50000x1, .f32⟩ : BufTy).Contents (Elt F)) (((fun x i => Host.gather gather_S256_S50000x1_S50000_n_0_n_n_0_1_1 x i) : (⟨S256, .f32⟩ : BufTy).Contents (Elt F) → (⟨S50000x1, .i32⟩ : BufTy).Contents (Elt F) → (⟨S50000, .f32⟩ : BufTy).Contents (Elt F)) (W (Proc.devRef .tc main_v41)) ((broadcastInDim S50000x1 ![0] bcast_S50000_S50000x1_0 : (⟨S50000, .i32⟩ : BufTy).Contents (Elt F) → (⟨S50000x1, .i32⟩ : BufTy).Contents (Elt F)) ((select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)) ((cmpi .slt : (⟨S50000, .i32⟩ : BufTy).Contents (Elt F) → (⟨S50000, .i32⟩ : BufTy).Contents (Elt F) → (⟨S50000, .i1⟩ : BufTy).Contents (Elt F)) (W (Proc.devRef .tc main_arg0)) ((broadcastInDim S50000 ![] bcast_S_S50000 : (⟨S_, .i32⟩ : BufTy).Contents (Elt F) → (⟨S50000, .i32⟩ : BufTy).Contents (Elt F)) (constantI S_ 32 0#32))) ((addi : (⟨S50000, .i32⟩ : BufTy).Contents (Elt F) → (⟨S50000, .i32⟩ : BufTy).Contents (Elt F) → (⟨S50000, .i32⟩ : BufTy).Contents (Elt F)) (W (Proc.devRef .tc main_arg0)) ((broadcastInDim S50000 ![] bcast_S_S50000 : (⟨S_, .i32⟩ : BufTy).Contents (Elt F) → (⟨S50000, .i32⟩ : BufTy).Contents (Elt F)) (constantI S_ 32 256#32))) (W (Proc.devRef .tc main_arg0)))))))) ((broadcastInDim S50000x64 ![0, 1] bcast_S50000x1_S50000x64_0_1 : (⟨S50000x1, .f32⟩ : BufTy).Contents (Elt F) → (⟨S50000x64, .f32⟩ : BufTy).Contents (Elt F)) ((broadcastInDim S50000x1 ![0] bcast_S50000_S50000x1_0 : (⟨S50000, .f32⟩ : BufTy).Contents (Elt F) → (⟨S50000x1, .f32⟩ : BufTy).Contents (Elt F)) (((fun x i => Host.gather gather_S256_S50000x1_S50000_n_0_n_n_0_1_1 x i) : (⟨S256, .f32⟩ : BufTy).Contents (Elt F) → (⟨S50000x1, .i32⟩ : BufTy).Contents (Elt F) → (⟨S50000, .f32⟩ : BufTy).Contents (Elt F)) ((Host.rsqrt : (⟨S256, .f32⟩ : BufTy).Contents (Elt F) → (⟨S256, .f32⟩ : BufTy).Contents (Elt F)) ((addf : (⟨S256, .f32⟩ : BufTy).Contents (Elt F) → (⟨S256, .f32⟩ : BufTy).Contents (Elt F) → (⟨S256, .f32⟩ : BufTy).Contents (Elt F)) ((maximumf : (⟨S256, .f32⟩ : BufTy).Contents (Elt F) → (⟨S256, .f32⟩ : BufTy).Contents (Elt F) → (⟨S256, .f32⟩ : BufTy).Contents (Elt F)) (W (Proc.devRef .tc main_v44)) ((broadcastInDim S256 ![] bcast_S_S256 : (⟨S_, .f32⟩ : BufTy).Contents (Elt F) → (⟨S256, .f32⟩ : BufTy).Contents (Elt F)) (W (Proc.devRef .tc main_cst_12)))) ((broadcastInDim S256 ![] bcast_S_S256 : (⟨S_, .f32⟩ : BufTy).Contents (Elt F) → (⟨S256, .f32⟩ : BufTy).Contents (Elt F)) ((constant S_ .f32 0x3727C5AC#32) : FVec F S_ .f32)))) ((broadcastInDim S50000x1 ![0] bcast_S50000_S50000x1_0 : (⟨S50000, .i32⟩ : BufTy).Contents (Elt F) → (⟨S50000x1, .i32⟩ : BufTy).Contents (Elt F)) ((select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)) ((cmpi .slt : (⟨S50000, .i32⟩ : BufTy).Contents (Elt F) → (⟨S50000, .i32⟩ : BufTy).Contents (Elt F) → (⟨S50000, .i1⟩ : BufTy).Contents (Elt F)) (W (Proc.devRef .tc main_arg0)) ((broadcastInDim S50000 ![] bcast_S_S50000 : (⟨S_, .i32⟩ : BufTy).Contents (Elt F) → (⟨S50000, .i32⟩ : BufTy).Contents (Elt F)) (constantI S_ 32 0#32))) ((addi : (⟨S50000, .i32⟩ : BufTy).Contents (Elt F) → (⟨S50000, .i32⟩ : BufTy).Contents (Elt F) → (⟨S50000, .i32⟩ : BufTy).Contents (Elt F)) (W (Proc.devRef .tc main_arg0)) ((broadcastInDim S50000 ![] bcast_S_S50000 : (⟨S_, .i32⟩ : BufTy).Contents (Elt F) → (⟨S50000, .i32⟩ : BufTy).Contents (Elt F)) (constantI S_ 32 256#32))) (W (Proc.devRef .tc main_arg0)))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (W (Proc.devRef .tc main_arg5))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (W (Proc.devRef .tc main_arg6))))) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (W (Proc.devRef .tc main_v3)) ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) (W (Proc.devRef .tc main_v3)) ((broadcastInDim S800000 ![] bcast_S_S800000 : (⟨S_, .i32⟩ : BufTy).Contents (Elt F) → (⟨S800000, .i32⟩ : BufTy).Contents (Elt F)) (constantI S_ 32 50000#32))) (W (Proc.devRef .tc main_v3))))) (((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ((addf : (⟨S50000x64, .f32⟩ : BufTy).Contents (Elt F) → (⟨S50000x64, .f32⟩ : BufTy).Contents (Elt F) → (⟨S50000x64, .f32⟩ : BufTy).Contents (Elt F)) ((mulf : (⟨S50000x64, .f32⟩ : BufTy).Contents (Elt F) → (⟨S50000x64, .f32⟩ : BufTy).Contents (Elt F) → (⟨S50000x64, .f32⟩ : BufTy).Contents (Elt F)) ((mulf : (⟨S50000x64, .f32⟩ : BufTy).Contents (Elt F) → (⟨S50000x64, .f32⟩ : BufTy).Contents (Elt F) → (⟨S50000x64, .f32⟩ : BufTy).Contents (Elt F)) ((subf : (⟨S50000x64, .f32⟩ : BufTy).Contents (Elt F) → (⟨S50000x64, .f32⟩ : BufTy).Contents (Elt F) → (⟨S50000x64, .f32⟩ : BufTy).Contents (Elt F)) (W (Proc.devRef .tc main_arg2)) ((broadcastInDim S50000x64 ![0, 1] bcast_S50000x1_S50000x64_0_1 : (⟨S50000x1, .f32⟩ : BufTy).Contents (Elt F) → (⟨S50000x64, .f32⟩ : BufTy).Contents (Elt F)) ((broadcastInDim S50000x1 ![0] bcast_S50000_S50000x1_0 : (⟨S50000, .f32⟩ : BufTy).Contents (Elt F) → (⟨S50000x1, .f32⟩ : BufTy).Contents (Elt F)) (((fun x i => Host.gather gather_S256_S50000x1_S50000_n_0_n_n_0_1_1 x i) : (⟨S256, .f32⟩ : BufTy).Contents (Elt F) → (⟨S50000x1, .i32⟩ : BufTy).Contents (Elt F) → (⟨S50000, .f32⟩ : BufTy).Contents (Elt F)) (W (Proc.devRef .tc main_v41)) ((broadcastInDim S50000x1 ![0] bcast_S50000_S50000x1_0 : (⟨S50000, .i32⟩ : BufTy).Contents (Elt F) → (⟨S50000x1, .i32⟩ : BufTy).Contents (Elt F)) ((select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)) ((cmpi .slt : (⟨S50000, .i32⟩ : BufTy).Contents (Elt F) → (⟨S50000, .i32⟩ : BufTy).Contents (Elt F) → (⟨S50000, .i1⟩ : BufTy).Contents (Elt F)) (W (Proc.devRef .tc main_arg0)) ((broadcastInDim S50000 ![] bcast_S_S50000 : (⟨S_, .i32⟩ : BufTy).Contents (Elt F) → (⟨S50000, .i32⟩ : BufTy).Contents (Elt F)) (constantI S_ 32 0#32))) ((addi : (⟨S50000, .i32⟩ : BufTy).Contents (Elt F) → (⟨S50000, .i32⟩ : BufTy).Contents (Elt F) → (⟨S50000, .i32⟩ : BufTy).Contents (Elt F)) (W (Proc.devRef .tc main_arg0)) ((broadcastInDim S50000 ![] bcast_S_S50000 : (⟨S_, .i32⟩ : BufTy).Contents (Elt F) → (⟨S50000, .i32⟩ : BufTy).Contents (Elt F)) (constantI S_ 32 256#32))) (W (Proc.devRef .tc main_arg0)))))))) ((broadcastInDim S50000x64 ![0, 1] bcast_S50000x1_S50000x64_0_1 : (⟨S50000x1, .f32⟩ : BufTy).Contents (Elt F) → (⟨S50000x64, .f32⟩ : BufTy).Contents (Elt F)) ((broadcastInDim S50000x1 ![0] bcast_S50000_S50000x1_0 : (⟨S50000, .f32⟩ : BufTy).Contents (Elt F) → (⟨S50000x1, .f32⟩ : BufTy).Contents (Elt F)) (((fun x i => Host.gather gather_S256_S50000x1_S50000_n_0_n_n_0_1_1 x i) : (⟨S256, .f32⟩ : BufTy).Contents (Elt F) → (⟨S50000x1, .i32⟩ : BufTy).Contents (Elt F) → (⟨S50000, .f32⟩ : BufTy).Contents (Elt F)) ((Host.rsqrt : (⟨S256, .f32⟩ : BufTy).Contents (Elt F) → (⟨S256, .f32⟩ : BufTy).Contents (Elt F)) ((addf : (⟨S256, .f32⟩ : BufTy).Contents (Elt F) → (⟨S256, .f32⟩ : BufTy).Contents (Elt F) → (⟨S256, .f32⟩ : BufTy).Contents (Elt F)) ((maximumf : (⟨S256, .f32⟩ : BufTy).Contents (Elt F) → (⟨S256, .f32⟩ : BufTy).Contents (Elt F) → (⟨S256, .f32⟩ : BufTy).Contents (Elt F)) (W (Proc.devRef .tc main_v44)) ((broadcastInDim S256 ![] bcast_S_S256 : (⟨S_, .f32⟩ : BufTy).Contents (Elt F) → (⟨S256, .f32⟩ : BufTy).Contents (Elt F)) (W (Proc.devRef .tc main_cst_12)))) ((broadcastInDim S256 ![] bcast_S_S256 : (⟨S_, .f32⟩ : BufTy).Contents (Elt F) → (⟨S256, .f32⟩ : BufTy).Contents (Elt F)) ((constant S_ .f32 0x3727C5AC#32) : FVec F S_ .f32)))) ((broadcastInDim S50000x1 ![0] bcast_S50000_S50000x1_0 : (⟨S50000, .i32⟩ : BufTy).Contents (Elt F) → (⟨S50000x1, .i32⟩ : BufTy).Contents (Elt F)) ((select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)) ((cmpi .slt : (⟨S50000, .i32⟩ : BufTy).Contents (Elt F) → (⟨S50000, .i32⟩ : BufTy).Contents (Elt F) → (⟨S50000, .i1⟩ : BufTy).Contents (Elt F)) (W (Proc.devRef .tc main_arg0)) ((broadcastInDim S50000 ![] bcast_S_S50000 : (⟨S_, .i32⟩ : BufTy).Contents (Elt F) → (⟨S50000, .i32⟩ : BufTy).Contents (Elt F)) (constantI S_ 32 0#32))) ((addi : (⟨S50000, .i32⟩ : BufTy).Contents (Elt F) → (⟨S50000, .i32⟩ : BufTy).Contents (Elt F) → (⟨S50000, .i32⟩ : BufTy).Contents (Elt F)) (W (Proc.devRef .tc main_arg0)) ((broadcastInDim S50000 ![] bcast_S_S50000 : (⟨S_, .i32⟩ : BufTy).Contents (Elt F) → (⟨S50000, .i32⟩ : BufTy).Contents (Elt F)) (constantI S_ 32 256#32))) (W (Proc.devRef .tc main_arg0)))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (W (Proc.devRef .tc main_arg5))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (W (Proc.devRef .tc main_arg6))))) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (W (Proc.devRef .tc main_v1)) ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) (W (Proc.devRef .tc main_v1)) ((broadcastInDim S800000 ![] bcast_S_S800000 : (⟨S_, .i32⟩ : BufTy).Contents (Elt F) → (⟨S800000, .i32⟩ : BufTy).Contents (Elt F)) (constantI S_ 32 50000#32))) (W (Proc.devRef .tc main_v1)))))) := by
  sl_kernel_rfl
theorem c1_v92 : StableHlo.after main_part1_ops0 W (Proc.devRef .tc main_v92) = ((cmpi .slt : (⟨S800000, .i32⟩ : BufTy).Contents (Elt F) → (⟨S800000, .i32⟩ : BufTy).Contents (Elt F) → (⟨S800000, .i1⟩ : BufTy).Contents (Elt F)) (W (Proc.devRef .tc main_v1)) ((broadcastInDim S800000 ![] bcast_S_S800000 : (⟨S_, .i32⟩ : BufTy).Contents (Elt F) → (⟨S800000, .i32⟩ : BufTy).Contents (Elt F)) (constantI S_ 32 0#32))) := by
  sl_kernel_rfl
theorem c1_v93 : StableHlo.after main_part1_ops0 W (Proc.devRef .tc main_v93) = ((broadcastInDim S800000 ![] bcast_S_S800000 : (⟨S_, .i32⟩ : BufTy).Contents (Elt F) → (⟨S800000, .i32⟩ : BufTy).Contents (Elt F)) (constantI S_ 32 50000#32)) := by
  sl_kernel_rfl
theorem k1_arg4 : StableHlo.after main_part1_ops0 W (Proc.devRef .tc main_arg4) = W (Proc.devRef .tc main_arg4) := by
  sl_kernel_rfl
theorem k1_arg7 : StableHlo.after main_part1_ops0 W (Proc.devRef .tc main_arg7) = W (Proc.devRef .tc main_arg7) := by
  sl_kernel_rfl
theorem k1_arg8 : StableHlo.after main_part1_ops0 W (Proc.devRef .tc main_arg8) = W (Proc.devRef .tc main_arg8) := by
  sl_kernel_rfl
theorem k1_arg12 : StableHlo.after main_part1_ops0 W (Proc.devRef .tc main_arg12) = W (Proc.devRef .tc main_arg12) := by
  sl_kernel_rfl
theorem k1_arg14 : StableHlo.after main_part1_ops0 W (Proc.devRef .tc main_arg14) = W (Proc.devRef .tc main_arg14) := by
  sl_kernel_rfl
theorem k1_arg9 : StableHlo.after main_part1_ops0 W (Proc.devRef .tc main_arg9) = W (Proc.devRef .tc main_arg9) := by
  sl_kernel_rfl
theorem k1_arg10 : StableHlo.after main_part1_ops0 W (Proc.devRef .tc main_arg10) = W (Proc.devRef .tc main_arg10) := by
  sl_kernel_rfl
theorem k1_arg13 : StableHlo.after main_part1_ops0 W (Proc.devRef .tc main_arg13) = W (Proc.devRef .tc main_arg13) := by
  sl_kernel_rfl
theorem k1_arg11 : StableHlo.after main_part1_ops0 W (Proc.devRef .tc main_arg11) = W (Proc.devRef .tc main_arg11) := by
  sl_kernel_rfl
theorem k1_arg0 : StableHlo.after main_part1_ops0 W (Proc.devRef .tc main_arg0) = W (Proc.devRef .tc main_arg0) := by
  sl_kernel_rfl
theorem k1_v1 : StableHlo.after main_part1_ops0 W (Proc.devRef .tc main_v1) = W (Proc.devRef .tc main_v1) := by
  sl_kernel_rfl
theorem k1_v23 : StableHlo.after main_part1_ops0 W (Proc.devRef .tc main_v23) = W (Proc.devRef .tc main_v23) := by
  sl_kernel_rfl
theorem k1_v3 : StableHlo.after main_part1_ops0 W (Proc.devRef .tc main_v3) = W (Proc.devRef .tc main_v3) := by
  sl_kernel_rfl

/-! Window 2 of the first stretch. -/

theorem c2_v115 : StableHlo.after main_part2_ops0 W (Proc.devRef .tc main_v115) = (((fun x i => Host.gather gather_S50000_S800000x1_S800000_n_0_n_n_0_1_1 x i) : (⟨S50000, .i32⟩ : BufTy).Contents (Elt F) → (⟨S800000x1, .i32⟩ : BufTy).Contents (Elt F) → (⟨S800000, .i32⟩ : BufTy).Contents (Elt F)) (W (Proc.devRef .tc main_arg0)) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (W (Proc.devRef .tc main_v1)) ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) (W (Proc.devRef .tc main_v1)) ((broadcastInDim S800000 ![] bcast_S_S800000 : (⟨S_, .i32⟩ : BufTy).Contents (Elt F) → (⟨S800000, .i32⟩ : BufTy).Contents (Elt F)) (constantI S_ 32 50000#32))) (W (Proc.devRef .tc main_v1))))) := by
  sl_kernel_rfl
theorem c2_v108 : StableHlo.after main_part2_ops0 W (Proc.devRef .tc main_v108) = ((broadcastInDim S800000x1 ![0] bcast_S800000_S800000x1_0 : (⟨S800000, .f32⟩ : BufTy).Contents (Elt F) → (⟨S800000x1, .f32⟩ : BufTy).Contents (Elt F)) (((fun x v => Host.reduceAdd x v reducesTo_S800000x3_S800000_d1 h_S_) : (⟨S800000x3, .f32⟩ : BufTy).Contents (Elt F) → (⟨S_, .f32⟩ : BufTy).Contents (Elt F) → (⟨S800000, .f32⟩ : BufTy).Contents (Elt F)) ((mulf : (⟨S800000x3, .f32⟩ : BufTy).Contents (Elt F) → (⟨S800000x3, .f32⟩ : BufTy).Contents (Elt F) → (⟨S800000x3, .f32⟩ : BufTy).Contents (Elt F)) ((subf : (⟨S800000x3, .f32⟩ : BufTy).Contents (Elt F) → (⟨S800000x3, .f32⟩ : BufTy).Contents (Elt F) → (⟨S800000x3, .f32⟩ : BufTy).Contents (Elt F)) (((fun x i => Host.gather gather_S50000x3_S800000x1_S800000x3_1_0_n_n_0_1_13 x i) : (⟨S50000x3, .f32⟩ : BufTy).Contents (Elt F) → (⟨S800000x1, .i32⟩ : BufTy).Contents (Elt F) → (⟨S800000x3, .f32⟩ : BufTy).Contents (Elt F)) (W (Proc.devRef .tc main_v23)) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (W (Proc.devRef .tc main_v92)) ((addi : (⟨S800000, .i32⟩ : BufTy).Contents (Elt F) → (⟨S800000, .i32⟩ : BufTy).Contents (Elt F) → (⟨S800000, .i32⟩ : BufTy).Contents (Elt F)) (W (Proc.devRef .tc main_v1)) (W (Proc.devRef .tc main_v93))) (W (Proc.devRef .tc main_v1))))) (((fun x i => Host.gather gather_S50000x3_S800000x1_S800000x3_1_0_n_n_0_1_13 x i) : (⟨S50000x3, .f32⟩ : BufTy).Contents (Elt F) → (⟨S800000x1, .i32⟩ : BufTy).Contents (Elt F) → (⟨S800000x3, .f32⟩ : BufTy).Contents (Elt F)) (W (Proc.devRef .tc main_v23)) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (W (Proc.devRef .tc main_v3)) ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) (W (Proc.devRef .tc main_v3)) ((broadcastInDim S800000 ![] bcast_S_S800000 : (⟨S_, .i32⟩ : BufTy).Contents (Elt F) → (⟨S800000, .i32⟩ : BufTy).Contents (Elt F)) (constantI S_ 32 50000#32))) (W (Proc.devRef .tc main_v3)))))) ((subf : (⟨S800000x3, .f32⟩ : BufTy).Contents (Elt F) → (⟨S800000x3, .f32⟩ : BufTy).Contents (Elt F) → (⟨S800000x3, .f32⟩ : BufTy).Contents (Elt F)) (((fun x i => Host.gather gather_S50000x3_S800000x1_S800000x3_1_0_n_n_0_1_13 x i) : (⟨S50000x3, .f32⟩ : BufTy).Contents (Elt F) → (⟨S800000x1, .i32⟩ : BufTy).Contents (Elt F) → (⟨S800000x3, .f32⟩ : BufTy).Contents (Elt F)) (W (Proc.devRef .tc main_v23)) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (W (Proc.devRef .tc main_v92)) ((addi : (⟨S800000, .i32⟩ : BufTy).Contents (Elt F) → (⟨S800000, .i32⟩ : BufTy).Contents (Elt F) → (⟨S800000, .i32⟩ : BufTy).Contents (Elt F)) (W (Proc.devRef .tc main_v1)) (W (Proc.devRef .tc main_v93))) (W (Proc.devRef .tc main_v1))))) (((fun x i => Host.gather gather_S50000x3_S800000x1_S800000x3_1_0_n_n_0_1_13 x i) : (⟨S50000x3, .f32⟩ : BufTy).Contents (Elt F) → (⟨S800000x1, .i32⟩ : BufTy).Contents (Elt F) → (⟨S800000x3, .f32⟩ : BufTy).Contents (Elt F)) (W (Proc.devRef .tc main_v23)) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (W (Proc.devRef .tc main_v3)) ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) (W (Proc.devRef .tc main_v3)) ((broadcastInDim S800000 ![] bcast_S_S800000 : (⟨S_, .i32⟩ : BufTy).Contents (Elt F) → (⟨S800000, .i32⟩ : BufTy).Contents (Elt F)) (constantI S_ 32 50000#32))) (W (Proc.devRef .tc main_v3))))))) ((constant S_ .f32 0x00000000#32) : FVec F S_ .f32))) := by
  sl_kernel_rfl
theorem c2_v133 : StableHlo.after main_part2_ops0 W (Proc.devRef .tc main_v133) = ((Host.divf : (⟨S256, .f32⟩ : BufTy).Contents (Elt F) → (⟨S256, .f32⟩ : BufTy).Contents (Elt F) → (⟨S256, .f32⟩ : BufTy).Contents (Elt F)) (((fun x i u => Host.scatterAdd scatter_S256_S800000x1_S800000_n_0_0_1 x i u) : (⟨S256, .f32⟩ : BufTy).Contents (Elt F) → (⟨S800000x1, .i32⟩ : BufTy).Contents (Elt F) → (⟨S800000, .f32⟩ : BufTy).Contents (Elt F) → (⟨S256, .f32⟩ : BufTy).Contents (Elt F)) ((broadcastInDim S256 ![] bcast_S_S256 : (⟨S_, .f32⟩ : BufTy).Contents (Elt F) → (⟨S256, .f32⟩ : BufTy).Contents (Elt F)) ((constant S_ .f32 0x00000000#32) : FVec F S_ .f32)) ((broadcastInDim S800000x1 ![0] bcast_S800000_S800000x1_0 : (⟨S800000, .i32⟩ : BufTy).Contents (Elt F) → (⟨S800000x1, .i32⟩ : BufTy).Contents (Elt F)) (((fun x i => Host.gather gather_S50000_S800000x1_S800000_n_0_n_n_0_1_1 x i) : (⟨S50000, .i32⟩ : BufTy).Contents (Elt F) → (⟨S800000x1, .i32⟩ : BufTy).Contents (Elt F) → (⟨S800000, .i32⟩ : BufTy).Contents (Elt F)) (W (Proc.devRef .tc main_arg0)) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (W (Proc.devRef .tc main_v1)) ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) (W (Proc.devRef .tc main_v1)) ((broadcastInDim S800000 ![] bcast_S_S800000 : (⟨S_, .i32⟩ : BufTy).Contents (Elt F) → (⟨S800000, .i32⟩ : BufTy).Contents (Elt F)) (constantI S_ 32 50000#32))) (W (Proc.devRef .tc main_v1)))))) (((fun x v => Host.reduceAdd x v reducesTo_S800000x32_S800000_d1 h_S_) : (⟨S800000x32, .f32⟩ : BufTy).Contents (Elt F) → (⟨S_, .f32⟩ : BufTy).Contents (Elt F) → (⟨S800000, .f32⟩ : BufTy).Contents (Elt F)) (W (Proc.devRef .tc main_arg4)) ((constant S_ .f32 0x00000000#32) : FVec F S_ .f32))) ((maximumf : (⟨S256, .f32⟩ : BufTy).Contents (Elt F) → (⟨S256, .f32⟩ : BufTy).Contents (Elt F) → (⟨S256, .f32⟩ : BufTy).Contents (Elt F)) ((mulf : (⟨S256, .f32⟩ : BufTy).Contents (Elt F) → (⟨S256, .f32⟩ : BufTy).Contents (Elt F) → (⟨S256, .f32⟩ : BufTy).Contents (Elt F)) (((fun x i u => Host.scatterAdd scatter_S256_S800000x1_S800000_n_0_0_1 x i u) : (⟨S256, .f32⟩ : BufTy).Contents (Elt F) → (⟨S800000x1, .i32⟩ : BufTy).Contents (Elt F) → (⟨S800000, .f32⟩ : BufTy).Contents (Elt F) → (⟨S256, .f32⟩ : BufTy).Contents (Elt F)) ((broadcastInDim S256 ![] bcast_S_S256 : (⟨S_, .f32⟩ : BufTy).Contents (Elt F) → (⟨S256, .f32⟩ : BufTy).Contents (Elt F)) ((constant S_ .f32 0x00000000#32) : FVec F S_ .f32)) ((broadcastInDim S800000x1 ![0] bcast_S800000_S800000x1_0 : (⟨S800000, .i32⟩ : BufTy).Contents (Elt F) → (⟨S800000x1, .i32⟩ : BufTy).Contents (Elt F)) (((fun x i => Host.gather gather_S50000_S800000x1_S800000_n_0_n_n_0_1_1 x i) : (⟨S50000, .i32⟩ : BufTy).Contents (Elt F) → (⟨S800000x1, .i32⟩ : BufTy).Contents (Elt F) → (⟨S800000, .i32⟩ : BufTy).Contents (Elt F)) (W (Proc.devRef .tc main_arg0)) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (W (Proc.devRef .tc main_v1)) ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) (W (Proc.devRef .tc main_v1)) ((broadcastInDim S800000 ![] bcast_S_S800000 : (⟨S_, .i32⟩ : BufTy).Contents (Elt F) → (⟨S800000, .i32⟩ : BufTy).Contents (Elt F)) (constantI S_ 32 50000#32))) (W (Proc.devRef .tc main_v1)))))) ((broadcastInDim S800000 ![] bcast_S_S800000 : (⟨S_, .f32⟩ : BufTy).Contents (Elt F) → (⟨S800000, .f32⟩ : BufTy).Contents (Elt F)) ((constant S_ .f32 0x3F800000#32) : FVec F S_ .f32))) ((broadcastInDim S256 ![] bcast_S_S256 : (⟨S_, .f32⟩ : BufTy).Contents (Elt F) → (⟨S256, .f32⟩ : BufTy).Contents (Elt F)) ((constant S_ .f32 0x42000000#32) : FVec F S_ .f32))) ((broadcastInDim S256 ![] bcast_S_S256 : (⟨S_, .f32⟩ : BufTy).Contents (Elt F) → (⟨S256, .f32⟩ : BufTy).Contents (Elt F)) ((constant S_ .f32 0x3F800000#32) : FVec F S_ .f32)))) := by
  sl_kernel_rfl
theorem c2_v138 : StableHlo.after main_part2_ops0 W (Proc.devRef .tc main_v138) = ((maximumf : (⟨S256, .f32⟩ : BufTy).Contents (Elt F) → (⟨S256, .f32⟩ : BufTy).Contents (Elt F) → (⟨S256, .f32⟩ : BufTy).Contents (Elt F)) ((subf : (⟨S256, .f32⟩ : BufTy).Contents (Elt F) → (⟨S256, .f32⟩ : BufTy).Contents (Elt F) → (⟨S256, .f32⟩ : BufTy).Contents (Elt F)) ((Host.divf : (⟨S256, .f32⟩ : BufTy).Contents (Elt F) → (⟨S256, .f32⟩ : BufTy).Contents (Elt F) → (⟨S256, .f32⟩ : BufTy).Contents (Elt F)) (((fun x i u => Host.scatterAdd scatter_S256_S800000x1_S800000_n_0_0_1 x i u) : (⟨S256, .f32⟩ : BufTy).Contents (Elt F) → (⟨S800000x1, .i32⟩ : BufTy).Contents (Elt F) → (⟨S800000, .f32⟩ : BufTy).Contents (Elt F) → (⟨S256, .f32⟩ : BufTy).Contents (Elt F)) ((broadcastInDim S256 ![] bcast_S_S256 : (⟨S_, .f32⟩ : BufTy).Contents (Elt F) → (⟨S256, .f32⟩ : BufTy).Contents (Elt F)) ((constant S_ .f32 0x00000000#32) : FVec F S_ .f32)) ((broadcastInDim S800000x1 ![0] bcast_S800000_S800000x1_0 : (⟨S800000, .i32⟩ : BufTy).Contents (Elt F) → (⟨S800000x1, .i32⟩ : BufTy).Contents (Elt F)) (((fun x i => Host.gather gather_S50000_S800000x1_S800000_n_0_n_n_0_1_1 x i) : (⟨S50000, .i32⟩ : BufTy).Contents (Elt F) → (⟨S800000x1, .i32⟩ : BufTy).Contents (Elt F) → (⟨S800000, .i32⟩ : BufTy).Contents (Elt F)) (W (Proc.devRef .tc main_arg0)) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (W (Proc.devRef .tc main_v1)) ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) (W (Proc.devRef .tc main_v1)) ((broadcastInDim S800000 ![] bcast_S_S800000 : (⟨S_, .i32⟩ : BufTy).Contents (Elt F) → (⟨S800000, .i32⟩ : BufTy).Contents (Elt F)) (constantI S_ 32 50000#32))) (W (Proc.devRef .tc main_v1)))))) (((fun x v => Host.reduceAdd x v reducesTo_S800000x32_S800000_d1 h_S_) : (⟨S800000x32, .f32⟩ : BufTy).Contents (Elt F) → (⟨S_, .f32⟩ : BufTy).Contents (Elt F) → (⟨S800000, .f32⟩ : BufTy).Contents (Elt F)) ((mulf : (⟨S800000x32, .f32⟩ : BufTy).Contents (Elt F) → (⟨S800000x32, .f32⟩ : BufTy).Contents (Elt F) → (⟨S800000x32, .f32⟩ : BufTy).Contents (Elt F)) (W (Proc.devRef .tc main_arg4)) (W (Proc.devRef .tc main_arg4))) ((constant S_ .f32 0x00000000#32) : FVec F S_ .f32))) ((maximumf : (⟨S256, .f32⟩ : BufTy).Contents (Elt F) → (⟨S256, .f32⟩ : BufTy).Contents (Elt F) → (⟨S256, .f32⟩ : BufTy).Contents (Elt F)) ((mulf : (⟨S256, .f32⟩ : BufTy).Contents (Elt F) → (⟨S256, .f32⟩ : BufTy).Contents (Elt F) → (⟨S256, .f32⟩ : BufTy).Contents (Elt F)) (((fun x i u => Host.scatterAdd scatter_S256_S800000x1_S800000_n_0_0_1 x i u) : (⟨S256, .f32⟩ : BufTy).Contents (Elt F) → (⟨S800000x1, .i32⟩ : BufTy).Contents (Elt F) → (⟨S800000, .f32⟩ : BufTy).Contents (Elt F) → (⟨S256, .f32⟩ : BufTy).Contents (Elt F)) ((broadcastInDim S256 ![] bcast_S_S256 : (⟨S_, .f32⟩ : BufTy).Contents (Elt F) → (⟨S256, .f32⟩ : BufTy).Contents (Elt F)) ((constant S_ .f32 0x00000000#32) : FVec F S_ .f32)) ((broadcastInDim S800000x1 ![0] bcast_S800000_S800000x1_0 : (⟨S800000, .i32⟩ : BufTy).Contents (Elt F) → (⟨S800000x1, .i32⟩ : BufTy).Contents (Elt F)) (((fun x i => Host.gather gather_S50000_S800000x1_S800000_n_0_n_n_0_1_1 x i) : (⟨S50000, .i32⟩ : BufTy).Contents (Elt F) → (⟨S800000x1, .i32⟩ : BufTy).Contents (Elt F) → (⟨S800000, .i32⟩ : BufTy).Contents (Elt F)) (W (Proc.devRef .tc main_arg0)) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (W (Proc.devRef .tc main_v1)) ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) (W (Proc.devRef .tc main_v1)) ((broadcastInDim S800000 ![] bcast_S_S800000 : (⟨S_, .i32⟩ : BufTy).Contents (Elt F) → (⟨S800000, .i32⟩ : BufTy).Contents (Elt F)) (constantI S_ 32 50000#32))) (W (Proc.devRef .tc main_v1)))))) ((broadcastInDim S800000 ![] bcast_S_S800000 : (⟨S_, .f32⟩ : BufTy).Contents (Elt F) → (⟨S800000, .f32⟩ : BufTy).Contents (Elt F)) ((constant S_ .f32 0x3F800000#32) : FVec F S_ .f32))) ((broadcastInDim S256 ![] bcast_S_S256 : (⟨S_, .f32⟩ : BufTy).Contents (Elt F) → (⟨S256, .f32⟩ : BufTy).Contents (Elt F)) ((constant S_ .f32 0x42000000#32) : FVec F S_ .f32))) ((broadcastInDim S256 ![] bcast_S_S256 : (⟨S_, .f32⟩ : BufTy).Contents (Elt F) → (⟨S256, .f32⟩ : BufTy).Contents (Elt F)) ((constant S_ .f32 0x3F800000#32) : FVec F S_ .f32)))) ((mulf : (⟨S256, .f32⟩ : BufTy).Contents (Elt F) → (⟨S256, .f32⟩ : BufTy).Contents (Elt F) → (⟨S256, .f32⟩ : BufTy).Contents (Elt F)) ((Host.divf : (⟨S256, .f32⟩ : BufTy).Contents (Elt F) → (⟨S256, .f32⟩ : BufTy).Contents (Elt F) → (⟨S256, .f32⟩ : BufTy).Contents (Elt F)) (((fun x i u => Host.scatterAdd scatter_S256_S800000x1_S800000_n_0_0_1 x i u) : (⟨S256, .f32⟩ : BufTy).Contents (Elt F) → (⟨S800000x1, .i32⟩ : BufTy).Contents (Elt F) → (⟨S800000, .f32⟩ : BufTy).Contents (Elt F) → (⟨S256, .f32⟩ : BufTy).Contents (Elt F)) ((broadcastInDim S256 ![] bcast_S_S256 : (⟨S_, .f32⟩ : BufTy).Contents (Elt F) → (⟨S256, .f32⟩ : BufTy).Contents (Elt F)) ((constant S_ .f32 0x00000000#32) : FVec F S_ .f32)) ((broadcastInDim S800000x1 ![0] bcast_S800000_S800000x1_0 : (⟨S800000, .i32⟩ : BufTy).Contents (Elt F) → (⟨S800000x1, .i32⟩ : BufTy).Contents (Elt F)) (((fun x i => Host.gather gather_S50000_S800000x1_S800000_n_0_n_n_0_1_1 x i) : (⟨S50000, .i32⟩ : BufTy).Contents (Elt F) → (⟨S800000x1, .i32⟩ : BufTy).Contents (Elt F) → (⟨S800000, .i32⟩ : BufTy).Contents (Elt F)) (W (Proc.devRef .tc main_arg0)) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (W (Proc.devRef .tc main_v1)) ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) (W (Proc.devRef .tc main_v1)) ((broadcastInDim S800000 ![] bcast_S_S800000 : (⟨S_, .i32⟩ : BufTy).Contents (Elt F) → (⟨S800000, .i32⟩ : BufTy).Contents (Elt F)) (constantI S_ 32 50000#32))) (W (Proc.devRef .tc main_v1)))))) (((fun x v => Host.reduceAdd x v reducesTo_S800000x32_S800000_d1 h_S_) : (⟨S800000x32, .f32⟩ : BufTy).Contents (Elt F) → (⟨S_, .f32⟩ : BufTy).Contents (Elt F) → (⟨S800000, .f32⟩ : BufTy).Contents (Elt F)) (W (Proc.devRef .tc main_arg4)) ((constant S_ .f32 0x00000000#32) : FVec F S_ .f32))) ((maximumf : (⟨S256, .f32⟩ : BufTy).Contents (Elt F) → (⟨S256, .f32⟩ : BufTy).Contents (Elt F) → (⟨S256, .f32⟩ : BufTy).Contents (Elt F)) ((mulf : (⟨S256, .f32⟩ : BufTy).Contents (Elt F) → (⟨S256, .f32⟩ : BufTy).Contents (Elt F) → (⟨S256, .f32⟩ : BufTy).Contents (Elt F)) (((fun x i u => Host.scatterAdd scatter_S256_S800000x1_S800000_n_0_0_1 x i u) : (⟨S256, .f32⟩ : BufTy).Contents (Elt F) → (⟨S800000x1, .i32⟩ : BufTy).Contents (Elt F) → (⟨S800000, .f32⟩ : BufTy).Contents (Elt F) → (⟨S256, .f32⟩ : BufTy).Contents (Elt F)) ((broadcastInDim S256 ![] bcast_S_S256 : (⟨S_, .f32⟩ : BufTy).Contents (Elt F) → (⟨S256, .f32⟩ : BufTy).Contents (Elt F)) ((constant S_ .f32 0x00000000#32) : FVec F S_ .f32)) ((broadcastInDim S800000x1 ![0] bcast_S800000_S800000x1_0 : (⟨S800000, .i32⟩ : BufTy).Contents (Elt F) → (⟨S800000x1, .i32⟩ : BufTy).Contents (Elt F)) (((fun x i => Host.gather gather_S50000_S800000x1_S800000_n_0_n_n_0_1_1 x i) : (⟨S50000, .i32⟩ : BufTy).Contents (Elt F) → (⟨S800000x1, .i32⟩ : BufTy).Contents (Elt F) → (⟨S800000, .i32⟩ : BufTy).Contents (Elt F)) (W (Proc.devRef .tc main_arg0)) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (W (Proc.devRef .tc main_v1)) ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) (W (Proc.devRef .tc main_v1)) ((broadcastInDim S800000 ![] bcast_S_S800000 : (⟨S_, .i32⟩ : BufTy).Contents (Elt F) → (⟨S800000, .i32⟩ : BufTy).Contents (Elt F)) (constantI S_ 32 50000#32))) (W (Proc.devRef .tc main_v1)))))) ((broadcastInDim S800000 ![] bcast_S_S800000 : (⟨S_, .f32⟩ : BufTy).Contents (Elt F) → (⟨S800000, .f32⟩ : BufTy).Contents (Elt F)) ((constant S_ .f32 0x3F800000#32) : FVec F S_ .f32))) ((broadcastInDim S256 ![] bcast_S_S256 : (⟨S_, .f32⟩ : BufTy).Contents (Elt F) → (⟨S256, .f32⟩ : BufTy).Contents (Elt F)) ((constant S_ .f32 0x42000000#32) : FVec F S_ .f32))) ((broadcastInDim S256 ![] bcast_S_S256 : (⟨S_, .f32⟩ : BufTy).Contents (Elt F) → (⟨S256, .f32⟩ : BufTy).Contents (Elt F)) ((constant S_ .f32 0x3F800000#32) : FVec F S_ .f32)))) ((Host.divf : (⟨S256, .f32⟩ : BufTy).Contents (Elt F) → (⟨S256, .f32⟩ : BufTy).Contents (Elt F) → (⟨S256, .f32⟩ : BufTy).Contents (Elt F)) (((fun x i u => Host.scatterAdd scatter_S256_S800000x1_S800000_n_0_0_1 x i u) : (⟨S256, .f32⟩ : BufTy).Contents (Elt F) → (⟨S800000x1, .i32⟩ : BufTy).Contents (Elt F) → (⟨S800000, .f32⟩ : BufTy).Contents (Elt F) → (⟨S256, .f32⟩ : BufTy).Contents (Elt F)) ((broadcastInDim S256 ![] bcast_S_S256 : (⟨S_, .f32⟩ : BufTy).Contents (Elt F) → (⟨S256, .f32⟩ : BufTy).Contents (Elt F)) ((constant S_ .f32 0x00000000#32) : FVec F S_ .f32)) ((broadcastInDim S800000x1 ![0] bcast_S800000_S800000x1_0 : (⟨S800000, .i32⟩ : BufTy).Contents (Elt F) → (⟨S800000x1, .i32⟩ : BufTy).Contents (Elt F)) (((fun x i => Host.gather gather_S50000_S800000x1_S800000_n_0_n_n_0_1_1 x i) : (⟨S50000, .i32⟩ : BufTy).Contents (Elt F) → (⟨S800000x1, .i32⟩ : BufTy).Contents (Elt F) → (⟨S800000, .i32⟩ : BufTy).Contents (Elt F)) (W (Proc.devRef .tc main_arg0)) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (W (Proc.devRef .tc main_v1)) ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) (W (Proc.devRef .tc main_v1)) ((broadcastInDim S800000 ![] bcast_S_S800000 : (⟨S_, .i32⟩ : BufTy).Contents (Elt F) → (⟨S800000, .i32⟩ : BufTy).Contents (Elt F)) (constantI S_ 32 50000#32))) (W (Proc.devRef .tc main_v1)))))) (((fun x v => Host.reduceAdd x v reducesTo_S800000x32_S800000_d1 h_S_) : (⟨S800000x32, .f32⟩ : BufTy).Contents (Elt F) → (⟨S_, .f32⟩ : BufTy).Contents (Elt F) → (⟨S800000, .f32⟩ : BufTy).Contents (Elt F)) (W (Proc.devRef .tc main_arg4)) ((constant S_ .f32 0x00000000#32) : FVec F S_ .f32))) ((maximumf : (⟨S256, .f32⟩ : BufTy).Contents (Elt F) → (⟨S256, .f32⟩ : BufTy).Contents (Elt F) → (⟨S256, .f32⟩ : BufTy).Contents (Elt F)) ((mulf : (⟨S256, .f32⟩ : BufTy).Contents (Elt F) → (⟨S256, .f32⟩ : BufTy).Contents (Elt F) → (⟨S256, .f32⟩ : BufTy).Contents (Elt F)) (((fun x i u => Host.scatterAdd scatter_S256_S800000x1_S800000_n_0_0_1 x i u) : (⟨S256, .f32⟩ : BufTy).Contents (Elt F) → (⟨S800000x1, .i32⟩ : BufTy).Contents (Elt F) → (⟨S800000, .f32⟩ : BufTy).Contents (Elt F) → (⟨S256, .f32⟩ : BufTy).Contents (Elt F)) ((broadcastInDim S256 ![] bcast_S_S256 : (⟨S_, .f32⟩ : BufTy).Contents (Elt F) → (⟨S256, .f32⟩ : BufTy).Contents (Elt F)) ((constant S_ .f32 0x00000000#32) : FVec F S_ .f32)) ((broadcastInDim S800000x1 ![0] bcast_S800000_S800000x1_0 : (⟨S800000, .i32⟩ : BufTy).Contents (Elt F) → (⟨S800000x1, .i32⟩ : BufTy).Contents (Elt F)) (((fun x i => Host.gather gather_S50000_S800000x1_S800000_n_0_n_n_0_1_1 x i) : (⟨S50000, .i32⟩ : BufTy).Contents (Elt F) → (⟨S800000x1, .i32⟩ : BufTy).Contents (Elt F) → (⟨S800000, .i32⟩ : BufTy).Contents (Elt F)) (W (Proc.devRef .tc main_arg0)) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (W (Proc.devRef .tc main_v1)) ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) (W (Proc.devRef .tc main_v1)) ((broadcastInDim S800000 ![] bcast_S_S800000 : (⟨S_, .i32⟩ : BufTy).Contents (Elt F) → (⟨S800000, .i32⟩ : BufTy).Contents (Elt F)) (constantI S_ 32 50000#32))) (W (Proc.devRef .tc main_v1)))))) ((broadcastInDim S800000 ![] bcast_S_S800000 : (⟨S_, .f32⟩ : BufTy).Contents (Elt F) → (⟨S800000, .f32⟩ : BufTy).Contents (Elt F)) ((constant S_ .f32 0x3F800000#32) : FVec F S_ .f32))) ((broadcastInDim S256 ![] bcast_S_S256 : (⟨S_, .f32⟩ : BufTy).Contents (Elt F) → (⟨S256, .f32⟩ : BufTy).Contents (Elt F)) ((constant S_ .f32 0x42000000#32) : FVec F S_ .f32))) ((broadcastInDim S256 ![] bcast_S_S256 : (⟨S_, .f32⟩ : BufTy).Contents (Elt F) → (⟨S256, .f32⟩ : BufTy).Contents (Elt F)) ((constant S_ .f32 0x3F800000#32) : FVec F S_ .f32)))))) ((broadcastInDim S256 ![] bcast_S_S256 : (⟨S_, .f32⟩ : BufTy).Contents (Elt F) → (⟨S256, .f32⟩ : BufTy).Contents (Elt F)) ((constant S_ .f32 0x00000000#32) : FVec F S_ .f32))) := by
  sl_kernel_rfl
theorem c2_cst_38 : StableHlo.after main_part2_ops0 W (Proc.devRef .tc main_cst_38) = ((constant S_ .f32 0x3727C5AC#32) : FVec F S_ .f32) := by
  sl_kernel_rfl
theorem k2_v90 : StableHlo.after main_part2_ops0 W (Proc.devRef .tc main_v90) = W (Proc.devRef .tc main_v90) := by
  sl_kernel_rfl
theorem k2_arg4 : StableHlo.after main_part2_ops0 W (Proc.devRef .tc main_arg4) = W (Proc.devRef .tc main_arg4) := by
  sl_kernel_rfl
theorem k2_arg7 : StableHlo.after main_part2_ops0 W (Proc.devRef .tc main_arg7) = W (Proc.devRef .tc main_arg7) := by
  sl_kernel_rfl
theorem k2_arg8 : StableHlo.after main_part2_ops0 W (Proc.devRef .tc main_arg8) = W (Proc.devRef .tc main_arg8) := by
  sl_kernel_rfl
theorem k2_arg12 : StableHlo.after main_part2_ops0 W (Proc.devRef .tc main_arg12) = W (Proc.devRef .tc main_arg12) := by
  sl_kernel_rfl
theorem k2_arg14 : StableHlo.after main_part2_ops0 W (Proc.devRef .tc main_arg14) = W (Proc.devRef .tc main_arg14) := by
  sl_kernel_rfl
theorem k2_arg9 : StableHlo.after main_part2_ops0 W (Proc.devRef .tc main_arg9) = W (Proc.devRef .tc main_arg9) := by
  sl_kernel_rfl
theorem k2_arg10 : StableHlo.after main_part2_ops0 W (Proc.devRef .tc main_arg10) = W (Proc.devRef .tc main_arg10) := by
  sl_kernel_rfl
theorem k2_arg13 : StableHlo.after main_part2_ops0 W (Proc.devRef .tc main_arg13) = W (Proc.devRef .tc main_arg13) := by
  sl_kernel_rfl
theorem k2_arg11 : StableHlo.after main_part2_ops0 W (Proc.devRef .tc main_arg11) = W (Proc.devRef .tc main_arg11) := by
  sl_kernel_rfl

/-! Window 3 of the first stretch. -/

theorem c3_v158 : StableHlo.after main_part3_ops0 W (Proc.devRef .tc main_v158) = (concatenate S800000x3 1 [⟨S800000x1, (W (Proc.devRef .tc main_v108))⟩, ⟨S800000x1, ((broadcastInDim S800000x1 ![0] bcast_S800000_S800000x1_0 : (⟨S800000, .f32⟩ : BufTy).Contents (Elt F) → (⟨S800000x1, .f32⟩ : BufTy).Contents (Elt F)) (((fun x i => Host.gather gather_S256_S800000x1_S800000_n_0_n_n_0_1_1 x i) : (⟨S256, .f32⟩ : BufTy).Contents (Elt F) → (⟨S800000x1, .i32⟩ : BufTy).Contents (Elt F) → (⟨S800000, .f32⟩ : BufTy).Contents (Elt F)) (W (Proc.devRef .tc main_v133)) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (W (Proc.devRef .tc main_v115)) ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) (W (Proc.devRef .tc main_v115)) ((broadcastInDim S800000 ![] bcast_S_S800000 : (⟨S_, .i32⟩ : BufTy).Contents (Elt F) → (⟨S800000, .i32⟩ : BufTy).Contents (Elt F)) (constantI S_ 32 256#32))) (W (Proc.devRef .tc main_v115))))))⟩, ⟨S800000x1, ((broadcastInDim S800000x1 ![0] bcast_S800000_S800000x1_0 : (⟨S800000, .f32⟩ : BufTy).Contents (Elt F) → (⟨S800000x1, .f32⟩ : BufTy).Contents (Elt F)) (((fun x i => Host.gather gather_S256_S800000x1_S800000_n_0_n_n_0_1_1 x i) : (⟨S256, .f32⟩ : BufTy).Contents (Elt F) → (⟨S800000x1, .i32⟩ : BufTy).Contents (Elt F) → (⟨S800000, .f32⟩ : BufTy).Contents (Elt F)) ((Host.rsqrt : (⟨S256, .f32⟩ : BufTy).Contents (Elt F) → (⟨S256, .f32⟩ : BufTy).Contents (Elt F)) ((addf : (⟨S256, .f32⟩ : BufTy).Contents (Elt F) → (⟨S256, .f32⟩ : BufTy).Contents (Elt F) → (⟨S256, .f32⟩ : BufTy).Contents (Elt F)) (W (Proc.devRef .tc main_v138)) ((broadcastInDim S256 ![] bcast_S_S256 : (⟨S_, .f32⟩ : BufTy).Contents (Elt F) → (⟨S256, .f32⟩ : BufTy).Contents (Elt F)) (W (Proc.devRef .tc main_cst_38))))) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (W (Proc.devRef .tc main_v115)) ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) (W (Proc.devRef .tc main_v115)) ((broadcastInDim S800000 ![] bcast_S_S800000 : (⟨S_, .i32⟩ : BufTy).Contents (Elt F) → (⟨S800000, .i32⟩ : BufTy).Contents (Elt F)) (constantI S_ 32 256#32))) (W (Proc.devRef .tc main_v115))))))⟩] concatenates_S800000x1_S800000x1_S800000x1_S800000x3_d1) := by
  sl_kernel_rfl
theorem c3_v159 : StableHlo.after main_part3_ops0 W (Proc.devRef .tc main_v159) = (((truncf .bf16 · bitsLt_bf16_f32) : (⟨S161x32, .f32⟩ : BufTy).Contents (Elt F) → (⟨S161x32, .bf16⟩ : BufTy).Contents (Elt F)) (W (Proc.devRef .tc main_arg11))) := by
  sl_kernel_rfl
theorem c3_v160 : StableHlo.after main_part3_ops0 W (Proc.devRef .tc main_v160) = (((truncf .bf16 · bitsLt_bf16_f32) : (⟨S32x32, .f32⟩ : BufTy).Contents (Elt F) → (⟨S32x32, .bf16⟩ : BufTy).Contents (Elt F)) (W (Proc.devRef .tc main_arg13))) := by
  sl_kernel_rfl
theorem k3_v90 : StableHlo.after main_part3_ops0 W (Proc.devRef .tc main_v90) = W (Proc.devRef .tc main_v90) := by
  sl_kernel_rfl
theorem k3_v115 : StableHlo.after main_part3_ops0 W (Proc.devRef .tc main_v115) = W (Proc.devRef .tc main_v115) := by
  sl_kernel_rfl
theorem k3_arg4 : StableHlo.after main_part3_ops0 W (Proc.devRef .tc main_arg4) = W (Proc.devRef .tc main_arg4) := by
  sl_kernel_rfl
theorem k3_arg7 : StableHlo.after main_part3_ops0 W (Proc.devRef .tc main_arg7) = W (Proc.devRef .tc main_arg7) := by
  sl_kernel_rfl
theorem k3_arg8 : StableHlo.after main_part3_ops0 W (Proc.devRef .tc main_arg8) = W (Proc.devRef .tc main_arg8) := by
  sl_kernel_rfl
theorem k3_arg12 : StableHlo.after main_part3_ops0 W (Proc.devRef .tc main_arg12) = W (Proc.devRef .tc main_arg12) := by
  sl_kernel_rfl
theorem k3_arg14 : StableHlo.after main_part3_ops0 W (Proc.devRef .tc main_arg14) = W (Proc.devRef .tc main_arg14) := by
  sl_kernel_rfl
theorem k3_arg9 : StableHlo.after main_part3_ops0 W (Proc.devRef .tc main_arg9) = W (Proc.devRef .tc main_arg9) := by
  sl_kernel_rfl
theorem k3_arg10 : StableHlo.after main_part3_ops0 W (Proc.devRef .tc main_arg10) = W (Proc.devRef .tc main_arg10) := by
  sl_kernel_rfl

/-! The second stretch, whole. -/

theorem c4_v204 : StableHlo.after hostOps1 W (Proc.devRef .tc main_v204) = (((fun a b => concatenate S800000x2 1 [⟨S800000x1, a⟩, ⟨S800000x1, b⟩] concatenates_S800000x1_S800000x1_S800000x2_d1) : (⟨S800000x1, .f32⟩ : BufTy).Contents (Elt F) → (⟨S800000x1, .f32⟩ : BufTy).Contents (Elt F) → (⟨S800000x2, .f32⟩ : BufTy).Contents (Elt F)) ((broadcastInDim S800000x1 ![0] bcast_S800000_S800000x1_0 : (⟨S800000, .f32⟩ : BufTy).Contents (Elt F) → (⟨S800000x1, .f32⟩ : BufTy).Contents (Elt F)) (((fun x i => Host.gather gather_S256_S800000x1_S800000_n_0_n_n_0_1_1 x i) : (⟨S256, .f32⟩ : BufTy).Contents (Elt F) → (⟨S800000x1, .i32⟩ : BufTy).Contents (Elt F) → (⟨S800000, .f32⟩ : BufTy).Contents (Elt F)) ((Host.divf : (⟨S256, .f32⟩ : BufTy).Contents (Elt F) → (⟨S256, .f32⟩ : BufTy).Contents (Elt F) → (⟨S256, .f32⟩ : BufTy).Contents (Elt F)) (((fun x i u => Host.scatterAdd scatter_S256_S800000x1_S800000_n_0_0_1 x i u) : (⟨S256, .f32⟩ : BufTy).Contents (Elt F) → (⟨S800000x1, .i32⟩ : BufTy).Contents (Elt F) → (⟨S800000, .f32⟩ : BufTy).Contents (Elt F) → (⟨S256, .f32⟩ : BufTy).Contents (Elt F)) ((broadcastInDim S256 ![] bcast_S_S256 : (⟨S_, .f32⟩ : BufTy).Contents (Elt F) → (⟨S256, .f32⟩ : BufTy).Contents (Elt F)) ((constant S_ .f32 0x00000000#32) : FVec F S_ .f32)) ((broadcastInDim S800000x1 ![0] bcast_S800000_S800000x1_0 : (⟨S800000, .i32⟩ : BufTy).Contents (Elt F) → (⟨S800000x1, .i32⟩ : BufTy).Contents (Elt F)) (W (Proc.devRef .tc main_v115))) (((fun x v => Host.reduceAdd x v reducesTo_S800000x32_S800000_d1 h_S_) : (⟨S800000x32, .f32⟩ : BufTy).Contents (Elt F) → (⟨S_, .f32⟩ : BufTy).Contents (Elt F) → (⟨S800000, .f32⟩ : BufTy).Contents (Elt F)) (W (Proc.devRef .tc main_v161)) ((constant S_ .f32 0x00000000#32) : FVec F S_ .f32))) ((maximumf : (⟨S256, .f32⟩ : BufTy).Contents (Elt F) → (⟨S256, .f32⟩ : BufTy).Contents (Elt F) → (⟨S256, .f32⟩ : BufTy).Contents (Elt F)) ((mulf : (⟨S256, .f32⟩ : BufTy).Contents (Elt F) → (⟨S256, .f32⟩ : BufTy).Contents (Elt F) → (⟨S256, .f32⟩ : BufTy).Contents (Elt F)) (((fun x i u => Host.scatterAdd scatter_S256_S800000x1_S800000_n_0_0_1 x i u) : (⟨S256, .f32⟩ : BufTy).Contents (Elt F) → (⟨S800000x1, .i32⟩ : BufTy).Contents (Elt F) → (⟨S800000, .f32⟩ : BufTy).Contents (Elt F) → (⟨S256, .f32⟩ : BufTy).Contents (Elt F)) ((broadcastInDim S256 ![] bcast_S_S256 : (⟨S_, .f32⟩ : BufTy).Contents (Elt F) → (⟨S256, .f32⟩ : BufTy).Contents (Elt F)) ((constant S_ .f32 0x00000000#32) : FVec F S_ .f32)) ((broadcastInDim S800000x1 ![0] bcast_S800000_S800000x1_0 : (⟨S800000, .i32⟩ : BufTy).Contents (Elt F) → (⟨S800000x1, .i32⟩ : BufTy).Contents (Elt F)) (W (Proc.devRef .tc main_v115))) ((broadcastInDim S800000 ![] bcast_S_S800000 : (⟨S_, .f32⟩ : BufTy).Contents (Elt F) → (⟨S800000, .f32⟩ : BufTy).Contents (Elt F)) ((constant S_ .f32 0x3F800000#32) : FVec F S_ .f32))) ((broadcastInDim S256 ![] bcast_S_S256 : (⟨S_, .f32⟩ : BufTy).Contents (Elt F) → (⟨S256, .f32⟩ : BufTy).Contents (Elt F)) ((constant S_ .f32 0x42000000#32) : FVec F S_ .f32))) ((broadcastInDim S256 ![] bcast_S_S256 : (⟨S_, .f32⟩ : BufTy).Contents (Elt F) → (⟨S256, .f32⟩ : BufTy).Contents (Elt F)) ((constant S_ .f32 0x3F800000#32) : FVec F S_ .f32)))) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (W (Proc.devRef .tc main_v115)) ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) (W (Proc.devRef .tc main_v115)) ((broadcastInDim S800000 ![] bcast_S_S800000 : (⟨S_, .i32⟩ : BufTy).Contents (Elt F) → (⟨S800000, .i32⟩ : BufTy).Contents (Elt F)) (constantI S_ 32 256#32))) (W (Proc.devRef .tc main_v115)))))) ((broadcastInDim S800000x1 ![0] bcast_S800000_S800000x1_0 : (⟨S800000, .f32⟩ : BufTy).Contents (Elt F) → (⟨S800000x1, .f32⟩ : BufTy).Contents (Elt F)) (((fun x i => Host.gather gather_S256_S800000x1_S800000_n_0_n_n_0_1_1 x i) : (⟨S256, .f32⟩ : BufTy).Contents (Elt F) → (⟨S800000x1, .i32⟩ : BufTy).Contents (Elt F) → (⟨S800000, .f32⟩ : BufTy).Contents (Elt F)) ((Host.rsqrt : (⟨S256, .f32⟩ : BufTy).Contents (Elt F) → (⟨S256, .f32⟩ : BufTy).Contents (Elt F)) ((addf : (⟨S256, .f32⟩ : BufTy).Contents (Elt F) → (⟨S256, .f32⟩ : BufTy).Contents (Elt F) → (⟨S256, .f32⟩ : BufTy).Contents (Elt F)) ((maximumf : (⟨S256, .f32⟩ : BufTy).Contents (Elt F) → (⟨S256, .f32⟩ : BufTy).Contents (Elt F) → (⟨S256, .f32⟩ : BufTy).Contents (Elt F)) ((subf : (⟨S256, .f32⟩ : BufTy).Contents (Elt F) → (⟨S256, .f32⟩ : BufTy).Contents (Elt F) → (⟨S256, .f32⟩ : BufTy).Contents (Elt F)) ((Host.divf : (⟨S256, .f32⟩ : BufTy).Contents (Elt F) → (⟨S256, .f32⟩ : BufTy).Contents (Elt F) → (⟨S256, .f32⟩ : BufTy).Contents (Elt F)) (((fun x i u => Host.scatterAdd scatter_S256_S800000x1_S800000_n_0_0_1 x i u) : (⟨S256, .f32⟩ : BufTy).Contents (Elt F) → (⟨S800000x1, .i32⟩ : BufTy).Contents (Elt F) → (⟨S800000, .f32⟩ : BufTy).Contents (Elt F) → (⟨S256, .f32⟩ : BufTy).Contents (Elt F)) ((broadcastInDim S256 ![] bcast_S_S256 : (⟨S_, .f32⟩ : BufTy).Contents (Elt F) → (⟨S256, .f32⟩ : BufTy).Contents (Elt F)) ((constant S_ .f32 0x00000000#32) : FVec F S_ .f32)) ((broadcastInDim S800000x1 ![0] bcast_S800000_S800000x1_0 : (⟨S800000, .i32⟩ : BufTy).Contents (Elt F) → (⟨S800000x1, .i32⟩ : BufTy).Contents (Elt F)) (W (Proc.devRef .tc main_v115))) (((fun x v => Host.reduceAdd x v reducesTo_S800000x32_S800000_d1 h_S_) : (⟨S800000x32, .f32⟩ : BufTy).Contents (Elt F) → (⟨S_, .f32⟩ : BufTy).Contents (Elt F) → (⟨S800000, .f32⟩ : BufTy).Contents (Elt F)) ((mulf : (⟨S800000x32, .f32⟩ : BufTy).Contents (Elt F) → (⟨S800000x32, .f32⟩ : BufTy).Contents (Elt F) → (⟨S800000x32, .f32⟩ : BufTy).Contents (Elt F)) (W (Proc.devRef .tc main_v161)) (W (Proc.devRef .tc main_v161))) ((constant S_ .f32 0x00000000#32) : FVec F S_ .f32))) ((maximumf : (⟨S256, .f32⟩ : BufTy).Contents (Elt F) → (⟨S256, .f32⟩ : BufTy).Contents (Elt F) → (⟨S256, .f32⟩ : BufTy).Contents (Elt F)) ((mulf : (⟨S256, .f32⟩ : BufTy).Contents (Elt F) → (⟨S256, .f32⟩ : BufTy).Contents (Elt F) → (⟨S256, .f32⟩ : BufTy).Contents (Elt F)) (((fun x i u => Host.scatterAdd scatter_S256_S800000x1_S800000_n_0_0_1 x i u) : (⟨S256, .f32⟩ : BufTy).Contents (Elt F) → (⟨S800000x1, .i32⟩ : BufTy).Contents (Elt F) → (⟨S800000, .f32⟩ : BufTy).Contents (Elt F) → (⟨S256, .f32⟩ : BufTy).Contents (Elt F)) ((broadcastInDim S256 ![] bcast_S_S256 : (⟨S_, .f32⟩ : BufTy).Contents (Elt F) → (⟨S256, .f32⟩ : BufTy).Contents (Elt F)) ((constant S_ .f32 0x00000000#32) : FVec F S_ .f32)) ((broadcastInDim S800000x1 ![0] bcast_S800000_S800000x1_0 : (⟨S800000, .i32⟩ : BufTy).Contents (Elt F) → (⟨S800000x1, .i32⟩ : BufTy).Contents (Elt F)) (W (Proc.devRef .tc main_v115))) ((broadcastInDim S800000 ![] bcast_S_S800000 : (⟨S_, .f32⟩ : BufTy).Contents (Elt F) → (⟨S800000, .f32⟩ : BufTy).Contents (Elt F)) ((constant S_ .f32 0x3F800000#32) : FVec F S_ .f32))) ((broadcastInDim S256 ![] bcast_S_S256 : (⟨S_, .f32⟩ : BufTy).Contents (Elt F) → (⟨S256, .f32⟩ : BufTy).Contents (Elt F)) ((constant S_ .f32 0x42000000#32) : FVec F S_ .f32))) ((broadcastInDim S256 ![] bcast_S_S256 : (⟨S_, .f32⟩ : BufTy).Contents (Elt F) → (⟨S256, .f32⟩ : BufTy).Contents (Elt F)) ((constant S_ .f32 0x3F800000#32) : FVec F S_ .f32)))) ((mulf : (⟨S256, .f32⟩ : BufTy).Contents (Elt F) → (⟨S256, .f32⟩ : BufTy).Contents (Elt F) → (⟨S256, .f32⟩ : BufTy).Contents (Elt F)) ((Host.divf : (⟨S256, .f32⟩ : BufTy).Contents (Elt F) → (⟨S256, .f32⟩ : BufTy).Contents (Elt F) → (⟨S256, .f32⟩ : BufTy).Contents (Elt F)) (((fun x i u => Host.scatterAdd scatter_S256_S800000x1_S800000_n_0_0_1 x i u) : (⟨S256, .f32⟩ : BufTy).Contents (Elt F) → (⟨S800000x1, .i32⟩ : BufTy).Contents (Elt F) → (⟨S800000, .f32⟩ : BufTy).Contents (Elt F) → (⟨S256, .f32⟩ : BufTy).Contents (Elt F)) ((broadcastInDim S256 ![] bcast_S_S256 : (⟨S_, .f32⟩ : BufTy).Contents (Elt F) → (⟨S256, .f32⟩ : BufTy).Contents (Elt F)) ((constant S_ .f32 0x00000000#32) : FVec F S_ .f32)) ((broadcastInDim S800000x1 ![0] bcast_S800000_S800000x1_0 : (⟨S800000, .i32⟩ : BufTy).Contents (Elt F) → (⟨S800000x1, .i32⟩ : BufTy).Contents (Elt F)) (W (Proc.devRef .tc main_v115))) (((fun x v => Host.reduceAdd x v reducesTo_S800000x32_S800000_d1 h_S_) : (⟨S800000x32, .f32⟩ : BufTy).Contents (Elt F) → (⟨S_, .f32⟩ : BufTy).Contents (Elt F) → (⟨S800000, .f32⟩ : BufTy).Contents (Elt F)) (W (Proc.devRef .tc main_v161)) ((constant S_ .f32 0x00000000#32) : FVec F S_ .f32))) ((maximumf : (⟨S256, .f32⟩ : BufTy).Contents (Elt F) → (⟨S256, .f32⟩ : BufTy).Contents (Elt F) → (⟨S256, .f32⟩ : BufTy).Contents (Elt F)) ((mulf : (⟨S256, .f32⟩ : BufTy).Contents (Elt F) → (⟨S256, .f32⟩ : BufTy).Contents (Elt F) → (⟨S256, .f32⟩ : BufTy).Contents (Elt F)) (((fun x i u => Host.scatterAdd scatter_S256_S800000x1_S800000_n_0_0_1 x i u) : (⟨S256, .f32⟩ : BufTy).Contents (Elt F) → (⟨S800000x1, .i32⟩ : BufTy).Contents (Elt F) → (⟨S800000, .f32⟩ : BufTy).Contents (Elt F) → (⟨S256, .f32⟩ : BufTy).Contents (Elt F)) ((broadcastInDim S256 ![] bcast_S_S256 : (⟨S_, .f32⟩ : BufTy).Contents (Elt F) → (⟨S256, .f32⟩ : BufTy).Contents (Elt F)) ((constant S_ .f32 0x00000000#32) : FVec F S_ .f32)) ((broadcastInDim S800000x1 ![0] bcast_S800000_S800000x1_0 : (⟨S800000, .i32⟩ : BufTy).Contents (Elt F) → (⟨S800000x1, .i32⟩ : BufTy).Contents (Elt F)) (W (Proc.devRef .tc main_v115))) ((broadcastInDim S800000 ![] bcast_S_S800000 : (⟨S_, .f32⟩ : BufTy).Contents (Elt F) → (⟨S800000, .f32⟩ : BufTy).Contents (Elt F)) ((constant S_ .f32 0x3F800000#32) : FVec F S_ .f32))) ((broadcastInDim S256 ![] bcast_S_S256 : (⟨S_, .f32⟩ : BufTy).Contents (Elt F) → (⟨S256, .f32⟩ : BufTy).Contents (Elt F)) ((constant S_ .f32 0x42000000#32) : FVec F S_ .f32))) ((broadcastInDim S256 ![] bcast_S_S256 : (⟨S_, .f32⟩ : BufTy).Contents (Elt F) → (⟨S256, .f32⟩ : BufTy).Contents (Elt F)) ((constant S_ .f32 0x3F800000#32) : FVec F S_ .f32)))) ((Host.divf : (⟨S256, .f32⟩ : BufTy).Contents (Elt F) → (⟨S256, .f32⟩ : BufTy).Contents (Elt F) → (⟨S256, .f32⟩ : BufTy).Contents (Elt F)) (((fun x i u => Host.scatterAdd scatter_S256_S800000x1_S800000_n_0_0_1 x i u) : (⟨S256, .f32⟩ : BufTy).Contents (Elt F) → (⟨S800000x1, .i32⟩ : BufTy).Contents (Elt F) → (⟨S800000, .f32⟩ : BufTy).Contents (Elt F) → (⟨S256, .f32⟩ : BufTy).Contents (Elt F)) ((broadcastInDim S256 ![] bcast_S_S256 : (⟨S_, .f32⟩ : BufTy).Contents (Elt F) → (⟨S256, .f32⟩ : BufTy).Contents (Elt F)) ((constant S_ .f32 0x00000000#32) : FVec F S_ .f32)) ((broadcastInDim S800000x1 ![0] bcast_S800000_S800000x1_0 : (⟨S800000, .i32⟩ : BufTy).Contents (Elt F) → (⟨S800000x1, .i32⟩ : BufTy).Contents (Elt F)) (W (Proc.devRef .tc main_v115))) (((fun x v => Host.reduceAdd x v reducesTo_S800000x32_S800000_d1 h_S_) : (⟨S800000x32, .f32⟩ : BufTy).Contents (Elt F) → (⟨S_, .f32⟩ : BufTy).Contents (Elt F) → (⟨S800000, .f32⟩ : BufTy).Contents (Elt F)) (W (Proc.devRef .tc main_v161)) ((constant S_ .f32 0x00000000#32) : FVec F S_ .f32))) ((maximumf : (⟨S256, .f32⟩ : BufTy).Contents (Elt F) → (⟨S256, .f32⟩ : BufTy).Contents (Elt F) → (⟨S256, .f32⟩ : BufTy).Contents (Elt F)) ((mulf : (⟨S256, .f32⟩ : BufTy).Contents (Elt F) → (⟨S256, .f32⟩ : BufTy).Contents (Elt F) → (⟨S256, .f32⟩ : BufTy).Contents (Elt F)) (((fun x i u => Host.scatterAdd scatter_S256_S800000x1_S800000_n_0_0_1 x i u) : (⟨S256, .f32⟩ : BufTy).Contents (Elt F) → (⟨S800000x1, .i32⟩ : BufTy).Contents (Elt F) → (⟨S800000, .f32⟩ : BufTy).Contents (Elt F) → (⟨S256, .f32⟩ : BufTy).Contents (Elt F)) ((broadcastInDim S256 ![] bcast_S_S256 : (⟨S_, .f32⟩ : BufTy).Contents (Elt F) → (⟨S256, .f32⟩ : BufTy).Contents (Elt F)) ((constant S_ .f32 0x00000000#32) : FVec F S_ .f32)) ((broadcastInDim S800000x1 ![0] bcast_S800000_S800000x1_0 : (⟨S800000, .i32⟩ : BufTy).Contents (Elt F) → (⟨S800000x1, .i32⟩ : BufTy).Contents (Elt F)) (W (Proc.devRef .tc main_v115))) ((broadcastInDim S800000 ![] bcast_S_S800000 : (⟨S_, .f32⟩ : BufTy).Contents (Elt F) → (⟨S800000, .f32⟩ : BufTy).Contents (Elt F)) ((constant S_ .f32 0x3F800000#32) : FVec F S_ .f32))) ((broadcastInDim S256 ![] bcast_S_S256 : (⟨S_, .f32⟩ : BufTy).Contents (Elt F) → (⟨S256, .f32⟩ : BufTy).Contents (Elt F)) ((constant S_ .f32 0x42000000#32) : FVec F S_ .f32))) ((broadcastInDim S256 ![] bcast_S_S256 : (⟨S_, .f32⟩ : BufTy).Contents (Elt F) → (⟨S256, .f32⟩ : BufTy).Contents (Elt F)) ((constant S_ .f32 0x3F800000#32) : FVec F S_ .f32)))))) ((broadcastInDim S256 ![] bcast_S_S256 : (⟨S_, .f32⟩ : BufTy).Contents (Elt F) → (⟨S256, .f32⟩ : BufTy).Contents (Elt F)) ((constant S_ .f32 0x00000000#32) : FVec F S_ .f32))) ((broadcastInDim S256 ![] bcast_S_S256 : (⟨S_, .f32⟩ : BufTy).Contents (Elt F) → (⟨S256, .f32⟩ : BufTy).Contents (Elt F)) ((constant S_ .f32 0x3727C5AC#32) : FVec F S_ .f32)))) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (W (Proc.devRef .tc main_v115)) ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) (W (Proc.devRef .tc main_v115)) ((broadcastInDim S800000 ![] bcast_S_S800000 : (⟨S_, .i32⟩ : BufTy).Contents (Elt F) → (⟨S800000, .i32⟩ : BufTy).Contents (Elt F)) (constantI S_ 32 256#32))) (W (Proc.devRef .tc main_v115))))))) := by
  sl_kernel_rfl
theorem k4_v161 : StableHlo.after hostOps1 W (Proc.devRef .tc main_v161) = W (Proc.devRef .tc main_v161) := by
  sl_kernel_rfl
theorem k4_arg9 : StableHlo.after hostOps1 W (Proc.devRef .tc main_arg9) = W (Proc.devRef .tc main_arg9) := by
  sl_kernel_rfl
theorem k4_arg10 : StableHlo.after hostOps1 W (Proc.devRef .tc main_arg10) = W (Proc.devRef .tc main_arg10) := by
  sl_kernel_rfl

end Cert.KernelIdeal.Chunks

end
-- ==== Proof.KernelFold.lean ====
import proofs.«114257_j19911468384606_2_alg».proof.Proof.IdealRun
import proofs.«114257_j19911468384606_2_alg».proof.Proof.KernelTerms
import proofs.«114257_j19911468384606_2_alg».proof.Proof.KernelChunks

/-!
The kernel program's buffers at the two calls' entries, as terms of the argument arrays. The first stretch of host
operations is evaluated window by window (each window's table of unfoldings is in the chunk module); the composed term
is then the named term of the kernel program's host side, by unfolding definitions.
-/

set_option maxRecDepth 16384

noncomputable section

namespace Cert.KernelIdeal.Hand

open Cert.KernelIdeal Cert.KernelIdeal.Gen Cert.KernelIdeal.KT Cert.KernelIdeal.Chunks
open Idealize.ShloMosaic Idealize.ShloMosaic.TcCoe Idealize.ShloMosaic.Tactic Idealize.SL.Sem

variable (m : (ℓ : Loc nD τ sig) → Buf (Elt Ideal) ℓ) (ρ : Dev nD → PrngReg)

/-- The first call's entry contents, window by window. -/
theorem W1_eq (c : Dev nD) : W1 m ρ c
    = StableHlo.after main_part3_ops0 (StableHlo.after main_part2_ops0 (StableHlo.after main_part1_ops0 (StableHlo.after main_part0_ops0 (W0 m ρ c)))) := by
  show StableHlo.after hostOps0 (W0 m ρ c) = _
  rw [hostOps0_split, after_append, after_append, after_append]

/-- The segment index of every edge at the first call's entry. -/
theorem e_v115 (c : Dev nD) : W1 m ρ c (Proc.devRef .tc main_v115) = Cert.ReferenceIdeal.ReadP.val_main_v96 (F := Ideal) (m ((c : Thread nD τ).loc main_arg0)) (m ((c : Thread nD τ).loc main_arg3)) := by
  rw [W1_eq]
  repeat (first | rw [k3_v115] | rw [c2_v115] | rw [k1_arg0] | rw [k1_v1] | rw [k0_arg0] | rw [c0_v1])
  all_goals sl_kernel_rfl

/-- The packed node features at the first call's entry. -/
theorem e_v90 (c : Dev nD) : W1 m ρ c (Proc.devRef .tc main_v90)
    = hnPairOf (m ((c : Thread nD τ).loc main_arg3)) (hnOf (m ((c : Thread nD τ).loc main_arg0)) (m ((c : Thread nD τ).loc main_arg2)) (m ((c : Thread nD τ).loc main_arg5)) (m ((c : Thread nD τ).loc main_arg6)) (kinvH (m ((c : Thread nD τ).loc main_arg0)) (m ((c : Thread nD τ).loc main_arg2)))) := by
  rw [W1_eq]
  repeat (first | rw [k3_v90] | rw [k2_v90] | rw [c1_v90] | rw [c0_v1] | rw [c0_v3] | rw [c0_v41] | rw [c0_v44] | rw [c0_cst_12] | rw [k0_arg0] | rw [k0_arg2] | rw [k0_arg5] | rw [k0_arg6])
  all_goals sl_kernel_rfl

/-- The statistics array at the first call's entry. -/
theorem e_v158 (c : Dev nD) : W1 m ρ c (Proc.devRef .tc main_v158)
    = stats3Of (Cert.ReferenceIdeal.ReadP.val_main_v96 (F := Ideal) (m ((c : Thread nD τ).loc main_arg0)) (m ((c : Thread nD τ).loc main_arg3))) (m ((c : Thread nD τ).loc main_arg4)) (Cert.ReferenceIdeal.ReadP.val_main_v89 (F := Ideal) (m ((c : Thread nD τ).loc main_arg0)) (m ((c : Thread nD τ).loc main_arg1)) (m ((c : Thread nD τ).loc main_arg3))) := by
  rw [W1_eq]
  repeat (first | rw [c3_v158] | rw [c2_v108] | rw [c2_v115] | rw [c2_v133] | rw [c2_v138] | rw [c2_cst_38] | rw [k1_v1] | rw [k1_v3] | rw [k1_v23] | rw [c1_v92] | rw [c1_v93] | rw [k1_arg0] | rw [k1_arg4] | rw [c0_v1] | rw [c0_v3] | rw [c0_v23] | rw [k0_arg0] | rw [k0_arg4])
  all_goals sl_kernel_rfl

/-- The two weight matrices, rounded (a change of format: the identity on the extended reals). -/
theorem e_v159 (c : Dev nD) : (W1 m ρ c (Proc.devRef .tc main_v159) : FVec Ideal S161x32 .bf16)
    = truncf (F := Ideal) .bf16 ((m ((c : Thread nD τ).loc main_arg11)) : FVec Ideal S161x32 .f32) bitsLt_bf16_f32 := by
  rw [W1_eq]
  repeat (first | rw [c3_v159] | rw [k2_arg11] | rw [k1_arg11] | rw [k0_arg11])
  all_goals sl_kernel_rfl
theorem e_v160 (c : Dev nD) : (W1 m ρ c (Proc.devRef .tc main_v160) : FVec Ideal S32x32 .bf16)
    = truncf (F := Ideal) .bf16 ((m ((c : Thread nD τ).loc main_arg13)) : FVec Ideal S32x32 .f32) bitsLt_bf16_f32 := by
  rw [W1_eq]
  repeat (first | rw [c3_v160] | rw [k2_arg13] | rw [k1_arg13] | rw [k0_arg13])
  all_goals sl_kernel_rfl

theorem e1_arg4 (c : Dev nD) : W1 m ρ c (Proc.devRef .tc main_arg4) = (m ((c : Thread nD τ).loc main_arg4)) := by
  rw [W1_eq, k3_arg4, k2_arg4, k1_arg4, k0_arg4]
  all_goals rfl
theorem e1_arg7 (c : Dev nD) : W1 m ρ c (Proc.devRef .tc main_arg7) = (m ((c : Thread nD τ).loc main_arg7)) := by
  rw [W1_eq, k3_arg7, k2_arg7, k1_arg7, k0_arg7]
  all_goals rfl
theorem e1_arg8 (c : Dev nD) : W1 m ρ c (Proc.devRef .tc main_arg8) = (m ((c : Thread nD τ).loc main_arg8)) := by
  rw [W1_eq, k3_arg8, k2_arg8, k1_arg8, k0_arg8]
  all_goals rfl
theorem e1_arg12 (c : Dev nD) : W1 m ρ c (Proc.devRef .tc main_arg12) = (m ((c : Thread nD τ).loc main_arg12)) := by
  rw [W1_eq, k3_arg12, k2_arg12, k1_arg12, k0_arg12]
  all_goals rfl
theorem e1_arg14 (c : Dev nD) : W1 m ρ c (Proc.devRef .tc main_arg14) = (m ((c : Thread nD τ).loc main_arg14)) := by
  rw [W1_eq, k3_arg14, k2_arg14, k1_arg14, k0_arg14]
  all_goals rfl
theorem e1_arg9 (c : Dev nD) : W1 m ρ c (Proc.devRef .tc main_arg9) = (m ((c : Thread nD τ).loc main_arg9)) := by
  rw [W1_eq, k3_arg9, k2_arg9, k1_arg9, k0_arg9]
  all_goals rfl
theorem e1_arg10 (c : Dev nD) : W1 m ρ c (Proc.devRef .tc main_arg10) = (m ((c : Thread nD τ).loc main_arg10)) := by
  rw [W1_eq, k3_arg10, k2_arg10, k1_arg10, k0_arg10]
  all_goals rfl

/-- The second stretch of host operations, from any contents `W`: the second statistics array is built from the first
    call's result and the segment index. -/
theorem e_v204 (W : Valuation τ sig (Elt Ideal)) : StableHlo.after hostOps1 W (Proc.devRef .tc main_v204)
    = stats2Of (W (Proc.devRef .tc main_v115)) (W (Proc.devRef .tc main_v161)) := by
  rw [c4_v204]
  all_goals sl_kernel_rfl

end Cert.KernelIdeal.Hand

end
-- ==== Proof.PayMlp.lean ====
import proofs.«114257_j19911468384606_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

/-!
The two-layer perceptron of one edge row, on the extended reals: from the row's 161 input features
`inf`, `z k = ∑ j, inf j · W₁[j,k] + b₁[k]`, the activation `z · logistic z`, and the output
`∑ k, act k · W₂[k,q] + b₂[q]`. The first kernel's stored value at row `p`, column `q` of a block is this
function of the row's features: the 128 packed node features, the squared distance, and the 32 edge attributes
normalised with the row's own mean and inverse deviation, scaled and shifted.
-/

noncomputable section

namespace Cert.KernelIdeal.Pay

open Cert.KernelIdeal Cert.KernelIdeal.Gen
open Idealize.ShloMosaic Idealize.ShloMosaic.TcCoe Idealize.ShloMosaic.ValueIdx

/-- One row of the perceptron. -/
def mlpRow (inf : Fin 161 → EReal) (W1 : S161x32.Idx → EReal) (b1 : S32.Idx → EReal) (W2 : S32x32.Idx → EReal)
    (b2 : S32.Idx → EReal) (q : Fin 32) : EReal :=
  (∑ k : Fin 32, (((∑ j : Fin 161, inf j * W1 (ix2 j k)) + b1 (ix1 k)) * Ideal.logistic ((∑ j : Fin 161, inf j * W1 (ix2 j k)) + b1 (ix1 k))) * W2 (ix2 k q)) + b2 (ix1 q)

/-- The kernel's 161 features of row `p` of a block. -/
def infK (v0 v2 v4 : S4000x1.Idx → EReal) (v6 : S4000x32.Idx → EReal) (v11 v15 : S32.Idx → EReal) (v19 : S4000x128.Idx → EReal)
    (p : Fin 4000) (j : Fin 161) : EReal :=
  if h : j.val < 128 then v19 (ix2 p ⟨j.val, h⟩)
  else if h2 : j.val < 129 then v0 (ix2 p 0)
  else ((v6 (ix2 p ⟨j.val - 129, by have := j.isLt; omega⟩) - v2 (ix2 p 0)) * v4 (ix2 p 0)) * v11 (ix1 ⟨j.val - 129, by have := j.isLt; omega⟩)
        + v15 (ix1 ⟨j.val - 129, by have := j.isLt; omega⟩)

/-- A length-32 vector, made a row and repeated down 4000 rows, read at `(p, q)` is the vector at `q`. -/
theorem bcast_row (v : S32.Idx → EReal) (h1 : S32.ShapeCasts S1x32) (h2 : S1x32.Broadcasts S4000x32) (p : Fin 4000) (q : Fin 32) :
    broadcastTo S4000x32 (shapeCast S1x32 v h1) h2 (ix2 p q) = v (ix1 q) := by
  rw [broadcastTo_apply _ h2 (ix2 p q) (ix2 (0 : Fin 1) q) (fun a => by
    match a with
    | ⟨0, _⟩ => show (0 : Nat) = if (1 : Nat) = 1 then 0 else _; rw [if_pos rfl]
    | ⟨1, _⟩ => show q.val = if (32 : Nat) = 1 then 0 else q.val; rw [if_neg (by decide)])]
  exact shapeCast_a_1a_apply v h1 0 q

/-- A column repeated across 32 columns, read at `(p, q)`, is the column at `p`. -/
theorem bcast_col (v : S4000x1.Idx → EReal) (h1 : S4000x1.ShapeCasts S4000x1) (h2 : S4000x1.Broadcasts S4000x32) (p : Fin 4000) (q : Fin 32) :
    broadcastTo S4000x32 (shapeCast S4000x1 v h1) h2 (ix2 p q) = v (ix2 p 0) := by
  rw [shapeCast_self]
  exact broadcastTo_apply _ h2 (ix2 p q) (ix2 p (0 : Fin 1)) (fun a => by
    match a with
    | ⟨0, _⟩ => show p.val = if (4000 : Nat) = 1 then 0 else p.val; rw [if_neg (by decide)]
    | ⟨1, _⟩ => show (0 : Nat) = if (1 : Nat) = 1 then 0 else _; rw [if_pos rfl])

theorem bcast_col' (v : S4000x1.Idx → EReal) (h2 : S4000x1.Broadcasts S4000x32) (p : Fin 4000) (q : Fin 32) :
    broadcastTo S4000x32 v h2 (ix2 p q) = v (ix2 p 0) :=
  broadcastTo_apply _ h2 (ix2 p q) (ix2 p (0 : Fin 1)) (fun a => by
    match a with
    | ⟨0, _⟩ => show p.val = if (4000 : Nat) = 1 then 0 else p.val; rw [if_neg (by decide)]
    | ⟨1, _⟩ => show (0 : Nat) = if (1 : Nat) = 1 then 0 else _; rw [if_pos rfl])

theorem lhs2_0 (i : S4000x32.Idx) (q : dot_S4000x32_S32x32_S4000x32_1_0_0_1_n_n.contr.Idx) :
    (dot_S4000x32_S32x32_S4000x32_1_0_0_1_n_n.lhsIdx i q 0).val = (i 0).val := by
  unfold DotDims.lhsIdx
  rw [dif_neg (show ¬(0 : Fin S4000x32.rank) ∈ dot_S4000x32_S32x32_S4000x32_1_0_0_1_n_n.lhsBatch by decide), dif_pos (show (0 : Fin S4000x32.rank) ∈ dot_S4000x32_S32x32_S4000x32_1_0_0_1_n_n.lhsNonContracting by decide)]
  rfl
theorem rhs2_1 (i : S4000x32.Idx) (q : dot_S4000x32_S32x32_S4000x32_1_0_0_1_n_n.contr.Idx) :
    (dot_S4000x32_S32x32_S4000x32_1_0_0_1_n_n.rhsIdx i q 1).val = (i 1).val := by
  unfold DotDims.rhsIdx
  rw [dif_neg (show ¬(1 : Fin S32x32.rank) ∈ dot_S4000x32_S32x32_S4000x32_1_0_0_1_n_n.rhsBatch by decide), dif_pos (show (1 : Fin S32x32.rank) ∈ dot_S4000x32_S32x32_S4000x32_1_0_0_1_n_n.rhsNonContracting by decide)]
  rfl
/-- The second matrix product into a zero accumulator, at `(p, q)`: the sum over the 32 hidden units. -/
theorem mm2_apply (L : FVec Ideal S4000x32 .bf16) (R : FVec Ideal S32x32 .bf16) (p : Fin 4000) (q : Fin 32) :
    matmul dot_S4000x32_S32x32_S4000x32_1_0_0_1_n_n none L R (constant S4000x32 .f32 0x00000000#32) (ix2 p q)
      = ∑ k : Fin 32, L (ix2 p k) * R (ix2 k q) := by
  simp only [matmul]
  rw [Ideal.matmul_constant_zero_apply, ← Equiv.sum_comp (ValueIdx.contrEquiv1 dot_S4000x32_S32x32_S4000x32_1_0_0_1_n_n 32 rfl rfl).symm]
  refine Finset.sum_congr rfl fun k _ => ?_
  have hk := ValueIdx.contrEquiv1_symm_val dot_S4000x32_S32x32_S4000x32_1_0_0_1_n_n 32 rfl rfl k
  have el : dot_S4000x32_S32x32_S4000x32_1_0_0_1_n_n.lhsIdx (ix2 p q) ((ValueIdx.contrEquiv1 dot_S4000x32_S32x32_S4000x32_1_0_0_1_n_n 32 rfl rfl).symm k) = ix2 p k := funext fun a => Fin.ext (by
    match a with
    | ⟨0, _⟩ => exact lhs2_0 _ _
    | ⟨1, _⟩ => exact (dot_S4000x32_S32x32_S4000x32_1_0_0_1_n_n.lhsIdx_val_of_single rfl _ _).trans hk)
  have er : dot_S4000x32_S32x32_S4000x32_1_0_0_1_n_n.rhsIdx (ix2 p q) ((ValueIdx.contrEquiv1 dot_S4000x32_S32x32_S4000x32_1_0_0_1_n_n 32 rfl rfl).symm k) = ix2 k q := funext fun a => Fin.ext (by
    match a with
    | ⟨0, _⟩ => exact (dot_S4000x32_S32x32_S4000x32_1_0_0_1_n_n.rhsIdx_val_of_single rfl _ _).trans hk
    | ⟨1, _⟩ => exact rhs2_1 _ _)
  rw [el, er]

theorem lhs1_0 (i : S4000x32.Idx) (q : dot_S4000x161_S161x32_S4000x32_1_0_0_1_n_n.contr.Idx) :
    (dot_S4000x161_S161x32_S4000x32_1_0_0_1_n_n.lhsIdx i q 0).val = (i 0).val := by
  unfold DotDims.lhsIdx
  rw [dif_neg (show ¬(0 : Fin S4000x161.rank) ∈ dot_S4000x161_S161x32_S4000x32_1_0_0_1_n_n.lhsBatch by decide), dif_pos (show (0 : Fin S4000x161.rank) ∈ dot_S4000x161_S161x32_S4000x32_1_0_0_1_n_n.lhsNonContracting by decide)]
  rfl
theorem rhs1_1 (i : S4000x32.Idx) (q : dot_S4000x161_S161x32_S4000x32_1_0_0_1_n_n.contr.Idx) :
    (dot_S4000x161_S161x32_S4000x32_1_0_0_1_n_n.rhsIdx i q 1).val = (i 1).val := by
  unfold DotDims.rhsIdx
  rw [dif_neg (show ¬(1 : Fin S161x32.rank) ∈ dot_S4000x161_S161x32_S4000x32_1_0_0_1_n_n.rhsBatch by decide), dif_pos (show (1 : Fin S161x32.rank) ∈ dot_S4000x161_S161x32_S4000x32_1_0_0_1_n_n.rhsNonContracting by decide)]
  rfl
/-- The first matrix product into a zero accumulator, at `(p, k)`: the sum over the 161 features. -/
theorem mm1_apply (L : FVec Ideal S4000x161 .bf16) (R : FVec Ideal S161x32 .bf16) (p : Fin 4000) (k : Fin 32) :
    matmul dot_S4000x161_S161x32_S4000x32_1_0_0_1_n_n none L R (constant S4000x32 .f32 0x00000000#32) (ix2 p k)
      = ∑ j : Fin 161, L (ix2 p j) * R (ix2 j k) := by
  simp only [matmul]
  rw [Ideal.matmul_constant_zero_apply, ← Equiv.sum_comp (ValueIdx.contrEquiv1 dot_S4000x161_S161x32_S4000x32_1_0_0_1_n_n 161 rfl rfl).symm]
  refine Finset.sum_congr rfl fun j _ => ?_
  have hk := ValueIdx.contrEquiv1_symm_val dot_S4000x161_S161x32_S4000x32_1_0_0_1_n_n 161 rfl rfl j
  have el : dot_S4000x161_S161x32_S4000x32_1_0_0_1_n_n.lhsIdx (ix2 p k) ((ValueIdx.contrEquiv1 dot_S4000x161_S161x32_S4000x32_1_0_0_1_n_n 161 rfl rfl).symm j) = ix2 p j := funext fun a => Fin.ext (by
    match a with
    | ⟨0, _⟩ => exact lhs1_0 _ _
    | ⟨1, _⟩ => exact (dot_S4000x161_S161x32_S4000x32_1_0_0_1_n_n.lhsIdx_val_of_single rfl _ _).trans hk)
  have er : dot_S4000x161_S161x32_S4000x32_1_0_0_1_n_n.rhsIdx (ix2 p k) ((ValueIdx.contrEquiv1 dot_S4000x161_S161x32_S4000x32_1_0_0_1_n_n 161 rfl rfl).symm j) = ix2 j k := funext fun a => Fin.ext (by
    match a with
    | ⟨0, _⟩ => exact (dot_S4000x161_S161x32_S4000x32_1_0_0_1_n_n.rhsIdx_val_of_single rfl _ _).trans hk
    | ⟨1, _⟩ => exact rhs1_1 _ _)
  rw [el, er]

/-- The three-piece feature row at `(p, j)`: packed node features for `j < 128`, the squared distance at `j = 128`, the
    normalised edge attribute `j - 129` after that. -/
theorem cat3_apply (a : S4000x128.Idx → EReal) (b : S4000x1.Idx → EReal) (c : S4000x32.Idx → EReal)
    (h : Shape.Concatenates [S4000x128, S4000x1, S4000x32] S4000x161 1) (p : Fin 4000) (j : Fin 161) :
    concatenate S4000x161 1 [⟨S4000x128, a⟩, ⟨S4000x1, b⟩, ⟨S4000x32, c⟩] h (ix2 p j)
      = if h1 : j.val < 128 then a (ix2 p ⟨j.val, h1⟩)
        else if h2 : j.val < 129 then b (ix2 p 0)
        else c (ix2 p ⟨j.val - 129, by have := j.isLt; omega⟩) := by
  by_cases h1 : j.val < 128
  · rw [dif_pos h1]
    exact concatenate_apply_piece (t := S4000x161) (1 : Fin 2) [⟨S4000x128, a⟩, ⟨S4000x1, b⟩, ⟨S4000x32, c⟩] h (ix2 p j) 0 (by show 0 < 3; omega) S4000x128 a rfl rfl 0 rfl (ix2 p ⟨j.val, h1⟩)
      (fun b hb => by match b with | ⟨0, _⟩ => rfl | ⟨1, _⟩ => exact absurd rfl hb) (by show 0 + j.val = j.val; omega)
  · rw [dif_neg h1]
    by_cases h2 : j.val < 129
    · rw [dif_pos h2]
      exact concatenate_apply_piece (t := S4000x161) (1 : Fin 2) [⟨S4000x128, a⟩, ⟨S4000x1, b⟩, ⟨S4000x32, c⟩] h (ix2 p j) 1 (by show 1 < 3; omega) S4000x1 b rfl rfl 128 rfl (ix2 p 0)
        (fun b hb => by match b with | ⟨0, _⟩ => rfl | ⟨1, _⟩ => exact absurd rfl hb) (by show 128 + 0 = j.val; omega)
    · rw [dif_neg h2]
      exact concatenate_apply_piece (t := S4000x161) (1 : Fin 2) [⟨S4000x128, a⟩, ⟨S4000x1, b⟩, ⟨S4000x32, c⟩] h (ix2 p j) 2 (by show 2 < 3; omega) S4000x32 c rfl rfl 129 rfl (ix2 p ⟨j.val - 129, by have := j.isLt; omega⟩)
        (fun b hb => by match b with | ⟨0, _⟩ => rfl | ⟨1, _⟩ => exact absurd rfl hb) (by show 129 + (j.val - 129) = j.val; omega)

/-- The first layer's pre-activation at `(p, k)`. -/
theorem z_apply (C : FVec Ideal S4000x161 .f32) (W : FVec Ideal S161x32 .bf16) (b : S32.Idx → EReal)
    (hlt) (h1 : S32.ShapeCasts S1x32) (h2 : S1x32.Broadcasts S4000x32) (p : Fin 4000) (k : Fin 32) :
    addf (matmul dot_S4000x161_S161x32_S4000x32_1_0_0_1_n_n none (truncf FTy.bf16 C hlt) W (constant (F := Ideal) S4000x32 FTy.f32 0x00000000#32))
        (broadcastTo S4000x32 (shapeCast S1x32 b h1) h2) (ix2 p k)
      = (∑ j : Fin 161, C (ix2 p j) * W (ix2 j k)) + b (ix1 k) :=
  congrArg₂ (· + ·) (mm1_apply _ _ p k) (bcast_row b h1 h2 p k)

/-- The feature row the kernel assembles, read at `(p, j)`. -/
theorem inf_apply (v0 v2 v4 : S4000x1.Idx → EReal) (v6 : S4000x32.Idx → EReal) (v11 v15 : S32.Idx → EReal) (v19 : S4000x128.Idx → EReal)
    (hb : S4000x1.Broadcasts S4000x32)
    (hr : S32.ShapeCasts S1x32) (hbr : S1x32.Broadcasts S4000x32)
    (hcat : Shape.Concatenates [S4000x128, S4000x1, S4000x32] S4000x161 1) (p : Fin 4000) (j : Fin 161) :
    concatenate S4000x161 1
        [⟨S4000x128, v19⟩, ⟨S4000x1, v0⟩,
          ⟨S4000x32, addf (F := Ideal) (φ := .f32) (mulf (F := Ideal) (φ := .f32) (mulf (F := Ideal) (φ := .f32) (subf (F := Ideal) (φ := .f32) v6 (broadcastTo S4000x32 v2 hb))
            (broadcastTo S4000x32 v4 hb)) (broadcastTo S4000x32 (shapeCast S1x32 v11 hr) hbr))
            (broadcastTo S4000x32 (shapeCast S1x32 v15 hr) hbr)⟩] hcat (ix2 p j)
      = infK v0 v2 v4 v6 v11 v15 v19 p j := by
  rw [cat3_apply]
  unfold infK
  by_cases h1 : j.val < 128
  · rw [dif_pos h1, dif_pos h1]
  · rw [dif_neg h1, dif_neg h1]
    by_cases h2 : j.val < 129
    · rw [dif_pos h2, dif_pos h2]
    · rw [dif_neg h2, dif_neg h2]
      show ((v6 _ - broadcastTo S4000x32 _ _ _) * broadcastTo S4000x32 _ _ _) * broadcastTo S4000x32 _ _ _ + broadcastTo S4000x32 _ _ _ = _
      rw [bcast_col', bcast_col', bcast_row, bcast_row]

theorem pay_mlp (v0 v2 v4 : Vec Ideal S4000x1 .f32) (v6 : Vec Ideal S4000x32 .f32) (v11 v15 : Vec Ideal S32 .f32)
    (v19 : Vec Ideal S4000x128 .f32) (v23 : Vec Ideal S161x32 .bf16) (v26 : Vec Ideal S32 .f32) (v33 : Vec Ideal S32x32 .bf16)
    (v36 : Vec Ideal S32 .f32) (p : Fin 4000) (q : Fin 32) :
    k0_pay1 (k0_pay2 v0 v2 v4 v6 v11 v15 v19 v23 v26 v33) (k0_pay3 v36) (ix2 p q)
      = mlpRow (infK v0 v2 v4 v6 v11 v15 v19 p) v23 v26 v33 v36 q := by
  unfold k0_pay1 k0_pay2 k0_pay3 mlpRow
  dsimp only
  refine congrArg₂ (· + ·) ?_ (bcast_row v36 _ _ p q)
  refine (mm2_apply _ _ p q).trans (Finset.sum_congr rfl fun k _ => ?_)
  show (_ * Ideal.logistic _) * shapeCast S32x32 v33 _ (ix2 k q) = _
  rw [z_apply]
  simp only [shapeCast_self]
  simp only [inf_apply]

end Cert.KernelIdeal.Pay

end
-- ==== Proof.IdealValue0.lean ====
import proofs.«114257_j19911468384606_2_alg».proof.Proof.IdealBody0
import proofs.«114257_j19911468384606_2_alg».proof.Proof.PayMlp
import Idealize.ShloMosaic.Lib.Pipeline.Value

/-!
The first Pallas call's output array, whole: row `r` of the result is the two-layer perceptron of row `r`'s 161 features,
read off the call's input arrays — the 128 packed node features of the row, its squared distance, and its 32 edge
attributes normalised by the row's mean and inverse deviation (columns 1 and 2 of the statistics array), scaled and
shifted. Grid point `t` computes rows `4000·t … 4000·t + 3999`, and the 200 points cover all 800000 rows.
-/

set_option maxRecDepth 16384

noncomputable section

namespace Cert.KernelIdeal.Hand

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)

/-- The 161 features of row `r`, from the whole arrays. -/
def infA (A0 : S800000x128.Idx → EReal) (A1 : S800000x3.Idx → EReal) (A2 : S800000x32.Idx → EReal) (A3 A4 : S32.Idx → EReal)
    (r : Fin 800000) (j : Fin 161) : EReal :=
  if h : j.val < 128 then A0 (ix2 r ⟨j.val, h⟩)
  else if h2 : j.val < 129 then A1 (ix2 r 0)
  else ((A2 (ix2 r ⟨j.val - 129, by have := j.isLt; omega⟩) - A1 (ix2 r 1)) * A1 (ix2 r 2)) * A3 (ix1 ⟨j.val - 129, by have := j.isLt; omega⟩)
        + A4 (ix1 ⟨j.val - 129, by have := j.isLt; omega⟩)

/-- The first call's result as one function of its input arrays. -/
def mlpArr (A0 : S800000x128.Idx → EReal) (A1 : S800000x3.Idx → EReal) (A2 : S800000x32.Idx → EReal) (A3 A4 : S32.Idx → EReal)
    (A5 : S161x32.Idx → EReal) (A6 : S32.Idx → EReal) (A7 : S32x32.Idx → EReal) (A8 : S32.Idx → EReal) : S800000x32.Idx → EReal :=
  fun i => mlpRow (infA A0 A1 A2 A3 A4 (i 0)) A5 A6 A7 A8 (i 1)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid: the three row-blocked inputs and the output are at block `(t, 0)`, the small operands at
    block zero. -/
theorem idx_facts0 : ∀ t : Fin cfg0.N, win0_9.index t (0 : Fin 2) = t.val ∧ win0_9.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 1) = 0 ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0 :=
  (by decide +kernel : ∀ t : Fin grid0.N, _)

theorem iblk0_0 (c : Dev nD) (t : Fin cfg0.N) (p : Fin 4000) (k : Fin 128) (r : Fin 800000) (hr : r.val = 4000 * t.val + p.val) :
    (iblk0 V c 0 t : S4000x128.Idx → EReal) (ix2 p k) = (V c (Pipeline.arrRef spec0 0) : S800000x128.Idx → EReal) (ix2 r k) := by
  obtain ⟨-, -, e0, e1, -⟩ := idx_facts0 t
  unfold iblk0
  rw [View.read_apply]
  show V c _ _ = V c _ _
  refine congrArg _ (funext fun a => Fin.ext ?_)
  match a with
  | ⟨0, _⟩ => show win0_0.index t 0 * 4000 + 1 * p.val = r.val; rw [e0, hr]; omega
  | ⟨1, _⟩ => show win0_0.index t 1 * 128 + 1 * k.val = k.val; rw [e1]; omega

theorem iblk0_1 (c : Dev nD) (t : Fin cfg0.N) (p : Fin 4000) (k : Fin 3) (r : Fin 800000) (hr : r.val = 4000 * t.val + p.val) :
    (iblk0 V c 1 t : S4000x3.Idx → EReal) (ix2 p k) = (V c (Pipeline.arrRef spec0 1) : S800000x3.Idx → EReal) (ix2 r k) := by
  obtain ⟨-, -, -, -, e0, e1, -⟩ := idx_facts0 t
  unfold iblk0
  rw [View.read_apply]
  show V c _ _ = V c _ _
  refine congrArg _ (funext fun a => Fin.ext ?_)
  match a with
  | ⟨0, _⟩ => show win0_1.index t 0 * 4000 + 1 * p.val = r.val; rw [e0, hr]; omega
  | ⟨1, _⟩ => show win0_1.index t 1 * 3 + 1 * k.val = k.val; rw [e1]; omega

theorem iblk0_2 (c : Dev nD) (t : Fin cfg0.N) (p : Fin 4000) (k : Fin 32) (r : Fin 800000) (hr : r.val = 4000 * t.val + p.val) :
    (iblk0 V c 2 t : S4000x32.Idx → EReal) (ix2 p k) = (V c (Pipeline.arrRef spec0 2) : S800000x32.Idx → EReal) (ix2 r k) := by
  obtain ⟨-, -, -, -, -, -, e0, e1, -⟩ := idx_facts0 t
  unfold iblk0
  rw [View.read_apply]
  show V c _ _ = V c _ _
  refine congrArg _ (funext fun a => Fin.ext ?_)
  match a with
  | ⟨0, _⟩ => show win0_2.index t 0 * 4000 + 1 * p.val = r.val; rw [e0, hr]; omega
  | ⟨1, _⟩ => show win0_2.index t 1 * 32 + 1 * k.val = k.val; rw [e1]; omega

theorem iblk0_vec (c : Dev nD) (t : Fin cfg0.N) :
    (iblk0 V c 3 t : S32.Idx → EReal) = (V c (Pipeline.arrRef spec0 3) : S32.Idx → EReal)
    ∧ (iblk0 V c 4 t : S32.Idx → EReal) = (V c (Pipeline.arrRef spec0 4) : S32.Idx → EReal)
    ∧ (iblk0 V c 6 t : S32.Idx → EReal) = (V c (Pipeline.arrRef spec0 6) : S32.Idx → EReal)
    ∧ (iblk0 V c 8 t : S32.Idx → EReal) = (V c (Pipeline.arrRef spec0 8) : S32.Idx → EReal)
    ∧ (iblk0 V c 5 t : S161x32.Idx → EReal) = (V c (Pipeline.arrRef spec0 5) : S161x32.Idx → EReal)
    ∧ (iblk0 V c 7 t : S32x32.Idx → EReal) = (V c (Pipeline.arrRef spec0 7) : S32x32.Idx → EReal) := by
  obtain ⟨-, -, -, -, -, -, -, -, e3, e4, e50, e51, e6, e70, e71, e8⟩ := idx_facts0 t
  refine ⟨?_, ?_, ?_, ?_, ?_, ?_⟩ <;> (unfold iblk0; funext y; rw [View.read_apply]; show V c _ _ = V c _ _; refine congrArg _ (funext fun a => Fin.ext ?_))
  · match a with
    | ⟨0, _⟩ => show win0_3.index t 0 * 32 + 1 * (y 0).val = (y 0).val; rw [e3]; omega
  · match a with
    | ⟨0, _⟩ => show win0_4.index t 0 * 32 + 1 * (y 0).val = (y 0).val; rw [e4]; omega
  · match a with
    | ⟨0, _⟩ => show win0_6.index t 0 * 32 + 1 * (y 0).val = (y 0).val; rw [e6]; omega
  · match a with
    | ⟨0, _⟩ => show win0_8.index t 0 * 32 + 1 * (y 0).val = (y 0).val; rw [e8]; omega
  · match a with
    | ⟨0, _⟩ => show win0_5.index t 0 * 161 + 1 * (y 0).val = (y 0).val; rw [e50]; omega
    | ⟨1, _⟩ => show win0_5.index t 1 * 32 + 1 * (y 1).val = (y 1).val; rw [e51]; omega
  · match a with
    | ⟨0, _⟩ => show win0_7.index t 0 * 32 + 1 * (y 0).val = (y 0).val; rw [e70]; omega
    | ⟨1, _⟩ => show win0_7.index t 1 * 32 + 1 * (y 1).val = (y 1).val; rw [e71]; omega

/-- A column of the statistics block, loaded through its one-column rectangle. -/
theorem ld_col (x1 : Vec Ideal S4000x3 .f32) (o : Nat) (inb) (p : Fin 4000) (k : Fin 3) (hk : k.val = o) :
    (View.ld x1 (Rect.unit (s := S4000x3) ![0, o] S4000x1.size inb) : Vec Ideal S4000x1 .f32) (ix2 p 0) = x1 (ix2 p k) := by
  show x1 _ = x1 _
  refine congrArg _ (funext fun a => Fin.ext ?_)
  match a with
  | ⟨0, _⟩ => show 0 + 1 * p.val = p.val; omega
  | ⟨1, _⟩ => show o + 1 * 0 = k.val; omega

/-- The write-back of an uncut block reads the block as it is. -/
theorem cut9 (t : Fin cfg0.N) (P : S4000x32.Idx → EReal) (p : Fin 4000) (q : Fin 32) :
    (cfg0.win 9).cut (grid0.coords t) P (ix2 p q) = P (ix2 p q) := rfl

set_option maxHeartbeats 1000000 in
/-- What grid point `t` writes back is block `t` of `mlpArr` of the input arrays. -/
theorem flushed0_eq (c : Dev nD) (t : Fin cfg0.N) :
    (dat0 V c).flushed 9 t = ((cfg0.win 9).blk t).view.read (Elt Ideal)
      (mlpArr (V c (Pipeline.arrRef spec0 0)) (V c (Pipeline.arrRef spec0 1)) (V c (Pipeline.arrRef spec0 2)) (V c (Pipeline.arrRef spec0 3))
        (V c (Pipeline.arrRef spec0 4)) (V c (Pipeline.arrRef spec0 5)) (V c (Pipeline.arrRef spec0 6)) (V c (Pipeline.arrRef spec0 7)) (V c (Pipeline.arrRef spec0 8))) := by
  show (cfg0.win 9).cut (grid0.coords t) ((dat0 V c).after 9 t) = _
  rw [after0_9]
  unfold out0_9
  rw [View.canon_unit_zero hz2]
  simp only [View.ld_unit_zero (S := S4000x32) hz2, View.ld_unit_zero (S := S4000x128) hz2, View.ld_unit_zero (S := S161x32) hz2,
    View.ld_unit_zero (S := S32x32) hz2, View.ld_unit_zero (S := S32) hz1]
  obtain ⟨h3, h4, h6, h8, h5, h7⟩ := iblk0_vec V c t
  obtain ⟨e0, e1, -⟩ := idx_facts0 t
  funext y
  obtain ⟨p, q, rfl⟩ : ∃ (p : Fin 4000) (q : Fin 32), y = ix2 p q := ⟨y 0, y 1, eq_ix2 y⟩
  have ht : t.val < 200 := by have h := t.isLt; have hN : cfg0.N = 200 := N_0; omega
  refine (cut9 t _ p q).trans ?_
  rw [View.read_apply]
  show _ = mlpArr _ _ _ _ _ _ _ _ _ _
  refine (pay_mlp _ _ _ _ _ _ _ _ _ _ _ p q).trans ?_
  have hr : 4000 * t.val + p.val < 800000 := by have := p.isLt; omega
  have hemb : ((cfg0.win 9).blk t).view.emb (ix2 p q) = ix2 (⟨4000 * t.val + p.val, hr⟩ : Fin 800000) q := by
    funext a; apply Fin.ext
    match a with
    | ⟨0, _⟩ => show win0_9.index t 0 * 4000 + 1 * p.val = 4000 * t.val + p.val; rw [e0]; omega
    | ⟨1, _⟩ => show win0_9.index t 1 * 32 + 1 * q.val = q.val; rw [e1]; omega
  rw [hemb]
  unfold mlpArr
  rw [h3, h4, h5, h6, h7, h8]
  refine congrArg (fun f => mlpRow f _ _ _ _ q) (funext fun j => ?_)
  unfold infK infA
  by_cases h1 : j.val < 128
  · rw [dif_pos h1, dif_pos h1]; exact iblk0_0 V c t p _ ⟨_, hr⟩ rfl
  · rw [dif_neg h1, dif_neg h1]
    by_cases h2 : j.val < 129
    · rw [dif_pos h2, dif_pos h2]
      exact (ld_col _ 0 _ p 0 rfl).trans (iblk0_1 V c t p 0 ⟨_, hr⟩ rfl)
    · rw [dif_neg h2, dif_neg h2]
      rw [ld_col _ 1 _ p 1 rfl, ld_col _ 2 _ p 2 rfl, iblk0_1 V c t p 1 ⟨_, hr⟩ rfl, iblk0_1 V c t p 2 ⟨_, hr⟩ rfl, iblk0_2 V c t p _ ⟨_, hr⟩ rfl]

theorem mem_blk0 (t : Fin cfg0.N) (i : S800000x32.Idx) :
    i ∈ ((cfg0.win 9).blk t).view.set ↔ ∀ a : Fin 2, win0_9.index t a * S4000x32.size a ≤ (i a).val ∧ (i a).val < win0_9.index t a * S4000x32.size a + S4000x32.size a := by
  show i ∈ ((View.whole main_v161).slice (win0_9.rect t)).set ↔ _
  rw [View.set_slice_whole, Rect.mem_set_unit]
  exact Iff.rfl

/-- The first call's output array after the call. -/
theorem final0 (c : Dev nD) : (dat0 V c).arrAt 9 cfg0.N =
    mlpArr (V c (Pipeline.arrRef spec0 0)) (V c (Pipeline.arrRef spec0 1)) (V c (Pipeline.arrRef spec0 2)) (V c (Pipeline.arrRef spec0 3))
        (V c (Pipeline.arrRef spec0 4)) (V c (Pipeline.arrRef spec0 5)) (V c (Pipeline.arrRef spec0 6)) (V c (Pipeline.arrRef spec0 7)) (V c (Pipeline.arrRef spec0 8)) :=
  (dat0 V c).arrAt_eq_of_cover 9 _ (fun t _ => flushed0_eq V c t) fun i => by
    have hi0 : (i 0).val < 800000 := (i 0).isLt
    have hi1 : (i 1).val < 32 := (i 1).isLt
    have hN : cfg0.N = 200 := N_0
    refine ⟨⟨(i 0).val / 4000, by rw [hN]; omega⟩, flush0_9 _, ?_⟩
    rw [mem_blk0]
    obtain ⟨e0, e1, -⟩ := idx_facts0 ⟨(i 0).val / 4000, by rw [hN]; omega⟩
    intro a
    match a with
    | ⟨0, _⟩ => show win0_9.index _ (0 : Fin 2) * 4000 ≤ (i 0).val ∧ (i 0).val < win0_9.index _ (0 : Fin 2) * 4000 + 4000; rw [e0]; show (i 0).val / 4000 * 4000 ≤ _ ∧ _ < (i 0).val / 4000 * 4000 + 4000; omega
    | ⟨1, _⟩ => show win0_9.index _ (1 : Fin 2) * 32 ≤ (i 1).val ∧ (i 1).val < win0_9.index _ (1 : Fin 2) * 32 + 32; rw [e1]; omega

end Cert.KernelIdeal.Hand

end
-- ==== Proof.PayNorm.lean ====
import proofs.«114257_j19911468384606_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

/-!
The second kernel's stored value at row `p`, column `q` of a block: the row's entry minus the row's mean, times the
row's inverse deviation, times the column's scale, plus the column's shift.
-/

noncomputable section

namespace Cert.KernelIdeal.Pay

open Cert.KernelIdeal Cert.KernelIdeal.Gen
open Idealize.ShloMosaic Idealize.ShloMosaic.TcCoe Idealize.ShloMosaic.ValueIdx

theorem bcast_row8 (v : S32.Idx → EReal) (h1 : S32.ShapeCasts S1x32) (h2 : S1x32.Broadcasts S8000x32) (p : Fin 8000) (q : Fin 32) :
    broadcastTo S8000x32 (shapeCast S1x32 v h1) h2 (ix2 p q) = v (ix1 q) := by
  rw [broadcastTo_apply _ h2 (ix2 p q) (ix2 (0 : Fin 1) q) (fun a => by
    match a with
    | ⟨0, _⟩ => show (0 : Nat) = if (1 : Nat) = 1 then 0 else _; rw [if_pos rfl]
    | ⟨1, _⟩ => show q.val = if (32 : Nat) = 1 then 0 else q.val; rw [if_neg (by decide)])]
  exact shapeCast_a_1a_apply v h1 0 q

theorem bcast_col8 (v : S8000x1.Idx → EReal) (h2 : S8000x1.Broadcasts S8000x32) (p : Fin 8000) (q : Fin 32) :
    broadcastTo S8000x32 v h2 (ix2 p q) = v (ix2 p 0) :=
  broadcastTo_apply _ h2 (ix2 p q) (ix2 p (0 : Fin 1)) (fun a => by
    match a with
    | ⟨0, _⟩ => show p.val = if (8000 : Nat) = 1 then 0 else p.val; rw [if_neg (by decide)]
    | ⟨1, _⟩ => show (0 : Nat) = if (1 : Nat) = 1 then 0 else _; rw [if_pos rfl])

theorem pay_norm (v0 v2 : Vec Ideal S8000x1 .f32) (v4 : Vec Ideal S8000x32 .f32) (v10 v14 : Vec Ideal S32 .f32)
    (p : Fin 8000) (q : Fin 32) :
    k1_pay1 v0 v2 v4 v10 v14 (ix2 p q)
      = ((v4 (ix2 p q) - v0 (ix2 p 0)) * v2 (ix2 p 0)) * v10 (ix1 q) + v14 (ix1 q) := by
  unfold k1_pay1
  simp only [shapeCast_self]
  show ((v4 _ - broadcastTo S8000x32 _ _ _) * broadcastTo S8000x32 _ _ _) * broadcastTo S8000x32 _ _ _ + broadcastTo S8000x32 _ _ _ = _
  rw [bcast_col8, bcast_col8, bcast_row8, bcast_row8]

end Cert.KernelIdeal.Pay

end
-- ==== Proof.IdealValue1.lean ====
import proofs.«114257_j19911468384606_2_alg».proof.Proof.IdealBody1
import proofs.«114257_j19911468384606_2_alg».proof.Proof.PayNorm
import Idealize.ShloMosaic.Lib.Pipeline.Value

/-!
The second Pallas call's output array, whole: entry `(r, q)` is the first call's entry minus the row's mean (column 0 of the
statistics array), times the row's inverse deviation (column 1), times the column's scale, plus the column's shift.
Grid point `t` computes rows `8000·t … 8000·t + 7999`, and the 100 points cover all 800000 rows.
-/

set_option maxRecDepth 16384

noncomputable section

namespace Cert.KernelIdeal.Hand

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)

/-- The second call's result as one function of its input arrays. -/
def normArr (A0 : S800000x32.Idx → EReal) (A1 : S800000x2.Idx → EReal) (A2 A3 : S32.Idx → EReal) : S800000x32.Idx → EReal :=
  fun i => ((A0 (ix2 (i 0) (i 1)) - A1 (ix2 (i 0) 0)) * A1 (ix2 (i 0) 1)) * A2 (ix1 (i 1)) + A3 (ix1 (i 1))

variable (V : (c : Dev nD) → (b : Ref sig .tc) → Buf (Elt Ideal) ((c : Thread nD τ).loc b))

theorem hz2' : (![0, 0] : Fin 2 → Nat) = fun _ => 0 := funext fun a => by fin_cases a <;> rfl
theorem hz1' : (![0] : Fin 1 → Nat) = fun _ => 0 := funext fun a => by fin_cases a; rfl

theorem idx_facts1 : ∀ t : Fin cfg1.N, win1_4.index t (0 : Fin 2) = t.val ∧ win1_4.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 1) = 0 ∧ win1_3.index t (0 : Fin 1) = 0 :=
  (by decide +kernel : ∀ t : Fin grid1.N, _)

theorem iblk1_0 (c : Dev nD) (t : Fin cfg1.N) (p : Fin 8000) (k : Fin 32) (r : Fin 800000) (hr : r.val = 8000 * t.val + p.val) :
    (iblk1 V c 0 t : S8000x32.Idx → EReal) (ix2 p k) = (V c (Pipeline.arrRef spec1 0) : S800000x32.Idx → EReal) (ix2 r k) := by
  obtain ⟨-, -, e0, e1, -⟩ := idx_facts1 t
  unfold iblk1
  rw [View.read_apply]
  show V c _ _ = V c _ _
  refine congrArg _ (funext fun a => Fin.ext ?_)
  match a with
  | ⟨0, _⟩ => show win1_0.index t 0 * 8000 + 1 * p.val = r.val; rw [e0, hr]; omega
  | ⟨1, _⟩ => show win1_0.index t 1 * 32 + 1 * k.val = k.val; rw [e1]; omega

theorem iblk1_1 (c : Dev nD) (t : Fin cfg1.N) (p : Fin 8000) (k : Fin 2) (r : Fin 800000) (hr : r.val = 8000 * t.val + p.val) :
    (iblk1 V c 1 t : S8000x2.Idx → EReal) (ix2 p k) = (V c (Pipeline.arrRef spec1 1) : S800000x2.Idx → EReal) (ix2 r k) := by
  obtain ⟨-, -, -, -, e0, e1, -⟩ := idx_facts1 t
  unfold iblk1
  rw [View.read_apply]
  show V c _ _ = V c _ _
  refine congrArg _ (funext fun a => Fin.ext ?_)
  match a with
  | ⟨0, _⟩ => show win1_1.index t 0 * 8000 + 1 * p.val = r.val; rw [e0, hr]; omega
  | ⟨1, _⟩ => show win1_1.index t 1 * 2 + 1 * k.val = k.val; rw [e1]; omega

theorem iblk1_vec (c : Dev nD) (t : Fin cfg1.N) :
    (iblk1 V c 2 t : S32.Idx → EReal) = (V c (Pipeline.arrRef spec1 2) : S32.Idx → EReal)
    ∧ (iblk1 V c 3 t : S32.Idx → EReal) = (V c (Pipeline.arrRef spec1 3) : S32.Idx → EReal) := by
  obtain ⟨-, -, -, -, -, -, e2, e3⟩ := idx_facts1 t
  refine ⟨?_, ?_⟩ <;> (unfold iblk1; funext y; rw [View.read_apply]; show V c _ _ = V c _ _; refine congrArg _ (funext fun a => Fin.ext ?_))
  · match a with
    | ⟨0, _⟩ => show win1_2.index t 0 * 32 + 1 * (y 0).val = (y 0).val; rw [e2]; omega
  · match a with
    | ⟨0, _⟩ => show win1_3.index t 0 * 32 + 1 * (y 0).val = (y 0).val; rw [e3]; omega

theorem ld_col2 (x1 : Vec Ideal S8000x2 .f32) (o : Nat) (inb) (p : Fin 8000) (k : Fin 2) (hk : k.val = o) :
    (View.ld x1 (Rect.unit (s := S8000x2) ![0, o] S8000x1.size inb) : Vec Ideal S8000x1 .f32) (ix2 p 0) = x1 (ix2 p k) := by
  show x1 _ = x1 _
  refine congrArg _ (funext fun a => Fin.ext ?_)
  match a with
  | ⟨0, _⟩ => show 0 + 1 * p.val = p.val; omega
  | ⟨1, _⟩ => show o + 1 * 0 = k.val; omega

/-- The write-back of an uncut block reads the block as it is. -/
theorem cut4 (t : Fin cfg1.N) (P : S8000x32.Idx → EReal) (p : Fin 8000) (q : Fin 32) :
    (cfg1.win 4).cut (grid1.coords t) P (ix2 p q) = P (ix2 p q) := rfl

set_option maxHeartbeats 1000000 in
/-- What grid point `t` writes back is block `t` of `normArr` of the input arrays. -/
theorem flushed1_eq (c : Dev nD) (t : Fin cfg1.N) :
    (dat1 V c).flushed 4 t = ((cfg1.win 4).blk t).view.read (Elt Ideal)
      (normArr (V c (Pipeline.arrRef spec1 0)) (V c (Pipeline.arrRef spec1 1)) (V c (Pipeline.arrRef spec1 2)) (V c (Pipeline.arrRef spec1 3))) := by
  show (cfg1.win 4).cut (grid1.coords t) ((dat1 V c).after 4 t) = _
  rw [after1_4]
  unfold out1_4
  rw [View.canon_unit_zero hz2']
  simp only [View.ld_unit_zero (S := S8000x32) hz2', View.ld_unit_zero (S := S32) hz1']
  obtain ⟨h2, h3⟩ := iblk1_vec V c t
  obtain ⟨e0, e1, -⟩ := idx_facts1 t
  funext y
  obtain ⟨p, q, rfl⟩ : ∃ (p : Fin 8000) (q : Fin 32), y = ix2 p q := ⟨y 0, y 1, eq_ix2 y⟩
  have ht : t.val < 100 := by have h := t.isLt; have hN : cfg1.N = 100 := N_1; omega
  refine (cut4 t _ p q).trans ?_
  rw [View.read_apply]
  show _ = normArr _ _ _ _ _
  refine (pay_norm _ _ _ _ _ p q).trans ?_
  have hr : 8000 * t.val + p.val < 800000 := by have := p.isLt; omega
  have hemb : ((cfg1.win 4).blk t).view.emb (ix2 p q) = ix2 (⟨8000 * t.val + p.val, hr⟩ : Fin 800000) q := by
    funext a; apply Fin.ext
    match a with
    | ⟨0, _⟩ => show win1_4.index t 0 * 8000 + 1 * p.val = 8000 * t.val + p.val; rw [e0]; omega
    | ⟨1, _⟩ => show win1_4.index t 1 * 32 + 1 * q.val = q.val; rw [e1]; omega
  rw [hemb]
  unfold normArr
  rw [h2, h3, ld_col2 _ 0 _ p 0 rfl, ld_col2 _ 1 _ p 1 rfl, iblk1_1 V c t p 0 ⟨_, hr⟩ rfl, iblk1_1 V c t p 1 ⟨_, hr⟩ rfl, iblk1_0 V c t p q ⟨_, hr⟩ rfl]

theorem mem_blk1 (t : Fin cfg1.N) (i : S800000x32.Idx) :
    i ∈ ((cfg1.win 4).blk t).view.set ↔ ∀ a : Fin 2, win1_4.index t a * S8000x32.size a ≤ (i a).val ∧ (i a).val < win1_4.index t a * S8000x32.size a + S8000x32.size a := by
  show i ∈ ((View.whole main_v205).slice (win1_4.rect t)).set ↔ _
  rw [View.set_slice_whole, Rect.mem_set_unit]
  exact Iff.rfl

/-- The second call's output array after the call. -/
theorem final1 (c : Dev nD) : (dat1 V c).arrAt 4 cfg1.N =
    normArr (V c (Pipeline.arrRef spec1 0)) (V c (Pipeline.arrRef spec1 1)) (V c (Pipeline.arrRef spec1 2)) (V c (Pipeline.arrRef spec1 3)) :=
  (dat1 V c).arrAt_eq_of_cover 4 _ (fun t _ => flushed1_eq V c t) fun i => by
    have hi0 : (i 0).val < 800000 := (i 0).isLt
    have hi1 : (i 1).val < 32 := (i 1).isLt
    have hN : cfg1.N = 100 := N_1
    refine ⟨⟨(i 0).val / 8000, by rw [hN]; omega⟩, flush1_4 _, ?_⟩
    rw [mem_blk1]
    obtain ⟨e0, e1, -⟩ := idx_facts1 ⟨(i 0).val / 8000, by rw [hN]; omega⟩
    intro a
    match a with
    | ⟨0, _⟩ => show win1_4.index _ (0 : Fin 2) * 8000 ≤ (i 0).val ∧ (i 0).val < win1_4.index _ (0 : Fin 2) * 8000 + 8000; rw [e0]; show (i 0).val / 8000 * 8000 ≤ _ ∧ _ < (i 0).val / 8000 * 8000 + 8000; omega
    | ⟨1, _⟩ => show win1_4.index _ (1 : Fin 2) * 32 ≤ (i 1).val ∧ (i 1).val < win1_4.index _ (1 : Fin 2) * 32 + 32; rw [e1]; omega

end Cert.KernelIdeal.Hand

end
-- ==== Proof.LibSegVar.lean ====
import Idealize.ShloMosaic.PureOps.Ideal

/-!
  The variance of the rows of a segment, computed in one pass (mean of the squares minus
  the square of the mean, clamped at zero) and in two passes (mean of the squared
  deviations), on the extended reals: when every entry is a real number the two agree,
  and the denominator, the mean and the variance are all real numbers.
-/

namespace Cert.LibSegVar

open Idealize.ShloMosaic

/-- A finite sum of coerced reals is the coercion of the real sum. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The maximum of two coerced reals is the coercion of the real maximum. -/
theorem coe_max (a b : ℝ) : max (a : EReal) (b : EReal) = ((max a b : ℝ) : EReal) :=
  (EReal.coe_strictMono.monotone.map_max (a := a) (b := b)).symm

/-- Division of a coerced real by a nonzero coerced real is the coerced quotient. -/
theorem div_coe_coe (a d : ℝ) (hd : d ≠ 0) :
    Ideal.div (a : EReal) (d : EReal) = ((a / d : ℝ) : EReal) := by
  rw [Ideal.div_coe hd, ← EReal.coe_mul, mul_one_div]

/-- A double sum over an empty index rectangle is zero. -/
theorem dsum_zero_of_card {J K : Type} [Fintype K] (s : Finset J) (f : J → K → ℝ)
    (h : s.card * Fintype.card K = 0) : ∑ j ∈ s, ∑ k, f j k = 0 := by
  rcases Nat.mul_eq_zero.mp h with h | h
  · rw [Finset.card_eq_zero.mp h]; simp
  · have : IsEmpty K := Fintype.card_eq_zero_iff.mp h
    simp

/-- Expansion of the sum of squared deviations from any centre `μ`:
    `∑∑ (r - μ)² = ∑∑ r² - 2 μ ∑∑ r + n μ²` with `n` the number of entries. -/
theorem dsum_sq_sub {J K : Type} [Fintype K] (s : Finset J) (r : J → K → ℝ) (μ : ℝ) :
    ∑ j ∈ s, ∑ k, (r j k - μ) * (r j k - μ)
      = (∑ j ∈ s, ∑ k, r j k * r j k) - 2 * μ * (∑ j ∈ s, ∑ k, r j k)
        + ((s.card : ℝ) * (Fintype.card K : ℝ)) * (μ * μ) := by
  have h : ∀ j k, (r j k - μ) * (r j k - μ) = r j k * r j k - 2 * μ * r j k + μ * μ := by
    intros; ring
  simp only [h, Finset.sum_add_distrib, Finset.sum_sub_distrib, ← Finset.mul_sum,
    Finset.sum_const, Finset.card_univ, nsmul_eq_mul]
  ring

/-- The real identity: with `n` the number of entries, `d = max n 1` and `μ = (∑∑ r) / d`,
    the mean of the squared deviations is the mean of the squares minus `μ²`. -/
theorem real_var {J K : Type} [Fintype K] (s : Finset J) (r : J → K → ℝ) (d μ : ℝ)
    (hd : d = max ((s.card : ℝ) * (Fintype.card K : ℝ)) 1)
    (hμ : μ = (∑ j ∈ s, ∑ k, r j k) / d) :
    (∑ j ∈ s, ∑ k, (r j k - μ) * (r j k - μ)) / d
      = (∑ j ∈ s, ∑ k, r j k * r j k) / d - μ * μ := by
  rw [dsum_sq_sub]
  by_cases h0 : s.card * Fintype.card K = 0
  · -- no entries: every double sum is zero, and so is the mean
    have hA := dsum_zero_of_card s r h0
    have hB := dsum_zero_of_card s (fun j k => r j k * r j k) h0
    have hn : (s.card : ℝ) * (Fintype.card K : ℝ) = 0 := by exact_mod_cast h0
    have hμ0 : μ = 0 := by rw [hμ, hA, zero_div]
    rw [hA, hB, hn, hμ0]; simp
  · -- at least one entry: the denominator is the number of entries
    have h1 : 1 ≤ s.card * Fintype.card K := Nat.one_le_iff_ne_zero.mpr h0
    have hn : (1 : ℝ) ≤ (s.card : ℝ) * (Fintype.card K : ℝ) := by exact_mod_cast h1
    have hdn : d = (s.card : ℝ) * (Fintype.card K : ℝ) := by rw [hd, max_eq_left hn]
    have hd0 : d ≠ 0 := by rw [hdn]; linarith
    rw [← hdn, hμ]
    field_simp
    ring

/-- Everything at once: the denominator, the mean and the two-pass variance are real
    numbers, and the one-pass variance equals the two-pass one. -/
theorem seg_reals {J K : Type} [Fintype K] (s : Finset J) (r : J → K → ℝ) (c : ℝ)
    (hc : c = (Fintype.card K : ℝ))
    (cnt D S1 S2 mean T : EReal)
    (hcnt : cnt = 0 + ∑ j ∈ s, (1 : EReal))
    (hD : D = max (cnt * (c : EReal)) 1)
    (hS1 : S1 = 0 + ∑ j ∈ s, (0 + ∑ k : K, ((r j k : ℝ) : EReal)))
    (hS2 : S2 = 0 + ∑ j ∈ s, (0 + ∑ k : K, ((r j k : ℝ) : EReal) * ((r j k : ℝ) : EReal)))
    (hmean : mean = Ideal.div S1 D)
    (hT : T = 0 + ∑ j ∈ s, (0 + ∑ k : K,
      (((r j k : ℝ) : EReal) - mean) * (((r j k : ℝ) : EReal) - mean))) :
    ∃ d μ v : ℝ, 1 ≤ d ∧ 0 ≤ v ∧ D = (d : EReal) ∧ mean = (μ : EReal) ∧
      Ideal.div T D = (v : EReal) ∧ max (Ideal.div S2 D - mean * mean) 0 = (v : EReal) := by
  obtain ⟨d, hd⟩ : ∃ d : ℝ, d = max ((s.card : ℝ) * (Fintype.card K : ℝ)) 1 := ⟨_, rfl⟩
  obtain ⟨μ, hμ⟩ : ∃ μ : ℝ, μ = (∑ j ∈ s, ∑ k, r j k) / d := ⟨_, rfl⟩
  have hd1 : 1 ≤ d := by rw [hd]; exact le_max_right _ _
  have hdpos : 0 < d := by linarith
  have hd0 : d ≠ 0 := ne_of_gt hdpos
  have hcntE : cnt = ((s.card : ℝ) : EReal) := by
    rw [hcnt, zero_add, ← EReal.coe_one, coe_sum, Finset.sum_const, nsmul_eq_mul, mul_one]
  have hDE : D = (d : EReal) := by
    rw [hD, hcntE, hc, ← EReal.coe_mul, ← EReal.coe_one, coe_max, hd]
  have hS1E : S1 = ((∑ j ∈ s, ∑ k, r j k : ℝ) : EReal) := by
    rw [hS1]; simp only [zero_add, coe_sum]
  have hS2E : S2 = ((∑ j ∈ s, ∑ k, r j k * r j k : ℝ) : EReal) := by
    rw [hS2]; simp only [zero_add, ← EReal.coe_mul, coe_sum]
  have hmE : mean = (μ : EReal) := by
    rw [hmean, hS1E, hDE, div_coe_coe _ _ hd0, hμ]
  have hTE : T = ((∑ j ∈ s, ∑ k, (r j k - μ) * (r j k - μ) : ℝ) : EReal) := by
    rw [hT, hmE]; simp only [zero_add, ← EReal.coe_sub, ← EReal.coe_mul, coe_sum]
  have hvar := real_var s r d μ hd hμ
  have hv0 : 0 ≤ (∑ j ∈ s, ∑ k, (r j k - μ) * (r j k - μ)) / d :=
    div_nonneg (Finset.sum_nonneg fun j _ => Finset.sum_nonneg fun k _ => mul_self_nonneg _)
      hdpos.le
  refine ⟨d, μ, (∑ j ∈ s, ∑ k, (r j k - μ) * (r j k - μ)) / d, hd1, hv0, hDE, hmE, ?_, ?_⟩
  · rw [hTE, hDE, div_coe_coe _ _ hd0]
  · rw [hS2E, hDE, hmE, div_coe_coe _ _ hd0, ← EReal.coe_mul, ← EReal.coe_sub, ← EReal.coe_zero,
      coe_max, ← hvar, max_eq_left hv0]

/-- The denominator `max (count · width) 1` is a real number, at least one. -/
theorem seg_denom_real {J K : Type} [Fintype K] (s : Finset J) (r : J → K → ℝ) (c : ℝ)
    (hc : c = (Fintype.card K : ℝ))
    (cnt D S1 S2 mean T : EReal)
    (hcnt : cnt = 0 + ∑ j ∈ s, (1 : EReal))
    (hD : D = max (cnt * (c : EReal)) 1)
    (hS1 : S1 = 0 + ∑ j ∈ s, (0 + ∑ k : K, ((r j k : ℝ) : EReal)))
    (hS2 : S2 = 0 + ∑ j ∈ s, (0 + ∑ k : K, ((r j k : ℝ) : EReal) * ((r j k : ℝ) : EReal)))
    (hmean : mean = Ideal.div S1 D)
    (hT : T = 0 + ∑ j ∈ s, (0 + ∑ k : K,
      (((r j k : ℝ) : EReal) - mean) * (((r j k : ℝ) : EReal) - mean))) :
    ∃ d : ℝ, 1 ≤ d ∧ D = (d : EReal) := by
  obtain ⟨d, _, _, h1, _, hDE, _, _, _⟩ :=
    seg_reals s r c hc cnt D S1 S2 mean T hcnt hD hS1 hS2 hmean hT
  exact ⟨d, h1, hDE⟩

/-- The mean of the segment is a real number. -/
theorem seg_mean_real {J K : Type} [Fintype K] (s : Finset J) (r : J → K → ℝ) (c : ℝ)
    (hc : c = (Fintype.card K : ℝ))
    (cnt D S1 S2 mean T : EReal)
    (hcnt : cnt = 0 + ∑ j ∈ s, (1 : EReal))
    (hD : D = max (cnt * (c : EReal)) 1)
    (hS1 : S1 = 0 + ∑ j ∈ s, (0 + ∑ k : K, ((r j k : ℝ) : EReal)))
    (hS2 : S2 = 0 + ∑ j ∈ s, (0 + ∑ k : K, ((r j k : ℝ) : EReal) * ((r j k : ℝ) : EReal)))
    (hmean : mean = Ideal.div S1 D)
    (hT : T = 0 + ∑ j ∈ s, (0 + ∑ k : K,
      (((r j k : ℝ) : EReal) - mean) * (((r j k : ℝ) : EReal) - mean))) :
    ∃ μ : ℝ, mean = (μ : EReal) := by
  obtain ⟨_, μ, _, _, _, _, hmE, _, _⟩ :=
    seg_reals s r c hc cnt D S1 S2 mean T hcnt hD hS1 hS2 hmean hT
  exact ⟨μ, hmE⟩

/-- The two-pass variance of the segment is a nonnegative real number. -/
theorem seg_var_real {J K : Type} [Fintype K] (s : Finset J) (r : J → K → ℝ) (c : ℝ)
    (hc : c = (Fintype.card K : ℝ))
    (cnt D S1 S2 mean T : EReal)
    (hcnt : cnt = 0 + ∑ j ∈ s, (1 : EReal))
    (hD : D = max (cnt * (c : EReal)) 1)
    (hS1 : S1 = 0 + ∑ j ∈ s, (0 + ∑ k : K, ((r j k : ℝ) : EReal)))
    (hS2 : S2 = 0 + ∑ j ∈ s, (0 + ∑ k : K, ((r j k : ℝ) : EReal) * ((r j k : ℝ) : EReal)))
    (hmean : mean = Ideal.div S1 D)
    (hT : T = 0 + ∑ j ∈ s, (0 + ∑ k : K,
      (((r j k : ℝ) : EReal) - mean) * (((r j k : ℝ) : EReal) - mean))) :
    ∃ v : ℝ, 0 ≤ v ∧ Ideal.div T D = (v : EReal) := by
  obtain ⟨_, _, v, _, hv0, _, _, hTv, _⟩ :=
    seg_reals s r c hc cnt D S1 S2 mean T hcnt hD hS1 hS2 hmean hT
  exact ⟨v, hv0, hTv⟩

/-- One-pass variance equals two-pass variance on a segment of real entries. -/
theorem seg_var_eq {J K : Type} [Fintype K] (s : Finset J) (r : J → K → ℝ) (c : ℝ)
    (hc : c = (Fintype.card K : ℝ))
    (cnt D S1 S2 mean T : EReal)
    (hcnt : cnt = 0 + ∑ j ∈ s, (1 : EReal))
    (hD : D = max (cnt * (c : EReal)) 1)
    (hS1 : S1 = 0 + ∑ j ∈ s, (0 + ∑ k : K, ((r j k : ℝ) : EReal)))
    (hS2 : S2 = 0 + ∑ j ∈ s, (0 + ∑ k : K, ((r j k : ℝ) : EReal) * ((r j k : ℝ) : EReal)))
    (hmean : mean = Ideal.div S1 D)
    (hT : T = 0 + ∑ j ∈ s, (0 + ∑ k : K,
      (((r j k : ℝ) : EReal) - mean) * (((r j k : ℝ) : EReal) - mean))) :
    max (Ideal.div S2 D - mean * mean) 0 = Ideal.div T D := by
  obtain ⟨_, _, _, _, _, _, _, hTv, hmax⟩ :=
    seg_reals s r c hc cnt D S1 S2 mean T hcnt hD hS1 hS2 hmean hT
  rw [hmax, hTv]

end Cert.LibSegVar
-- ==== Proof.LibIdealReal.lean ====
/-
  Finiteness at the ideal values. An ideal float value is an extended real; an array is REAL when every
  element is a real number (neither infinity), and POSITIVE / NONNEGATIVE / AT LEAST ONE when every element is
  such a real. This module states those four predicates and proves that the whole-array host operations of a
  reference program preserve them: the elementwise arithmetic, the quotient by an array that is nowhere zero,
  the reciprocal square root of a positive array, the exponential, the layout operations (which only copy
  elements: broadcast, gather, concatenate), and the finite sums (reduce, scatter-add, dot product).
  Everything is stated for arbitrary shapes and dimension records.
-/
import Idealize.ShloMosaic.PureOps.Ideal
import Idealize.ShloMosaic.PureOps.Ideal.Laws
import Idealize.ShloMosaic.PureOps.ShapeOps
import Idealize.ShloMosaic.PureOps.Contract

noncomputable section

namespace Cert.LibIdealReal

open Idealize.ShloMosaic
open scoped BigOperators

/-! ### One extended real -/

/-- The extended real is a real number. -/
def IsReal (x : EReal) : Prop := ∃ r : ℝ, x = (r : EReal)
/-- The extended real is a positive real number. -/
def IsPos (x : EReal) : Prop := ∃ r : ℝ, 0 < r ∧ x = (r : EReal)
/-- The extended real is a nonnegative real number. -/
def IsNonneg (x : EReal) : Prop := ∃ r : ℝ, 0 ≤ r ∧ x = (r : EReal)
/-- The extended real is a real number that is at least one. -/
def IsGeOne (x : EReal) : Prop := ∃ r : ℝ, 1 ≤ r ∧ x = (r : EReal)

theorem IsPos.isReal {x : EReal} (h : IsPos x) : IsReal x := let ⟨r, _, e⟩ := h; ⟨r, e⟩
theorem IsNonneg.isReal {x : EReal} (h : IsNonneg x) : IsReal x := let ⟨r, _, e⟩ := h; ⟨r, e⟩
theorem IsGeOne.isReal {x : EReal} (h : IsGeOne x) : IsReal x := let ⟨r, _, e⟩ := h; ⟨r, e⟩
theorem IsPos.isNonneg {x : EReal} (h : IsPos x) : IsNonneg x := let ⟨r, p, e⟩ := h; ⟨r, p.le, e⟩
theorem IsGeOne.isPos {x : EReal} (h : IsGeOne x) : IsPos x :=
  let ⟨r, p, e⟩ := h; ⟨r, lt_of_lt_of_le one_pos p, e⟩

theorem IsReal.zero : IsReal 0 := ⟨0, rfl⟩
theorem IsNonneg.zero : IsNonneg 0 := ⟨0, le_refl _, rfl⟩
theorem IsGeOne.one : IsGeOne 1 := ⟨1, le_refl _, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.emax {x y : EReal} (hx : IsReal x) (hy : IsReal y) : IsReal (Max.max x y) := by
  obtain ⟨a, rfl⟩ := hx; obtain ⟨b, rfl⟩ := hy
  exact ⟨Max.max a b, (EReal.coe_strictMono.monotone.map_max).symm⟩
/-- The exponential of a real is a positive real. -/
theorem IsReal.exp_pos {x : EReal} (hx : IsReal x) : IsPos (Ideal.exp x) := by
  obtain ⟨a, rfl⟩ := hx; exact ⟨Real.exp a, Real.exp_pos a, rfl⟩
/-- A finite sum of reals is a real. -/
theorem IsReal.sum {ι : Type} (s : Finset ι) (f : ι → EReal) (h : ∀ j ∈ s, IsReal (f j)) :
    IsReal (∑ j ∈ s, f j) :=
  Finset.sum_induction f IsReal (fun _ _ => IsReal.add) IsReal.zero h

theorem IsNonneg.add {x y : EReal} (hx : IsNonneg x) (hy : IsNonneg y) : IsNonneg (x + y) := by
  obtain ⟨a, ha, rfl⟩ := hx; obtain ⟨b, hb, rfl⟩ := hy
  exact ⟨a + b, add_nonneg ha hb, (EReal.coe_add a b).symm⟩
/-- A finite sum of nonnegative reals is a nonnegative real. -/
theorem IsNonneg.sum {ι : Type} (s : Finset ι) (f : ι → EReal) (h : ∀ j ∈ s, IsNonneg (f j)) :
    IsNonneg (∑ j ∈ s, f j) :=
  Finset.sum_induction f IsNonneg (fun _ _ => IsNonneg.add) IsNonneg.zero h
/-- The square of a real is a nonnegative real. -/
theorem IsReal.mul_self_nonneg {x : EReal} (hx : IsReal x) : IsNonneg (x * x) := by
  obtain ⟨a, rfl⟩ := hx; exact ⟨a * a, _root_.mul_self_nonneg a, (EReal.coe_mul a a).symm⟩
theorem IsNonneg.mul {x y : EReal} (hx : IsNonneg x) (hy : IsNonneg y) : IsNonneg (x * y) := by
  obtain ⟨a, ha, rfl⟩ := hx; obtain ⟨b, hb, rfl⟩ := hy
  exact ⟨a * b, mul_nonneg ha hb, (EReal.coe_mul a b).symm⟩
theorem IsPos.add {x y : EReal} (hx : IsPos x) (hy : IsPos y) : IsPos (x + y) := by
  obtain ⟨a, ha, rfl⟩ := hx; obtain ⟨b, hb, rfl⟩ := hy
  exact ⟨a + b, add_pos ha hb, (EReal.coe_add a b).symm⟩
/-- A nonnegative real plus a positive real is a positive real. -/
theorem IsNonneg.add_pos {x y : EReal} (hx : IsNonneg x) (hy : IsPos y) : IsPos (x + y) := by
  obtain ⟨a, ha, rfl⟩ := hx; obtain ⟨b, hb, rfl⟩ := hy
  exact ⟨a + b, add_pos_of_nonneg_of_pos ha hb, (EReal.coe_add a b).symm⟩
/-- The greater of a real and a real that is at least one is at least one. -/
theorem IsReal.emax_geOne {x y : EReal} (hx : IsReal x) (hy : IsGeOne y) : IsGeOne (Max.max x y) := by
  obtain ⟨a, rfl⟩ := hx; obtain ⟨b, hb, rfl⟩ := hy
  exact ⟨Max.max a b, le_trans hb (le_max_right a b), (EReal.coe_strictMono.monotone.map_max).symm⟩

/-- The quotient of a real by a positive real is their real quotient. -/
theorem div_coe_pos (a : ℝ) {b : ℝ} (hb : 0 < b) : Ideal.div (a : EReal) (b : EReal) = ((a * (1 / b) : ℝ) : EReal) := by
  rw [Ideal.div_coe hb.ne', EReal.coe_mul]
theorem IsReal.div_pos {x y : EReal} (hx : IsReal x) (hy : IsPos y) : IsReal (Ideal.div x y) := by
  obtain ⟨a, rfl⟩ := hx; obtain ⟨b, hb, rfl⟩ := hy; exact ⟨_, div_coe_pos a hb⟩
theorem IsNonneg.div_pos {x y : EReal} (hx : IsNonneg x) (hy : IsPos y) : IsNonneg (Ideal.div x y) := by
  obtain ⟨a, ha, rfl⟩ := hx; obtain ⟨b, hb, rfl⟩ := hy
  exact ⟨_, mul_nonneg ha (one_div_pos.mpr hb).le, div_coe_pos a hb⟩
theorem IsPos.div_pos {x y : EReal} (hx : IsPos x) (hy : IsPos y) : IsPos (Ideal.div x y) := by
  obtain ⟨a, ha, rfl⟩ := hx; obtain ⟨b, hb, rfl⟩ := hy
  exact ⟨_, mul_pos ha (one_div_pos.mpr hb), div_coe_pos a hb⟩
/-- The reciprocal square root of a positive real is a positive real. -/
theorem IsPos.rsqrt {x : EReal} (hx : IsPos x) : IsPos (Ideal.rsqrt x) := by
  obtain ⟨a, ha, rfl⟩ := hx
  refine ⟨(Real.sqrt a)⁻¹, inv_pos.mpr (Real.sqrt_pos.mpr ha), ?_⟩
  rw [Ideal.rsqrt_coe, if_neg (not_lt.mpr ha.le), if_neg ha.ne']

/-! ### The float constants of the program, as the reals their patterns denote -/

theorem ofBits_zero : Ideal.ofBits .f32 0x00000000#32 = ((0 : ℝ) : EReal) := by
  simp [Ideal.ofBits, Ideal.ieee]
theorem ofBits_one : Ideal.ofBits .f32 0x3F800000#32 = ((1 : ℝ) : EReal) := by
  simp [Ideal.ofBits, Ideal.ieee, -EReal.coe_mul]; norm_num
theorem ofBits_64 : Ideal.ofBits .f32 0x42800000#32 = ((64 : ℝ) : EReal) := by
  simp [Ideal.ofBits, Ideal.ieee, -EReal.coe_mul]; norm_num
theorem ofBits_32 : Ideal.ofBits .f32 0x42000000#32 = ((32 : ℝ) : EReal) := by
  simp [Ideal.ofBits, Ideal.ieee, -EReal.coe_mul]; norm_num
/-- The pattern 0x3727C5AC (the variance offset, about 1e-5) denotes 10995116 · 2⁻⁴⁰. -/
theorem ofBits_eps : Ideal.ofBits .f32 0x3727C5AC#32 = ((10995116 * (2 : ℝ) ^ (-40 : Int) : ℝ) : EReal) := by
  simp [Ideal.ofBits, Ideal.ieee, -EReal.coe_mul]

theorem isReal_ofBits_zero : IsReal (Ideal.ofBits .f32 0x00000000#32) := ⟨0, ofBits_zero⟩
theorem isNonneg_ofBits_zero : IsNonneg (Ideal.ofBits .f32 0x00000000#32) := ⟨0, le_refl _, ofBits_zero⟩
theorem isGeOne_ofBits_one : IsGeOne (Ideal.ofBits .f32 0x3F800000#32) := ⟨1, le_refl _, ofBits_one⟩
theorem isGeOne_ofBits_64 : IsGeOne (Ideal.ofBits .f32 0x42800000#32) := ⟨64, by norm_num, ofBits_64⟩
theorem isGeOne_ofBits_32 : IsGeOne (Ideal.ofBits .f32 0x42000000#32) := ⟨32, by norm_num, ofBits_32⟩
theorem isPos_ofBits_eps : IsPos (Ideal.ofBits .f32 0x3727C5AC#32) := ⟨_, by positivity, ofBits_eps⟩

/-! ### Arrays -/

/-- Every element of the array is a real number. -/
def RealV {S : Shape} (v : S.Idx → EReal) : Prop := ∀ i, IsReal (v i)
/-- Every element of the array is a positive real number. -/
def PosV {S : Shape} (v : S.Idx → EReal) : Prop := ∀ i, IsPos (v i)
/-- Every element of the array is a nonnegative real number. -/
def NonnegV {S : Shape} (v : S.Idx → EReal) : Prop := ∀ i, IsNonneg (v i)
/-- Every element of the array is a real number that is at least one. -/
def GeOneV {S : Shape} (v : S.Idx → EReal) : Prop := ∀ i, IsGeOne (v i)

/-- The definition, spelled out: each element equals the coercion of some real. -/
theorem realV_iff {S : Shape} (v : S.Idx → EReal) : RealV v ↔ ∀ i, ∃ r : ℝ, v i = (r : EReal) := Iff.rfl

section Arrays
variable {S : Shape} {φ : FTy}

theorem PosV.realV {v : S.Idx → EReal} (h : PosV v) : RealV v := fun i => (h i).isReal
theorem NonnegV.realV {v : S.Idx → EReal} (h : NonnegV v) : RealV v := fun i => (h i).isReal
theorem GeOneV.realV {v : S.Idx → EReal} (h : GeOneV v) : RealV v := fun i => (h i).isReal
theorem GeOneV.posV {v : S.Idx → EReal} (h : GeOneV v) : PosV v := fun i => (h i).isPos
theorem PosV.nonnegV {v : S.Idx → EReal} (h : PosV v) : NonnegV v := fun i => (h i).isNonneg

/-! #### Elementwise arithmetic -/

theorem realV_addf {v w : FVec Ideal S φ} (hv : RealV v) (hw : RealV w) : RealV (addf v w) :=
  fun i => (hv i).add (hw i)
theorem realV_subf {v w : FVec Ideal S φ} (hv : RealV v) (hw : RealV w) : RealV (subf v w) :=
  fun i => (hv i).sub (hw i)
theorem realV_mulf {v w : FVec Ideal S φ} (hv : RealV v) (hw : RealV w) : RealV (mulf v w) :=
  fun i => (hv i).mul (hw i)
theorem realV_maximumf {v w : FVec Ideal S φ} (hv : RealV v) (hw : RealV w) : RealV (maximumf v w) :=
  fun i => (hv i).emax (hw i)
theorem realV_negf {v : FVec Ideal S φ} (hv : RealV v) : RealV (Host.negf v) :=
  fun i => (hv i).neg
theorem posV_exp {v : FVec Ideal S φ} (hv : RealV v) : PosV (Host.exp v) :=
  fun i => (hv i).exp_pos
theorem realV_exp {v : FVec Ideal S φ} (hv : RealV v) : RealV (Host.exp v) := (posV_exp hv).realV
/-- The quotient by an array of positive reals. -/
theorem realV_divf {v w : FVec Ideal S φ} (hv : RealV v) (hw : PosV w) : RealV (Host.divf v w) :=
  fun i => (hv i).div_pos (hw i)
theorem realV_divf_geOne {v w : FVec Ideal S φ} (hv : RealV v) (hw : GeOneV w) : RealV (Host.divf v w) :=
  realV_divf hv hw.posV
theorem nonnegV_divf {v w : FVec Ideal S φ} (hv : NonnegV v) (hw : PosV w) : NonnegV (Host.divf v w) :=
  fun i => (hv i).div_pos (hw i)
theorem nonnegV_divf_geOne {v w : FVec Ideal S φ} (hv : NonnegV v) (hw : GeOneV w) : NonnegV (Host.divf v w) :=
  nonnegV_divf hv hw.posV
theorem posV_divf {v w : FVec Ideal S φ} (hv : PosV v) (hw : PosV w) : PosV (Host.divf v w) :=
  fun i => (hv i).div_pos (hw i)
/-- The reciprocal square root of an array of positive reals is an array of positive reals. -/
theorem posV_rsqrt {v : FVec Ideal S φ} (hv : PosV v) : PosV (Host.rsqrt v) :=
  fun i => (hv i).rsqrt
theorem realV_rsqrt {v : FVec Ideal S φ} (hv : PosV v) : RealV (Host.rsqrt v) := (posV_rsqrt hv).realV
/-- The square of a real array is nonnegative. -/
theorem nonnegV_mulf_self {v : FVec Ideal S φ} (hv : RealV v) : NonnegV (mulf v v) :=
  fun i => (hv i).mul_self_nonneg
theorem nonnegV_mulf {v w : FVec Ideal S φ} (hv : NonnegV v) (hw : NonnegV w) : NonnegV (mulf v w) :=
  fun i => (hv i).mul (hw i)
theorem nonnegV_addf {v w : FVec Ideal S φ} (hv : NonnegV v) (hw : NonnegV w) : NonnegV (addf v w) :=
  fun i => (hv i).add (hw i)
theorem posV_addf {v w : FVec Ideal S φ} (hv : PosV v) (hw : PosV w) : PosV (addf v w) :=
  fun i => (hv i).add (hw i)
/-- A nonnegative array plus a positive one (a variance plus its offset) is positive. -/
theorem posV_addf_nonneg_pos {v w : FVec Ideal S φ} (hv : NonnegV v) (hw : PosV w) : PosV (addf v w) :=
  fun i => (hv i).add_pos (hw i)
/-- The greater of a real array and an array that is at least one (a count against the constant one). -/
theorem geOneV_maximumf {v w : FVec Ideal S φ} (hv : RealV v) (hw : GeOneV w) : GeOneV (maximumf v w) :=
  fun i => (hv i).emax_geOne (hw i)

/-! #### Constants -/

theorem realV_constant {b : BitVec φ.bits} (h : IsReal (Ideal.ofBits φ b)) : RealV (constant (F := Ideal) S φ b) :=
  fun _ => h
theorem posV_constant {b : BitVec φ.bits} (h : IsPos (Ideal.ofBits φ b)) : PosV (constant (F := Ideal) S φ b) :=
  fun _ => h
theorem nonnegV_constant {b : BitVec φ.bits} (h : IsNonneg (Ideal.ofBits φ b)) :
    NonnegV (constant (F := Ideal) S φ b) :=
  fun _ => h
theorem geOneV_constant {b : BitVec φ.bits} (h : IsGeOne (Ideal.ofBits φ b)) :
    GeOneV (constant (F := Ideal) S φ b) :=
  fun _ => h

/-- The constant 0. -/
theorem nonnegV_const_zero : NonnegV (constant (F := Ideal) S .f32 0x00000000#32) :=
  nonnegV_constant isNonneg_ofBits_zero
theorem realV_const_zero : RealV (constant (F := Ideal) S .f32 0x00000000#32) := nonnegV_const_zero.realV
/-- The constant 1. -/
theorem geOneV_const_one : GeOneV (constant (F := Ideal) S .f32 0x3F800000#32) :=
  geOneV_constant isGeOne_ofBits_one
theorem realV_const_one : RealV (constant (F := Ideal) S .f32 0x3F800000#32) := geOneV_const_one.realV
/-- The constant 64. -/
theorem geOneV_const_64 : GeOneV (constant (F := Ideal) S .f32 0x42800000#32) :=
  geOneV_constant isGeOne_ofBits_64
theorem realV_const_64 : RealV (constant (F := Ideal) S .f32 0x42800000#32) := geOneV_const_64.realV
/-- The constant 32. -/
theorem geOneV_const_32 : GeOneV (constant (F := Ideal) S .f32 0x42000000#32) :=
  geOneV_constant isGeOne_ofBits_32
theorem realV_const_32 : RealV (constant (F := Ideal) S .f32 0x42000000#32) := geOneV_const_32.realV
/-- The variance offset. -/
theorem posV_const_eps : PosV (constant (F := Ideal) S .f32 0x3727C5AC#32) :=
  posV_constant isPos_ofBits_eps
theorem realV_const_eps : RealV (constant (F := Ideal) S .f32 0x3727C5AC#32) := posV_const_eps.realV

end Arrays

/-! #### Layout operations: every result element is an element of an operand -/

section Layout
variable {α : Type} {s t : Shape}

theorem forall_broadcastInDim (P : α → Prop) (dims : Fin s.rank → Fin t.rank) (h : s.BroadcastsInDim t dims)
    {x : s.Idx → α} (hx : ∀ i, P (x i)) : ∀ j, P (broadcastInDim t dims h x j) :=
  fun _ => hx _

theorem forall_gather (P : α → Prop) {si : Shape} {w : Nat} (d : GatherDims s si t) {x : s.Idx → α}
    (idx : IVec si w) (hx : ∀ i, P (x i)) : ∀ j, P (Host.gather d x idx j) :=
  fun _ => hx _

theorem forall_concatenate (P : α → Prop) (a : Fin t.rank) (xs : List ((s : Shape) × (s.Idx → α)))
    (h : Shape.Concatenates (xs.map (·.1)) t a) (hx : ∀ p ∈ xs, ∀ i, P (p.2 i)) :
    ∀ j, P (concatenate t a xs h j) := by
  intro j
  unfold concatenate
  exact hx _ (List.getElem_mem _) _

end Layout

section LayoutReal
variable {s t : Shape}

theorem realV_broadcastInDim (dims : Fin s.rank → Fin t.rank) (h : s.BroadcastsInDim t dims) {x : s.Idx → EReal}
    (hx : RealV x) : RealV (broadcastInDim t dims h x) := forall_broadcastInDim IsReal dims h hx
theorem posV_broadcastInDim (dims : Fin s.rank → Fin t.rank) (h : s.BroadcastsInDim t dims) {x : s.Idx → EReal}
    (hx : PosV x) : PosV (broadcastInDim t dims h x) := forall_broadcastInDim IsPos dims h hx
theorem nonnegV_broadcastInDim (dims : Fin s.rank → Fin t.rank) (h : s.BroadcastsInDim t dims) {x : s.Idx → EReal}
    (hx : NonnegV x) : NonnegV (broadcastInDim t dims h x) := forall_broadcastInDim IsNonneg dims h hx
theorem geOneV_broadcastInDim (dims : Fin s.rank → Fin t.rank) (h : s.BroadcastsInDim t dims) {x : s.Idx → EReal}
    (hx : GeOneV x) : GeOneV (broadcastInDim t dims h x) := forall_broadcastInDim IsGeOne dims h hx

/-- A gather, at any integer indices, copies elements of its operand. -/
theorem realV_gather {si : Shape} {w : Nat} (d : GatherDims s si t) {x : s.Idx → EReal} (idx : IVec si w)
    (hx : RealV x) : RealV (Host.gather d x idx) := forall_gather IsReal d idx hx
theorem posV_gather {si : Shape} {w : Nat} (d : GatherDims s si t) {x : s.Idx → EReal} (idx : IVec si w)
    (hx : PosV x) : PosV (Host.gather d x idx) := forall_gather IsPos d idx hx
theorem nonnegV_gather {si : Shape} {w : Nat} (d : GatherDims s si t) {x : s.Idx → EReal} (idx : IVec si w)
    (hx : NonnegV x) : NonnegV (Host.gather d x idx) := forall_gather IsNonneg d idx hx
theorem geOneV_gather {si : Shape} {w : Nat} (d : GatherDims s si t) {x : s.Idx → EReal} (idx : IVec si w)
    (hx : GeOneV x) : GeOneV (Host.gather d x idx) := forall_gather IsGeOne d idx hx

/-- A concatenation of real pieces is real. -/
theorem realV_concatenate (a : Fin t.rank) (xs : List ((s : Shape) × (s.Idx → EReal)))
    (h : Shape.Concatenates (xs.map (·.1)) t a) (hx : ∀ p ∈ xs, RealV p.2) : RealV (concatenate t a xs h) :=
  forall_concatenate IsReal a xs h hx

theorem realV_concatenate2 (a : Fin t.rank) {s1 s2 : Shape} {x1 : s1.Idx → EReal} {x2 : s2.Idx → EReal}
    (h : Shape.Concatenates (([⟨s1, x1⟩, ⟨s2, x2⟩] : List ((s : Shape) × (s.Idx → EReal))).map (·.1)) t a) (h1 : RealV x1) (h2 : RealV x2) :
    RealV (concatenate t a [⟨s1, x1⟩, ⟨s2, x2⟩] h) := by
  refine realV_concatenate a _ h fun p hp => ?_
  simp only [List.mem_cons, List.not_mem_nil, or_false] at hp
  rcases hp with rfl | rfl <;> assumption
theorem realV_concatenate3 (a : Fin t.rank) {s1 s2 s3 : Shape} {x1 : s1.Idx → EReal} {x2 : s2.Idx → EReal}
    {x3 : s3.Idx → EReal} (h : Shape.Concatenates (([⟨s1, x1⟩, ⟨s2, x2⟩, ⟨s3, x3⟩] : List ((s : Shape) × (s.Idx → EReal))).map (·.1)) t a)
    (h1 : RealV x1) (h2 : RealV x2) (h3 : RealV x3) :
    RealV (concatenate t a [⟨s1, x1⟩, ⟨s2, x2⟩, ⟨s3, x3⟩] h) := by
  refine realV_concatenate a _ h fun p hp => ?_
  simp only [List.mem_cons, List.not_mem_nil, or_false] at hp
  rcases hp with rfl | rfl | rfl <;> assumption
theorem realV_concatenate4 (a : Fin t.rank) {s1 s2 s3 s4 : Shape} {x1 : s1.Idx → EReal} {x2 : s2.Idx → EReal}
    {x3 : s3.Idx → EReal} {x4 : s4.Idx → EReal}
    (h : Shape.Concatenates (([⟨s1, x1⟩, ⟨s2, x2⟩, ⟨s3, x3⟩, ⟨s4, x4⟩] : List ((s : Shape) × (s.Idx → EReal))).map (·.1)) t a)
    (h1 : RealV x1) (h2 : RealV x2) (h3 : RealV x3) (h4 : RealV x4) :
    RealV (concatenate t a [⟨s1, x1⟩, ⟨s2, x2⟩, ⟨s3, x3⟩, ⟨s4, x4⟩] h) := by
  refine realV_concatenate a _ h fun p hp => ?_
  simp only [List.mem_cons, List.not_mem_nil, or_false] at hp
  rcases hp with rfl | rfl | rfl | rfl <;> assumption

end LayoutReal

/-! #### Finite sums -/

section Sums
variable {φ : FTy}

/-- A scatter-add: each element is the operand's plus a finite sum of update elements. -/
theorem realV_scatterAdd {s si u : Shape} {w : Nat} (d : ScatterDims s si u) {x : FVec Ideal s φ} (idx : IVec si w)
    {upd : FVec Ideal u φ} (hx : RealV x) (hu : RealV upd) : RealV (Host.scatterAdd d x idx upd) :=
  fun i => (hx i).add (IsReal.sum _ _ fun j _ => hu j)
theorem nonnegV_scatterAdd {s si u : Shape} {w : Nat} (d : ScatterDims s si u) {x : FVec Ideal s φ} (idx : IVec si w)
    {upd : FVec Ideal u φ} (hx : NonnegV x) (hu : NonnegV upd) : NonnegV (Host.scatterAdd d x idx upd) :=
  fun i => (hx i).add (IsNonneg.sum _ _ fun j _ => hu j)

/-- A host sum along axes: each element is the initial value plus a finite sum of operand elements. -/
theorem realV_reduceAdd {s t u : Shape} {axes : List (Fin s.rank)} {x : FVec Ideal s φ} {init : u.Idx → Ideal φ}
    (h : s.ReducesTo axes t) (hu : 0 < u.numel) (hx : RealV x) (hi : RealV init) :
    RealV (Host.reduceAdd x init h hu) :=
  fun _ => (hi _).add (IsReal.sum _ _ fun i _ => hx i)
theorem nonnegV_reduceAdd {s t u : Shape} {axes : List (Fin s.rank)} {x : FVec Ideal s φ} {init : u.Idx → Ideal φ}
    (h : s.ReducesTo axes t) (hu : 0 < u.numel) (hx : NonnegV x) (hi : NonnegV init) :
    NonnegV (Host.reduceAdd x init h hu) :=
  fun _ => (hi _).add (IsNonneg.sum _ _ fun i _ => hx i)

/-- A host matrix product: each element is a finite sum of products. -/
theorem realV_dotGeneral {sl sr so : Shape} {φ₁ φ₂ : FTy} (d : DotDims sl sr so) (prec : Option ContractPrecision)
    {lhs : FVec Ideal sl φ₁} {rhs : FVec Ideal sr φ₂} (hl : RealV lhs) (hr : RealV rhs) :
    RealV (Host.dotGeneral d prec lhs rhs) :=
  fun _ => IsReal.zero.add (IsReal.sum _ _ fun _ _ => (hl _).mul (hr _))

end Sums

end Cert.LibIdealReal

end
-- ==== Proof.RefSegRead.lean ====
import proofs.«114257_j19911468384606_2_alg».proof.ReferenceIdeal

/-!
  Reading a segment back at the row that was scattered into it.

  A segment sum scatters row `j` into the segment its index names, the index read as a
  signed integer, and drops the row when that integer is outside `[0, 256)`.  The later
  gather of a per-segment array at the same indices first adds `256` to the negative
  indices and then clamps the start into `[0, 255]`.  Hence, whenever row `j` is not
  dropped by the scatter and lands on segment `g`, the gather at row `j` reads element `g`.
  Everything is proved once for a symbolic number of rows `N` and then specialised.
-/

namespace Cert.RefSegRead

open Idealize.ShloMosaic
open Cert.ReferenceIdeal Cert.ReferenceIdeal.Facts₀

section Generic

variable {N : Nat} {α : Type}

/-- The scatter of `N` scalar rows into `256` segments along axis `0`, one index per row. -/
abbrev segScatter (N : Nat)
    (wf : ScatterDims.WF S256 ⟨2, ![N, 1]⟩ ⟨1, ![N]⟩ [] [0] [0] 1) :
    ScatterDims S256 ⟨2, ![N, 1]⟩ ⟨1, ![N]⟩ where
  updateWindowDims := []
  insertedWindowDims := [0]
  scatterDimsToOperandDims := [0]
  indexVectorDim := 1
  wf := wf

/-- The gather of one element of a `256`-array per row, for `N` rows, one index per row. -/
abbrev segGather (N : Nat)
    (wf : GatherDims.WF S256 ⟨2, ![N, 1]⟩ ⟨1, ![N]⟩ [] [0] [] [0] [] 1 ![1]) :
    GatherDims S256 ⟨2, ![N, 1]⟩ ⟨1, ![N]⟩ where
  offsetDims := []
  collapsedSliceDims := [0]
  operandBatchingDims := []
  startIndicesBatchingDims := []
  startIndexMap := [0]
  indexVectorDim := 1
  sliceSizes := ![1]
  wf := wf

/-- A length-`N` vector broadcast to an `N × 1` column, read at an index whose row is `j`'s,
    is the vector at `j`. -/
theorem bcast_read (hb : (⟨1, ![N]⟩ : Shape).BroadcastsInDim ⟨2, ![N, 1]⟩ ![0])
    (x : (⟨1, ![N]⟩ : Shape).Idx → α) (i : (⟨2, ![N, 1]⟩ : Shape).Idx) (j : (⟨1, ![N]⟩ : Shape).Idx)
    (hij : (i 0).val = (j 0).val) :
    broadcastInDim ⟨2, ![N, 1]⟩ ![0] hb x i = x j := by
  unfold broadcastInDim
  refine congrArg x (funext fun a => Fin.ext ?_)
  obtain rfl : a = 0 := Subsingleton.elim _ _
  by_cases h1 : (⟨1, ![N]⟩ : Shape).size 0 = 1
  · rw [dif_pos h1]
    have := (j 0).isLt
    show 0 = (j 0).val
    omega
  · rw [dif_neg h1]
    exact hij

/-- The scatter's start on the one operand axis is the row's index, read signed. -/
theorem scatter_start {w : Nat} (wf) (hb : (⟨1, ![N]⟩ : Shape).BroadcastsInDim ⟨2, ![N, 1]⟩ ![0])
    (x : IVec ⟨1, ![N]⟩ w) (j : (⟨1, ![N]⟩ : Shape).Idx) (a : Fin S256.rank) :
    (segScatter N wf).start j (broadcastInDim ⟨2, ![N, 1]⟩ ![0] hb x) a = (x j).toInt := by
  obtain rfl : a = 0 := Subsingleton.elim _ _
  unfold ScatterDims.start
  rw [dif_pos (show (0 : Fin 1) ∈ (segScatter N wf).scatterDimsToOperandDims from
    List.mem_singleton.mpr rfl)]
  exact congrArg BitVec.toInt (bcast_read hb x _ j (by rfl))

/-- The scatter has no window axis: the window coordinate is zero. -/
theorem scatter_window (wf) (j : (⟨1, ![N]⟩ : Shape).Idx) (a : Fin S256.rank) :
    (segScatter N wf).window j a = 0 := by
  obtain rfl : a = 0 := Subsingleton.elim _ _
  unfold ScatterDims.window
  have hk : (0 : Fin 1) ∉ (⟨1, ![256]⟩ : Shape).kept [0] := by decide
  rw [dif_neg hk]

/-- The gather's start on the one operand axis is the row's index, read signed and clamped
    into `[0, 255]`. -/
theorem gather_start {w : Nat} (wf) (hb : (⟨1, ![N]⟩ : Shape).BroadcastsInDim ⟨2, ![N, 1]⟩ ![0])
    (x : IVec ⟨1, ![N]⟩ w) (j : (⟨1, ![N]⟩ : Shape).Idx) :
    (segGather N wf).start j (broadcastInDim ⟨2, ![N, 1]⟩ ![0] hb x) 0
      = min (x j).toInt.toNat 255 := by
  unfold GatherDims.start
  rw [dif_pos (show (0 : Fin 1) ∈ (segGather N wf).startIndexMap from List.mem_singleton.mpr rfl)]
  exact congrArg (fun b : BitVec w => min b.toInt.toNat 255) (bcast_read hb x _ j (by rfl))

/-- THE HIT: row `j` lands on segment `g` exactly when its index, read signed, is `g`. -/
theorem seg_hit_iff {w : Nat} (wf) (hb : (⟨1, ![N]⟩ : Shape).BroadcastsInDim ⟨2, ![N, 1]⟩ ![0])
    (x0 : IVec ⟨1, ![N]⟩ w) (j : (⟨1, ![N]⟩ : Shape).Idx) (g : S256.Idx) :
    (segScatter N wf).resultIdx? j (broadcastInDim ⟨2, ![N, 1]⟩ ![0] hb x0) = some g
      ↔ (x0 j).toInt = ((g 0).val : Int) := by
  have hg : (g 0).val < 256 := (g 0).isLt
  constructor
  · intro h
    unfold ScatterDims.resultIdx? at h
    split at h
    · rename_i hc
      have h0 := hc 0
      rw [scatter_start, scatter_window] at h0
      have hv := congrArg Fin.val (congrFun (Option.some.inj h) 0)
      change ((segScatter N wf).start j (broadcastInDim ⟨2, ![N, 1]⟩ ![0] hb x0) 0
        + ((segScatter N wf).window j 0 : Int)).toNat = (g 0).val at hv
      rw [scatter_start, scatter_window] at hv
      omega
    · exact absurd h (by simp)
  · intro h
    unfold ScatterDims.resultIdx?
    have hc : ∀ a : Fin S256.rank,
        0 ≤ (segScatter N wf).start j (broadcastInDim ⟨2, ![N, 1]⟩ ![0] hb x0) a
              + ((segScatter N wf).window j a : Int)
          ∧ (segScatter N wf).start j (broadcastInDim ⟨2, ![N, 1]⟩ ![0] hb x0) a
              + ((segScatter N wf).window j a : Int) < (S256.size a : Int) := by
      intro a
      rw [scatter_start, scatter_window]
      obtain rfl : a = 0 := Subsingleton.elim _ _
      have h256 : (S256.size (0 : Fin 1) : Int) = 256 := rfl
      constructor
      · omega
      · rw [h256]; omega
    rw [dif_pos hc]
    refine congrArg some (funext fun a => ?_)
    obtain rfl : a = 0 := Subsingleton.elim _ _
    refine Fin.ext ?_
    show ((segScatter N wf).start j (broadcastInDim ⟨2, ![N, 1]⟩ ![0] hb x0) 0
      + ((segScatter N wf).window j 0 : Int)).toNat = (g 0).val
    rw [scatter_start, scatter_window]
    omega

/-- THE READ: if row `j` lands on segment `g`, the gather at the wrapped indices (negative
    ones shifted by `256`) reads element `g` at row `j`. -/
theorem seg_hit_gather (wfs) (wfg)
    (hb : (⟨1, ![N]⟩ : Shape).BroadcastsInDim ⟨2, ![N, 1]⟩ ![0])
    (hz : S_.BroadcastsInDim ⟨1, ![N]⟩ ![])
    (x0 : IVec ⟨1, ![N]⟩ 32) (y : S256.Idx → α) (j : (⟨1, ![N]⟩ : Shape).Idx) (g : S256.Idx)
    (h : (segScatter N wfs).resultIdx? j (broadcastInDim ⟨2, ![N, 1]⟩ ![0] hb x0) = some g) :
    Host.gather (segGather N wfg) y (broadcastInDim ⟨2, ![N, 1]⟩ ![0] hb
      (select (cmpi .slt x0 (broadcastInDim ⟨1, ![N]⟩ ![] hz (constantI S_ 32 0#32)))
        (addi x0 (broadcastInDim ⟨1, ![N]⟩ ![] hz (constantI S_ 32 256#32))) x0)) j = y g := by
  have hx := (seg_hit_iff wfs hb x0 j g).mp h
  have hg : (g 0).val < 256 := (g 0).isLt
  -- the index is not negative, so the wrap leaves it alone
  have hsel : select (cmpi .slt x0 (broadcastInDim ⟨1, ![N]⟩ ![] hz (constantI S_ 32 0#32)))
      (addi x0 (broadcastInDim ⟨1, ![N]⟩ ![] hz (constantI S_ 32 256#32))) x0 j = x0 j := by
    show Scalar.select (IntOp.cmpi .slt (x0 j) (0#32)) (IntOp.addi (x0 j) (256#32)) (x0 j) = x0 j
    have hslt : (x0 j).slt 0#32 = false := by
      rw [BitVec.slt_eq_decide, BitVec.toInt_zero]
      exact decide_eq_false (by omega)
    unfold Scalar.select IntOp.cmpi
    simp only [hslt]
    rfl
  unfold Host.gather
  refine congrArg y (funext fun a => ?_)
  obtain rfl : a = 0 := Subsingleton.elim _ _
  refine Fin.ext ?_
  show (segGather N wfg).start j _ 0 + (segGather N wfg).batchCoord j 0
    + (segGather N wfg).offCoord j 0 = (g 0).val
  rw [GatherDims.batchCoord_eq_zero _ _ _ List.not_mem_nil,
    GatherDims.offCoord_eq_zero _ _ _
      (fun h => ((GatherDims.mem_sKept _ _).mp h).1 (List.mem_singleton.mpr rfl)),
    gather_start, hsel]
  omega

end Generic

variable [Facts₀]

/-- Row `j` of the `50000` lands on segment `g` exactly when its index, read signed, is `g`. -/
theorem hit_iff_50000 (x0 : IVec S50000 32) (j : S50000.Idx) (g : S256.Idx) :
    scatter_S256_S50000x1_S50000_n_0_0_1.resultIdx? j
        (broadcastInDim S50000x1 ![0] bcast_S50000_S50000x1_0 x0) = some g
      ↔ (x0 j).toInt = ((g 0).val : Int) :=
  seg_hit_iff (N := 50000) scatter_S256_S50000x1_S50000_n_0_0_1_wf bcast_S50000_S50000x1_0 x0 j g

/-- Row `j` of the `800000` lands on segment `g` exactly when its index, read signed, is `g`. -/
theorem hit_iff_800000 (x0 : IVec S800000 32) (j : S800000.Idx) (g : S256.Idx) :
    scatter_S256_S800000x1_S800000_n_0_0_1.resultIdx? j
        (broadcastInDim S800000x1 ![0] bcast_S800000_S800000x1_0 x0) = some g
      ↔ (x0 j).toInt = ((g 0).val : Int) :=
  seg_hit_iff (N := 800000) scatter_S256_S800000x1_S800000_n_0_0_1_wf bcast_S800000_S800000x1_0 x0 j g

/-- If row `j` of the `50000` lands on segment `g`, the gather at the wrapped indices reads
    element `g` at row `j`. -/
theorem hit_gather_50000 {α : Type} (x0 : IVec S50000 32) (y : S256.Idx → α) (j : S50000.Idx)
    (g : S256.Idx)
    (h : scatter_S256_S50000x1_S50000_n_0_0_1.resultIdx? j
      (broadcastInDim S50000x1 ![0] bcast_S50000_S50000x1_0 x0) = some g) :
    Host.gather gather_S256_S50000x1_S50000_n_0_n_n_0_1_1 y
      (broadcastInDim S50000x1 ![0] bcast_S50000_S50000x1_0
        (select (cmpi .slt x0 (broadcastInDim S50000 ![] bcast_S_S50000 (constantI S_ 32 0#32)))
          (addi x0 (broadcastInDim S50000 ![] bcast_S_S50000 (constantI S_ 32 256#32))) x0)) j
      = y g :=
  seg_hit_gather (N := 50000) scatter_S256_S50000x1_S50000_n_0_0_1_wf
    gather_S256_S50000x1_S50000_n_0_n_n_0_1_1_wf bcast_S50000_S50000x1_0 bcast_S_S50000 x0 y j g h

/-- If row `j` of the `800000` lands on segment `g`, the gather at the wrapped indices reads
    element `g` at row `j`. -/
theorem hit_gather_800000 {α : Type} (x0 : IVec S800000 32) (y : S256.Idx → α) (j : S800000.Idx)
    (g : S256.Idx)
    (h : scatter_S256_S800000x1_S800000_n_0_0_1.resultIdx? j
      (broadcastInDim S800000x1 ![0] bcast_S800000_S800000x1_0 x0) = some g) :
    Host.gather gather_S256_S800000x1_S800000_n_0_n_n_0_1_1 y
      (broadcastInDim S800000x1 ![0] bcast_S800000_S800000x1_0
        (select (cmpi .slt x0 (broadcastInDim S800000 ![] bcast_S_S800000 (constantI S_ 32 0#32)))
          (addi x0 (broadcastInDim S800000 ![] bcast_S_S800000 (constantI S_ 32 256#32))) x0)) j
      = y g :=
  seg_hit_gather (N := 800000) scatter_S256_S800000x1_S800000_n_0_0_1_wf
    gather_S256_S800000x1_S800000_n_0_n_n_0_1_1_wf bcast_S800000_S800000x1_0 bcast_S_S800000 x0 y j g h

end Cert.RefSegRead
-- ==== Proof.LnVar.lean ====
import proofs.«114257_j19911468384606_2_alg».proof.Proof.LibSegVar
import proofs.«114257_j19911468384606_2_alg».proof.Proof.LibIdealReal
import proofs.«114257_j19911468384606_2_alg».proof.Proof.RefSegRead
import proofs.«114257_j19911468384606_2_alg».proof.Proof.RefReadP

/-!
  The per-segment layer-norm statistics of the reference program, on the extended reals.

  The reference computes, per segment, the mean of the rows that land on it and then the mean
  of the squared deviations from that mean (two passes over the data).  Here the same chain
  of printed operations is written as functions of an arbitrary index array and an arbitrary
  data array, each read at a segment `g` as a finite sum over the rows that land on `g`, and
  the two-pass variance is shown equal to the one-pass variance (mean of the squares minus
  the square of the mean, clamped at zero) whenever every data entry is a real number.
-/

noncomputable section

namespace Cert.LnVar

open Idealize.ShloMosaic
open Cert.ReferenceIdeal Cert.ReferenceIdeal.Facts₀
open Cert.LibIdealReal (ofBits_zero ofBits_one ofBits_32 ofBits_64)

/-- The core on the extended reals: for a finite set `s` of rows of real entries, with the
    denominator `max (|s| · c, 1)`, the mean and the two variances written as the finite sums
    the program computes, the one-pass variance is the two-pass one, and the denominator,
    the mean and the variance are real numbers (at least one; any; nonnegative). -/
theorem ln_core {J K : Type} [Fintype K] (s : Finset J) (x : J → K → EReal)
    (hx : ∀ j k, ∃ r : ℝ, x j k = (r : EReal)) (c : ℝ) (hc : c = (Fintype.card K : ℝ))
    (den mean var2 var1 : EReal)
    (hden : den = max ((0 + ∑ _j ∈ s, (1 : EReal)) * (c : EReal)) 1)
    (hmean : mean = Ideal.div (0 + ∑ j ∈ s, (0 + ∑ k : K, x j k)) den)
    (hvar2 : var2 = Ideal.div (0 + ∑ j ∈ s, (0 + ∑ k : K, (x j k - mean) * (x j k - mean))) den)
    (hvar1 : var1 = max (Ideal.div (0 + ∑ j ∈ s, (0 + ∑ k : K, x j k * x j k)) den - mean * mean) 0) :
    var1 = var2 ∧ (∃ d : ℝ, 1 ≤ d ∧ den = (d : EReal)) ∧ (∃ μ : ℝ, mean = (μ : EReal))
      ∧ (∃ v : ℝ, 0 ≤ v ∧ var2 = (v : EReal)) := by
  choose r hr using hx
  have hxr : x = fun j k => ((r j k : ℝ) : EReal) := funext fun j => funext fun k => hr j k
  subst hxr
  refine ⟨?_, ?_, ?_, ?_⟩
  · rw [hvar1, hvar2]
    exact Cert.LibSegVar.seg_var_eq s r c hc (0 + ∑ _j ∈ s, (1 : EReal)) den _ _ mean _ rfl hden rfl rfl
      hmean rfl
  · exact Cert.LibSegVar.seg_denom_real s r c hc (0 + ∑ _j ∈ s, (1 : EReal)) den _ _ mean _ rfl hden
      rfl rfl hmean rfl
  · exact Cert.LibSegVar.seg_mean_real s r c hc (0 + ∑ _j ∈ s, (1 : EReal)) den _ _ mean _ rfl hden
      rfl rfl hmean rfl
  · rw [hvar2]
    exact Cert.LibSegVar.seg_var_real s r c hc (0 + ∑ _j ∈ s, (1 : EReal)) den _ _ mean _ rfl hden
      rfl rfl hmean rfl

section Generic

variable {s si u : Shape} {w : Nat} {φ : FTy}

/-- The updates that a scatter lands on operand element `i`. -/
def hit (d : ScatterDims s si u) (idx : IVec si w) (i : s.Idx) : Finset u.Idx :=
  Finset.univ.filter (fun j => d.resultIdx? j idx = some i)

theorem mem_hit {d : ScatterDims s si u} {idx : IVec si w} {i : s.Idx} {j : u.Idx} :
    j ∈ hit d idx i ↔ d.resultIdx? j idx = some i := by
  unfold hit
  rw [Finset.mem_filter]
  exact ⟨fun h => h.2, fun h => ⟨Finset.mem_univ _, h⟩⟩

/-- An accumulating scatter read at `i`: the operand there plus the updates that land on `i`. -/
theorem scatterAdd_apply (d : ScatterDims s si u) (x : FVec Ideal s φ) (idx : IVec si w)
    (upd : FVec Ideal u φ) (i : s.Idx) :
    Host.scatterAdd d x idx upd i = x i + ∑ j ∈ hit d idx i, upd j := rfl

/-- A broadcast scalar constant read anywhere is the constant. -/
theorem bcastConst_apply {t : Shape} (h : S_.BroadcastsInDim t (![] : Fin 0 → Fin t.rank))
    (b : BitVec 32) (i : t.Idx) :
    broadcastInDim t ![] h (constant S_ .f32 b : FVec Ideal S_ .f32) i = Ideal.ofBits .f32 b := rfl

/-- The host's quotient read at an index. -/
theorem hostDivf_apply {t : Shape} (a b : FVec Ideal t φ) (i : t.Idx) :
    Host.divf a b i = Ideal.div (a i) (b i) := rfl

theorem ofBits_zero' : Ideal.ofBits .f32 0x00000000#32 = (0 : EReal) := ofBits_zero
theorem ofBits_one' : Ideal.ofBits .f32 0x3F800000#32 = (1 : EReal) := ofBits_one

end Generic

/-! ## The 800000 rows of width 32 (second and third layer norms) -/

section HalfE

/-- The rows that the segment sum lands on segment `g`. -/
abbrev hitE (eb : IVec S800000 32) (g : S256.Idx) : Finset S800000.Idx :=
  hit scatter_S256_S800000x1_S800000_n_0_0_1 (broadcastInDim S800000x1 ![0] bcast_S800000_S800000x1_0 eb) g

/-- The denominator: `max (count · 32, 1)` per segment. -/
def denE (eb : IVec S800000 32) : FVec Ideal S256 .f32 :=
  maximumf
    (mulf
      (Host.scatterAdd scatter_S256_S800000x1_S800000_n_0_0_1
        (broadcastInDim S256 ![] bcast_S_S256 (constant S_ .f32 0x00000000#32))
        (broadcastInDim S800000x1 ![0] bcast_S800000_S800000x1_0 eb)
        (broadcastInDim S800000 ![] bcast_S_S800000 (constant S_ .f32 0x3F800000#32)))
      (broadcastInDim S256 ![] bcast_S_S256 (constant S_ .f32 0x42000000#32)))
    (broadcastInDim S256 ![] bcast_S_S256 (constant S_ .f32 0x3F800000#32))

/-- The mean per segment: the segment sum of the row sums over the denominator. -/
def meanE (eb : IVec S800000 32) (x : FVec Ideal S800000x32 .f32) : FVec Ideal S256 .f32 :=
  Host.divf
    (Host.scatterAdd scatter_S256_S800000x1_S800000_n_0_0_1
      (broadcastInDim S256 ![] bcast_S_S256 (constant S_ .f32 0x00000000#32))
      (broadcastInDim S800000x1 ![0] bcast_S800000_S800000x1_0 eb)
      (Host.reduceAdd x (constant S_ .f32 0x00000000#32) reducesTo_S800000x32_S800000_d1 h_S_))
    (denE eb)

/-- The segment index as the gather reads it: negative indices shifted by `256`. -/
def wrapE (eb : IVec S800000 32) : IVec S800000 32 :=
  select (cmpi .slt eb (broadcastInDim S800000 ![] bcast_S_S800000 (constantI S_ 32 0#32)))
    (addi eb (broadcastInDim S800000 ![] bcast_S_S800000 (constantI S_ 32 256#32))) eb

/-- The data minus the mean of its row's segment. -/
def cenE (eb : IVec S800000 32) (x : FVec Ideal S800000x32 .f32) : FVec Ideal S800000x32 .f32 :=
  subf x
    (broadcastInDim S800000x32 ![0, 1] bcast_S800000x1_S800000x32_0_1
      (broadcastInDim S800000x1 ![0] bcast_S800000_S800000x1_0
        (Host.gather gather_S256_S800000x1_S800000_n_0_n_n_0_1_1 (meanE eb x)
          (broadcastInDim S800000x1 ![0] bcast_S800000_S800000x1_0 (wrapE eb)))))

/-- The two-pass variance per segment: the segment sum of the squared deviations over the
    denominator. -/
def var2E (eb : IVec S800000 32) (x : FVec Ideal S800000x32 .f32) : FVec Ideal S256 .f32 :=
  Host.divf
    (Host.scatterAdd scatter_S256_S800000x1_S800000_n_0_0_1
      (broadcastInDim S256 ![] bcast_S_S256 (constant S_ .f32 0x00000000#32))
      (broadcastInDim S800000x1 ![0] bcast_S800000_S800000x1_0 eb)
      (Host.reduceAdd (mulf (cenE eb x) (cenE eb x)) (constant S_ .f32 0x00000000#32)
        reducesTo_S800000x32_S800000_d1 h_S_))
    (denE eb)

/-- The one-pass variance per segment: the mean of the squares minus the square of the mean,
    clamped at zero. -/
def var1E (eb : IVec S800000 32) (x : FVec Ideal S800000x32 .f32) : FVec Ideal S256 .f32 :=
  maximumf (subf (Host.divf (Host.scatterAdd scatter_S256_S800000x1_S800000_n_0_0_1 (broadcastInDim S256 ![] bcast_S_S256 (constant S_ .f32 0x00000000#32)) (broadcastInDim S800000x1 ![0] bcast_S800000_S800000x1_0 eb) (Host.reduceAdd (mulf x x) (constant S_ .f32 0x00000000#32) reducesTo_S800000x32_S800000_d1 h_S_)) (denE eb)) (mulf (meanE eb x) (meanE eb x))) (broadcastInDim S256 ![] bcast_S_S256 (constant S_ .f32 0x00000000#32))

/-- The printed second layer norm is this chain at the printed index and data. -/
theorem link_den (x0 : (⟨S50000, .i32⟩ : BufTy).Contents (Elt Ideal)) (x3 : (⟨S2x800000, .i32⟩ : BufTy).Contents (Elt Ideal)) :
    ReadP.val_main_v104 (F := Ideal) x0 x3 = denE (ReadP.val_main_v96 x0 x3) := rfl
theorem link_mean (x0 : (⟨S50000, .i32⟩ : BufTy).Contents (Elt Ideal)) (x3 : (⟨S2x800000, .i32⟩ : BufTy).Contents (Elt Ideal)) (x4 : (⟨S800000x32, .f32⟩ : BufTy).Contents (Elt Ideal)) :
    ReadP.val_main_v109 (F := Ideal) x0 x3 x4 = meanE (ReadP.val_main_v96 x0 x3) x4 := rfl
theorem link_var (x0 : (⟨S50000, .i32⟩ : BufTy).Contents (Elt Ideal)) (x3 : (⟨S2x800000, .i32⟩ : BufTy).Contents (Elt Ideal)) (x4 : (⟨S800000x32, .f32⟩ : BufTy).Contents (Elt Ideal)) :
    ReadP.val_main_v125 (F := Ideal) x0 x3 x4 = var2E (ReadP.val_main_v96 x0 x3) x4 := rfl

/-- The printed third layer norm is the same chain at the printed index and its own data. -/
theorem link3_den (x0 : (⟨S50000, .i32⟩ : BufTy).Contents (Elt Ideal)) (x3 : (⟨S2x800000, .i32⟩ : BufTy).Contents (Elt Ideal)) :
    ReadP.val_main_v176 (F := Ideal) x0 x3 = denE (ReadP.val_main_v96 x0 x3) := rfl
theorem link3_mean (x0 : (⟨S50000, .i32⟩ : BufTy).Contents (Elt Ideal)) (x1 : (⟨S50000x3, .f32⟩ : BufTy).Contents (Elt Ideal)) (x2 : (⟨S50000x64, .f32⟩ : BufTy).Contents (Elt Ideal)) (x3 : (⟨S2x800000, .i32⟩ : BufTy).Contents (Elt Ideal)) (x4 : (⟨S800000x32, .f32⟩ : BufTy).Contents (Elt Ideal)) (x5 x6 : (⟨S64, .f32⟩ : BufTy).Contents (Elt Ideal)) (x7 x8 : (⟨S32, .f32⟩ : BufTy).Contents (Elt Ideal)) (x11 : (⟨S161x32, .f32⟩ : BufTy).Contents (Elt Ideal)) (x12 : (⟨S32, .f32⟩ : BufTy).Contents (Elt Ideal)) (x13 : (⟨S32x32, .f32⟩ : BufTy).Contents (Elt Ideal)) (x14 : (⟨S32, .f32⟩ : BufTy).Contents (Elt Ideal)) :
    ReadP.val_main_v181 (F := Ideal) x0 x1 x2 x3 x4 x5 x6 x7 x8 x11 x12 x13 x14
      = meanE (ReadP.val_main_v96 x0 x3) (ReadP.val_main_v168 x0 x1 x2 x3 x4 x5 x6 x7 x8 x11 x12 x13 x14) := rfl
theorem link3_var (x0 : (⟨S50000, .i32⟩ : BufTy).Contents (Elt Ideal)) (x1 : (⟨S50000x3, .f32⟩ : BufTy).Contents (Elt Ideal)) (x2 : (⟨S50000x64, .f32⟩ : BufTy).Contents (Elt Ideal)) (x3 : (⟨S2x800000, .i32⟩ : BufTy).Contents (Elt Ideal)) (x4 : (⟨S800000x32, .f32⟩ : BufTy).Contents (Elt Ideal)) (x5 x6 : (⟨S64, .f32⟩ : BufTy).Contents (Elt Ideal)) (x7 x8 : (⟨S32, .f32⟩ : BufTy).Contents (Elt Ideal)) (x11 : (⟨S161x32, .f32⟩ : BufTy).Contents (Elt Ideal)) (x12 : (⟨S32, .f32⟩ : BufTy).Contents (Elt Ideal)) (x13 : (⟨S32x32, .f32⟩ : BufTy).Contents (Elt Ideal)) (x14 : (⟨S32, .f32⟩ : BufTy).Contents (Elt Ideal)) :
    ReadP.val_main_v197 (F := Ideal) x0 x1 x2 x3 x4 x5 x6 x7 x8 x11 x12 x13 x14
      = var2E (ReadP.val_main_v96 x0 x3) (ReadP.val_main_v168 x0 x1 x2 x3 x4 x5 x6 x7 x8 x11 x12 x13 x14) := rfl

/-- A row sum read at row `j`: zero plus the sum over the row. -/
theorem rowsumE_apply (y : FVec Ideal S800000x32 .f32) (j : S800000.Idx) :
    Host.reduceAdd y (constant S_ .f32 0x00000000#32) reducesTo_S800000x32_S800000_d1 h_S_ j
      = 0 + ∑ k : Fin 32, y (ReadP.idx_main_v105 j k) := by
  have h := ReadP.val_main_v105_apply y j
  have h0 : (ReadP.val_main_cst_28 (F := Ideal)) (Shape.Idx.first h_S_) = 0 := ofBits_zero
  rw [h0] at h
  exact h

/-- The row sum of the squares read at row `j`. -/
theorem rowsumSqE_apply (y : FVec Ideal S800000x32 .f32) (j : S800000.Idx) :
    Host.reduceAdd (mulf y y) (constant S_ .f32 0x00000000#32) reducesTo_S800000x32_S800000_d1 h_S_ j
      = 0 + ∑ k : Fin 32, y (ReadP.idx_main_v105 j k) * y (ReadP.idx_main_v105 j k) :=
  rowsumE_apply (mulf y y) j

/-- A per-row value broadcast along the row, read at column `k` of row `j`, is the value at `j`. -/
theorem bcastRowColE_apply {α : Type} (y : S800000.Idx → α) (j : S800000.Idx) (k : Fin 32) :
    broadcastInDim S800000x32 ![0, 1] bcast_S800000x1_S800000x32_0_1
      (broadcastInDim S800000x1 ![0] bcast_S800000_S800000x1_0 y) (ReadP.idx_main_v105 j k) = y j := by
  rw [broadcastInDim_apply _ bcast_S800000x1_S800000x32_0_1 _ _ (ReadP.idx_main_v118 (ReadP.idx_main_v105 j k)) (fun a => match a with
    | ⟨0, _⟩ => by
        show _ = if (800000 : Nat) = 1 then 0 else _
        rw [if_neg (by decide)]
        rfl
    | ⟨1, _⟩ => by
        show 0 = if (1 : Nat) = 1 then 0 else _
        rw [if_pos rfl])]
  exact Cert.RefSegRead.bcast_read (N := 800000) bcast_S800000_S800000x1_0 y _ j rfl

/-- The denominator at segment `g`. -/
theorem denE_apply (eb : IVec S800000 32) (g : S256.Idx) :
    denE eb g = max ((0 + ∑ _j ∈ hitE eb g, (1 : EReal)) * ((32 : ℝ) : EReal)) 1 := by
  unfold denE
  rw [ValueIdx.maximumf_apply, ValueIdx.mulf_apply, scatterAdd_apply,
    bcastConst_apply bcast_S_S256 0x00000000#32 g, bcastConst_apply bcast_S_S256 0x42000000#32 g,
    bcastConst_apply bcast_S_S256 0x3F800000#32 g,
    Finset.sum_congr rfl (fun j _ => bcastConst_apply bcast_S_S800000 0x3F800000#32 j),
    ofBits_zero', ofBits_one', ofBits_32]

/-- The mean at segment `g`. -/
theorem meanE_apply (eb : IVec S800000 32) (x : FVec Ideal S800000x32 .f32) (g : S256.Idx) :
    meanE eb x g
      = Ideal.div (0 + ∑ j ∈ hitE eb g, (0 + ∑ k : Fin 32, x (ReadP.idx_main_v105 j k))) (denE eb g) := by
  unfold meanE
  rw [hostDivf_apply, scatterAdd_apply, bcastConst_apply bcast_S_S256 0x00000000#32 g, ofBits_zero',
    Finset.sum_congr rfl (fun j _ => rowsumE_apply x j)]

/-- The one-pass variance at segment `g`. -/
theorem var1E_apply (eb : IVec S800000 32) (x : FVec Ideal S800000x32 .f32) (g : S256.Idx) :
    var1E eb x g
      = max (Ideal.div (0 + ∑ j ∈ hitE eb g,
            (0 + ∑ k : Fin 32, x (ReadP.idx_main_v105 j k) * x (ReadP.idx_main_v105 j k))) (denE eb g)
          - meanE eb x g * meanE eb x g) 0 := by
  unfold var1E
  rw [ValueIdx.maximumf_apply, ValueIdx.subf_apply, ValueIdx.mulf_apply, hostDivf_apply,
    scatterAdd_apply, bcastConst_apply bcast_S_S256 0x00000000#32 g, ofBits_zero',
    Finset.sum_congr rfl (fun j _ => rowsumSqE_apply x j)]

/-- The two-pass variance at segment `g`: on a row that lands on `g` the gathered mean is the
    mean of `g`. -/
theorem var2E_apply (eb : IVec S800000 32) (x : FVec Ideal S800000x32 .f32) (g : S256.Idx) :
    var2E eb x g
      = Ideal.div (0 + ∑ j ∈ hitE eb g, (0 + ∑ k : Fin 32,
            (x (ReadP.idx_main_v105 j k) - meanE eb x g) * (x (ReadP.idx_main_v105 j k) - meanE eb x g)))
          (denE eb g) := by
  have hsum : ∀ j ∈ hitE eb g,
      Host.reduceAdd (mulf (cenE eb x) (cenE eb x)) (constant S_ .f32 0x00000000#32)
        reducesTo_S800000x32_S800000_d1 h_S_ j
      = 0 + ∑ k : Fin 32,
          (x (ReadP.idx_main_v105 j k) - meanE eb x g) * (x (ReadP.idx_main_v105 j k) - meanE eb x g) := by
    intro j hj
    have hhit := mem_hit.mp hj
    rw [rowsumSqE_apply]
    refine congrArg (0 + ·) (Finset.sum_congr rfl fun k _ => ?_)
    have hc : cenE eb x (ReadP.idx_main_v105 j k) = x (ReadP.idx_main_v105 j k) - meanE eb x g := by
      unfold cenE
      rw [ValueIdx.subf_apply, bcastRowColE_apply]
      exact congrArg (x (ReadP.idx_main_v105 j k) - ·)
        (Cert.RefSegRead.hit_gather_800000 eb (meanE eb x) j g hhit)
    rw [hc]
  unfold var2E
  rw [hostDivf_apply, scatterAdd_apply, bcastConst_apply bcast_S_S256 0x00000000#32 g, ofBits_zero',
    Finset.sum_congr rfl hsum]

/-- The four facts at segment `g`, from the core lemma. -/
theorem lnE_at (eb : IVec S800000 32) (x : FVec Ideal S800000x32 .f32)
    (hx : ∀ i, ∃ r : ℝ, x i = (r : EReal)) (g : S256.Idx) :
    var1E eb x g = var2E eb x g ∧ (∃ d : ℝ, 1 ≤ d ∧ denE eb g = (d : EReal))
      ∧ (∃ μ : ℝ, meanE eb x g = (μ : EReal)) ∧ (∃ v : ℝ, 0 ≤ v ∧ var2E eb x g = (v : EReal)) :=
  ln_core (K := Fin 32) (hitE eb g) (fun j k => x (ReadP.idx_main_v105 j k)) (fun j k => hx _) 32
    (by simp) _ _ _ _ (denE_apply eb g) (meanE_apply eb x g) (var2E_apply eb x g)
    (var1E_apply eb x g)

/-- ONE PASS = TWO PASSES: on real data the two variances are the same array. -/
theorem var1E_eq_var2E (eb : IVec S800000 32) (x : FVec Ideal S800000x32 .f32)
    (hx : ∀ i, ∃ r : ℝ, x i = (r : EReal)) : var1E eb x = var2E eb x :=
  funext fun g => (lnE_at eb x hx g).1

/-- The denominator is a real number, at least one, at every segment. -/
theorem denE_geOne (eb : IVec S800000 32) (g : S256.Idx) :
    ∃ d : ℝ, 1 ≤ d ∧ denE eb g = (d : EReal) :=
  (lnE_at eb (fun _ => ((0 : ℝ) : EReal)) (fun _ => ⟨0, rfl⟩) g).2.1

/-- The mean is a real number at every segment. -/
theorem meanE_real (eb : IVec S800000 32) (x : FVec Ideal S800000x32 .f32)
    (hx : ∀ i, ∃ r : ℝ, x i = (r : EReal)) (g : S256.Idx) : ∃ μ : ℝ, meanE eb x g = (μ : EReal) :=
  (lnE_at eb x hx g).2.2.1

/-- The two-pass variance is a nonnegative real number at every segment. -/
theorem var2E_nonneg (eb : IVec S800000 32) (x : FVec Ideal S800000x32 .f32)
    (hx : ∀ i, ∃ r : ℝ, x i = (r : EReal)) (g : S256.Idx) :
    ∃ v : ℝ, 0 ≤ v ∧ var2E eb x g = (v : EReal) :=
  (lnE_at eb x hx g).2.2.2

end HalfE

/-! ## The 50000 rows of width 64 (first layer norm) -/

section HalfN

/-- The rows that the segment sum lands on segment `g`. -/
abbrev hitN (eb : IVec S50000 32) (g : S256.Idx) : Finset S50000.Idx :=
  hit scatter_S256_S50000x1_S50000_n_0_0_1 (broadcastInDim S50000x1 ![0] bcast_S50000_S50000x1_0 eb) g

/-- The denominator: `max (count · 64, 1)` per segment. -/
def denN (eb : IVec S50000 32) : FVec Ideal S256 .f32 :=
  maximumf
    (mulf
      (Host.scatterAdd scatter_S256_S50000x1_S50000_n_0_0_1
        (broadcastInDim S256 ![] bcast_S_S256 (constant S_ .f32 0x00000000#32))
        (broadcastInDim S50000x1 ![0] bcast_S50000_S50000x1_0 eb)
        (broadcastInDim S50000 ![] bcast_S_S50000 (constant S_ .f32 0x3F800000#32)))
      (broadcastInDim S256 ![] bcast_S_S256 (constant S_ .f32 0x42800000#32)))
    (broadcastInDim S256 ![] bcast_S_S256 (constant S_ .f32 0x3F800000#32))

/-- The mean per segment: the segment sum of the row sums over the denominator. -/
def meanN (eb : IVec S50000 32) (x : FVec Ideal S50000x64 .f32) : FVec Ideal S256 .f32 :=
  Host.divf
    (Host.scatterAdd scatter_S256_S50000x1_S50000_n_0_0_1
      (broadcastInDim S256 ![] bcast_S_S256 (constant S_ .f32 0x00000000#32))
      (broadcastInDim S50000x1 ![0] bcast_S50000_S50000x1_0 eb)
      (Host.reduceAdd x (constant S_ .f32 0x00000000#32) reducesTo_S50000x64_S50000_d1 h_S_))
    (denN eb)

/-- The segment index as the gather reads it: negative indices shifted by `256`. -/
def wrapN (eb : IVec S50000 32) : IVec S50000 32 :=
  select (cmpi .slt eb (broadcastInDim S50000 ![] bcast_S_S50000 (constantI S_ 32 0#32)))
    (addi eb (broadcastInDim S50000 ![] bcast_S_S50000 (constantI S_ 32 256#32))) eb

/-- The data minus the mean of its row's segment. -/
def cenN (eb : IVec S50000 32) (x : FVec Ideal S50000x64 .f32) : FVec Ideal S50000x64 .f32 :=
  subf x
    (broadcastInDim S50000x64 ![0, 1] bcast_S50000x1_S50000x64_0_1
      (broadcastInDim S50000x1 ![0] bcast_S50000_S50000x1_0
        (Host.gather gather_S256_S50000x1_S50000_n_0_n_n_0_1_1 (meanN eb x)
          (broadcastInDim S50000x1 ![0] bcast_S50000_S50000x1_0 (wrapN eb)))))

/-- The two-pass variance per segment: the segment sum of the squared deviations over the
    denominator. -/
def var2N (eb : IVec S50000 32) (x : FVec Ideal S50000x64 .f32) : FVec Ideal S256 .f32 :=
  Host.divf
    (Host.scatterAdd scatter_S256_S50000x1_S50000_n_0_0_1
      (broadcastInDim S256 ![] bcast_S_S256 (constant S_ .f32 0x00000000#32))
      (broadcastInDim S50000x1 ![0] bcast_S50000_S50000x1_0 eb)
      (Host.reduceAdd (mulf (cenN eb x) (cenN eb x)) (constant S_ .f32 0x00000000#32)
        reducesTo_S50000x64_S50000_d1 h_S_))
    (denN eb)

/-- The one-pass variance per segment: the mean of the squares minus the square of the mean,
    clamped at zero. -/
def var1N (eb : IVec S50000 32) (x : FVec Ideal S50000x64 .f32) : FVec Ideal S256 .f32 :=
  maximumf (subf (Host.divf (Host.scatterAdd scatter_S256_S50000x1_S50000_n_0_0_1 (broadcastInDim S256 ![] bcast_S_S256 (constant S_ .f32 0x00000000#32)) (broadcastInDim S50000x1 ![0] bcast_S50000_S50000x1_0 eb) (Host.reduceAdd (mulf x x) (constant S_ .f32 0x00000000#32) reducesTo_S50000x64_S50000_d1 h_S_)) (denN eb)) (mulf (meanN eb x) (meanN eb x))) (broadcastInDim S256 ![] bcast_S_S256 (constant S_ .f32 0x00000000#32))

/-- The printed first layer norm is this chain at the printed index and data. -/
theorem linkN_den (x0 : (⟨S50000, .i32⟩ : BufTy).Contents (Elt Ideal)) :
    ReadP.val_main_v27 (F := Ideal) x0 = denN x0 := rfl
theorem linkN_mean (x0 : (⟨S50000, .i32⟩ : BufTy).Contents (Elt Ideal))
    (x2 : (⟨S50000x64, .f32⟩ : BufTy).Contents (Elt Ideal)) :
    ReadP.val_main_v32 (F := Ideal) x0 x2 = meanN x0 x2 := rfl
theorem linkN_var (x0 : (⟨S50000, .i32⟩ : BufTy).Contents (Elt Ideal))
    (x2 : (⟨S50000x64, .f32⟩ : BufTy).Contents (Elt Ideal)) :
    ReadP.val_main_v48 (F := Ideal) x0 x2 = var2N x0 x2 := rfl

/-- A row sum read at row `j`: zero plus the sum over the row. -/
theorem rowsumN_apply (y : FVec Ideal S50000x64 .f32) (j : S50000.Idx) :
    Host.reduceAdd y (constant S_ .f32 0x00000000#32) reducesTo_S50000x64_S50000_d1 h_S_ j
      = 0 + ∑ k : Fin 64, y (ReadP.idx_main_v28 j k) := by
  have h := ReadP.val_main_v28_apply y j
  have h0 : (ReadP.val_main_cst_8 (F := Ideal)) (Shape.Idx.first h_S_) = 0 := ofBits_zero
  rw [h0] at h
  exact h

/-- The row sum of the squares read at row `j`. -/
theorem rowsumSqN_apply (y : FVec Ideal S50000x64 .f32) (j : S50000.Idx) :
    Host.reduceAdd (mulf y y) (constant S_ .f32 0x00000000#32) reducesTo_S50000x64_S50000_d1 h_S_ j
      = 0 + ∑ k : Fin 64, y (ReadP.idx_main_v28 j k) * y (ReadP.idx_main_v28 j k) :=
  rowsumN_apply (mulf y y) j

/-- A per-row value broadcast along the row, read at column `k` of row `j`, is the value at `j`. -/
theorem bcastRowColN_apply {α : Type} (y : S50000.Idx → α) (j : S50000.Idx) (k : Fin 64) :
    broadcastInDim S50000x64 ![0, 1] bcast_S50000x1_S50000x64_0_1
      (broadcastInDim S50000x1 ![0] bcast_S50000_S50000x1_0 y) (ReadP.idx_main_v28 j k) = y j := by
  rw [broadcastInDim_apply _ bcast_S50000x1_S50000x64_0_1 _ _ (ReadP.idx_main_v41 (ReadP.idx_main_v28 j k)) (fun a => match a with
    | ⟨0, _⟩ => by
        show _ = if (50000 : Nat) = 1 then 0 else _
        rw [if_neg (by decide)]
        rfl
    | ⟨1, _⟩ => by
        show 0 = if (1 : Nat) = 1 then 0 else _
        rw [if_pos rfl])]
  exact Cert.RefSegRead.bcast_read (N := 50000) bcast_S50000_S50000x1_0 y _ j rfl

/-- The denominator at segment `g`. -/
theorem denN_apply (eb : IVec S50000 32) (g : S256.Idx) :
    denN eb g = max ((0 + ∑ _j ∈ hitN eb g, (1 : EReal)) * ((64 : ℝ) : EReal)) 1 := by
  unfold denN
  rw [ValueIdx.maximumf_apply, ValueIdx.mulf_apply, scatterAdd_apply,
    bcastConst_apply bcast_S_S256 0x00000000#32 g, bcastConst_apply bcast_S_S256 0x42800000#32 g,
    bcastConst_apply bcast_S_S256 0x3F800000#32 g,
    Finset.sum_congr rfl (fun j _ => bcastConst_apply bcast_S_S50000 0x3F800000#32 j),
    ofBits_zero', ofBits_one', ofBits_64]

/-- The mean at segment `g`. -/
theorem meanN_apply (eb : IVec S50000 32) (x : FVec Ideal S50000x64 .f32) (g : S256.Idx) :
    meanN eb x g
      = Ideal.div (0 + ∑ j ∈ hitN eb g, (0 + ∑ k : Fin 64, x (ReadP.idx_main_v28 j k))) (denN eb g) := by
  unfold meanN
  rw [hostDivf_apply, scatterAdd_apply, bcastConst_apply bcast_S_S256 0x00000000#32 g, ofBits_zero',
    Finset.sum_congr rfl (fun j _ => rowsumN_apply x j)]

/-- The one-pass variance at segment `g`. -/
theorem var1N_apply (eb : IVec S50000 32) (x : FVec Ideal S50000x64 .f32) (g : S256.Idx) :
    var1N eb x g
      = max (Ideal.div (0 + ∑ j ∈ hitN eb g,
            (0 + ∑ k : Fin 64, x (ReadP.idx_main_v28 j k) * x (ReadP.idx_main_v28 j k))) (denN eb g)
          - meanN eb x g * meanN eb x g) 0 := by
  unfold var1N
  rw [ValueIdx.maximumf_apply, ValueIdx.subf_apply, ValueIdx.mulf_apply, hostDivf_apply,
    scatterAdd_apply, bcastConst_apply bcast_S_S256 0x00000000#32 g, ofBits_zero',
    Finset.sum_congr rfl (fun j _ => rowsumSqN_apply x j)]

/-- The two-pass variance at segment `g`: on a row that lands on `g` the gathered mean is the
    mean of `g`. -/
theorem var2N_apply (eb : IVec S50000 32) (x : FVec Ideal S50000x64 .f32) (g : S256.Idx) :
    var2N eb x g
      = Ideal.div (0 + ∑ j ∈ hitN eb g, (0 + ∑ k : Fin 64,
            (x (ReadP.idx_main_v28 j k) - meanN eb x g) * (x (ReadP.idx_main_v28 j k) - meanN eb x g)))
          (denN eb g) := by
  have hsum : ∀ j ∈ hitN eb g,
      Host.reduceAdd (mulf (cenN eb x) (cenN eb x)) (constant S_ .f32 0x00000000#32)
        reducesTo_S50000x64_S50000_d1 h_S_ j
      = 0 + ∑ k : Fin 64,
          (x (ReadP.idx_main_v28 j k) - meanN eb x g) * (x (ReadP.idx_main_v28 j k) - meanN eb x g) := by
    intro j hj
    have hhit := mem_hit.mp hj
    rw [rowsumSqN_apply]
    refine congrArg (0 + ·) (Finset.sum_congr rfl fun k _ => ?_)
    have hc : cenN eb x (ReadP.idx_main_v28 j k) = x (ReadP.idx_main_v28 j k) - meanN eb x g := by
      unfold cenN
      rw [ValueIdx.subf_apply, bcastRowColN_apply]
      exact congrArg (x (ReadP.idx_main_v28 j k) - ·)
        (Cert.RefSegRead.hit_gather_50000 eb (meanN eb x) j g hhit)
    rw [hc]
  unfold var2N
  rw [hostDivf_apply, scatterAdd_apply, bcastConst_apply bcast_S_S256 0x00000000#32 g, ofBits_zero',
    Finset.sum_congr rfl hsum]

/-- The four facts at segment `g`, from the core lemma. -/
theorem lnN_at (eb : IVec S50000 32) (x : FVec Ideal S50000x64 .f32)
    (hx : ∀ i, ∃ r : ℝ, x i = (r : EReal)) (g : S256.Idx) :
    var1N eb x g = var2N eb x g ∧ (∃ d : ℝ, 1 ≤ d ∧ denN eb g = (d : EReal))
      ∧ (∃ μ : ℝ, meanN eb x g = (μ : EReal)) ∧ (∃ v : ℝ, 0 ≤ v ∧ var2N eb x g = (v : EReal)) :=
  ln_core (K := Fin 64) (hitN eb g) (fun j k => x (ReadP.idx_main_v28 j k)) (fun j k => hx _) 64
    (by simp) _ _ _ _ (denN_apply eb g) (meanN_apply eb x g) (var2N_apply eb x g)
    (var1N_apply eb x g)

/-- ONE PASS = TWO PASSES: on real data the two variances are the same array. -/
theorem var1N_eq_var2N (eb : IVec S50000 32) (x : FVec Ideal S50000x64 .f32)
    (hx : ∀ i, ∃ r : ℝ, x i = (r : EReal)) : var1N eb x = var2N eb x :=
  funext fun g => (lnN_at eb x hx g).1

/-- The denominator is a real number, at least one, at every segment. -/
theorem denN_geOne (eb : IVec S50000 32) (g : S256.Idx) :
    ∃ d : ℝ, 1 ≤ d ∧ denN eb g = (d : EReal) :=
  (lnN_at eb (fun _ => ((0 : ℝ) : EReal)) (fun _ => ⟨0, rfl⟩) g).2.1

/-- The mean is a real number at every segment. -/
theorem meanN_real (eb : IVec S50000 32) (x : FVec Ideal S50000x64 .f32)
    (hx : ∀ i, ∃ r : ℝ, x i = (r : EReal)) (g : S256.Idx) : ∃ μ : ℝ, meanN eb x g = (μ : EReal) :=
  (lnN_at eb x hx g).2.2.1

/-- The two-pass variance is a nonnegative real number at every segment. -/
theorem var2N_nonneg (eb : IVec S50000 32) (x : FVec Ideal S50000x64 .f32)
    (hx : ∀ i, ∃ r : ℝ, x i = (r : EReal)) (g : S256.Idx) :
    ∃ v : ℝ, 0 ≤ v ∧ var2N eb x g = (v : EReal) :=
  (lnN_at eb x hx g).2.2.2

end HalfN

end Cert.LnVar

end
-- ==== Proof.StatsBridge.lean ====
import proofs.«114257_j19911468384606_2_alg».proof.Proof.LnVar
import proofs.«114257_j19911468384606_2_alg».proof.Proof.KernelTerms
import Idealize.ShloMosaic.Lib.Tactic

/-!
  The kernel program's statistics arrays are the reference program's stages.

  The kernel program computes each per-segment variance in one pass (mean of the squares minus
  the square of the mean, floored at zero), the reference in two passes (mean of the squared
  deviations).  On real data the two agree, so the inverse deviations agree, and with them the
  normalised node features, the pair of gathered node features of every edge, and the two
  arrays of per-row statistics (the mean and the inverse deviation of each row's segment).
  The two programs name their shapes, dimension records and shape facts by different constants
  with the same definitions; equations that hold by unfolding those are left to the kernel's
  definitional check.
-/

noncomputable section

namespace Cert.StatsBridge

open Idealize.ShloMosaic Idealize.ShloMosaic.Tactic
open Cert.ReferenceIdeal
open Cert.KernelIdeal.KT
open Cert.LnVar

/-! ## The one-pass terms of the kernel program are the one-pass terms over the reference's records -/

theorem kdenE_eq (eb : IVec S800000 32) : kdenE eb = denE eb := by sl_kernel_rfl

theorem kmeanE_eq (eb : IVec S800000 32) (x : FVec Ideal S800000x32 .f32) :
    kmeanE eb x = meanE eb x := by sl_kernel_rfl

theorem kvarE_eq (eb : IVec S800000 32) (x : FVec Ideal S800000x32 .f32) :
    kvarE eb x = var1E eb x := by sl_kernel_rfl

theorem kvarH_eq (x0 : IVec S50000 32) (x2 : FVec Ideal S50000x64 .f32) :
    kvarH x0 x2 = var1N x0 x2 := by sl_kernel_rfl

/-! ## Node side -/

/-- The node features' one-pass variance is the reference's two-pass variance, on real data. -/
theorem kvarH_eq_ref (x0 : (⟨S50000, .i32⟩ : BufTy).Contents (Elt Ideal)) (x2 : (⟨S50000x64, .f32⟩ : BufTy).Contents (Elt Ideal))
    (hx2 : ∀ i, ∃ r : ℝ, x2 i = (r : EReal)) :
    kvarH x0 x2 = ReadP.val_main_v48 (F := Ideal) x0 x2 :=
  (kvarH_eq x0 x2).trans ((var1N_eq_var2N x0 x2 hx2).trans (linkN_var x0 x2).symm)

/-- (1) The inverse deviation per segment of the node features. -/
theorem kinvH_eq (x0 : (⟨S50000, .i32⟩ : BufTy).Contents (Elt Ideal)) (x2 : (⟨S50000x64, .f32⟩ : BufTy).Contents (Elt Ideal))
    (hx2 : ∀ i, ∃ r : ℝ, x2 i = (r : EReal)) :
    kinvH x0 x2 = ReadP.val_main_v51 (F := Ideal) x0 x2 := by
  unfold kinvH
  rw [kvarH_eq_ref x0 x2 hx2]
  sl_kernel_rfl

/-- (2) The normalised node features. -/
theorem hn_eq (x0 : (⟨S50000, .i32⟩ : BufTy).Contents (Elt Ideal)) (x2 : (⟨S50000x64, .f32⟩ : BufTy).Contents (Elt Ideal))
    (x5 x6 : (⟨S64, .f32⟩ : BufTy).Contents (Elt Ideal)) (hx2 : ∀ i, ∃ r : ℝ, x2 i = (r : EReal)) :
    hnOf x0 x2 x5 x6 (kinvH x0 x2) = ReadP.val_main_v67 (F := Ideal) x0 x2 x5 x6 := by
  rw [kinvH_eq x0 x2 hx2]
  sl_kernel_rfl

/-- (3) The target's and the source's node features of every edge, side by side. -/
theorem hnPair_eq (x0 : (⟨S50000, .i32⟩ : BufTy).Contents (Elt Ideal)) (x2 : (⟨S50000x64, .f32⟩ : BufTy).Contents (Elt Ideal))
    (x3 : (⟨S2x800000, .i32⟩ : BufTy).Contents (Elt Ideal)) (x5 x6 : (⟨S64, .f32⟩ : BufTy).Contents (Elt Ideal))
    (hx2 : ∀ i, ∃ r : ℝ, x2 i = (r : EReal)) :
    hnPairOf x3 (hnOf x0 x2 x5 x6 (kinvH x0 x2))
      = concatenate Cert.KernelIdeal.S800000x128 1
          [⟨Cert.KernelIdeal.S800000x64, ReadP.val_main_v151 (F := Ideal) x0 x2 x3 x5 x6⟩,
           ⟨Cert.KernelIdeal.S800000x64, ReadP.val_main_v158 (F := Ideal) x0 x2 x3 x5 x6⟩]
          Cert.KernelIdeal.Gen.concatenates_S800000x64_S800000x64_S800000x128_d1 := by
  rw [hn_eq x0 x2 x5 x6 hx2]
  sl_kernel_rfl

/-! ## Edge side -/

/-- The edge array's one-pass variance is the reference's two-pass variance (second layer norm). -/
theorem kvarE_eq_ref (x0 : (⟨S50000, .i32⟩ : BufTy).Contents (Elt Ideal)) (x3 : (⟨S2x800000, .i32⟩ : BufTy).Contents (Elt Ideal))
    (x4 : (⟨S800000x32, .f32⟩ : BufTy).Contents (Elt Ideal)) (hx4 : ∀ i, ∃ r : ℝ, x4 i = (r : EReal)) :
    kvarE (ReadP.val_main_v96 (F := Ideal) x0 x3) x4 = ReadP.val_main_v125 (F := Ideal) x0 x3 x4 :=
  (kvarE_eq _ x4).trans ((var1E_eq_var2E _ x4 hx4).trans (link_var x0 x3 x4).symm)

theorem kmeanE_eq_ref (x0 : (⟨S50000, .i32⟩ : BufTy).Contents (Elt Ideal)) (x3 : (⟨S2x800000, .i32⟩ : BufTy).Contents (Elt Ideal))
    (x4 : (⟨S800000x32, .f32⟩ : BufTy).Contents (Elt Ideal)) :
    kmeanE (ReadP.val_main_v96 (F := Ideal) x0 x3) x4 = ReadP.val_main_v109 (F := Ideal) x0 x3 x4 :=
  (kmeanE_eq _ x4).trans (link_mean x0 x3 x4).symm

/-- (4) The first call's statistics: squared distance, mean and inverse deviation per row. -/
theorem stats3_eq (x0 : (⟨S50000, .i32⟩ : BufTy).Contents (Elt Ideal)) (x1 : (⟨S50000x3, .f32⟩ : BufTy).Contents (Elt Ideal))
    (x3 : (⟨S2x800000, .i32⟩ : BufTy).Contents (Elt Ideal)) (x4 : (⟨S800000x32, .f32⟩ : BufTy).Contents (Elt Ideal))
    (hx4 : ∀ i, ∃ r : ℝ, x4 i = (r : EReal)) :
    stats3Of (ReadP.val_main_v96 (F := Ideal) x0 x3) x4 (ReadP.val_main_v89 (F := Ideal) x0 x1 x3)
      = concatenate Cert.KernelIdeal.S800000x3 1
          [⟨Cert.KernelIdeal.S800000x1, ReadP.val_main_v89 (F := Ideal) x0 x1 x3⟩,
           ⟨Cert.KernelIdeal.S800000x1, ReadP.val_main_v117 (F := Ideal) x0 x3 x4⟩,
           ⟨Cert.KernelIdeal.S800000x1, ReadP.val_main_v136 (F := Ideal) x0 x3 x4⟩]
          Cert.KernelIdeal.Gen.concatenates_S800000x1_S800000x1_S800000x1_S800000x3_d1 := by
  unfold stats3Of kinvE
  rw [kmeanE_eq_ref x0 x3 x4, kvarE_eq_ref x0 x3 x4 hx4]
  sl_kernel_rfl

/-- The third layer norm's data: its one-pass variance and mean are the reference's. -/
theorem kvarE_eq_ref3 (x0 : (⟨S50000, .i32⟩ : BufTy).Contents (Elt Ideal)) (x1 : (⟨S50000x3, .f32⟩ : BufTy).Contents (Elt Ideal))
    (x2 : (⟨S50000x64, .f32⟩ : BufTy).Contents (Elt Ideal)) (x3 : (⟨S2x800000, .i32⟩ : BufTy).Contents (Elt Ideal))
    (x4 : (⟨S800000x32, .f32⟩ : BufTy).Contents (Elt Ideal)) (x5 x6 : (⟨S64, .f32⟩ : BufTy).Contents (Elt Ideal))
    (x7 x8 : (⟨S32, .f32⟩ : BufTy).Contents (Elt Ideal)) (x11 : (⟨S161x32, .f32⟩ : BufTy).Contents (Elt Ideal))
    (x12 : (⟨S32, .f32⟩ : BufTy).Contents (Elt Ideal)) (x13 : (⟨S32x32, .f32⟩ : BufTy).Contents (Elt Ideal))
    (x14 : (⟨S32, .f32⟩ : BufTy).Contents (Elt Ideal))
    (h168 : ∀ i, ∃ r : ℝ, ReadP.val_main_v168 (F := Ideal) x0 x1 x2 x3 x4 x5 x6 x7 x8 x11 x12 x13 x14 i = (r : EReal)) :
    kvarE (ReadP.val_main_v96 (F := Ideal) x0 x3) (ReadP.val_main_v168 (F := Ideal) x0 x1 x2 x3 x4 x5 x6 x7 x8 x11 x12 x13 x14)
      = ReadP.val_main_v197 (F := Ideal) x0 x1 x2 x3 x4 x5 x6 x7 x8 x11 x12 x13 x14 :=
  (kvarE_eq _ _).trans ((var1E_eq_var2E _ _ h168).trans (link3_var x0 x1 x2 x3 x4 x5 x6 x7 x8 x11 x12 x13 x14).symm)

theorem kmeanE_eq_ref3 (x0 : (⟨S50000, .i32⟩ : BufTy).Contents (Elt Ideal)) (x1 : (⟨S50000x3, .f32⟩ : BufTy).Contents (Elt Ideal))
    (x2 : (⟨S50000x64, .f32⟩ : BufTy).Contents (Elt Ideal)) (x3 : (⟨S2x800000, .i32⟩ : BufTy).Contents (Elt Ideal))
    (x4 : (⟨S800000x32, .f32⟩ : BufTy).Contents (Elt Ideal)) (x5 x6 : (⟨S64, .f32⟩ : BufTy).Contents (Elt Ideal))
    (x7 x8 : (⟨S32, .f32⟩ : BufTy).Contents (Elt Ideal)) (x11 : (⟨S161x32, .f32⟩ : BufTy).Contents (Elt Ideal))
    (x12 : (⟨S32, .f32⟩ : BufTy).Contents (Elt Ideal)) (x13 : (⟨S32x32, .f32⟩ : BufTy).Contents (Elt Ideal))
    (x14 : (⟨S32, .f32⟩ : BufTy).Contents (Elt Ideal)) :
    kmeanE (ReadP.val_main_v96 (F := Ideal) x0 x3) (ReadP.val_main_v168 (F := Ideal) x0 x1 x2 x3 x4 x5 x6 x7 x8 x11 x12 x13 x14)
      = ReadP.val_main_v181 (F := Ideal) x0 x1 x2 x3 x4 x5 x6 x7 x8 x11 x12 x13 x14 :=
  (kmeanE_eq _ _).trans (link3_mean x0 x1 x2 x3 x4 x5 x6 x7 x8 x11 x12 x13 x14).symm

/-- (5) The second call's statistics: mean and inverse deviation per row. -/
theorem stats2_eq (x0 : (⟨S50000, .i32⟩ : BufTy).Contents (Elt Ideal)) (x1 : (⟨S50000x3, .f32⟩ : BufTy).Contents (Elt Ideal))
    (x2 : (⟨S50000x64, .f32⟩ : BufTy).Contents (Elt Ideal)) (x3 : (⟨S2x800000, .i32⟩ : BufTy).Contents (Elt Ideal))
    (x4 : (⟨S800000x32, .f32⟩ : BufTy).Contents (Elt Ideal)) (x5 x6 : (⟨S64, .f32⟩ : BufTy).Contents (Elt Ideal))
    (x7 x8 : (⟨S32, .f32⟩ : BufTy).Contents (Elt Ideal)) (x11 : (⟨S161x32, .f32⟩ : BufTy).Contents (Elt Ideal))
    (x12 : (⟨S32, .f32⟩ : BufTy).Contents (Elt Ideal)) (x13 : (⟨S32x32, .f32⟩ : BufTy).Contents (Elt Ideal))
    (x14 : (⟨S32, .f32⟩ : BufTy).Contents (Elt Ideal))
    (h168 : ∀ i, ∃ r : ℝ, ReadP.val_main_v168 (F := Ideal) x0 x1 x2 x3 x4 x5 x6 x7 x8 x11 x12 x13 x14 i = (r : EReal)) :
    stats2Of (ReadP.val_main_v96 (F := Ideal) x0 x3) (ReadP.val_main_v168 (F := Ideal) x0 x1 x2 x3 x4 x5 x6 x7 x8 x11 x12 x13 x14)
      = concatenate Cert.KernelIdeal.S800000x2 1
          [⟨Cert.KernelIdeal.S800000x1, ReadP.val_main_v189 (F := Ideal) x0 x1 x2 x3 x4 x5 x6 x7 x8 x11 x12 x13 x14⟩,
           ⟨Cert.KernelIdeal.S800000x1, ReadP.val_main_v208 (F := Ideal) x0 x1 x2 x3 x4 x5 x6 x7 x8 x11 x12 x13 x14⟩]
          Cert.KernelIdeal.Gen.concatenates_S800000x1_S800000x1_S800000x2_d1 := by
  unfold stats2Of kinvE
  rw [kmeanE_eq_ref3 x0 x1 x2 x3 x4 x5 x6 x7 x8 x11 x12 x13 x14, kvarE_eq_ref3 x0 x1 x2 x3 x4 x5 x6 x7 x8 x11 x12 x13 x14 h168]
  sl_kernel_rfl

end Cert.StatsBridge

end
-- ==== Proof.RefIdx.lean ====
/-
  The reference program's stages read at an index, at the ideal values: the joined edge input (four pieces side by
  side), the normalised edge attributes, the two-layer perceptron with its x * (1 / (1 + exp (-x))) activation, and the
  last layer norm's result — each as the arithmetic of the elements it reads, by chaining the read module's lemmas and
  identifying the index functions they name with indices given by coordinates.
-/
import proofs.«114257_j19911468384606_2_alg».proof.Proof.LibIdealReal
import proofs.«114257_j19911468384606_2_alg».proof.Proof.RefReadP
import Idealize.ShloMosaic.Lib.Pipeline.Value
import Idealize.ShloMosaic.Lib.ValueIdx
import Idealize.ShloMosaic.PureOps.Ideal.Laws

noncomputable section

namespace Cert.RefIdx

open Cert.ReferenceIdeal Cert.ReferenceIdeal.ReadP Idealize.ShloMosaic Idealize.ShloMosaic.ValueIdx
open scoped BigOperators

variable
  (x0 : (⟨S50000, .i32⟩ : BufTy).Contents (Elt Ideal))
  (x1 : (⟨S50000x3, .f32⟩ : BufTy).Contents (Elt Ideal))
  (x2 : (⟨S50000x64, .f32⟩ : BufTy).Contents (Elt Ideal))
  (x3 : (⟨S2x800000, .i32⟩ : BufTy).Contents (Elt Ideal))
  (x4 : (⟨S800000x32, .f32⟩ : BufTy).Contents (Elt Ideal))
  (x5 : (⟨S64, .f32⟩ : BufTy).Contents (Elt Ideal))
  (x6 : (⟨S64, .f32⟩ : BufTy).Contents (Elt Ideal))
  (x7 : (⟨S32, .f32⟩ : BufTy).Contents (Elt Ideal))
  (x8 : (⟨S32, .f32⟩ : BufTy).Contents (Elt Ideal))
  (x9 : (⟨S32, .f32⟩ : BufTy).Contents (Elt Ideal))
  (x10 : (⟨S32, .f32⟩ : BufTy).Contents (Elt Ideal))
  (x11 : (⟨S161x32, .f32⟩ : BufTy).Contents (Elt Ideal))
  (x12 : (⟨S32, .f32⟩ : BufTy).Contents (Elt Ideal))
  (x13 : (⟨S32x32, .f32⟩ : BufTy).Contents (Elt Ideal))
  (x14 : (⟨S32, .f32⟩ : BufTy).Contents (Elt Ideal))

/-! ### The joined edge input -/

/-- Four pieces of 64, 64, 1 and 32 columns side by side, read at row r, column j: the piece whose columns hold j. -/
theorem cat4_apply (a : S800000x64.Idx → EReal) (b : S800000x64.Idx → EReal) (c : S800000x1.Idx → EReal)
    (d : S800000x32.Idx → EReal)
    (h : Shape.Concatenates [S800000x64, S800000x64, S800000x1, S800000x32] S800000x161 1) (r : Fin 800000)
    (j : Fin 161) :
    concatenate S800000x161 1 [⟨S800000x64, a⟩, ⟨S800000x64, b⟩, ⟨S800000x1, c⟩, ⟨S800000x32, d⟩] h (ix2 r j)
      = if h1 : j.val < 64 then a (ix2 r ⟨j.val, h1⟩)
        else if h2 : j.val < 128 then b (ix2 r ⟨j.val - 64, by omega⟩)
        else if h3 : j.val < 129 then c (ix2 r 0)
        else d (ix2 r ⟨j.val - 129, by have := j.isLt; omega⟩) := by
  by_cases h1 : j.val < 64
  · rw [dif_pos h1]
    exact concatenate_apply_piece (t := S800000x161) (1 : Fin 2) [⟨S800000x64, a⟩, ⟨S800000x64, b⟩, ⟨S800000x1, c⟩, ⟨S800000x32, d⟩] h (ix2 r j) 0 (by show 0 < 4; omega)
      S800000x64 a rfl rfl 0 rfl (ix2 r ⟨j.val, h1⟩) (fun b hb => by match b with | ⟨0, _⟩ => rfl | ⟨1, _⟩ => exact absurd rfl hb) (by show 0 + j.val = j.val; omega)
  · rw [dif_neg h1]
    by_cases h2 : j.val < 128
    · rw [dif_pos h2]
      exact concatenate_apply_piece (t := S800000x161) (1 : Fin 2) [⟨S800000x64, a⟩, ⟨S800000x64, b⟩, ⟨S800000x1, c⟩, ⟨S800000x32, d⟩] h (ix2 r j) 1 (by show 1 < 4; omega)
        S800000x64 b rfl rfl 64 rfl (ix2 r ⟨j.val - 64, by omega⟩) (fun b hb => by match b with | ⟨0, _⟩ => rfl | ⟨1, _⟩ => exact absurd rfl hb)
        (by show 64 + (j.val - 64) = j.val; omega)
    · rw [dif_neg h2]
      by_cases h3 : j.val < 129
      · rw [dif_pos h3]
        exact concatenate_apply_piece (t := S800000x161) (1 : Fin 2) [⟨S800000x64, a⟩, ⟨S800000x64, b⟩, ⟨S800000x1, c⟩, ⟨S800000x32, d⟩] h (ix2 r j) 2 (by show 2 < 4; omega)
          S800000x1 c rfl rfl 128 rfl (ix2 r 0) (fun b hb => by match b with | ⟨0, _⟩ => rfl | ⟨1, _⟩ => exact absurd rfl hb) (by show 128 + 0 = j.val; omega)
      · rw [dif_neg h3]
        exact concatenate_apply_piece (t := S800000x161) (1 : Fin 2) [⟨S800000x64, a⟩, ⟨S800000x64, b⟩, ⟨S800000x1, c⟩, ⟨S800000x32, d⟩] h (ix2 r j) 3 (by show 3 < 4; omega)
          S800000x32 d rfl rfl 129 rfl (ix2 r ⟨j.val - 129, by have := j.isLt; omega⟩) (fun b hb => by match b with | ⟨0, _⟩ => rfl | ⟨1, _⟩ => exact absurd rfl hb)
          (by show 129 + (j.val - 129) = j.val; omega)

/-- The joined edge input at (r, j): the target's features, the source's, the squared length, the edge attributes. -/
theorem v159_apply (r : Fin 800000) (j : Fin 161) :
    val_main_v159 (F := Ideal) x0 x1 x2 x3 x4 x5 x6 x7 x8 (ix2 r j)
      = if h1 : j.val < 64 then val_main_v151 (F := Ideal) x0 x2 x3 x5 x6 (ix2 r ⟨j.val, h1⟩)
        else if h2 : j.val < 128 then val_main_v158 (F := Ideal) x0 x2 x3 x5 x6 (ix2 r ⟨j.val - 64, by omega⟩)
        else if h3 : j.val < 129 then val_main_v89 (F := Ideal) x0 x1 x3 (ix2 r 0)
        else val_main_v144 (F := Ideal) x0 x3 x4 x7 x8 (ix2 r ⟨j.val - 129, by have := j.isLt; omega⟩) := by
  unfold val_main_v159
  exact cat4_apply _ _ _ _ _ r j

/-! ### The normalised edge attributes -/

/-- At (r, q): the attribute less its graph's mean, times the inverse deviation, scaled and shifted. -/
theorem v144_apply (r : Fin 800000) (q : Fin 32) :
    val_main_v144 (F := Ideal) x0 x3 x4 x7 x8 (ix2 r q)
      = ((x4 (ix2 r q) - val_main_v116 (F := Ideal) x0 x3 x4 (ix1 r)) * val_main_v135 (F := Ideal) x0 x3 x4 (ix1 r)) * x7 (ix1 q)
        + x8 (ix1 q) := by
  rw [val_main_v144_apply, val_main_v143_apply, val_main_v142_apply, val_main_v141_apply, val_main_v140_apply,
    val_main_v139_apply, val_main_v138_apply, val_main_v137_apply, val_main_v136_apply, val_main_v119_apply,
    val_main_v118_apply, val_main_v117_apply]
  have e1 : idx_main_v117 (idx_main_v118 (ix2 r q)) = ix1 r := funext fun a => Fin.ext (by match a with | ⟨0, _⟩ => rfl)
  have e2 : idx_main_v136 (idx_main_v137 (ix2 r q)) = ix1 r := funext fun a => Fin.ext (by match a with | ⟨0, _⟩ => rfl)
  have e3 : idx_main_v139 (idx_main_v140 (ix2 r q)) = ix1 q := funext fun a => Fin.ext (by match a with | ⟨0, _⟩ => rfl)
  have e4 : idx_main_v142 (idx_main_v143 (ix2 r q)) = ix1 q := funext fun a => Fin.ext (by match a with | ⟨0, _⟩ => rfl)
  rw [e1, e2, e3, e4]
  rfl

/-! ### The perceptron -/

/-- The first layer's pre-activation at (r, k): the row of the joined input against column k of the weights, plus the bias. -/
theorem v163_apply (r : Fin 800000) (k : Fin 32) :
    val_main_v163 (F := Ideal) x0 x1 x2 x3 x4 x5 x6 x7 x8 x11 x12 (ix2 r k)
      = (∑ j : Fin 161, val_main_v159 (F := Ideal) x0 x1 x2 x3 x4 x5 x6 x7 x8 (ix2 r j) * x11 (ix2 j k)) + x12 (ix1 k) := by
  rw [val_main_v163_apply, val_main_v160_apply, val_main_v162_apply, val_main_v161_apply]
  have el : ∀ j : Fin 161, lidx_main_v160 (ix2 r k) j = ix2 r j := fun j => funext fun a => Fin.ext (by match a with | ⟨0, _⟩ => rfl | ⟨1, _⟩ => rfl)
  have er : ∀ j : Fin 161, ridx_main_v160 (ix2 r k) j = ix2 j k := fun j => funext fun a => Fin.ext (by match a with | ⟨0, _⟩ => rfl | ⟨1, _⟩ => rfl)
  have eb : idx_main_v161 (idx_main_v162 (ix2 r k)) = ix1 k := funext fun a => Fin.ext (by match a with | ⟨0, _⟩ => rfl)
  simp only [el, er, eb]
  rfl

/-- The activation at (r, k): x * (1 / (1 + exp (-x))) of the pre-activation is x times its logistic. -/
theorem v164_apply (r : Fin 800000) (k : Fin 32) :
    val_main_v164 (F := Ideal) x0 x1 x2 x3 x4 x5 x6 x7 x8 x11 x12 (ix2 r k)
      = val_main_v163 (F := Ideal) x0 x1 x2 x3 x4 x5 x6 x7 x8 x11 x12 (ix2 r k)
        * Ideal.logistic (val_main_v163 (F := Ideal) x0 x1 x2 x3 x4 x5 x6 x7 x8 x11 x12 (ix2 r k)) := by
  rw [val_main_v164_apply, val_main_call0_v5_apply, val_main_call0_v4_apply, val_main_call0_cst_0_apply,
    val_main_call0_v3_apply, val_main_call0_v2_apply, val_main_call0_cst_apply, val_main_call0_v1_apply,
    val_main_call0_v0_apply]
  show _ * Ideal.div (Ideal.ofBits .f32 0x3F800000#32) (Ideal.ofBits .f32 0x3F800000#32 + Ideal.exp (-_))
    = _ * Ideal.div 1 (1 + Ideal.exp (-_))
  rw [Cert.LibIdealReal.ofBits_one, EReal.coe_one]

/-- The perceptron's output at (r, q), the array the last layer norm normalises. -/
theorem v168_apply (r : Fin 800000) (q : Fin 32) :
    val_main_v168 (F := Ideal) x0 x1 x2 x3 x4 x5 x6 x7 x8 x11 x12 x13 x14 (ix2 r q)
      = (∑ k : Fin 32, ((∑ j : Fin 161, val_main_v159 (F := Ideal) x0 x1 x2 x3 x4 x5 x6 x7 x8 (ix2 r j) * x11 (ix2 j k)) + x12 (ix1 k))
            * Ideal.logistic ((∑ j : Fin 161, val_main_v159 (F := Ideal) x0 x1 x2 x3 x4 x5 x6 x7 x8 (ix2 r j) * x11 (ix2 j k)) + x12 (ix1 k))
            * x13 (ix2 k q))
        + x14 (ix1 q) := by
  rw [val_main_v168_apply, val_main_v165_apply, val_main_v167_apply, val_main_v166_apply]
  have el : ∀ k : Fin 32, lidx_main_v165 (ix2 r q) k = ix2 r k := fun k => funext fun a => Fin.ext (by match a with | ⟨0, _⟩ => rfl | ⟨1, _⟩ => rfl)
  have er : ∀ k : Fin 32, ridx_main_v165 (ix2 r q) k = ix2 k q := fun k => funext fun a => Fin.ext (by match a with | ⟨0, _⟩ => rfl | ⟨1, _⟩ => rfl)
  have eb : idx_main_v166 (idx_main_v167 (ix2 r q)) = ix1 q := funext fun a => Fin.ext (by match a with | ⟨0, _⟩ => rfl)
  simp only [el, er, eb, v164_apply, v163_apply]
  rfl

/-! ### The last layer norm -/

/-- At (r, q): the perceptron's output less its graph's mean, times the inverse deviation, scaled and shifted. -/
theorem v216_apply (r : Fin 800000) (q : Fin 32) :
    val_main_v216 (F := Ideal) x0 x1 x2 x3 x4 x5 x6 x7 x8 x9 x10 x11 x12 x13 x14 (ix2 r q)
      = ((val_main_v168 (F := Ideal) x0 x1 x2 x3 x4 x5 x6 x7 x8 x11 x12 x13 x14 (ix2 r q)
            - val_main_v188 (F := Ideal) x0 x1 x2 x3 x4 x5 x6 x7 x8 x11 x12 x13 x14 (ix1 r))
          * val_main_v207 (F := Ideal) x0 x1 x2 x3 x4 x5 x6 x7 x8 x11 x12 x13 x14 (ix1 r)) * x9 (ix1 q)
        + x10 (ix1 q) := by
  rw [val_main_v216_apply, val_main_v215_apply, val_main_v214_apply, val_main_v213_apply, val_main_v212_apply,
    val_main_v211_apply, val_main_v210_apply, val_main_v209_apply, val_main_v208_apply, val_main_v191_apply,
    val_main_v190_apply, val_main_v189_apply]
  have e1 : idx_main_v189 (idx_main_v190 (ix2 r q)) = ix1 r := funext fun a => Fin.ext (by match a with | ⟨0, _⟩ => rfl)
  have e2 : idx_main_v208 (idx_main_v209 (ix2 r q)) = ix1 r := funext fun a => Fin.ext (by match a with | ⟨0, _⟩ => rfl)
  have e3 : idx_main_v211 (idx_main_v212 (ix2 r q)) = ix1 q := funext fun a => Fin.ext (by match a with | ⟨0, _⟩ => rfl)
  have e4 : idx_main_v214 (idx_main_v215 (ix2 r q)) = ix1 q := funext fun a => Fin.ext (by match a with | ⟨0, _⟩ => rfl)
  rw [e1, e2, e3, e4]
  rfl

end Cert.RefIdx

end
-- ==== Proof.MlpBridge.lean ====
/-
  The first kernel's result array, as a function of its input arrays, is the reference's perceptron output when those
  inputs are the reference's stages: the packed node features are the target's and the source's gathered features side
  by side, the statistics columns are the squared edge length and the edge attributes' per-row mean and inverse
  deviation, and the weights are the reference's (a change of float format is the identity at the ideal values). Both
  sides are then the same sums over the 161 features of a row and the 32 hidden units.
-/
import proofs.«114257_j19911468384606_2_alg».proof.Proof.IdealValue0
import proofs.«114257_j19911468384606_2_alg».proof.Proof.RefIdx
import proofs.«114257_j19911468384606_2_alg».proof.Proof.RefReadP
import Idealize.ShloMosaic.Lib.Pipeline.Value
import Idealize.ShloMosaic.Lib.ValueIdx

noncomputable section

namespace Cert.MlpBridge

open Cert.KernelIdeal Cert.KernelIdeal.Pay Cert.KernelIdeal.Hand Cert.ReferenceIdeal.ReadP
open Idealize.ShloMosaic Idealize.ShloMosaic.ValueIdx
open scoped BigOperators

variable
  (x0 : (⟨Cert.ReferenceIdeal.S50000, .i32⟩ : BufTy).Contents (Elt Ideal))
  (x1 : (⟨Cert.ReferenceIdeal.S50000x3, .f32⟩ : BufTy).Contents (Elt Ideal))
  (x2 : (⟨Cert.ReferenceIdeal.S50000x64, .f32⟩ : BufTy).Contents (Elt Ideal))
  (x3 : (⟨Cert.ReferenceIdeal.S2x800000, .i32⟩ : BufTy).Contents (Elt Ideal))
  (x4 : (⟨Cert.ReferenceIdeal.S800000x32, .f32⟩ : BufTy).Contents (Elt Ideal))
  (x5 : (⟨Cert.ReferenceIdeal.S64, .f32⟩ : BufTy).Contents (Elt Ideal))
  (x6 : (⟨Cert.ReferenceIdeal.S64, .f32⟩ : BufTy).Contents (Elt Ideal))
  (x7 : (⟨Cert.ReferenceIdeal.S32, .f32⟩ : BufTy).Contents (Elt Ideal))
  (x8 : (⟨Cert.ReferenceIdeal.S32, .f32⟩ : BufTy).Contents (Elt Ideal))
  (x11 : (⟨Cert.ReferenceIdeal.S161x32, .f32⟩ : BufTy).Contents (Elt Ideal))
  (x12 : (⟨Cert.ReferenceIdeal.S32, .f32⟩ : BufTy).Contents (Elt Ideal))
  (x13 : (⟨Cert.ReferenceIdeal.S32x32, .f32⟩ : BufTy).Contents (Elt Ideal))
  (x14 : (⟨Cert.ReferenceIdeal.S32, .f32⟩ : BufTy).Contents (Elt Ideal))

/-- The kernel's 161 features of row r, read off the reference's stages, are row r of the reference's joined input. -/
theorem infA_ref (hc2 : Shape.Concatenates [S800000x64, S800000x64] S800000x128 1)
    (hc3 : Shape.Concatenates [S800000x1, S800000x1, S800000x1] S800000x3 1) (r : Fin 800000) (j : Fin 161) :
    infA
        (concatenate S800000x128 1 [⟨S800000x64, val_main_v151 (F := Ideal) x0 x2 x3 x5 x6⟩, ⟨S800000x64, val_main_v158 (F := Ideal) x0 x2 x3 x5 x6⟩] hc2)
        (concatenate S800000x3 1 [⟨S800000x1, val_main_v89 (F := Ideal) x0 x1 x3⟩, ⟨S800000x1, val_main_v117 (F := Ideal) x0 x3 x4⟩, ⟨S800000x1, val_main_v136 (F := Ideal) x0 x3 x4⟩] hc3)
        x4 x7 x8 r j
      = val_main_v159 (F := Ideal) x0 x1 x2 x3 x4 x5 x6 x7 x8 (ix2 r j) := by
  rw [Cert.RefIdx.v159_apply]
  unfold infA
  by_cases h1 : j.val < 64
  · have h128 : j.val < 128 := by omega
    rw [dif_pos h128, dif_pos h1]
    exact concatenate_pair_apply_left (t := S800000x128) (1 : Fin 2) _ _ hc2 (ix2 r ⟨j.val, h128⟩) rfl
      (ix2 r ⟨j.val, h1⟩) (fun b => by match b with | ⟨0, _⟩ => rfl | ⟨1, _⟩ => rfl)
  · rw [dif_neg h1]
    by_cases h2 : j.val < 128
    · rw [dif_pos h2, dif_pos h2]
      exact concatenate_pair_apply_right (t := S800000x128) (1 : Fin 2) _ _ hc2 (ix2 r ⟨j.val, h2⟩) rfl rfl
        (ix2 r ⟨j.val - 64, by omega⟩) (fun b hb => by match b with | ⟨0, _⟩ => rfl | ⟨1, _⟩ => exact absurd rfl hb)
        (by show (j.val - 64) + 64 = j.val; omega)
    · rw [dif_neg h2, dif_neg h2]
      by_cases h3 : j.val < 129
      · rw [dif_pos h3, dif_pos h3]
        exact concatenate_apply_piece (t := S800000x3) (1 : Fin 2) [⟨S800000x1, val_main_v89 (F := Ideal) x0 x1 x3⟩, ⟨S800000x1, val_main_v117 (F := Ideal) x0 x3 x4⟩, ⟨S800000x1, val_main_v136 (F := Ideal) x0 x3 x4⟩] hc3 (ix2 r 0) 0 (by show 0 < 3; omega)
          S800000x1 _ rfl rfl 0 rfl (ix2 r 0) (fun b hb => by match b with | ⟨0, _⟩ => rfl | ⟨1, _⟩ => exact absurd rfl hb) rfl
      · rw [dif_neg h3, dif_neg h3, Cert.RefIdx.v144_apply]
        -- the statistics columns: the per-row mean and inverse deviation of the edge attributes
        have c1 : concatenate S800000x3 1 [⟨S800000x1, val_main_v89 (F := Ideal) x0 x1 x3⟩, ⟨S800000x1, val_main_v117 (F := Ideal) x0 x3 x4⟩, ⟨S800000x1, val_main_v136 (F := Ideal) x0 x3 x4⟩] hc3 (ix2 r 1)
            = val_main_v116 (F := Ideal) x0 x3 x4 (ix1 r) :=
          (concatenate_apply_piece (t := S800000x3) (1 : Fin 2) [⟨S800000x1, val_main_v89 (F := Ideal) x0 x1 x3⟩, ⟨S800000x1, val_main_v117 (F := Ideal) x0 x3 x4⟩, ⟨S800000x1, val_main_v136 (F := Ideal) x0 x3 x4⟩] hc3 (ix2 r 1) 1 (by show 1 < 3; omega)
            S800000x1 _ rfl rfl 1 rfl (ix2 r 0) (fun b hb => by match b with | ⟨0, _⟩ => rfl | ⟨1, _⟩ => exact absurd rfl hb) rfl).trans
            ((val_main_v117_apply (F := Ideal) x0 x3 x4 (ix2 r 0)).trans
              (congrArg _ (funext fun a => Fin.ext (by match a with | ⟨0, _⟩ => rfl))))
        have c2 : concatenate S800000x3 1 [⟨S800000x1, val_main_v89 (F := Ideal) x0 x1 x3⟩, ⟨S800000x1, val_main_v117 (F := Ideal) x0 x3 x4⟩, ⟨S800000x1, val_main_v136 (F := Ideal) x0 x3 x4⟩] hc3 (ix2 r 2)
            = val_main_v135 (F := Ideal) x0 x3 x4 (ix1 r) :=
          (concatenate_apply_piece (t := S800000x3) (1 : Fin 2) [⟨S800000x1, val_main_v89 (F := Ideal) x0 x1 x3⟩, ⟨S800000x1, val_main_v117 (F := Ideal) x0 x3 x4⟩, ⟨S800000x1, val_main_v136 (F := Ideal) x0 x3 x4⟩] hc3 (ix2 r 2) 2 (by show 2 < 3; omega)
            S800000x1 _ rfl rfl 2 rfl (ix2 r 0) (fun b hb => by match b with | ⟨0, _⟩ => rfl | ⟨1, _⟩ => exact absurd rfl hb) rfl).trans
            ((val_main_v136_apply (F := Ideal) x0 x3 x4 (ix2 r 0)).trans
              (congrArg _ (funext fun a => Fin.ext (by match a with | ⟨0, _⟩ => rfl))))
        rw [c1, c2]

/-- The first kernel's whole result, at the reference's stages as inputs, is the array the last layer norm normalises. -/
theorem mlp_bridge (hc2 : Shape.Concatenates [S800000x64, S800000x64] S800000x128 1)
    (hc3 : Shape.Concatenates [S800000x1, S800000x1, S800000x1] S800000x3 1)
    (hl1 : FTy.bf16.bits < FTy.f32.bits) (hl2 : FTy.bf16.bits < FTy.f32.bits) :
    mlpArr
        (concatenate S800000x128 1 [⟨S800000x64, val_main_v151 (F := Ideal) x0 x2 x3 x5 x6⟩, ⟨S800000x64, val_main_v158 (F := Ideal) x0 x2 x3 x5 x6⟩] hc2)
        (concatenate S800000x3 1 [⟨S800000x1, val_main_v89 (F := Ideal) x0 x1 x3⟩, ⟨S800000x1, val_main_v117 (F := Ideal) x0 x3 x4⟩, ⟨S800000x1, val_main_v136 (F := Ideal) x0 x3 x4⟩] hc3)
        x4 x7 x8 (truncf (F := Ideal) .bf16 x11 hl1) x12 (truncf (F := Ideal) .bf16 x13 hl2) x14
      = val_main_v168 (F := Ideal) x0 x1 x2 x3 x4 x5 x6 x7 x8 x11 x12 x13 x14 := by
  funext i
  obtain ⟨r, q, rfl⟩ : ∃ (r : Fin 800000) (q : Fin 32), i = ix2 r q := ⟨i 0, i 1, eq_ix2 i⟩
  rw [Cert.RefIdx.v168_apply]
  refine (congrArg (fun f => mlpRow f (truncf (F := Ideal) .bf16 x11 hl1) x12 (truncf (F := Ideal) .bf16 x13 hl2) x14 q)
    (funext fun j => infA_ref x0 x1 x2 x3 x4 x5 x6 x7 x8 hc2 hc3 r j)).trans ?_
  rfl

end Cert.MlpBridge

end
-- ==== Proof.NormBridge.lean ====
/-
  The second kernel's result array, as a function of its input arrays, is the reference's last layer norm when those
  inputs are the reference's stages: the perceptron's output, and the statistics columns holding its per-row mean and
  inverse deviation. Entry (r, q) of both is (x - mean) * inverse deviation * scale + shift.
-/
import proofs.«114257_j19911468384606_2_alg».proof.Proof.IdealValue1
import proofs.«114257_j19911468384606_2_alg».proof.Proof.RefIdx
import proofs.«114257_j19911468384606_2_alg».proof.Proof.RefReadP
import Idealize.ShloMosaic.Lib.Pipeline.Value
import Idealize.ShloMosaic.Lib.ValueIdx

noncomputable section

namespace Cert.NormBridge

open Cert.KernelIdeal Cert.KernelIdeal.Hand Cert.ReferenceIdeal.ReadP
open Idealize.ShloMosaic Idealize.ShloMosaic.ValueIdx

variable
  (x0 : (⟨Cert.ReferenceIdeal.S50000, .i32⟩ : BufTy).Contents (Elt Ideal))
  (x1 : (⟨Cert.ReferenceIdeal.S50000x3, .f32⟩ : BufTy).Contents (Elt Ideal))
  (x2 : (⟨Cert.ReferenceIdeal.S50000x64, .f32⟩ : BufTy).Contents (Elt Ideal))
  (x3 : (⟨Cert.ReferenceIdeal.S2x800000, .i32⟩ : BufTy).Contents (Elt Ideal))
  (x4 : (⟨Cert.ReferenceIdeal.S800000x32, .f32⟩ : BufTy).Contents (Elt Ideal))
  (x5 : (⟨Cert.ReferenceIdeal.S64, .f32⟩ : BufTy).Contents (Elt Ideal))
  (x6 : (⟨Cert.ReferenceIdeal.S64, .f32⟩ : BufTy).Contents (Elt Ideal))
  (x7 : (⟨Cert.ReferenceIdeal.S32, .f32⟩ : BufTy).Contents (Elt Ideal))
  (x8 : (⟨Cert.ReferenceIdeal.S32, .f32⟩ : BufTy).Contents (Elt Ideal))
  (x9 : (⟨Cert.ReferenceIdeal.S32, .f32⟩ : BufTy).Contents (Elt Ideal))
  (x10 : (⟨Cert.ReferenceIdeal.S32, .f32⟩ : BufTy).Contents (Elt Ideal))
  (x11 : (⟨Cert.ReferenceIdeal.S161x32, .f32⟩ : BufTy).Contents (Elt Ideal))
  (x12 : (⟨Cert.ReferenceIdeal.S32, .f32⟩ : BufTy).Contents (Elt Ideal))
  (x13 : (⟨Cert.ReferenceIdeal.S32x32, .f32⟩ : BufTy).Contents (Elt Ideal))
  (x14 : (⟨Cert.ReferenceIdeal.S32, .f32⟩ : BufTy).Contents (Elt Ideal))

/-- The second kernel's whole result, at the reference's stages as inputs, is the reference's result. -/
theorem norm_bridge (hc : Shape.Concatenates [S800000x1, S800000x1] S800000x2 1) :
    normArr (val_main_v168 (F := Ideal) x0 x1 x2 x3 x4 x5 x6 x7 x8 x11 x12 x13 x14)
        (concatenate S800000x2 1 [⟨S800000x1, val_main_v189 (F := Ideal) x0 x1 x2 x3 x4 x5 x6 x7 x8 x11 x12 x13 x14⟩, ⟨S800000x1, val_main_v208 (F := Ideal) x0 x1 x2 x3 x4 x5 x6 x7 x8 x11 x12 x13 x14⟩] hc)
        x9 x10
      = val_main_v216 (F := Ideal) x0 x1 x2 x3 x4 x5 x6 x7 x8 x9 x10 x11 x12 x13 x14 := by
  funext i
  obtain ⟨r, q, rfl⟩ : ∃ (r : Fin 800000) (q : Fin 32), i = ix2 r q := ⟨i 0, i 1, eq_ix2 i⟩
  rw [Cert.RefIdx.v216_apply]
  -- the statistics columns: the per-row mean and inverse deviation of the perceptron's output
  have c0 : concatenate S800000x2 1 [⟨S800000x1, val_main_v189 (F := Ideal) x0 x1 x2 x3 x4 x5 x6 x7 x8 x11 x12 x13 x14⟩, ⟨S800000x1, val_main_v208 (F := Ideal) x0 x1 x2 x3 x4 x5 x6 x7 x8 x11 x12 x13 x14⟩] hc (ix2 r 0)
      = val_main_v188 (F := Ideal) x0 x1 x2 x3 x4 x5 x6 x7 x8 x11 x12 x13 x14 (ix1 r) :=
    (concatenate_pair_apply_left (t := S800000x2) (1 : Fin 2) _ _ hc (ix2 r 0) rfl (ix2 r 0)
      (fun b => by match b with | ⟨0, _⟩ => rfl | ⟨1, _⟩ => rfl)).trans
      ((val_main_v189_apply (F := Ideal) x0 x1 x2 x3 x4 x5 x6 x7 x8 x11 x12 x13 x14 (ix2 r 0)).trans
        (congrArg _ (funext fun a => Fin.ext (by match a with | ⟨0, _⟩ => rfl))))
  have c1 : concatenate S800000x2 1 [⟨S800000x1, val_main_v189 (F := Ideal) x0 x1 x2 x3 x4 x5 x6 x7 x8 x11 x12 x13 x14⟩, ⟨S800000x1, val_main_v208 (F := Ideal) x0 x1 x2 x3 x4 x5 x6 x7 x8 x11 x12 x13 x14⟩] hc (ix2 r 1)
      = val_main_v207 (F := Ideal) x0 x1 x2 x3 x4 x5 x6 x7 x8 x11 x12 x13 x14 (ix1 r) :=
    (concatenate_pair_apply_right (t := S800000x2) (1 : Fin 2) _ _ hc (ix2 r 1) rfl rfl (ix2 r 0)
      (fun b hb => by match b with | ⟨0, _⟩ => rfl | ⟨1, _⟩ => exact absurd rfl hb) rfl).trans
      ((val_main_v208_apply (F := Ideal) x0 x1 x2 x3 x4 x5 x6 x7 x8 x11 x12 x13 x14 (ix2 r 0)).trans
        (congrArg _ (funext fun a => Fin.ext (by match a with | ⟨0, _⟩ => rfl))))
  show ((_ - concatenate S800000x2 1 _ _ (ix2 r 0)) * concatenate S800000x2 1 _ _ (ix2 r 1)) * x9 (ix1 q) + x10 (ix1 q) = _
  rw [c0, c1]

end Cert.NormBridge

end
-- ==== Proof.RefReal.lean ====
/-
  Every float intermediate of the reference program, up to the array the last layer norm normalises, is an array of
  real numbers at the ideal values, whenever the float arguments are — for ARBITRARY integer arguments (the graph
  assignment of the nodes and the edge list): a gather copies elements of its operand whatever the indices, and a
  scatter-add adds a finite subset of the updates whatever the indices.

  One lemma per operation, in program order, by the closure lemmas of the finiteness library. Where a quotient or a
  reciprocal square root follows, the lemmas also carry what keeps it finite:
  · a denominator is max (count · width, 1), a real that is at least one;
  · a variance is a sum of squares over such a denominator, a nonnegative real, and variance + offset is positive,
    so its reciprocal square root is a positive real;
  · the activation x * (1 / (1 + exp (-x))) divides by 1 + exp (-x), which is positive.
  Names: real_<value>, nonneg_<value>, pos_<value>, geOne_<value> for the value val_main_<value> of the read module.
-/
import proofs.«114257_j19911468384606_2_alg».proof.Proof.LibIdealReal
import proofs.«114257_j19911468384606_2_alg».proof.Proof.RefReadP

noncomputable section

namespace Cert.RefReal

open Cert.LibIdealReal Cert.ReferenceIdeal Cert.ReferenceIdeal.ReadP Idealize.ShloMosaic

variable
  (x0 : (⟨S50000, .i32⟩ : BufTy).Contents (Elt Ideal))
  (x1 : (⟨S50000x3, .f32⟩ : BufTy).Contents (Elt Ideal))
  (x2 : (⟨S50000x64, .f32⟩ : BufTy).Contents (Elt Ideal))
  (x3 : (⟨S2x800000, .i32⟩ : BufTy).Contents (Elt Ideal))
  (x4 : (⟨S800000x32, .f32⟩ : BufTy).Contents (Elt Ideal))
  (x5 : (⟨S64, .f32⟩ : BufTy).Contents (Elt Ideal))
  (x6 : (⟨S64, .f32⟩ : BufTy).Contents (Elt Ideal))
  (x7 : (⟨S32, .f32⟩ : BufTy).Contents (Elt Ideal))
  (x8 : (⟨S32, .f32⟩ : BufTy).Contents (Elt Ideal))
  (x11 : (⟨S161x32, .f32⟩ : BufTy).Contents (Elt Ideal))
  (x12 : (⟨S32, .f32⟩ : BufTy).Contents (Elt Ideal))
  (x13 : (⟨S32x32, .f32⟩ : BufTy).Contents (Elt Ideal))
  (x14 : (⟨S32, .f32⟩ : BufTy).Contents (Elt Ideal))

/-! ### The centroid of the positions, and the centred positions (v19) -/

theorem real_cst :
    RealV (S := S_) (val_main_cst (F := Ideal)) :=
  realV_const_zero
theorem nonneg_cst :
    NonnegV (S := S_) (val_main_cst (F := Ideal)) :=
  nonnegV_const_zero
theorem real_v0 :
    RealV (S := S256x3) (val_main_v0 (F := Ideal)) :=
  realV_broadcastInDim _ _ real_cst
theorem nonneg_v0 :
    NonnegV (S := S256x3) (val_main_v0 (F := Ideal)) :=
  nonnegV_broadcastInDim _ _ nonneg_cst
theorem real_v2 (hx1 : RealV (S := S50000x3) x1) :
    RealV (S := S256x3) (val_main_v2 (F := Ideal) x0 x1) :=
  realV_scatterAdd _ _ real_v0 hx1
theorem real_cst_0 :
    RealV (S := S_) (val_main_cst_0 (F := Ideal)) :=
  realV_const_one
theorem geOne_cst_0 :
    GeOneV (S := S_) (val_main_cst_0 (F := Ideal)) :=
  geOneV_const_one
theorem real_v3 :
    RealV (S := S50000) (val_main_v3 (F := Ideal)) :=
  realV_broadcastInDim _ _ real_cst_0
theorem geOne_v3 :
    GeOneV (S := S50000) (val_main_v3 (F := Ideal)) :=
  geOneV_broadcastInDim _ _ geOne_cst_0
theorem real_cst_1 :
    RealV (S := S_) (val_main_cst_1 (F := Ideal)) :=
  realV_const_zero
theorem nonneg_cst_1 :
    NonnegV (S := S_) (val_main_cst_1 (F := Ideal)) :=
  nonnegV_const_zero
theorem real_v4 :
    RealV (S := S256) (val_main_v4 (F := Ideal)) :=
  realV_broadcastInDim _ _ real_cst_1
theorem nonneg_v4 :
    NonnegV (S := S256) (val_main_v4 (F := Ideal)) :=
  nonnegV_broadcastInDim _ _ nonneg_cst_1
theorem real_v6 :
    RealV (S := S256) (val_main_v6 (F := Ideal) x0) :=
  realV_scatterAdd _ _ real_v4 real_v3
theorem real_cst_2 :
    RealV (S := S_) (val_main_cst_2 (F := Ideal)) :=
  realV_const_one
theorem geOne_cst_2 :
    GeOneV (S := S_) (val_main_cst_2 (F := Ideal)) :=
  geOneV_const_one
theorem real_v7 :
    RealV (S := S256) (val_main_v7 (F := Ideal)) :=
  realV_broadcastInDim _ _ real_cst_2
theorem geOne_v7 :
    GeOneV (S := S256) (val_main_v7 (F := Ideal)) :=
  geOneV_broadcastInDim _ _ geOne_cst_2
theorem real_v8 :
    RealV (S := S256) (val_main_v8 (F := Ideal) x0) :=
  realV_maximumf (real_v6 x0) real_v7
theorem geOne_v8 :
    GeOneV (S := S256) (val_main_v8 (F := Ideal) x0) :=
  geOneV_maximumf (real_v6 x0) geOne_v7
theorem real_v9 :
    RealV (S := S256x1) (val_main_v9 (F := Ideal) x0) :=
  realV_broadcastInDim _ _ (real_v8 x0)
theorem geOne_v9 :
    GeOneV (S := S256x1) (val_main_v9 (F := Ideal) x0) :=
  geOneV_broadcastInDim _ _ (geOne_v8 x0)
theorem real_v10 :
    RealV (S := S256x3) (val_main_v10 (F := Ideal) x0) :=
  realV_broadcastInDim _ _ (real_v9 x0)
theorem geOne_v10 :
    GeOneV (S := S256x3) (val_main_v10 (F := Ideal) x0) :=
  geOneV_broadcastInDim _ _ (geOne_v9 x0)
theorem real_v11 (hx1 : RealV (S := S50000x3) x1) :
    RealV (S := S256x3) (val_main_v11 (F := Ideal) x0 x1) :=
  realV_divf_geOne (real_v2 x0 x1 hx1) (geOne_v10 x0)
theorem real_v18 (hx1 : RealV (S := S50000x3) x1) :
    RealV (S := S50000x3) (val_main_v18 (F := Ideal) x0 x1) :=
  realV_gather _ _ (real_v11 x0 x1 hx1)
theorem real_v19 (hx1 : RealV (S := S50000x3) x1) :
    RealV (S := S50000x3) (val_main_v19 (F := Ideal) x0 x1) :=
  realV_subf hx1 (real_v18 x0 x1 hx1)

/-! ### The node layer norm: per-graph count, mean (v32), variance (v48), inverse deviation (v51), result (v67) -/

theorem real_cst_4 :
    RealV (S := S_) (val_main_cst_4 (F := Ideal)) :=
  realV_const_one
theorem geOne_cst_4 :
    GeOneV (S := S_) (val_main_cst_4 (F := Ideal)) :=
  geOneV_const_one
theorem real_v20 :
    RealV (S := S50000) (val_main_v20 (F := Ideal)) :=
  realV_broadcastInDim _ _ real_cst_4
theorem geOne_v20 :
    GeOneV (S := S50000) (val_main_v20 (F := Ideal)) :=
  geOneV_broadcastInDim _ _ geOne_cst_4
theorem real_cst_5 :
    RealV (S := S_) (val_main_cst_5 (F := Ideal)) :=
  realV_const_zero
theorem nonneg_cst_5 :
    NonnegV (S := S_) (val_main_cst_5 (F := Ideal)) :=
  nonnegV_const_zero
theorem real_v21 :
    RealV (S := S256) (val_main_v21 (F := Ideal)) :=
  realV_broadcastInDim _ _ real_cst_5
theorem nonneg_v21 :
    NonnegV (S := S256) (val_main_v21 (F := Ideal)) :=
  nonnegV_broadcastInDim _ _ nonneg_cst_5
theorem real_v23 :
    RealV (S := S256) (val_main_v23 (F := Ideal) x0) :=
  realV_scatterAdd _ _ real_v21 real_v20
theorem real_cst_6 :
    RealV (S := S_) (val_main_cst_6 (F := Ideal)) :=
  realV_const_64
theorem geOne_cst_6 :
    GeOneV (S := S_) (val_main_cst_6 (F := Ideal)) :=
  geOneV_const_64
theorem real_v24 :
    RealV (S := S256) (val_main_v24 (F := Ideal)) :=
  realV_broadcastInDim _ _ real_cst_6
theorem geOne_v24 :
    GeOneV (S := S256) (val_main_v24 (F := Ideal)) :=
  geOneV_broadcastInDim _ _ geOne_cst_6
theorem real_v25 :
    RealV (S := S256) (val_main_v25 (F := Ideal) x0) :=
  realV_mulf (real_v23 x0) real_v24
theorem real_cst_7 :
    RealV (S := S_) (val_main_cst_7 (F := Ideal)) :=
  realV_const_one
theorem geOne_cst_7 :
    GeOneV (S := S_) (val_main_cst_7 (F := Ideal)) :=
  geOneV_const_one
theorem real_v26 :
    RealV (S := S256) (val_main_v26 (F := Ideal)) :=
  realV_broadcastInDim _ _ real_cst_7
theorem geOne_v26 :
    GeOneV (S := S256) (val_main_v26 (F := Ideal)) :=
  geOneV_broadcastInDim _ _ geOne_cst_7
theorem real_v27 :
    RealV (S := S256) (val_main_v27 (F := Ideal) x0) :=
  realV_maximumf (real_v25 x0) real_v26
theorem geOne_v27 :
    GeOneV (S := S256) (val_main_v27 (F := Ideal) x0) :=
  geOneV_maximumf (real_v25 x0) geOne_v26
theorem real_cst_8 :
    RealV (S := S_) (val_main_cst_8 (F := Ideal)) :=
  realV_const_zero
theorem nonneg_cst_8 :
    NonnegV (S := S_) (val_main_cst_8 (F := Ideal)) :=
  nonnegV_const_zero
theorem real_v28 (hx2 : RealV (S := S50000x64) x2) :
    RealV (S := S50000) (val_main_v28 (F := Ideal) x2) :=
  realV_reduceAdd _ _ hx2 real_cst_8
theorem real_cst_9 :
    RealV (S := S_) (val_main_cst_9 (F := Ideal)) :=
  realV_const_zero
theorem nonneg_cst_9 :
    NonnegV (S := S_) (val_main_cst_9 (F := Ideal)) :=
  nonnegV_const_zero
theorem real_v29 :
    RealV (S := S256) (val_main_v29 (F := Ideal)) :=
  realV_broadcastInDim _ _ real_cst_9
theorem nonneg_v29 :
    NonnegV (S := S256) (val_main_v29 (F := Ideal)) :=
  nonnegV_broadcastInDim _ _ nonneg_cst_9
theorem real_v31 (hx2 : RealV (S := S50000x64) x2) :
    RealV (S := S256) (val_main_v31 (F := Ideal) x0 x2) :=
  realV_scatterAdd _ _ real_v29 (real_v28 x2 hx2)
theorem real_v32 (hx2 : RealV (S := S50000x64) x2) :
    RealV (S := S256) (val_main_v32 (F := Ideal) x0 x2) :=
  realV_divf_geOne (real_v31 x0 x2 hx2) (geOne_v27 x0)
theorem real_v39 (hx2 : RealV (S := S50000x64) x2) :
    RealV (S := S50000) (val_main_v39 (F := Ideal) x0 x2) :=
  realV_gather _ _ (real_v32 x0 x2 hx2)
theorem real_v40 (hx2 : RealV (S := S50000x64) x2) :
    RealV (S := S50000x1) (val_main_v40 (F := Ideal) x0 x2) :=
  realV_broadcastInDim _ _ (real_v39 x0 x2 hx2)
theorem real_v41 (hx2 : RealV (S := S50000x64) x2) :
    RealV (S := S50000x64) (val_main_v41 (F := Ideal) x0 x2) :=
  realV_broadcastInDim _ _ (real_v40 x0 x2 hx2)
theorem real_v42 (hx2 : RealV (S := S50000x64) x2) :
    RealV (S := S50000x64) (val_main_v42 (F := Ideal) x0 x2) :=
  realV_subf hx2 (real_v41 x0 x2 hx2)
theorem real_v43 (hx2 : RealV (S := S50000x64) x2) :
    RealV (S := S50000x64) (val_main_v43 (F := Ideal) x0 x2) :=
  realV_mulf (real_v42 x0 x2 hx2) (real_v42 x0 x2 hx2)
theorem nonneg_v43 (hx2 : RealV (S := S50000x64) x2) :
    NonnegV (S := S50000x64) (val_main_v43 (F := Ideal) x0 x2) :=
  nonnegV_mulf_self (real_v42 x0 x2 hx2)
theorem real_cst_12 :
    RealV (S := S_) (val_main_cst_12 (F := Ideal)) :=
  realV_const_zero
theorem nonneg_cst_12 :
    NonnegV (S := S_) (val_main_cst_12 (F := Ideal)) :=
  nonnegV_const_zero
theorem real_v44 (hx2 : RealV (S := S50000x64) x2) :
    RealV (S := S50000) (val_main_v44 (F := Ideal) x0 x2) :=
  realV_reduceAdd _ _ (real_v43 x0 x2 hx2) real_cst_12
theorem nonneg_v44 (hx2 : RealV (S := S50000x64) x2) :
    NonnegV (S := S50000) (val_main_v44 (F := Ideal) x0 x2) :=
  nonnegV_reduceAdd _ _ (nonneg_v43 x0 x2 hx2) nonneg_cst_12
theorem real_cst_13 :
    RealV (S := S_) (val_main_cst_13 (F := Ideal)) :=
  realV_const_zero
theorem nonneg_cst_13 :
    NonnegV (S := S_) (val_main_cst_13 (F := Ideal)) :=
  nonnegV_const_zero
theorem real_v45 :
    RealV (S := S256) (val_main_v45 (F := Ideal)) :=
  realV_broadcastInDim _ _ real_cst_13
theorem nonneg_v45 :
    NonnegV (S := S256) (val_main_v45 (F := Ideal)) :=
  nonnegV_broadcastInDim _ _ nonneg_cst_13
theorem real_v47 (hx2 : RealV (S := S50000x64) x2) :
    RealV (S := S256) (val_main_v47 (F := Ideal) x0 x2) :=
  realV_scatterAdd _ _ real_v45 (real_v44 x0 x2 hx2)
theorem nonneg_v47 (hx2 : RealV (S := S50000x64) x2) :
    NonnegV (S := S256) (val_main_v47 (F := Ideal) x0 x2) :=
  nonnegV_scatterAdd _ _ nonneg_v45 (nonneg_v44 x0 x2 hx2)
theorem real_v48 (hx2 : RealV (S := S50000x64) x2) :
    RealV (S := S256) (val_main_v48 (F := Ideal) x0 x2) :=
  realV_divf_geOne (real_v47 x0 x2 hx2) (geOne_v27 x0)
theorem nonneg_v48 (hx2 : RealV (S := S50000x64) x2) :
    NonnegV (S := S256) (val_main_v48 (F := Ideal) x0 x2) :=
  nonnegV_divf_geOne (nonneg_v47 x0 x2 hx2) (geOne_v27 x0)
theorem real_cst_14 :
    RealV (S := S_) (val_main_cst_14 (F := Ideal)) :=
  realV_const_eps
theorem pos_cst_14 :
    PosV (S := S_) (val_main_cst_14 (F := Ideal)) :=
  posV_const_eps
theorem real_v49 :
    RealV (S := S256) (val_main_v49 (F := Ideal)) :=
  realV_broadcastInDim _ _ real_cst_14
theorem pos_v49 :
    PosV (S := S256) (val_main_v49 (F := Ideal)) :=
  posV_broadcastInDim _ _ pos_cst_14
theorem real_v50 (hx2 : RealV (S := S50000x64) x2) :
    RealV (S := S256) (val_main_v50 (F := Ideal) x0 x2) :=
  realV_addf (real_v48 x0 x2 hx2) real_v49
theorem pos_v50 (hx2 : RealV (S := S50000x64) x2) :
    PosV (S := S256) (val_main_v50 (F := Ideal) x0 x2) :=
  posV_addf_nonneg_pos (nonneg_v48 x0 x2 hx2) pos_v49
theorem real_v51 (hx2 : RealV (S := S50000x64) x2) :
    RealV (S := S256) (val_main_v51 (F := Ideal) x0 x2) :=
  realV_rsqrt (pos_v50 x0 x2 hx2)
theorem pos_v51 (hx2 : RealV (S := S50000x64) x2) :
    PosV (S := S256) (val_main_v51 (F := Ideal) x0 x2) :=
  posV_rsqrt (pos_v50 x0 x2 hx2)
theorem real_v58 (hx2 : RealV (S := S50000x64) x2) :
    RealV (S := S50000) (val_main_v58 (F := Ideal) x0 x2) :=
  realV_gather _ _ (real_v51 x0 x2 hx2)
theorem pos_v58 (hx2 : RealV (S := S50000x64) x2) :
    PosV (S := S50000) (val_main_v58 (F := Ideal) x0 x2) :=
  posV_gather _ _ (pos_v51 x0 x2 hx2)
theorem real_v59 (hx2 : RealV (S := S50000x64) x2) :
    RealV (S := S50000x1) (val_main_v59 (F := Ideal) x0 x2) :=
  realV_broadcastInDim _ _ (real_v58 x0 x2 hx2)
theorem pos_v59 (hx2 : RealV (S := S50000x64) x2) :
    PosV (S := S50000x1) (val_main_v59 (F := Ideal) x0 x2) :=
  posV_broadcastInDim _ _ (pos_v58 x0 x2 hx2)
theorem real_v60 (hx2 : RealV (S := S50000x64) x2) :
    RealV (S := S50000x64) (val_main_v60 (F := Ideal) x0 x2) :=
  realV_broadcastInDim _ _ (real_v59 x0 x2 hx2)
theorem pos_v60 (hx2 : RealV (S := S50000x64) x2) :
    PosV (S := S50000x64) (val_main_v60 (F := Ideal) x0 x2) :=
  posV_broadcastInDim _ _ (pos_v59 x0 x2 hx2)
theorem real_v61 (hx2 : RealV (S := S50000x64) x2) :
    RealV (S := S50000x64) (val_main_v61 (F := Ideal) x0 x2) :=
  realV_mulf (real_v42 x0 x2 hx2) (real_v60 x0 x2 hx2)
theorem real_v62 (hx5 : RealV (S := S64) x5) :
    RealV (S := S1x64) (val_main_v62 (F := Ideal) x5) :=
  realV_broadcastInDim _ _ hx5
theorem real_v63 (hx5 : RealV (S := S64) x5) :
    RealV (S := S50000x64) (val_main_v63 (F := Ideal) x5) :=
  realV_broadcastInDim _ _ (real_v62 x5 hx5)
theorem real_v64 (hx2 : RealV (S := S50000x64) x2) (hx5 : RealV (S := S64) x5) :
    RealV (S := S50000x64) (val_main_v64 (F := Ideal) x0 x2 x5) :=
  realV_mulf (real_v61 x0 x2 hx2) (real_v63 x5 hx5)
theorem real_v65 (hx6 : RealV (S := S64) x6) :
    RealV (S := S1x64) (val_main_v65 (F := Ideal) x6) :=
  realV_broadcastInDim _ _ hx6
theorem real_v66 (hx6 : RealV (S := S64) x6) :
    RealV (S := S50000x64) (val_main_v66 (F := Ideal) x6) :=
  realV_broadcastInDim _ _ (real_v65 x6 hx6)
theorem real_v67 (hx2 : RealV (S := S50000x64) x2) (hx5 : RealV (S := S64) x5) (hx6 : RealV (S := S64) x6) :
    RealV (S := S50000x64) (val_main_v67 (F := Ideal) x0 x2 x5 x6) :=
  realV_addf (real_v64 x0 x2 x5 hx2 hx5) (real_v66 x6 hx6)

/-! ### The squared edge length (v89) -/

theorem real_v78 (hx1 : RealV (S := S50000x3) x1) :
    RealV (S := S800000x3) (val_main_v78 (F := Ideal) x0 x1 x3) :=
  realV_gather _ _ (real_v19 x0 x1 hx1)
theorem real_v85 (hx1 : RealV (S := S50000x3) x1) :
    RealV (S := S800000x3) (val_main_v85 (F := Ideal) x0 x1 x3) :=
  realV_gather _ _ (real_v19 x0 x1 hx1)
theorem real_v86 (hx1 : RealV (S := S50000x3) x1) :
    RealV (S := S800000x3) (val_main_v86 (F := Ideal) x0 x1 x3) :=
  realV_subf (real_v78 x0 x1 x3 hx1) (real_v85 x0 x1 x3 hx1)
theorem real_v87 (hx1 : RealV (S := S50000x3) x1) :
    RealV (S := S800000x3) (val_main_v87 (F := Ideal) x0 x1 x3) :=
  realV_mulf (real_v86 x0 x1 x3 hx1) (real_v86 x0 x1 x3 hx1)
theorem nonneg_v87 (hx1 : RealV (S := S50000x3) x1) :
    NonnegV (S := S800000x3) (val_main_v87 (F := Ideal) x0 x1 x3) :=
  nonnegV_mulf_self (real_v86 x0 x1 x3 hx1)
theorem real_cst_21 :
    RealV (S := S_) (val_main_cst_21 (F := Ideal)) :=
  realV_const_zero
theorem nonneg_cst_21 :
    NonnegV (S := S_) (val_main_cst_21 (F := Ideal)) :=
  nonnegV_const_zero
theorem real_v88 (hx1 : RealV (S := S50000x3) x1) :
    RealV (S := S800000) (val_main_v88 (F := Ideal) x0 x1 x3) :=
  realV_reduceAdd _ _ (real_v87 x0 x1 x3 hx1) real_cst_21
theorem nonneg_v88 (hx1 : RealV (S := S50000x3) x1) :
    NonnegV (S := S800000) (val_main_v88 (F := Ideal) x0 x1 x3) :=
  nonnegV_reduceAdd _ _ (nonneg_v87 x0 x1 x3 hx1) nonneg_cst_21
theorem real_v89 (hx1 : RealV (S := S50000x3) x1) :
    RealV (S := S800000x1) (val_main_v89 (F := Ideal) x0 x1 x3) :=
  realV_broadcastInDim _ _ (real_v88 x0 x1 x3 hx1)
theorem nonneg_v89 (hx1 : RealV (S := S50000x3) x1) :
    NonnegV (S := S800000x1) (val_main_v89 (F := Ideal) x0 x1 x3) :=
  nonnegV_broadcastInDim _ _ (nonneg_v88 x0 x1 x3 hx1)
theorem real_cst_24 :
    RealV (S := S_) (val_main_cst_24 (F := Ideal)) :=
  realV_const_one
theorem geOne_cst_24 :
    GeOneV (S := S_) (val_main_cst_24 (F := Ideal)) :=
  geOneV_const_one

/-! ### The edge-attribute layer norm: per-graph count, mean (v109), variance (v125), inverse deviation (v128), result (v144) -/

theorem real_v97 :
    RealV (S := S800000) (val_main_v97 (F := Ideal)) :=
  realV_broadcastInDim _ _ real_cst_24
theorem geOne_v97 :
    GeOneV (S := S800000) (val_main_v97 (F := Ideal)) :=
  geOneV_broadcastInDim _ _ geOne_cst_24
theorem real_cst_25 :
    RealV (S := S_) (val_main_cst_25 (F := Ideal)) :=
  realV_const_zero
theorem nonneg_cst_25 :
    NonnegV (S := S_) (val_main_cst_25 (F := Ideal)) :=
  nonnegV_const_zero
theorem real_v98 :
    RealV (S := S256) (val_main_v98 (F := Ideal)) :=
  realV_broadcastInDim _ _ real_cst_25
theorem nonneg_v98 :
    NonnegV (S := S256) (val_main_v98 (F := Ideal)) :=
  nonnegV_broadcastInDim _ _ nonneg_cst_25
theorem real_v100 :
    RealV (S := S256) (val_main_v100 (F := Ideal) x0 x3) :=
  realV_scatterAdd _ _ real_v98 real_v97
theorem real_cst_26 :
    RealV (S := S_) (val_main_cst_26 (F := Ideal)) :=
  realV_const_32
theorem geOne_cst_26 :
    GeOneV (S := S_) (val_main_cst_26 (F := Ideal)) :=
  geOneV_const_32
theorem real_v101 :
    RealV (S := S256) (val_main_v101 (F := Ideal)) :=
  realV_broadcastInDim _ _ real_cst_26
theorem geOne_v101 :
    GeOneV (S := S256) (val_main_v101 (F := Ideal)) :=
  geOneV_broadcastInDim _ _ geOne_cst_26
theorem real_v102 :
    RealV (S := S256) (val_main_v102 (F := Ideal) x0 x3) :=
  realV_mulf (real_v100 x0 x3) real_v101
theorem real_cst_27 :
    RealV (S := S_) (val_main_cst_27 (F := Ideal)) :=
  realV_const_one
theorem geOne_cst_27 :
    GeOneV (S := S_) (val_main_cst_27 (F := Ideal)) :=
  geOneV_const_one
theorem real_v103 :
    RealV (S := S256) (val_main_v103 (F := Ideal)) :=
  realV_broadcastInDim _ _ real_cst_27
theorem geOne_v103 :
    GeOneV (S := S256) (val_main_v103 (F := Ideal)) :=
  geOneV_broadcastInDim _ _ geOne_cst_27
theorem real_v104 :
    RealV (S := S256) (val_main_v104 (F := Ideal) x0 x3) :=
  realV_maximumf (real_v102 x0 x3) real_v103
theorem geOne_v104 :
    GeOneV (S := S256) (val_main_v104 (F := Ideal) x0 x3) :=
  geOneV_maximumf (real_v102 x0 x3) geOne_v103
theorem real_cst_28 :
    RealV (S := S_) (val_main_cst_28 (F := Ideal)) :=
  realV_const_zero
theorem nonneg_cst_28 :
    NonnegV (S := S_) (val_main_cst_28 (F := Ideal)) :=
  nonnegV_const_zero
theorem real_v105 (hx4 : RealV (S := S800000x32) x4) :
    RealV (S := S800000) (val_main_v105 (F := Ideal) x4) :=
  realV_reduceAdd _ _ hx4 real_cst_28
theorem real_cst_29 :
    RealV (S := S_) (val_main_cst_29 (F := Ideal)) :=
  realV_const_zero
theorem nonneg_cst_29 :
    NonnegV (S := S_) (val_main_cst_29 (F := Ideal)) :=
  nonnegV_const_zero
theorem real_v106 :
    RealV (S := S256) (val_main_v106 (F := Ideal)) :=
  realV_broadcastInDim _ _ real_cst_29
theorem nonneg_v106 :
    NonnegV (S := S256) (val_main_v106 (F := Ideal)) :=
  nonnegV_broadcastInDim _ _ nonneg_cst_29
theorem real_v108 (hx4 : RealV (S := S800000x32) x4) :
    RealV (S := S256) (val_main_v108 (F := Ideal) x0 x3 x4) :=
  realV_scatterAdd _ _ real_v106 (real_v105 x4 hx4)
theorem real_v109 (hx4 : RealV (S := S800000x32) x4) :
    RealV (S := S256) (val_main_v109 (F := Ideal) x0 x3 x4) :=
  realV_divf_geOne (real_v108 x0 x3 x4 hx4) (geOne_v104 x0 x3)
theorem real_v116 (hx4 : RealV (S := S800000x32) x4) :
    RealV (S := S800000) (val_main_v116 (F := Ideal) x0 x3 x4) :=
  realV_gather _ _ (real_v109 x0 x3 x4 hx4)
theorem real_v117 (hx4 : RealV (S := S800000x32) x4) :
    RealV (S := S800000x1) (val_main_v117 (F := Ideal) x0 x3 x4) :=
  realV_broadcastInDim _ _ (real_v116 x0 x3 x4 hx4)
theorem real_v118 (hx4 : RealV (S := S800000x32) x4) :
    RealV (S := S800000x32) (val_main_v118 (F := Ideal) x0 x3 x4) :=
  realV_broadcastInDim _ _ (real_v117 x0 x3 x4 hx4)
theorem real_v119 (hx4 : RealV (S := S800000x32) x4) :
    RealV (S := S800000x32) (val_main_v119 (F := Ideal) x0 x3 x4) :=
  realV_subf hx4 (real_v118 x0 x3 x4 hx4)
theorem real_v120 (hx4 : RealV (S := S800000x32) x4) :
    RealV (S := S800000x32) (val_main_v120 (F := Ideal) x0 x3 x4) :=
  realV_mulf (real_v119 x0 x3 x4 hx4) (real_v119 x0 x3 x4 hx4)
theorem nonneg_v120 (hx4 : RealV (S := S800000x32) x4) :
    NonnegV (S := S800000x32) (val_main_v120 (F := Ideal) x0 x3 x4) :=
  nonnegV_mulf_self (real_v119 x0 x3 x4 hx4)
theorem real_cst_32 :
    RealV (S := S_) (val_main_cst_32 (F := Ideal)) :=
  realV_const_zero
theorem nonneg_cst_32 :
    NonnegV (S := S_) (val_main_cst_32 (F := Ideal)) :=
  nonnegV_const_zero
theorem real_v121 (hx4 : RealV (S := S800000x32) x4) :
    RealV (S := S800000) (val_main_v121 (F := Ideal) x0 x3 x4) :=
  realV_reduceAdd _ _ (real_v120 x0 x3 x4 hx4) real_cst_32
theorem nonneg_v121 (hx4 : RealV (S := S800000x32) x4) :
    NonnegV (S := S800000) (val_main_v121 (F := Ideal) x0 x3 x4) :=
  nonnegV_reduceAdd _ _ (nonneg_v120 x0 x3 x4 hx4) nonneg_cst_32
theorem real_cst_33 :
    RealV (S := S_) (val_main_cst_33 (F := Ideal)) :=
  realV_const_zero
theorem nonneg_cst_33 :
    NonnegV (S := S_) (val_main_cst_33 (F := Ideal)) :=
  nonnegV_const_zero
theorem real_v122 :
    RealV (S := S256) (val_main_v122 (F := Ideal)) :=
  realV_broadcastInDim _ _ real_cst_33
theorem nonneg_v122 :
    NonnegV (S := S256) (val_main_v122 (F := Ideal)) :=
  nonnegV_broadcastInDim _ _ nonneg_cst_33
theorem real_v124 (hx4 : RealV (S := S800000x32) x4) :
    RealV (S := S256) (val_main_v124 (F := Ideal) x0 x3 x4) :=
  realV_scatterAdd _ _ real_v122 (real_v121 x0 x3 x4 hx4)
theorem nonneg_v124 (hx4 : RealV (S := S800000x32) x4) :
    NonnegV (S := S256) (val_main_v124 (F := Ideal) x0 x3 x4) :=
  nonnegV_scatterAdd _ _ nonneg_v122 (nonneg_v121 x0 x3 x4 hx4)
theorem real_v125 (hx4 : RealV (S := S800000x32) x4) :
    RealV (S := S256) (val_main_v125 (F := Ideal) x0 x3 x4) :=
  realV_divf_geOne (real_v124 x0 x3 x4 hx4) (geOne_v104 x0 x3)
theorem nonneg_v125 (hx4 : RealV (S := S800000x32) x4) :
    NonnegV (S := S256) (val_main_v125 (F := Ideal) x0 x3 x4) :=
  nonnegV_divf_geOne (nonneg_v124 x0 x3 x4 hx4) (geOne_v104 x0 x3)
theorem real_cst_34 :
    RealV (S := S_) (val_main_cst_34 (F := Ideal)) :=
  realV_const_eps
theorem pos_cst_34 :
    PosV (S := S_) (val_main_cst_34 (F := Ideal)) :=
  posV_const_eps
theorem real_v126 :
    RealV (S := S256) (val_main_v126 (F := Ideal)) :=
  realV_broadcastInDim _ _ real_cst_34
theorem pos_v126 :
    PosV (S := S256) (val_main_v126 (F := Ideal)) :=
  posV_broadcastInDim _ _ pos_cst_34
theorem real_v127 (hx4 : RealV (S := S800000x32) x4) :
    RealV (S := S256) (val_main_v127 (F := Ideal) x0 x3 x4) :=
  realV_addf (real_v125 x0 x3 x4 hx4) real_v126
theorem pos_v127 (hx4 : RealV (S := S800000x32) x4) :
    PosV (S := S256) (val_main_v127 (F := Ideal) x0 x3 x4) :=
  posV_addf_nonneg_pos (nonneg_v125 x0 x3 x4 hx4) pos_v126
theorem real_v128 (hx4 : RealV (S := S800000x32) x4) :
    RealV (S := S256) (val_main_v128 (F := Ideal) x0 x3 x4) :=
  realV_rsqrt (pos_v127 x0 x3 x4 hx4)
theorem pos_v128 (hx4 : RealV (S := S800000x32) x4) :
    PosV (S := S256) (val_main_v128 (F := Ideal) x0 x3 x4) :=
  posV_rsqrt (pos_v127 x0 x3 x4 hx4)
theorem real_v135 (hx4 : RealV (S := S800000x32) x4) :
    RealV (S := S800000) (val_main_v135 (F := Ideal) x0 x3 x4) :=
  realV_gather _ _ (real_v128 x0 x3 x4 hx4)
theorem pos_v135 (hx4 : RealV (S := S800000x32) x4) :
    PosV (S := S800000) (val_main_v135 (F := Ideal) x0 x3 x4) :=
  posV_gather _ _ (pos_v128 x0 x3 x4 hx4)
theorem real_v136 (hx4 : RealV (S := S800000x32) x4) :
    RealV (S := S800000x1) (val_main_v136 (F := Ideal) x0 x3 x4) :=
  realV_broadcastInDim _ _ (real_v135 x0 x3 x4 hx4)
theorem pos_v136 (hx4 : RealV (S := S800000x32) x4) :
    PosV (S := S800000x1) (val_main_v136 (F := Ideal) x0 x3 x4) :=
  posV_broadcastInDim _ _ (pos_v135 x0 x3 x4 hx4)
theorem real_v137 (hx4 : RealV (S := S800000x32) x4) :
    RealV (S := S800000x32) (val_main_v137 (F := Ideal) x0 x3 x4) :=
  realV_broadcastInDim _ _ (real_v136 x0 x3 x4 hx4)
theorem pos_v137 (hx4 : RealV (S := S800000x32) x4) :
    PosV (S := S800000x32) (val_main_v137 (F := Ideal) x0 x3 x4) :=
  posV_broadcastInDim _ _ (pos_v136 x0 x3 x4 hx4)
theorem real_v138 (hx4 : RealV (S := S800000x32) x4) :
    RealV (S := S800000x32) (val_main_v138 (F := Ideal) x0 x3 x4) :=
  realV_mulf (real_v119 x0 x3 x4 hx4) (real_v137 x0 x3 x4 hx4)
theorem real_v139 (hx7 : RealV (S := S32) x7) :
    RealV (S := S1x32) (val_main_v139 (F := Ideal) x7) :=
  realV_broadcastInDim _ _ hx7
theorem real_v140 (hx7 : RealV (S := S32) x7) :
    RealV (S := S800000x32) (val_main_v140 (F := Ideal) x7) :=
  realV_broadcastInDim _ _ (real_v139 x7 hx7)
theorem real_v141 (hx4 : RealV (S := S800000x32) x4) (hx7 : RealV (S := S32) x7) :
    RealV (S := S800000x32) (val_main_v141 (F := Ideal) x0 x3 x4 x7) :=
  realV_mulf (real_v138 x0 x3 x4 hx4) (real_v140 x7 hx7)
theorem real_v142 (hx8 : RealV (S := S32) x8) :
    RealV (S := S1x32) (val_main_v142 (F := Ideal) x8) :=
  realV_broadcastInDim _ _ hx8
theorem real_v143 (hx8 : RealV (S := S32) x8) :
    RealV (S := S800000x32) (val_main_v143 (F := Ideal) x8) :=
  realV_broadcastInDim _ _ (real_v142 x8 hx8)
theorem real_v144 (hx4 : RealV (S := S800000x32) x4) (hx7 : RealV (S := S32) x7) (hx8 : RealV (S := S32) x8) :
    RealV (S := S800000x32) (val_main_v144 (F := Ideal) x0 x3 x4 x7 x8) :=
  realV_addf (real_v141 x0 x3 x4 x7 hx4 hx7) (real_v143 x8 hx8)

/-! ### The gathered node features, the joined edge input (v159), and the two-layer perceptron with its inlined
    `x * (1 / (1 + exp (-x)))` activation, up to the array the last layer norm normalises (v168) -/

theorem real_v151 (hx2 : RealV (S := S50000x64) x2) (hx5 : RealV (S := S64) x5) (hx6 : RealV (S := S64) x6) :
    RealV (S := S800000x64) (val_main_v151 (F := Ideal) x0 x2 x3 x5 x6) :=
  realV_gather _ _ (real_v67 x0 x2 x5 x6 hx2 hx5 hx6)
theorem real_v158 (hx2 : RealV (S := S50000x64) x2) (hx5 : RealV (S := S64) x5) (hx6 : RealV (S := S64) x6) :
    RealV (S := S800000x64) (val_main_v158 (F := Ideal) x0 x2 x3 x5 x6) :=
  realV_gather _ _ (real_v67 x0 x2 x5 x6 hx2 hx5 hx6)
theorem real_v159 (hx1 : RealV (S := S50000x3) x1) (hx2 : RealV (S := S50000x64) x2) (hx4 : RealV (S := S800000x32)
    x4) (hx5 : RealV (S := S64) x5) (hx6 : RealV (S := S64) x6) (hx7 : RealV (S := S32) x7) (hx8 : RealV (S := S32)
    x8) :
    RealV (S := S800000x161) (val_main_v159 (F := Ideal) x0 x1 x2 x3 x4 x5 x6 x7 x8) :=
  realV_concatenate4 _ _ (real_v151 x0 x2 x3 x5 x6 hx2 hx5 hx6) (real_v158 x0 x2 x3 x5 x6 hx2 hx5 hx6) (real_v89 x0 x1
    x3 hx1) (real_v144 x0 x3 x4 x7 x8 hx4 hx7 hx8)
theorem real_v160 (hx1 : RealV (S := S50000x3) x1) (hx2 : RealV (S := S50000x64) x2) (hx4 : RealV (S := S800000x32)
    x4) (hx5 : RealV (S := S64) x5) (hx6 : RealV (S := S64) x6) (hx7 : RealV (S := S32) x7) (hx8 : RealV (S := S32)
    x8) (hx11 : RealV (S := S161x32) x11) :
    RealV (S := S800000x32) (val_main_v160 (F := Ideal) x0 x1 x2 x3 x4 x5 x6 x7 x8 x11) :=
  realV_dotGeneral _ _ (real_v159 x0 x1 x2 x3 x4 x5 x6 x7 x8 hx1 hx2 hx4 hx5 hx6 hx7 hx8) hx11
theorem real_v161 (hx12 : RealV (S := S32) x12) :
    RealV (S := S1x32) (val_main_v161 (F := Ideal) x12) :=
  realV_broadcastInDim _ _ hx12
theorem real_v162 (hx12 : RealV (S := S32) x12) :
    RealV (S := S800000x32) (val_main_v162 (F := Ideal) x12) :=
  realV_broadcastInDim _ _ (real_v161 x12 hx12)
theorem real_v163 (hx1 : RealV (S := S50000x3) x1) (hx2 : RealV (S := S50000x64) x2) (hx4 : RealV (S := S800000x32)
    x4) (hx5 : RealV (S := S64) x5) (hx6 : RealV (S := S64) x6) (hx7 : RealV (S := S32) x7) (hx8 : RealV (S := S32)
    x8) (hx11 : RealV (S := S161x32) x11) (hx12 : RealV (S := S32) x12) :
    RealV (S := S800000x32) (val_main_v163 (F := Ideal) x0 x1 x2 x3 x4 x5 x6 x7 x8 x11 x12) :=
  realV_addf (real_v160 x0 x1 x2 x3 x4 x5 x6 x7 x8 x11 hx1 hx2 hx4 hx5 hx6 hx7 hx8 hx11) (real_v162 x12 hx12)
theorem real_call0_v0 (hx1 : RealV (S := S50000x3) x1) (hx2 : RealV (S := S50000x64) x2) (hx4 : RealV (S :=
    S800000x32) x4) (hx5 : RealV (S := S64) x5) (hx6 : RealV (S := S64) x6) (hx7 : RealV (S := S32) x7) (hx8 : RealV
    (S := S32) x8) (hx11 : RealV (S := S161x32) x11) (hx12 : RealV (S := S32) x12) :
    RealV (S := S800000x32) (val_main_call0_v0 (F := Ideal) x0 x1 x2 x3 x4 x5 x6 x7 x8 x11 x12) :=
  realV_negf (real_v163 x0 x1 x2 x3 x4 x5 x6 x7 x8 x11 x12 hx1 hx2 hx4 hx5 hx6 hx7 hx8 hx11 hx12)
theorem real_call0_v1 (hx1 : RealV (S := S50000x3) x1) (hx2 : RealV (S := S50000x64) x2) (hx4 : RealV (S :=
    S800000x32) x4) (hx5 : RealV (S := S64) x5) (hx6 : RealV (S := S64) x6) (hx7 : RealV (S := S32) x7) (hx8 : RealV
    (S := S32) x8) (hx11 : RealV (S := S161x32) x11) (hx12 : RealV (S := S32) x12) :
    RealV (S := S800000x32) (val_main_call0_v1 (F := Ideal) x0 x1 x2 x3 x4 x5 x6 x7 x8 x11 x12) :=
  realV_exp (real_call0_v0 x0 x1 x2 x3 x4 x5 x6 x7 x8 x11 x12 hx1 hx2 hx4 hx5 hx6 hx7 hx8 hx11 hx12)
theorem pos_call0_v1 (hx1 : RealV (S := S50000x3) x1) (hx2 : RealV (S := S50000x64) x2) (hx4 : RealV (S :=
    S800000x32) x4) (hx5 : RealV (S := S64) x5) (hx6 : RealV (S := S64) x6) (hx7 : RealV (S := S32) x7) (hx8 : RealV
    (S := S32) x8) (hx11 : RealV (S := S161x32) x11) (hx12 : RealV (S := S32) x12) :
    PosV (S := S800000x32) (val_main_call0_v1 (F := Ideal) x0 x1 x2 x3 x4 x5 x6 x7 x8 x11 x12) :=
  posV_exp (real_call0_v0 x0 x1 x2 x3 x4 x5 x6 x7 x8 x11 x12 hx1 hx2 hx4 hx5 hx6 hx7 hx8 hx11 hx12)
theorem real_call0_cst :
    RealV (S := S_) (val_main_call0_cst (F := Ideal)) :=
  realV_const_one
theorem geOne_call0_cst :
    GeOneV (S := S_) (val_main_call0_cst (F := Ideal)) :=
  geOneV_const_one
theorem real_call0_v2 :
    RealV (S := S800000x32) (val_main_call0_v2 (F := Ideal)) :=
  realV_broadcastInDim _ _ real_call0_cst
theorem geOne_call0_v2 :
    GeOneV (S := S800000x32) (val_main_call0_v2 (F := Ideal)) :=
  geOneV_broadcastInDim _ _ geOne_call0_cst
theorem real_call0_v3 (hx1 : RealV (S := S50000x3) x1) (hx2 : RealV (S := S50000x64) x2) (hx4 : RealV (S :=
    S800000x32) x4) (hx5 : RealV (S := S64) x5) (hx6 : RealV (S := S64) x6) (hx7 : RealV (S := S32) x7) (hx8 : RealV
    (S := S32) x8) (hx11 : RealV (S := S161x32) x11) (hx12 : RealV (S := S32) x12) :
    RealV (S := S800000x32) (val_main_call0_v3 (F := Ideal) x0 x1 x2 x3 x4 x5 x6 x7 x8 x11 x12) :=
  realV_addf real_call0_v2 (real_call0_v1 x0 x1 x2 x3 x4 x5 x6 x7 x8 x11 x12 hx1 hx2 hx4 hx5 hx6 hx7 hx8 hx11 hx12)
theorem pos_call0_v3 (hx1 : RealV (S := S50000x3) x1) (hx2 : RealV (S := S50000x64) x2) (hx4 : RealV (S :=
    S800000x32) x4) (hx5 : RealV (S := S64) x5) (hx6 : RealV (S := S64) x6) (hx7 : RealV (S := S32) x7) (hx8 : RealV
    (S := S32) x8) (hx11 : RealV (S := S161x32) x11) (hx12 : RealV (S := S32) x12) :
    PosV (S := S800000x32) (val_main_call0_v3 (F := Ideal) x0 x1 x2 x3 x4 x5 x6 x7 x8 x11 x12) :=
  posV_addf (GeOneV.posV geOne_call0_v2) (pos_call0_v1 x0 x1 x2 x3 x4 x5 x6 x7 x8 x11 x12 hx1 hx2 hx4 hx5 hx6 hx7 hx8
    hx11 hx12)
theorem real_call0_cst_0 :
    RealV (S := S_) (val_main_call0_cst_0 (F := Ideal)) :=
  realV_const_one
theorem geOne_call0_cst_0 :
    GeOneV (S := S_) (val_main_call0_cst_0 (F := Ideal)) :=
  geOneV_const_one
theorem real_call0_v4 :
    RealV (S := S800000x32) (val_main_call0_v4 (F := Ideal)) :=
  realV_broadcastInDim _ _ real_call0_cst_0
theorem geOne_call0_v4 :
    GeOneV (S := S800000x32) (val_main_call0_v4 (F := Ideal)) :=
  geOneV_broadcastInDim _ _ geOne_call0_cst_0
theorem real_call0_v5 (hx1 : RealV (S := S50000x3) x1) (hx2 : RealV (S := S50000x64) x2) (hx4 : RealV (S :=
    S800000x32) x4) (hx5 : RealV (S := S64) x5) (hx6 : RealV (S := S64) x6) (hx7 : RealV (S := S32) x7) (hx8 : RealV
    (S := S32) x8) (hx11 : RealV (S := S161x32) x11) (hx12 : RealV (S := S32) x12) :
    RealV (S := S800000x32) (val_main_call0_v5 (F := Ideal) x0 x1 x2 x3 x4 x5 x6 x7 x8 x11 x12) :=
  realV_divf real_call0_v4 (pos_call0_v3 x0 x1 x2 x3 x4 x5 x6 x7 x8 x11 x12 hx1 hx2 hx4 hx5 hx6 hx7 hx8 hx11 hx12)
theorem real_v164 (hx1 : RealV (S := S50000x3) x1) (hx2 : RealV (S := S50000x64) x2) (hx4 : RealV (S := S800000x32)
    x4) (hx5 : RealV (S := S64) x5) (hx6 : RealV (S := S64) x6) (hx7 : RealV (S := S32) x7) (hx8 : RealV (S := S32)
    x8) (hx11 : RealV (S := S161x32) x11) (hx12 : RealV (S := S32) x12) :
    RealV (S := S800000x32) (val_main_v164 (F := Ideal) x0 x1 x2 x3 x4 x5 x6 x7 x8 x11 x12) :=
  realV_mulf (real_v163 x0 x1 x2 x3 x4 x5 x6 x7 x8 x11 x12 hx1 hx2 hx4 hx5 hx6 hx7 hx8 hx11 hx12) (real_call0_v5 x0 x1
    x2 x3 x4 x5 x6 x7 x8 x11 x12 hx1 hx2 hx4 hx5 hx6 hx7 hx8 hx11 hx12)
theorem real_v165 (hx1 : RealV (S := S50000x3) x1) (hx2 : RealV (S := S50000x64) x2) (hx4 : RealV (S := S800000x32)
    x4) (hx5 : RealV (S := S64) x5) (hx6 : RealV (S := S64) x6) (hx7 : RealV (S := S32) x7) (hx8 : RealV (S := S32)
    x8) (hx11 : RealV (S := S161x32) x11) (hx12 : RealV (S := S32) x12) (hx13 : RealV (S := S32x32) x13) :
    RealV (S := S800000x32) (val_main_v165 (F := Ideal) x0 x1 x2 x3 x4 x5 x6 x7 x8 x11 x12 x13) :=
  realV_dotGeneral _ _ (real_v164 x0 x1 x2 x3 x4 x5 x6 x7 x8 x11 x12 hx1 hx2 hx4 hx5 hx6 hx7 hx8 hx11 hx12) hx13
theorem real_v166 (hx14 : RealV (S := S32) x14) :
    RealV (S := S1x32) (val_main_v166 (F := Ideal) x14) :=
  realV_broadcastInDim _ _ hx14
theorem real_v167 (hx14 : RealV (S := S32) x14) :
    RealV (S := S800000x32) (val_main_v167 (F := Ideal) x14) :=
  realV_broadcastInDim _ _ (real_v166 x14 hx14)
theorem real_v168 (hx1 : RealV (S := S50000x3) x1) (hx2 : RealV (S := S50000x64) x2) (hx4 : RealV (S := S800000x32)
    x4) (hx5 : RealV (S := S64) x5) (hx6 : RealV (S := S64) x6) (hx7 : RealV (S := S32) x7) (hx8 : RealV (S := S32)
    x8) (hx11 : RealV (S := S161x32) x11) (hx12 : RealV (S := S32) x12) (hx13 : RealV (S := S32x32) x13) (hx14 :
    RealV (S := S32) x14) :
    RealV (S := S800000x32) (val_main_v168 (F := Ideal) x0 x1 x2 x3 x4 x5 x6 x7 x8 x11 x12 x13 x14) :=
  realV_addf (real_v165 x0 x1 x2 x3 x4 x5 x6 x7 x8 x11 x12 x13 hx1 hx2 hx4 hx5 hx6 hx7 hx8 hx11 hx12 hx13) (real_v167
    x14 hx14)

end Cert.RefReal

end
-- ==== Proof.PreReal.lean ====
/-
  From the printed precondition to "every float argument is an array of real numbers". The precondition computes,
  for each of the thirteen float arguments x, the conjunction over all elements of |x| < +∞ (a reduction by "and"
  from the constant 1 of the elementwise comparison of the absolute value with the pattern of +∞), and the
  conjunction of the thirteen bits. At the ideal values the absolute value is max x (-x), the pattern 0x7F800000
  denotes ⊤, and max x (-x) < ⊤ fails exactly at x = ⊥ and x = ⊤: so a result of 1 says that every element of every
  float argument is a real number.
-/
import proofs.«114257_j19911468384606_2_alg».proof.Pre_finite_inputs
import proofs.«114257_j19911468384606_2_alg».proof.Proof.Gen.Pre_finite_inputs
import proofs.«114257_j19911468384606_2_alg».proof.Proof.LibIdealReal
import Idealize.ShloMosaic.Lib.ReduceAll
import Idealize.ShloMosaic.Lib.ValueIdx
import Idealize.ShloMosaic.PureOps.Ideal.Laws

noncomputable section

namespace Cert.PreReal

open Cert.LibIdealReal Cert.Pre_finite_inputs Idealize.ShloMosaic

/-- The rank-zero shape has one index. -/
instance subsingleton_idx_S_ : Subsingleton S_.Idx := ⟨fun _ _ => funext fun d => d.elim0⟩

/-- The pattern of +∞ denotes the top of the extended reals. -/
theorem ofBits_inf : Ideal.ofBits .f32 0x7F800000#32 = ⊤ := by
  simp [Ideal.ofBits, Ideal.ieee]

/-- One element: if |a| < +∞ holds (the comparison bit is 1), then a is a real number. -/
theorem isReal_of_abs_lt_inf (a : EReal)
    (h : FloatOps.cmpf (F := Ideal) (φ := .f32) .olt (FloatOps.hostAbsf a) (FloatOps.ofBits .f32 0x7F800000#32) = 1#1) :
    IsReal a := by
  change BitVec.ofBool (decide (max a (-a) < Ideal.ofBits .f32 0x7F800000#32)) = 1#1 at h
  rw [ofBits_inf] at h
  induction a using EReal.rec with
  | bot => exact absurd h (by simp)
  | top => exact absurd h (by simp)
  | coe r => exact ⟨r, rfl⟩

/-- One argument, at any shape: if the conjunction over all elements of |x| < +∞ is 1, then x is real. -/
theorem realV_of_all_abs_lt_inf {S : Shape} (x : FVec Ideal S .f32)
    (hb : S_.BroadcastsInDim S (![] : Fin 0 → Fin S.rank)) {axes : List (Fin S.rank)} (hred : S.ReducesTo axes S_)
    (hS : 0 < S_.numel) (j : S_.Idx)
    (e : Host.reduce IntOp.andi
          (cmpf .olt (Host.absf x) (broadcastInDim S ![] hb (constant S_ .f32 0x7F800000#32)))
          (constantI S_ 1 1#1) hred hS j = 1#1) :
    RealV x :=
  fun i => isReal_of_abs_lt_inf (x i) (Host.reduce_andi_all _ _ hred hS j e i)

/-- The precondition, read at the ideal values: every float argument is an array of real numbers. -/
theorem pre_real [Cert.Pre_finite_inputs.Facts] (x0 : IVec S50000 32) (x1 : FVec Ideal S50000x3 .f32)
    (x2 : FVec Ideal S50000x64 .f32) (x3 : IVec S2x800000 32) (x4 : FVec Ideal S800000x32 .f32)
    (x5 : FVec Ideal S64 .f32) (x6 : FVec Ideal S64 .f32) (x7 : FVec Ideal S32 .f32) (x8 : FVec Ideal S32 .f32)
    (x9 : FVec Ideal S32 .f32) (x10 : FVec Ideal S32 .f32) (x11 : FVec Ideal S161x32 .f32)
    (x12 : FVec Ideal S32 .f32) (x13 : FVec Ideal S32x32 .f32) (x14 : FVec Ideal S32 .f32)
    (h : Cert.Pre_finite_inputs.fn (F := Ideal) x0 x1 x2 x3 x4 x5 x6 x7 x8 x9 x10 x11 x12 x13 x14 = (fun _ => 1#1)) :
    RealV (S := S50000x3) x1 ∧ RealV (S := S50000x64) x2 ∧ RealV (S := S800000x32) x4 ∧ RealV (S := S64) x5
      ∧ RealV (S := S64) x6 ∧ RealV (S := S32) x7 ∧ RealV (S := S32) x8 ∧ RealV (S := S32) x9
      ∧ RealV (S := S32) x10 ∧ RealV (S := S161x32) x11 ∧ RealV (S := S32) x12 ∧ RealV (S := S32x32) x13
      ∧ RealV (S := S32) x14 := by
  have h0 := congrFun h ValueIdx.ix0
  dsimp only [fn, fn_part1, fn_part2, fn_part3] at h0
  -- the result is ((…((b1 ∧ b2) ∧ b4) ∧ …) ∧ b13) ∧ b14: peel the conjuncts from the right
  obtain ⟨h0, e14⟩ := IntOp.andi_eq_one.1 h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e1, e2⟩ := IntOp.andi_eq_one.1 h0
  exact ⟨realV_of_all_abs_lt_inf x1 _ _ _ _ e1, realV_of_all_abs_lt_inf x2 _ _ _ _ e2,
    realV_of_all_abs_lt_inf x4 _ _ _ _ e4, realV_of_all_abs_lt_inf x5 _ _ _ _ e5,
    realV_of_all_abs_lt_inf x6 _ _ _ _ e6, realV_of_all_abs_lt_inf x7 _ _ _ _ e7,
    realV_of_all_abs_lt_inf x8 _ _ _ _ e8, realV_of_all_abs_lt_inf x9 _ _ _ _ e9,
    realV_of_all_abs_lt_inf x10 _ _ _ _ e10, realV_of_all_abs_lt_inf x11 _ _ _ _ e11,
    realV_of_all_abs_lt_inf x12 _ _ _ _ e12, realV_of_all_abs_lt_inf x13 _ _ _ _ e13,
    realV_of_all_abs_lt_inf x14 _ _ _ _ e14⟩

end Cert.PreReal

end
-- ==== Proof.KernelValue.lean ====
import proofs.«114257_j19911468384606_2_alg».proof.Defs
import proofs.«114257_j19911468384606_2_alg».proof.Proof.KernelFold
import proofs.«114257_j19911468384606_2_alg».proof.Proof.IdealValue0
import proofs.«114257_j19911468384606_2_alg».proof.Proof.IdealValue1
import proofs.«114257_j19911468384606_2_alg».proof.Proof.StatsBridge
import proofs.«114257_j19911468384606_2_alg».proof.Proof.MlpBridge
import proofs.«114257_j19911468384606_2_alg».proof.Proof.NormBridge
import proofs.«114257_j19911468384606_2_alg».proof.Proof.RefReal
import proofs.«114257_j19911468384606_2_alg».proof.Proof.PreReal

/-!
The kernel program's result array is the reference's last stage of the same arguments, when every float argument is
real. The second call's output is the normalisation of the first call's output by the per-segment mean and inverse
deviation gathered to the rows; the first call's output is the perceptron of the packed node features, the squared
distances and the normalised edge attributes. On real data the one-pass variances are the centred ones, so the node
features, both statistics arrays and hence both outputs are the reference's stages.
-/

set_option maxRecDepth 16384

noncomputable section

namespace Cert.KernelIdeal.Hand

open Cert.KernelIdeal Cert.KernelIdeal.Gen Cert.KernelIdeal.KT Cert.KernelIdeal.Chunks
open Idealize.ShloMosaic Idealize.ShloMosaic.TcCoe Idealize.ShloMosaic.Tactic Idealize.SL.Sem

set_option maxHeartbeats 2000000 in
theorem kernel_value [Cert.Pre_finite_inputs.Facts] (m : (ℓ : Loc nD τ sig) → Buf (Elt Ideal) ℓ) (ρ : Dev nD → PrngReg)
    (hpre : Cert.Pre_KernelIdeal m) (c : Dev nD) :
    W4 m ρ c (Proc.devRef .tc main_v205)
      = Cert.ReferenceIdeal.ReadP.val_main_v216 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  obtain ⟨h1, h2, h4, h5, h6, h7, h8, h9, h10, h11, h12, h13, h14⟩ :=
    Cert.PreReal.pre_real _ _ _ _ _ _ _ _ _ _ _ _ _ _ _ (hpre c)
  have h168 := Cert.RefReal.real_v168 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14)) h1 h2 h4 h5 h6 h7 h8 h11 h12 h13 h14
  -- the first call's output
  have hHR : W2 m ρ c (Proc.devRef .tc main_v161)
      = Cert.ReferenceIdeal.ReadP.val_main_v168 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14)) := by
    refine (W2_arr m ρ c 9).trans ?_
    rw [final0 (V1 m ρ) c]
    show mlpArr (W1 m ρ c (Proc.devRef .tc main_v90)) (W1 m ρ c (Proc.devRef .tc main_v158)) (W1 m ρ c (Proc.devRef .tc main_arg4))
      (W1 m ρ c (Proc.devRef .tc main_arg7)) (W1 m ρ c (Proc.devRef .tc main_arg8)) (W1 m ρ c (Proc.devRef .tc main_v159))
      (W1 m ρ c (Proc.devRef .tc main_arg12)) (W1 m ρ c (Proc.devRef .tc main_v160)) (W1 m ρ c (Proc.devRef .tc main_arg14)) = _
    rw [e_v90, e_v158, e1_arg4, e1_arg7, e1_arg8, e_v159, e1_arg12, e_v160, e1_arg14]
    rw [Cert.StatsBridge.hnPair_eq (m ((c : Thread nD τ).loc main_arg0)) (m ((c : Thread nD τ).loc main_arg2)) (m ((c : Thread nD τ).loc main_arg3)) (m ((c : Thread nD τ).loc main_arg5)) (m ((c : Thread nD τ).loc main_arg6)) h2, Cert.StatsBridge.stats3_eq (m ((c : Thread nD τ).loc main_arg0)) (m ((c : Thread nD τ).loc main_arg1)) (m ((c : Thread nD τ).loc main_arg3)) (m ((c : Thread nD τ).loc main_arg4)) h4]
    exact Cert.MlpBridge.mlp_bridge (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14)) _ _ _ _
  -- the second call's inputs
  have hA0 : StableHlo.after hostOps1 (W2 m ρ c) (Proc.devRef .tc main_v161)
      = Cert.ReferenceIdeal.ReadP.val_main_v168 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14)) := by
    rw [k4_v161]; exact hHR
  have hA1 : StableHlo.after hostOps1 (W2 m ρ c) (Proc.devRef .tc main_v204)
      = concatenate S800000x2 1
          [⟨S800000x1, Cert.ReferenceIdeal.ReadP.val_main_v189 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14))⟩,
           ⟨S800000x1, Cert.ReferenceIdeal.ReadP.val_main_v208 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14))⟩]
          concatenates_S800000x1_S800000x1_S800000x2_d1 := by
    rw [e_v204 (W2 m ρ c), hHR, W2_of_ne m ρ c main_v115 (by decide), e_v115 m ρ c]
    exact Cert.StatsBridge.stats2_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14)) h168
  have hA2 : StableHlo.after hostOps1 (W2 m ρ c) (Proc.devRef .tc main_arg9) = (m ((c : Thread nD τ).loc main_arg9)) := by
    rw [k4_arg9, W2_of_ne m ρ c main_arg9 (by decide), e1_arg9]
  have hA3 : StableHlo.after hostOps1 (W2 m ρ c) (Proc.devRef .tc main_arg10) = (m ((c : Thread nD τ).loc main_arg10)) := by
    rw [k4_arg10, W2_of_ne m ρ c main_arg10 (by decide), e1_arg10]
  refine (result_eq m ρ c).trans ?_
  rw [final1 (V3 m ρ) c]
  show normArr (StableHlo.after hostOps1 (W2 m ρ c) (Proc.devRef .tc main_v161)) (StableHlo.after hostOps1 (W2 m ρ c) (Proc.devRef .tc main_v204))
    (StableHlo.after hostOps1 (W2 m ρ c) (Proc.devRef .tc main_arg9)) (StableHlo.after hostOps1 (W2 m ρ c) (Proc.devRef .tc main_arg10)) = _
  rw [hA0, hA1, hA2, hA3]
  exact Cert.NormBridge.norm_bridge (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) _

end Cert.KernelIdeal.Hand

end
-- ==== Proof.lean ====
/-
  The kernel program and the reference compute the same array on real inputs.

  Both normalise the node features and the edge attributes per graph (mean and variance over a graph's rows, the
  variance offset, a reciprocal square root), run a two-layer perceptron on each edge's joined features, and normalise
  its output per graph once more. They differ in how a graph's variance is taken: the kernel program makes one pass —
  the mean of the squares minus the squared mean, floored at zero — where the reference centres the rows first and
  averages the squared differences. On extended reals the two can differ (an infinite entry makes both junk in
  different ways); the precondition says every entry of every float argument is a real number, and on reals
  the mean of the squares minus the squared mean IS the mean of the squared differences, which is nonnegative, so the
  floor changes nothing. Hence the normalised node features agree entry by entry; so do the edge attributes' mean and
  inverse deviation; the perceptron's rows agree because its inputs do and the kernel's logistic function is, by
  definition at the ideal values, the reference's 1 / (1 + exp (-z)); its output being an array of reals, the output's
  per-graph statistics agree for the same reason as the inputs'; and the final normalisation
  (x - mean) * inverse deviation * scale + shift agrees entry by entry.

  The three frame claims are symbolic runs: the kernel program's two calls, each a grid of blocks whose write-backs
  tile the output, chained through the host operations between them, none of which writes an argument array; and the
  reference's list of host operations, run in order. The idealization rewrote no operation of the kernel program.
-/
import proofs.«114257_j19911468384606_2_alg».proof.Defs
import proofs.«114257_j19911468384606_2_alg».proof.Proof.Gen.Kernel
import proofs.«114257_j19911468384606_2_alg».proof.Proof.Gen.Kernel.Skeleton
import proofs.«114257_j19911468384606_2_alg».proof.Proof.Gen.Kernel.Launch
import proofs.«114257_j19911468384606_2_alg».proof.Proof.Gen.Kernel.Regions
import proofs.«114257_j19911468384606_2_alg».proof.Proof.Gen.Kernel.Points
import proofs.«114257_j19911468384606_2_alg».proof.Proof.Gen.KernelIdeal
import proofs.«114257_j19911468384606_2_alg».proof.Proof.Gen.KernelIdeal.Skeleton
import proofs.«114257_j19911468384606_2_alg».proof.Proof.Gen.KernelIdeal.Launch
import proofs.«114257_j19911468384606_2_alg».proof.Proof.Gen.KernelIdeal.Regions
import proofs.«114257_j19911468384606_2_alg».proof.Proof.Gen.KernelIdeal.Points
import proofs.«114257_j19911468384606_2_alg».proof.Proof.Gen.ReferenceIdeal
import proofs.«114257_j19911468384606_2_alg».proof.Proof.Gen.Pre_finite_inputs
import Idealize.ShloMosaic.Adequacy
import Idealize.ShloMosaic.Init
import proofs.«114257_j19911468384606_2_alg».proof.Proof.BitsRun
import proofs.«114257_j19911468384606_2_alg».proof.Proof.IdealRun
import proofs.«114257_j19911468384606_2_alg».proof.Proof.RefRunP
import proofs.«114257_j19911468384606_2_alg».proof.Proof.KernelValue

noncomputable section

namespace Cert.Proof

open Idealize.ShloMosaic Idealize.SL.Sem

/-- The kernel program as printed runs to the end and leaves its arguments as launched. -/
theorem frame_Kernel : Cert.frame_Kernel :=
  fun m ρ _ => Cert.Kernel.Hand.frame (F := Bits) m ρ

/-- So does the kernel program read at the ideal values. -/
theorem frame_KernelIdeal : Cert.frame_KernelIdeal :=
  fun m ρ _ => Cert.KernelIdeal.Hand.frame (F := Ideal) m ρ

/-- So does the reference: its run also gives its result, which the frame forgets. -/
theorem frame_ReferenceIdeal : Cert.frame_ReferenceIdeal :=
  fun m ρ _ => (θ_run Cert.ReferenceIdeal.defs _ _).mono (fun _ h c => (h c).2)
    (Cert.ReferenceIdeal.ValueP.run (F := Ideal) m ρ)

/-- The idealization rewrote nothing, so there is nothing to preserve. -/
theorem preserves_Kernel_KernelIdeal : Cert.preserves_Kernel_KernelIdeal := trivial

section Algebraic
open Cert.KernelIdeal Cert.KernelIdeal.Hand Idealize.ShloMosaic.TcCoe

/-- From memories that agree on the arguments, of which the kernel's are arrays of reals, both programs run, leave
    their arguments as launched, and end with the same result: the kernel program's last contents of its result array,
    which is the reference's value of its result at the kernel's arguments. -/
theorem algebraic_KernelIdeal_ReferenceIdeal : Cert.algebraic_KernelIdeal_ReferenceIdeal := by
  intro m ρ m' ρ' hpre hagree
  refine ⟨fun c => W4 m ρ c (Proc.devRef .tc main_v205), ?_, ?_⟩
  · exact (θ_run defs _ _).mono (fun r h c => ⟨h c _ (mem_uc main_v205 (by decide)),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c),
      (h c _ (mem_uc main_arg10 (by decide))).trans (W4_main_arg10 m ρ c),
      (h c _ (mem_uc main_arg11 (by decide))).trans (W4_main_arg11 m ρ c),
      (h c _ (mem_uc main_arg12 (by decide))).trans (W4_main_arg12 m ρ c),
      (h c _ (mem_uc main_arg13 (by decide))).trans (W4_main_arg13 m ρ c),
      (h c _ (mem_uc main_arg14 (by decide))).trans (W4_main_arg14 m ρ c)⟩) (run_main m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5, e6, e7, e8, e9, e10, e11, e12, e13, e14⟩ := hagree c
    rw [e0, e1, e2, e3, e4, e5, e6, e7, e8, e9, e10, e11, e12, e13, e14]
    exact (kernel_value m ρ hpre c).symm

end Algebraic

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves_Kernel_KernelIdeal,
    algebraic_KernelIdeal_ReferenceIdeal⟩

end Cert.Proof

end
